-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg1 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg1 : IVec S2x160000 32) (main_arg5 : FVec F S512 .f32) (main_arg6 : FVec F S512x16 .f32) (main_arg7 : FVec F S16 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x16 .f32 := Host.absf main_arg6
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) (main_arg6 : FVec F S512x16 .f32) (main_arg7 : FVec F S16 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x512 : Shape := ⟨2, ![10240, 512]⟩
abbrev S1 : Shape := ⟨1, ![1]⟩
abbrev S1x512 : Shape := ⟨2, ![1, 512]⟩
abbrev S1x16 : Shape := ⟨2, ![1, 16]⟩
abbrev S1024x512 : Shape := ⟨2, ![1024, 512]⟩
abbrev S1024x1024 : Shape := ⟨2, ![1024, 1024]⟩
abbrev S10240x16 : Shape := ⟨2, ![10240, 16]⟩
abbrev S1024x16 : Shape := ⟨2, ![1024, 16]⟩
abbrev S10000x16 : Shape := ⟨2, ![10000, 16]⟩
abbrev S10000x1 : Shape := ⟨2, ![10000, 1]⟩

abbrev nBuf : Space → Nat
  | .hbm => 96
  | .vmem => 37
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x16, .f32⟩
  | .hbm, ⟨7, _⟩ => ⟨S16, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S170000, .f32⟩
  | .hbm, ⟨17, _⟩ => ⟨S_, .f32⟩
  | .hbm, ⟨18, _⟩ => ⟨S10000, .f32⟩
  | .hbm, ⟨19, _⟩ => ⟨S170000x1, .i32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S170000, .i32⟩
  | .hbm, ⟨24, _⟩ => ⟨S170000, .i1⟩
  | .hbm, ⟨25, _⟩ => ⟨S_, .i32⟩
  | .hbm, ⟨26, _⟩ => ⟨S170000, .i32⟩
  | .hbm, ⟨27, _⟩ => ⟨S170000, .i32⟩
  | .hbm, ⟨28, _⟩ => ⟨S170000, .i32⟩
  | .hbm, ⟨29, _⟩ => ⟨S170000x1, .i32⟩
  | .hbm, ⟨30, _⟩ => ⟨S170000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S170000, .f32⟩
  | .hbm, ⟨41, _⟩ => ⟨S_, .f32⟩
  | .hbm, ⟨42, _⟩ => ⟨S10240x10240, .f32⟩
  | .hbm, ⟨43, _⟩ => ⟨S_, .i32⟩
  | .hbm, ⟨44, _⟩ => ⟨S170000, .i32⟩
  | .hbm, ⟨45, _⟩ => ⟨S170000, .i1⟩
  | .hbm, ⟨46, _⟩ => ⟨S_, .i32⟩
  | .hbm, ⟨47, _⟩ => ⟨S170000, .i32⟩
  | .hbm, ⟨48, _⟩ => ⟨S170000, .i32⟩
  | .hbm, ⟨49, _⟩ => ⟨S170000, .i32⟩
  | .hbm, ⟨50, _⟩ => ⟨S_, .i32⟩
  | .hbm, ⟨51, _⟩ => ⟨S170000, .i32⟩
  | .hbm, ⟨52, _⟩ => ⟨S170000, .i1⟩
  | .hbm, ⟨53, _⟩ => ⟨S_, .i32⟩
  | .hbm, ⟨54, _⟩ => ⟨S170000, .i32⟩
  | .hbm, ⟨55, _⟩ => ⟨S170000, .i32⟩
  | .hbm, ⟨56, _⟩ => ⟨S170000, .i32⟩
  | .hbm, ⟨57, _⟩ => ⟨S170000x1, .i32⟩
  | .hbm, ⟨58, _⟩ => ⟨S170000x1, .i32⟩
  | .hbm, ⟨59, _⟩ => ⟨S170000x2, .i32⟩
  | .hbm, ⟨60, _⟩ => ⟨S10240x10240, .f32⟩
  | .hbm, ⟨61, _⟩ => ⟨S10240x10240, .bf16⟩
  | .hbm, ⟨62, _⟩ => ⟨S_, .f32⟩
  | .hbm, ⟨63, _⟩ => ⟨S10240x512, .f32⟩
  | .hbm, ⟨64, _⟩ => ⟨S_, .i32⟩
  | .hbm, ⟨65, _⟩ => ⟨S1, .i32⟩
  | .hbm, ⟨66, _⟩ => ⟨S10240x512, .f32⟩
  | .hbm, ⟨67, _⟩ => ⟨S10240x512, .bf16⟩
  | .hbm, ⟨68, _⟩ => ⟨S512x512, .bf16⟩
  | .hbm, ⟨69, _⟩ => ⟨S512x512, .bf16⟩
  | .hbm, ⟨70, _⟩ => ⟨S512x16, .bf16⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x16, .f32⟩
  | .hbm, ⟨76, _⟩ => ⟨S10240x512, .bf16⟩
  | .hbm, ⟨77, _⟩ => ⟨S10240x512, .bf16⟩
  | .hbm, ⟨78, _⟩ => ⟨S10240x512, .bf16⟩
  | .hbm, ⟨79, _⟩ => ⟨S10240x512, .bf16⟩
  | .hbm, ⟨80, _⟩ => ⟨S10240x16, .f32⟩
  | .hbm, ⟨81, _⟩ => ⟨S10000x16, .f32⟩
  | .hbm, ⟨82, _⟩ => ⟨S_, .f32⟩
  | .hbm, ⟨83, _⟩ => ⟨S10000, .f32⟩
  | .hbm, ⟨84, _⟩ => ⟨S_, .f32⟩
  | .hbm, ⟨85, _⟩ => ⟨S10000, .f32⟩
  | .hbm, ⟨86, _⟩ => ⟨S10000, .f32⟩
  | .hbm, ⟨87, _⟩ => ⟨S10000x1, .f32⟩
  | .hbm, ⟨88, _⟩ => ⟨S10000x16, .f32⟩
  | .hbm, ⟨89, _⟩ => ⟨S10000x16, .f32⟩
  | .hbm, ⟨90, _⟩ => ⟨S10000x16, .f32⟩
  | .hbm, ⟨91, _⟩ => ⟨S_, .f32⟩
  | .hbm, ⟨92, _⟩ => ⟨S10000, .f32⟩
  | .hbm, ⟨93, _⟩ => ⟨S10000x1, .f32⟩
  | .hbm, ⟨94, _⟩ => ⟨S10000x16, .f32⟩
  | .hbm, ⟨95, _⟩ => ⟨S10000x16, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S512x512, .bf16⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1024x512, .f32⟩
  | .local _ .vmem, ⟨22, _⟩ => ⟨S1024x1024, .bf16⟩
  | .local _ .vmem, ⟨23, _⟩ => ⟨S1024x1024, .bf16⟩
  | .local _ .vmem, ⟨24, _⟩ => ⟨S1024x512, .bf16⟩
  | .local _ .vmem, ⟨25, _⟩ => ⟨S1024x512, .bf16⟩
  | .local _ .vmem, ⟨26, _⟩ => ⟨S1x512, .f32⟩
  | .local _ .vmem, ⟨27, _⟩ => ⟨S1024x512, .bf16⟩
  | .local _ .vmem, ⟨28, _⟩ => ⟨S1024x512, .bf16⟩
  | .local _ .vmem, ⟨29, _⟩ => ⟨S1024x512, .f32⟩
  | .local _ .vmem, ⟨30, _⟩ => ⟨S1024x512, .bf16⟩
  | .local _ .vmem, ⟨31, _⟩ => ⟨S1024x512, .bf16⟩
  | .local _ .vmem, ⟨32, _⟩ => ⟨S512x16, .bf16⟩
  | .local _ .vmem, ⟨33, _⟩ => ⟨S1x16, .f32⟩
  | .local _ .vmem, ⟨34, _⟩ => ⟨S1024x16, .f32⟩
  | .local _ .vmem, ⟨35, _⟩ => ⟨S1024x16, .f32⟩
  | .local _ .vmem, ⟨36, _⟩ => ⟨S1024x16, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨2, ![10, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![10, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S512x16 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  bcast_S_S10240x512 : S_.BroadcastsInDim S10240x512 (![] : Fin 0 → Fin S10240x512.rank)
  bcast_S_S1 : S_.BroadcastsInDim S1 (![] : Fin 0 → Fin S1.rank)
  bcast_S_S1x512 : S_.BroadcastsInDim S1x512 (![] : Fin 0 → Fin S1x512.rank)
  shapeCasts_S512_S1x512 : S512.ShapeCasts S1x512
  shapeCasts_S16_S1x16 : S16.ShapeCasts S1x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  slices_S10240x16_S10000x16_0_0 : S10240x16.Slices ![0, 0] S10000x16
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  scatter_S10240x512_S1_S10000x512_01_n_0_0_wf : ScatterDims.WF S10240x512 S1 S10000x512 [0, 1] [] [0] 0
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x16_S1024x16_1_0_0_1_n_n_wf : DotDims.WF S1024x512 S512x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S10240x512.size a
  hwx0_0 : ∀ i : grid0.Coords, EltTy.bits .bf16 = 32 ∨ (Rect.block (s := S10240x512) S1024x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S10240x512.size a
  hwx0_3 : ∀ i : grid0.Coords, EltTy.bits .bf16 = 32 ∨ (Rect.block (s := S10240x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S10240x512.size a
  hwx1_1 : ∀ i : grid1.Coords, EltTy.bits .bf16 = 32 ∨ (Rect.block (s := S10240x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S10240x512.size a
  hwx1_3 : ∀ i : grid1.Coords, EltTy.bits .bf16 = 32 ∨ (Rect.block (s := S10240x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S10240x512.size a
  hwx2_0 : ∀ i : grid2.Coords, EltTy.bits .bf16 = 32 ∨ (Rect.block (s := S10240x512) S1024x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S10240x512.size a
  hwx2_3 : ∀ i : grid2.Coords, EltTy.bits .bf16 = 32 ∨ (Rect.block (s := S10240x512) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .bf16 = 32 ∨ (Rect.block (s := S10240x10240) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S10240x512.size a
  hwx3_1 : ∀ i : grid3.Coords, EltTy.bits .bf16 = 32 ∨ (Rect.block (s := S10240x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S10240x512.size a
  hwx3_3 : ∀ i : grid3.Coords, EltTy.bits .bf16 = 32 ∨ (Rect.block (s := S10240x512) S1024x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S10240x512.size a
  hwx4_0 : ∀ i : grid4.Coords, EltTy.bits .bf16 = 32 ∨ (Rect.block (s := S10240x512) S1024x512.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S512x16.size a ≤ S512x16.size a
  hwx4_1 : ∀ i : grid4.Coords, EltTy.bits .bf16 = 32 ∨ (Rect.block (s := S512x16) S512x16.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x16.size a ≤ S10240x16.size a
  hwx4_3 : ∀ i : grid4.Coords, EltTy.bits .f32 = 32 ∨ (Rect.block (s := S10240x16) S1024x16.size (cc4_transform_3 i) (hinb4_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def scatter_S10240x512_S1_S10000x512_01_n_0_0 : ScatterDims S10240x512 S1 S10000x512 where
  updateWindowDims := [0, 1]
  insertedWindowDims := []
  scatterDimsToOperandDims := [0]
  indexVectorDim := 0
  wf := scatter_S10240x512_S1_S10000x512_01_n_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf

abbrev win0_0 : Pipeline.Window sig grid0 :=
  Pipeline.Window.ofSpec (Memref.whole main_v46) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v42) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v55) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S512x512.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v57) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S512x16.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1024x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S10000x16 : Shape := ⟨2, ![10000, 16]⟩
abbrev S1x16 : Shape := ⟨2, ![1, 16]⟩
abbrev S10000x1 : Shape := ⟨2, ![10000, 1]⟩

abbrev nBuf : Space → Nat
  | .hbm => 131
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512x512, .f32⟩
  | 5 => ⟨S512, .f32⟩
  | 6 => ⟨S512x16, .f32⟩
  | 7 => ⟨S16, .f32⟩
  | 8 => ⟨S10000, .i32⟩
  | 9 => ⟨S1x160000, .i32⟩
  | 10 => ⟨S160000, .i32⟩
  | 11 => ⟨S170000, .i32⟩
  | 12 => ⟨S1x160000, .i32⟩
  | 13 => ⟨S160000, .i32⟩
  | 14 => ⟨S170000, .i32⟩
  | 15 => ⟨S10000x512, .f32⟩
  | 16 => ⟨S_, .f32⟩
  | 17 => ⟨S170000, .f32⟩
  | 18 => ⟨S_, .f32⟩
  | 19 => ⟨S10000, .f32⟩
  | 20 => ⟨S170000x1, .i32⟩
  | 21 => ⟨S10000, .f32⟩
  | 22 => ⟨S10000, .f32⟩
  | 23 => ⟨S_, .i32⟩
  | 24 => ⟨S170000, .i32⟩
  | 25 => ⟨S170000, .i1⟩
  | 26 => ⟨S_, .i32⟩
  | 27 => ⟨S170000, .i32⟩
  | 28 => ⟨S170000, .i32⟩
  | 29 => ⟨S170000, .i32⟩
  | 30 => ⟨S170000x1, .i32⟩
  | 31 => ⟨S170000, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000, .f32⟩
  | 41 => ⟨S170000, .f32⟩
  | 42 => ⟨S170000x1, .f32⟩
  | 43 => ⟨S_, .i32⟩
  | 44 => ⟨S170000, .i32⟩
  | 45 => ⟨S170000, .i1⟩
  | 46 => ⟨S_, .i32⟩
  | 47 => ⟨S170000, .i32⟩
  | 48 => ⟨S170000, .i32⟩
  | 49 => ⟨S170000, .i32⟩
  | 50 => ⟨S170000x1, .i32⟩
  | 51 => ⟨S170000x512, .f32⟩
  | 52 => ⟨S170000x512, .f32⟩
  | 53 => ⟨S170000x512, .f32⟩
  | 54 => ⟨S_, .f32⟩
  | 55 => ⟨S10000x512, .f32⟩
  | 56 => ⟨S170000x1, .i32⟩
  | 57 => ⟨S10000x512, .f32⟩
  | 58 => ⟨S1x512, .f32⟩
  | 59 => ⟨S10000x512, .f32⟩
  | 60 => ⟨S10000x512, .f32⟩
  | 61 => ⟨S_, .f32⟩
  | 62 => ⟨S10000x512, .f32⟩
  | 63 => ⟨S10000x512, .f32⟩
  | 64 => ⟨S10000x512, .f32⟩
  | 65 => ⟨S_, .f32⟩
  | 66 => ⟨S170000, .f32⟩
  | 67 => ⟨S_, .f32⟩
  | 68 => ⟨S10000, .f32⟩
  | 69 => ⟨S170000x1, .i32⟩
  | 70 => ⟨S10000, .f32⟩
  | 71 => ⟨S10000, .f32⟩
  | 72 => ⟨S_, .i32⟩
  | 73 => ⟨S170000, .i32⟩
  | 74 => ⟨S170000, .i1⟩
  | 75 => ⟨S_, .i32⟩
  | 76 => ⟨S170000, .i32⟩
  | 77 => ⟨S170000, .i32⟩
  | 78 => ⟨S170000, .i32⟩
  | 79 => ⟨S170000x1, .i32⟩
  | 80 => ⟨S170000, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S170000, .f32⟩
  | 90 => ⟨S170000, .f32⟩
  | 91 => ⟨S170000x1, .f32⟩
  | 92 => ⟨S_, .i32⟩
  | 93 => ⟨S170000, .i32⟩
  | 94 => ⟨S170000, .i1⟩
  | 95 => ⟨S_, .i32⟩
  | 96 => ⟨S170000, .i32⟩
  | 97 => ⟨S170000, .i32⟩
  | 98 => ⟨S170000, .i32⟩
  | 99 => ⟨S170000x1, .i32⟩
  | 100 => ⟨S170000x512, .f32⟩
  | 101 => ⟨S170000x512, .f32⟩
  | 102 => ⟨S170000x512, .f32⟩
  | 103 => ⟨S_, .f32⟩
  | 104 => ⟨S10000x512, .f32⟩
  | 105 => ⟨S170000x1, .i32⟩
  | 106 => ⟨S10000x512, .f32⟩
  | 107 => ⟨S1x512, .f32⟩
  | 108 => ⟨S10000x512, .f32⟩
  | 109 => ⟨S10000x512, .f32⟩
  | 110 => ⟨S_, .f32⟩
  | 111 => ⟨S10000x512, .f32⟩
  | 112 => ⟨S10000x512, .f32⟩
  | 113 => ⟨S10000x16, .f32⟩
  | 114 => ⟨S1x16, .f32⟩
  | 115 => ⟨S10000x16, .f32⟩
  | 116 => ⟨S10000x16, .f32⟩
  | 117 => ⟨S_, .f32⟩
  | 118 => ⟨S10000, .f32⟩
  | 119 => ⟨S_, .f32⟩
  | 120 => ⟨S10000, .f32⟩
  | 121 => ⟨S10000, .f32⟩
  | 122 => ⟨S10000x1, .f32⟩
  | 123 => ⟨S10000x16, .f32⟩
  | 124 => ⟨S10000x16, .f32⟩
  | 125 => ⟨S10000x16, .f32⟩
  | 126 => ⟨S_, .f32⟩
  | 127 => ⟨S10000, .f32⟩
  | _ => ⟨S10000x512, .f32⟩

abbrev hbmTy0_1 (i : Nat) : BufTy := match i % 128 with
  | 0 => ⟨S10000x1, .f32⟩
  | 1 => ⟨S10000x16, .f32⟩
  | 2 => ⟨S10000x16, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call1_cst : Ref sig .tc := ⟨.hbm, 110, rfl⟩
abbrev main_call1_v0 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x16_S10000x16_1_0_0_1_n_n_wf : DotDims.WF S10000x512 S512x16 S10000x16 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf

class Facts : Prop extends Facts₀ where

variable [Facts]
-- ==== Proof.RefFrame.lean ====
/-
  The reference program's frame: its @main is host operations only, so its run is the composed term of the
  arguments, every execution terminates without a fault, and no operation writes an argument array. The frame claim
  is that run with the result forgotten.
-/
import proofs.«110679_j6047313952840_1_alg».proof.Defs
import proofs.«110679_j6047313952840_1_alg».proof.Proof.Gen.ReferenceIdeal
import proofs.«110679_j6047313952840_1_alg».proof.Proof.Gen.ReferenceIdeal.Run
import proofs.«110679_j6047313952840_1_alg».proof.Proof.Gen.Pre_finite_inputs

noncomputable section

open Idealize.ShloMosaic Idealize.ShloMosaic.TcCoe Idealize.SL.Sem

namespace Cert.Proof.RefFrame

/-- Every weakly fair execution of the reference terminates, nothing faulting, with the eight argument arrays as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.IdealXW1.lean ====
/-
  The first matrix product of the kernel program: the padded features (10240 x 512) times the first weight matrix
  (512 x 512), row tile by row tile. The grid has ten points, one per tile of 1024 rows; the contraction is one block
  long, so at every point the body resets its accumulator, adds the tile's product into it, adds the bias row and
  stores the tile of the result. Here: that body run at a point, what it leaves in the result's buffer, and the
  pipeline's account of the ten points (every input buffer holds its block, the result's buffer is written whole).
-/
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.XW1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid0.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg0.N, condReset (grid0.coords t) :=
  (by decide +kernel : ∀ t : Fin grid0.N, condReset (grid0.coords t))
/-- and it is also the last, so the result is stored at every point. -/
theorem hstore : ∀ t : Fin cfg0.N, k0_cond2 (grid0.coords t) = 1#1 :=
  (by decide +kernel : ∀ t : Fin grid0.N, k0_cond2 (grid0.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__matmul_kernel_plain i arg2 harg2 arg3 harg3 arg4 harg4 arg5 harg5 arg6 harg6) K } := by
  refine ⟨⟨?_, ?_⟩, fun E K => ?run⟩
  case run =>
    simp only [cc0__matmul_kernel_plain_eq_skeleton]; unfold cc0__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x512 .bf16 := (Memref.whole cc0_stg3_0 : Memref sig .tc .vmem S1024x512 .bf16).view

/-- The stores into the result's buffer tile it (one store of the whole tile), so they cover it. -/
theorem cover (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) (y : S1024x512.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x512.size (by sl_kernel_rfl) y

/-- What the body leaves in the result's buffer: its pieces read back. -/
def out (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) : Vec F S1024x512 .bf16 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev msS : Memref sig .tc .vmem S1024x512 .f32 := Memref.whole cc0_scratch0
abbrev hsS : (msS).IsWhole := Memref.isWhole_whole _

/-- The tile of the result that point `t` writes: the body's result on the point's three input blocks. -/
def outAt (c : Dev nD) (t : Fin cfg0.N) : Vec F S1024x512 .bf16 :=
  out c (grid0.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

/-- Each input's current staging buffer holds its block at every point, fetched there or not: where it is not fetched
    its block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = Pipeline.ΦA spec0 c from rfl, show (dat V c).Φ t.castSucc = Pipeline.ΦA spec0 c from rfl,
    show (dat V c).owesAt () t.succ = (dat V c).owesAt () t.castSucc from rfl,
    after_0, after_1, after_2, after_3]
  unfold Pipeline.ΦA
  rw [scopedRest0_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid0.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg0.N) : idle0 3 (grid0.coords t) = false := by
  show (!(k0_cond2 (grid0.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.KernelIdeal.XW1

end
-- ==== Proof.IdealAgg1.lean ====
/-
  The second matrix product of the kernel program: the dense normalised adjacency (10240 x 10240) times the first
  layer's projected features (10240 x 512), plus the first bias row, clipped below at zero. The grid is ten row tiles
  by ten column blocks of 1024; a point (i, k) adds the product of block (i, k) of the adjacency with block k of the
  features into an accumulator the body keeps between points: reset when k = 0, and when k = 9 the bias row is added,
  the maximum with zero taken and the tile of the result stored. Here: the body in its three cases (first, middle and
  last block of a row tile), what the accumulator holds after each point, and the pipeline's account of the hundred points.
-/
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero: -/
abbrev condReset (i : grid1.Coords) : Prop :=
  (Scalar.cmpi .ne (Scalar.extui (Scalar.cmpi .eq (BitVec.ofNat 32 (i 1).val) 0#32)) 0#32) = 1#1
/-- at the first of each ten consecutive points; -/
theorem hreset : ∀ t : Fin cfg1.N, condReset (grid1.coords t) ↔ t.val % 10 = 0 :=
  (by decide +kernel : ∀ t : Fin grid1.N, condReset (grid1.coords t) ↔ t.val % 10 = 0)
/-- the result is stored when the second coordinate is nine: at the last of each ten. -/
theorem hstore : ∀ t : Fin cfg1.N, k1_cond2 (grid1.coords t) = 1#1 ↔ t.val % 10 = 9 :=
  (by decide +kernel : ∀ t : Fin grid1.N, k1_cond2 (grid1.coords t) = 1#1 ↔ t.val % 10 = 9)

theorem not_reset (t : Fin cfg1.N) (h : ¬ t.val % 10 = 0) : ¬ condReset (grid1.coords t) := fun hr => h ((hreset t).mp hr)
theorem not_store (t : Fin cfg1.N) (h : ¬ t.val % 10 = 9) : ¬ k1_cond2 (grid1.coords t) = 1#1 := fun hs => h ((hstore t).mp hs)

/-! ## The body in its three cases -/

set_option maxHeartbeats 1000000 in
/-- First block of a row tile: the accumulator is reset, then the block's product added; nothing is stored into the
    result's buffer and the bias row is not read. -/
noncomputable def runFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1)
    (x0 : Vec F S1024x1024 .bf16) (x1 : Vec F S1024x512 .bf16) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc1__matmul_kernel_relu i arg2 harg2 arg3 harg3 arg4 harg4 arg5 harg5 arg6 harg6) K } := by
  refine ⟨?_, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%d4, %f4, -, H4⟩, Hk⟩
    obtain rfl := harg2.eq_unread hf0
    obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- A middle block: the block's product is added into the accumulator as it stands. -/
noncomputable def runMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1)
    (x0 : Vec F S1024x1024 .bf16) (x1 : Vec F S1024x512 .bf16) (xs : Vec F S1024x512 .f32) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc1__matmul_kernel_relu i arg2 harg2 arg3 harg3 arg4 harg4 arg5 harg5 arg6 harg6) K } := by
  refine ⟨?_, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%f4, %hf4, H4⟩, Hk⟩
    obtain rfl := harg2.eq_unread hf0
    obtain rfl := harg3.eq_unread hf1
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- Last block of a row tile: the block's product is added into the accumulator, then the bias row is added to it, the
    maximum with zero taken and the tile stored into the result's buffer. -/
noncomputable def runLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1)
    (x0 : Vec F S1024x1024 .bf16) (x1 : Vec F S1024x512 .bf16) (x2 : Vec F S1x512 .f32) (xs : Vec F S1024x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__matmul_kernel_relu i arg2 harg2 arg3 harg3 arg4 harg4 arg5 harg5 arg6 harg6) K } := by
  refine ⟨⟨?_, ?_⟩, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0
    obtain rfl := harg3.eq_unread hf1
    obtain rfl := harg4.eq_unread hf2
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- The accumulator's buffer and one staging buffer of the result's window, through which contents are stated. -/
abbrev VS : View sig .tc .vmem S1024x512 .f32 := (Memref.whole cc1_scratch0 : Memref sig .tc .vmem S1024x512 .f32).view
abbrev VO : View sig .tc .vmem S1024x512 .bf16 := (Memref.whole cc1_stg3_0 : Memref sig .tc .vmem S1024x512 .bf16).view

/-- In each case the stores into the accumulator (and, in the last, into the result's buffer) cover the buffer. -/
theorem coverFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1) (x0 : Vec F S1024x1024 .bf16) (x1 : Vec F S1024x512 .bf16) (y : S1024x512.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x512.size (by sl_kernel_rfl) y
theorem coverMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1) (x0 : Vec F S1024x1024 .bf16) (x1 : Vec F S1024x512 .bf16) (xs : Vec F S1024x512 .f32) (y : S1024x512.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x512.size (by sl_kernel_rfl) y
theorem coverLastAcc (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.2, y ∈ pc.1.set :=
  View.cover_of_tiledL (runLast c i arg2 harg2 arg3 harg3 arg4 harg4 arg5 harg5 arg6 harg6 hc0 hc1 x0 x1 x2 xs).1.2 S1024x512.size (by sl_kernel_rfl) y
theorem coverLastOut (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.1, y ∈ pc.1.set :=
  View.cover_of_tiledL (runLast c i arg2 harg2 arg3 harg3 arg4 harg4 arg5 harg5 arg6 harg6 hc0 hc1 x0 x1 x2 xs).1.1 S1024x512.size (by sl_kernel_rfl) y

/-- What each case leaves in the accumulator, and the last in the result's buffer: its pieces read back. -/
def accFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1) (x0 : Vec F S1024x1024 .bf16) (x1 : Vec F S1024x512 .bf16) : Vec F S1024x512 .f32 :=
  VS.read (Elt F) (VS.writes (Elt F) VS.junk (runFirst c i arg2 harg2 arg3 harg3 arg4 harg4 arg5 harg5 arg6 harg6 hc0 hc1 x0 x1).1)
def accMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1) (x0 : Vec F S1024x1024 .bf16) (x1 : Vec F S1024x512 .bf16) (xs : Vec F S1024x512 .f32) : Vec F S1024x512 .f32 :=
  VS.read (Elt F) (VS.writes (Elt F) VS.junk (runMid c i arg2 harg2 arg3 harg3 arg4 harg4 arg5 harg5 arg6 harg6 hc0 hc1 x0 x1 xs).1)
def accLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) : Vec F S1024x512 .f32 :=
  VS.read (Elt F) (VS.writes (Elt F) VS.junk (runLast c i arg2 harg2 arg3 harg3 arg4 harg4 arg5 harg5 arg6 harg6 hc0 hc1 x0 x1 x2 xs).1.2)
def outLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) : Vec F S1024x512 .bf16 :=
  VO.read (Elt F) (VO.writes (Elt F) VO.junk (runLast c i arg2 harg2 arg3 harg3 arg4 harg4 arg5 harg5 arg6 harg6 hc0 hc1 x0 x1 x2 xs).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .bf16 := win1_3.stage (cfg1.slots t 3)
abbrev hs3 (t : Fin cfg1.N) : (ms3 t).IsWhole := hstage1_3 ((cfg1.slots t 3).cast nbuf1_3)
abbrev msS : Memref sig .tc .vmem S1024x512 .f32 := Memref.whole cc1_scratch0
abbrev hsS : (msS).IsWhole := Memref.isWhole_whole _

/-- One point's effect on the accumulator: the case the point is in, run on the point's blocks, from what the
    accumulator held (which the first block of a row tile does not read). Beyond the grid, nothing. -/
def accStep (c : Dev nD) (n : ℕ) (prev : Vec F S1024x512 .f32) : Vec F S1024x512 .f32 :=
  if h : n < cfg1.N then
    (if h0 : n % 10 = 0 then
       accFirst c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS ((hreset ⟨n, h⟩).mpr h0) (not_store ⟨n, h⟩ (by show ¬ n % 10 = 9; omega)) (iblk V c 0 ⟨n, h⟩) (iblk V c 1 ⟨n, h⟩)
     else if h9 : n % 10 = 9 then
       accLast c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) ((hstore ⟨n, h⟩).mpr h9) (iblk V c 0 ⟨n, h⟩) (iblk V c 1 ⟨n, h⟩) (iblk V c 2 ⟨n, h⟩) prev
     else
       accMid c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) (not_store ⟨n, h⟩ h9) (iblk V c 0 ⟨n, h⟩) (iblk V c 1 ⟨n, h⟩) prev)
  else prev

/-- THE ACCUMULATION: what the accumulator holds after the body at point `n`. -/
def accAt (c : Dev nD) : ℕ → Vec F S1024x512 .f32
  | 0 => accStep V c 0 (VS.read (Elt F) VS.junk)
  | n + 1 => accStep V c (n + 1) (accAt c n)

theorem accAt_pos (c : Dev nD) (n : ℕ) (hn : n ≠ 0) : accAt V c n = accStep V c n (accAt V c (n - 1)) := by
  cases n with
  | zero => exact absurd rfl hn
  | succ n => rfl

theorem accStep_first (c : Dev nD) (t : Fin cfg1.N) (h0 : t.val % 10 = 0) (prev : Vec F S1024x512 .f32) :
    accStep V c t.val prev = accFirst c (grid1.coords t) (ms0 t) (hs0 t) (ms1 t) (hs1 t) (ms2 t) (hs2 t) (ms3 t) (hs3 t) msS hsS ((hreset t).mpr h0) (not_store t (fun h9 => by omega)) (iblk V c 0 t) (iblk V c 1 t) := by
  unfold accStep; rw [dif_pos t.isLt, dif_pos h0]
theorem accStep_last (c : Dev nD) (t : Fin cfg1.N) (h0 : ¬ t.val % 10 = 0) (h9 : t.val % 10 = 9) (prev : Vec F S1024x512 .f32) :
    accStep V c t.val prev = accLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) prev := by
  unfold accStep; rw [dif_pos t.isLt, dif_neg h0, dif_pos h9]
theorem accStep_mid (c : Dev nD) (t : Fin cfg1.N) (h0 : ¬ t.val % 10 = 0) (h9 : ¬ t.val % 10 = 9) (prev : Vec F S1024x512 .f32) :
    accStep V c t.val prev = accMid c (grid1.coords t) (ms0 t) (hs0 t) (ms1 t) (hs1 t) (ms2 t) (hs2 t) (ms3 t) (hs3 t) msS hsS (not_reset t h0) (not_store t h9) (iblk V c 0 t) (iblk V c 1 t) prev := by
  unfold accStep; rw [dif_pos t.isLt, dif_neg h0, dif_neg h9]

theorem accAt_first (c : Dev nD) (t : Fin cfg1.N) (h0 : t.val % 10 = 0) :
    accAt V c t.val = accFirst c (grid1.coords t) (ms0 t) (hs0 t) (ms1 t) (hs1 t) (ms2 t) (hs2 t) (ms3 t) (hs3 t) msS hsS ((hreset t).mpr h0) (not_store t (fun h9 => by omega)) (iblk V c 0 t) (iblk V c 1 t) := by
  by_cases hz : t.val = 0
  · have e : accAt V c t.val = accStep V c t.val (VS.read (Elt F) VS.junk) := by rw [hz]; rfl
    rw [e]; exact accStep_first V c t h0 _
  · rw [accAt_pos V c t.val hz]; exact accStep_first V c t h0 _

/-- The tile of the result that the last block of a row tile writes. -/
def outAt (c : Dev nD) (t : Fin cfg1.N) : Vec F S1024x512 .bf16 :=
  if h9 : t.val % 10 = 9 then
    outLast c (grid1.coords t) (ms0 t) (hs0 t) (ms1 t) (hs1 t) (ms2 t) (hs2 t) (ms3 t) (hs3 t) msS hsS (not_reset t (fun h0 => by omega)) ((hstore t).mpr h9) (iblk V c 0 t) (iblk V c 1 t) (iblk V c 2 t) (accAt V c (t.val - 1))
  else VO.read (Elt F) VO.junk

/-- The invariant between points: the accumulator's buffer at some contents — after a point that is not the last of
    its row tile, what the accumulation says — beside the other scoped buffers that are no staging buffer and the
    generator register. -/
def inv (c : Dev nD) (t : Fin (cfg1.N + 1)) : sProp 𝕄 :=
  iprop((∃ f : Vec F S1024x512 .f32, ⌜¬ t.val % 10 = 0 → f = accAt V c (t.val - 1)⌝ ∗ owns (c : Thread nD τ) msS fullShare f)
    ∗ Pipeline.scopedRestBut (Ix := Unit) (Name := ℕ) (U := UR sig nD τ) (Lvl := ℕ) (Val := Elt F) spec1 c [cc1_scratch0]
    ∗ ∃ r, prngReg c r)

/-- The proof data of this pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- what it returns at a point that stores the tile, -/
def bodyPostStore (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- and at a point that does not: the result's buffer as it was found. -/
def bodyPostKeep (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ (∃ d, owns (c : Thread nD τ) (st1_3 t) fullShare ((dat V c).before 3 t d)))

set_option maxHeartbeats 1600000 in
/-- A point that does not store the tile (the first or a middle block of a row tile). -/
theorem sound_keep (c : Dev nD) (t : Fin cfg1.N) (h9 : ¬ t.val % 10 = 9) :
    bodyPre V c t ⊢ wp frame (wpE (defs₀ (F := F)) Variants.none c none) Set.univ (bodyAt1 t) (fun _ => bodyPostKeep V c t) := by
  unfold bodyPre bodyPostKeep bodyAt1
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2]
  unfold inv
  have hsucc : ¬ (t.succ : Fin (cfg1.N + 1)).val % 10 = 0 := by rw [Fin.val_succ]; omega
  have hprev : (t.succ : Fin (cfg1.N + 1)).val - 1 = t.val := by rw [Fin.val_succ]; omega
  iintro ⟨⟨⟨%fs, %hfs, Hs⟩, Hrest, Hp⟩, Ho, ⟨%d0, H0⟩, ⟨%d1, H1⟩, ⟨%d2, H2⟩, ⟨%d3, H3⟩⟩
  by_cases h0 : t.val % 10 = 0
  · iapply ((runFirst c (grid1.coords t) (ms0 t) (hs0 t) (ms1 t) (hs1 t) (ms2 t) (hs2 t) (ms3 t) (hs3 t) msS hsS ((hreset t).mpr h0) (not_store t h9) (iblk V c 0 t) (iblk V c 1 t)).2 Set.univ _)
    isplitl [H0]; · iexact H0
    isplitl [H1]; · iexact H1
    isplitl [Hs]; · iexists fs; iexact Hs
    iintro ⟨H0, H1, ⟨%e4, H4⟩⟩
    isplitl [H4 Hrest Hp]
    · isplitl [H4]
      · iexists (accFirst c (grid1.coords t) (ms0 t) (hs0 t) (ms1 t) (hs1 t) (ms2 t) (hs2 t) (ms3 t) (hs3 t) msS hsS ((hreset t).mpr h0) (not_store t h9) (iblk V c 0 t) (iblk V c 1 t))
        isplitr
        · ipureintro; intro _; rw [hprev]; exact (accAt_first V c t h0).symm
        unfold owns accFirst; iexists _; isplitr
        swap; · iexact H4
        ipureintro; exact View.read_writes_of_cover _ _ _ _ _ (coverFirst c _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3
  · have hfs' : fs = accAt V c (t.val - 1) := hfs h0
    subst hfs'
    iapply ((runMid c (grid1.coords t) (ms0 t) (hs0 t) (ms1 t) (hs1 t) (ms2 t) (hs2 t) (ms3 t) (hs3 t) msS hsS (not_reset t h0) (not_store t h9) (iblk V c 0 t) (iblk V c 1 t) (accAt V c (t.val - 1))).2 Set.univ _)
    isplitl [H0]; · iexact H0
    isplitl [H1]; · iexact H1
    isplitl [Hs]; · iexact Hs
    iintro ⟨H0, H1, ⟨%e4, H4⟩⟩
    isplitl [H4 Hrest Hp]
    · isplitl [H4]
      · iexists (accMid c (grid1.coords t) (ms0 t) (hs0 t) (ms1 t) (hs1 t) (ms2 t) (hs2 t) (ms3 t) (hs3 t) msS hsS (not_reset t h0) (not_store t h9) (iblk V c 0 t) (iblk V c 1 t) (accAt V c (t.val - 1)))
        isplitr
        · ipureintro; intro _; rw [hprev, accAt_pos V c t.val (fun e => h0 (by rw [e]))]; exact (accStep_mid V c t h0 h9 _).symm
        unfold owns accMid; iexists _; isplitr
        swap; · iexact H4
        ipureintro; exact View.read_writes_of_cover _ _ _ _ _ (coverMid c _ _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3

set_option maxHeartbeats 1600000 in
/-- The last block of a row tile: the tile is stored, and the accumulator is left for the next row tile to reset. -/
theorem sound_store (c : Dev nD) (t : Fin cfg1.N) (h9 : t.val % 10 = 9) :
    bodyPre V c t ⊢ wp frame (wpE (defs₀ (F := F)) Variants.none c none) Set.univ (bodyAt1 t) (fun _ => bodyPostStore V c t) := by
  unfold bodyPre bodyPostStore bodyAt1
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2, after_3]
  unfold inv
  have h0 : ¬ t.val % 10 = 0 := by omega
  have hsucc : (t.succ : Fin (cfg1.N + 1)).val % 10 = 0 := by rw [Fin.val_succ]; omega
  iintro ⟨⟨⟨%fs, %hfs, Hs⟩, Hrest, Hp⟩, Ho, ⟨%d0, H0⟩, ⟨%d1, H1⟩, ⟨%d2, H2⟩, ⟨%d3, H3⟩⟩
  have hfs' : fs = accAt V c (t.val - 1) := hfs h0
  subst hfs'
  iapply ((runLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%e4, H4⟩⟩
  isplitl [H4 Hrest Hp]
  · isplitl [H4]
    · iexists (accLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1)))
      isplitr
      · ipureintro; intro h; exact absurd hsucc h
      unfold owns accLast; iexists _; isplitr
      swap; · iexact H4
      ipureintro; exact View.read_writes_of_cover _ _ _ _ _ (coverLastAcc c _ _ _ _ _ _ _ _ _ _ _ _ _ _ _ _ _)
    isplitl [Hrest]; · iexact Hrest
    iexact Hp
  isplitl [Ho]; · iexact Ho
  isplitl [H0]; · iexact H0
  isplitl [H1]; · iexact H1
  isplitl [H2]; · iexact H2
  unfold outAt; rw [dif_pos h9]
  unfold owns outLast; iexists _; isplitr
  swap; · iexact H3
  ipureintro; exact View.read_writes_of_cover _ _ _ _ _ (coverLastOut c _ _ _ _ _ _ _ _ _ _ _ _ _ _ _ _ _)

/-- Where the result's window is idle: at the points that do not store the tile. -/
theorem idle_3 (t : Fin cfg1.N) : idle1 3 (grid1.coords t) = !(decide (t.val % 10 = 9)) := by
  show (!(k1_cond2 (grid1.coords t) == 1#1)) = !(decide (t.val % 10 = 9))
  by_cases h9 : t.val % 10 = 9
  · rw [(hstore t).mpr h9, decide_eq_true h9]; rfl
  · rw [decide_eq_false h9]
    have : ¬ k1_cond2 (grid1.coords t) = 1#1 := not_store t h9
    simp only [beq_iff_eq, this, Bool.not_false, Bool.not_eq_true', beq_eq_false_iff_ne, ne_eq, not_false_eq_true]

/-- The library's body obligation, at every point. -/
theorem body_obligation (c : Dev nD) : BodyObligation (dat (F := F) V c) (defs₀ (F := F)) Variants.none () Set.univ := fun t => by
  rw [bigSep_W1, bigSep_W1]
  dsimp only
  rw [idle_3 t]
  by_cases h9 : t.val % 10 = 9
  · rw [decide_eq_true h9]
    exact sound_store V c t h9
  · rw [decide_eq_false h9, show (win1 3).flush t = false from Bool.eq_false_iff.mpr fun h => h9 ((flush1_3 t).mp h)]
    exact sound_keep V c t h9

end Region

end Cert.KernelIdeal.Agg1

end
-- ==== Proof.IdealXW2.lean ====
/-
  The third matrix product of the kernel program: the first layer's activations (10240 x 512) times the second weight
  matrix (512 x 512), row tile by row tile, with a zero bias row. Ten grid points, one per tile of 1024 rows; the
  contraction is one block long, so at every point the body resets its accumulator, adds the tile's product into it,
  adds the bias row and stores the tile of the result. Here: that body run at a point, what it leaves in the result's
  buffer, and the pipeline's account of the ten points.
-/
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.XW2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid2.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg2.N, condReset (grid2.coords t) :=
  (by decide +kernel : ∀ t : Fin grid2.N, condReset (grid2.coords t))
/-- and it is also the last, so the result is stored at every point. -/
theorem hstore : ∀ t : Fin cfg2.N, k2_cond2 (grid2.coords t) = 1#1 :=
  (by decide +kernel : ∀ t : Fin grid2.N, k2_cond2 (grid2.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc2__matmul_kernel_plain i arg2 harg2 arg3 harg3 arg4 harg4 arg5 harg5 arg6 harg6) K } := by
  refine ⟨⟨?_, ?_⟩, fun E K => ?run⟩
  case run =>
    simp only [cc2__matmul_kernel_plain_eq_skeleton]; unfold cc2__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x512 .bf16 := (Memref.whole cc2_stg3_0 : Memref sig .tc .vmem S1024x512 .bf16).view

/-- The stores into the result's buffer tile it (one store of the whole tile), so they cover it. -/
theorem cover (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) (y : S1024x512.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x512.size (by sl_kernel_rfl) y

/-- What the body leaves in the result's buffer: its pieces read back. -/
def out (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) : Vec F S1024x512 .bf16 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each window's current staging memref at point `t`, and its wholeness. -/
abbrev ms0 (t : Fin cfg2.N) : Memref sig .tc .vmem S1024x512 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x512 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x512 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x512 .bf16 := win2_3.stage (cfg2.slots t 3)
abbrev hs3 (t : Fin cfg2.N) : (ms3 t).IsWhole := hstage2_3 ((cfg2.slots t 3).cast nbuf2_3)
abbrev msS : Memref sig .tc .vmem S1024x512 .f32 := Memref.whole cc2_scratch0
abbrev hsS : (msS).IsWhole := Memref.isWhole_whole _

/-- The tile of the result that point `t` writes: the body's result on the point's three input blocks. -/
def outAt (c : Dev nD) (t : Fin cfg2.N) : Vec F S1024x512 .bf16 :=
  out c (grid2.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outAt V c t := by dsimp only [dat]

/-- Each input's current staging buffer holds its block at every point, fetched there or not: where it is not fetched
    its block index has not moved. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = Pipeline.ΦA spec2 c from rfl, show (dat V c).Φ t.castSucc = Pipeline.ΦA spec2 c from rfl,
    show (dat V c).owesAt () t.succ = (dat V c).owesAt () t.castSucc from rfl,
    after_0, after_1, after_2, after_3]
  unfold Pipeline.ΦA
  rw [scopedRest2_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid2.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg2.N) : idle2 3 (grid2.coords t) = false := by
  show (!(k2_cond2 (grid2.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.KernelIdeal.XW2

end
-- ==== Proof.IdealAgg2.lean ====
/-
  The fourth matrix product of the kernel program: the dense normalised adjacency (10240 x 10240) times the second
  layer's projected features (10240 x 512), plus the second bias row, clipped below at zero. The grid is ten row tiles
  by ten column blocks of 1024; a point (i, k) adds the product of block (i, k) of the adjacency with block k of the
  features into an accumulator the body keeps between points: reset when k = 0, and when k = 9 the bias row is added,
  the maximum with zero taken and the tile of the result stored. Here: the body in its three cases (first, middle and
  last block of a row tile), what the accumulator holds after each point, and the pipeline's account of the hundred points.
-/
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero: -/
abbrev condReset (i : grid3.Coords) : Prop :=
  (Scalar.cmpi .ne (Scalar.extui (Scalar.cmpi .eq (BitVec.ofNat 32 (i 1).val) 0#32)) 0#32) = 1#1
/-- at the first of each ten consecutive points; -/
theorem hreset : ∀ t : Fin cfg3.N, condReset (grid3.coords t) ↔ t.val % 10 = 0 :=
  (by decide +kernel : ∀ t : Fin grid3.N, condReset (grid3.coords t) ↔ t.val % 10 = 0)
/-- the result is stored when the second coordinate is nine: at the last of each ten. -/
theorem hstore : ∀ t : Fin cfg3.N, k3_cond2 (grid3.coords t) = 1#1 ↔ t.val % 10 = 9 :=
  (by decide +kernel : ∀ t : Fin grid3.N, k3_cond2 (grid3.coords t) = 1#1 ↔ t.val % 10 = 9)

theorem not_reset (t : Fin cfg3.N) (h : ¬ t.val % 10 = 0) : ¬ condReset (grid3.coords t) := fun hr => h ((hreset t).mp hr)
theorem not_store (t : Fin cfg3.N) (h : ¬ t.val % 10 = 9) : ¬ k3_cond2 (grid3.coords t) = 1#1 := fun hs => h ((hstore t).mp hs)

/-! ## The body in its three cases -/

set_option maxHeartbeats 1000000 in
/-- First block of a row tile: the accumulator is reset, then the block's product added; nothing is stored into the
    result's buffer and the bias row is not read. -/
noncomputable def runFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1)
    (x0 : Vec F S1024x1024 .bf16) (x1 : Vec F S1024x512 .bf16) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc3__matmul_kernel_relu i arg2 harg2 arg3 harg3 arg4 harg4 arg5 harg5 arg6 harg6) K } := by
  refine ⟨?_, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%d4, %f4, -, H4⟩, Hk⟩
    obtain rfl := harg2.eq_unread hf0
    obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- A middle block: the block's product is added into the accumulator as it stands. -/
noncomputable def runMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1)
    (x0 : Vec F S1024x1024 .bf16) (x1 : Vec F S1024x512 .bf16) (xs : Vec F S1024x512 .f32) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc3__matmul_kernel_relu i arg2 harg2 arg3 harg3 arg4 harg4 arg5 harg5 arg6 harg6) K } := by
  refine ⟨?_, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%f4, %hf4, H4⟩, Hk⟩
    obtain rfl := harg2.eq_unread hf0
    obtain rfl := harg3.eq_unread hf1
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- Last block of a row tile: the block's product is added into the accumulator, then the bias row is added to it, the
    maximum with zero taken and the tile stored into the result's buffer. -/
noncomputable def runLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1)
    (x0 : Vec F S1024x1024 .bf16) (x1 : Vec F S1024x512 .bf16) (x2 : Vec F S1x512 .f32) (xs : Vec F S1024x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc3__matmul_kernel_relu i arg2 harg2 arg3 harg3 arg4 harg4 arg5 harg5 arg6 harg6) K } := by
  refine ⟨⟨?_, ?_⟩, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0
    obtain rfl := harg3.eq_unread hf1
    obtain rfl := harg4.eq_unread hf2
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- The accumulator's buffer and one staging buffer of the result's window, through which contents are stated. -/
abbrev VS : View sig .tc .vmem S1024x512 .f32 := (Memref.whole cc3_scratch0 : Memref sig .tc .vmem S1024x512 .f32).view
abbrev VO : View sig .tc .vmem S1024x512 .bf16 := (Memref.whole cc3_stg3_0 : Memref sig .tc .vmem S1024x512 .bf16).view

/-- In each case the stores into the accumulator (and, in the last, into the result's buffer) cover the buffer. -/
theorem coverFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1) (x0 : Vec F S1024x1024 .bf16) (x1 : Vec F S1024x512 .bf16) (y : S1024x512.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x512.size (by sl_kernel_rfl) y
theorem coverMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1) (x0 : Vec F S1024x1024 .bf16) (x1 : Vec F S1024x512 .bf16) (xs : Vec F S1024x512 .f32) (y : S1024x512.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x512.size (by sl_kernel_rfl) y
theorem coverLastAcc (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.2, y ∈ pc.1.set :=
  View.cover_of_tiledL (runLast c i arg2 harg2 arg3 harg3 arg4 harg4 arg5 harg5 arg6 harg6 hc0 hc1 x0 x1 x2 xs).1.2 S1024x512.size (by sl_kernel_rfl) y
theorem coverLastOut (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.1, y ∈ pc.1.set :=
  View.cover_of_tiledL (runLast c i arg2 harg2 arg3 harg3 arg4 harg4 arg5 harg5 arg6 harg6 hc0 hc1 x0 x1 x2 xs).1.1 S1024x512.size (by sl_kernel_rfl) y

/-- What each case leaves in the accumulator, and the last in the result's buffer: its pieces read back. -/
def accFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1) (x0 : Vec F S1024x1024 .bf16) (x1 : Vec F S1024x512 .bf16) : Vec F S1024x512 .f32 :=
  VS.read (Elt F) (VS.writes (Elt F) VS.junk (runFirst c i arg2 harg2 arg3 harg3 arg4 harg4 arg5 harg5 arg6 harg6 hc0 hc1 x0 x1).1)
def accMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1) (x0 : Vec F S1024x1024 .bf16) (x1 : Vec F S1024x512 .bf16) (xs : Vec F S1024x512 .f32) : Vec F S1024x512 .f32 :=
  VS.read (Elt F) (VS.writes (Elt F) VS.junk (runMid c i arg2 harg2 arg3 harg3 arg4 harg4 arg5 harg5 arg6 harg6 hc0 hc1 x0 x1 xs).1)
def accLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) : Vec F S1024x512 .f32 :=
  VS.read (Elt F) (VS.writes (Elt F) VS.junk (runLast c i arg2 harg2 arg3 harg3 arg4 harg4 arg5 harg5 arg6 harg6 hc0 hc1 x0 x1 x2 xs).1.2)
def outLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) : Vec F S1024x512 .bf16 :=
  VO.read (Elt F) (VO.writes (Elt F) VO.junk (runLast c i arg2 harg2 arg3 harg3 arg4 harg4 arg5 harg5 arg6 harg6 hc0 hc1 x0 x1 x2 xs).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S1024x512 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x512 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x512 .bf16 := win3_3.stage (cfg3.slots t 3)
abbrev hs3 (t : Fin cfg3.N) : (ms3 t).IsWhole := hstage3_3 ((cfg3.slots t 3).cast nbuf3_3)
abbrev msS : Memref sig .tc .vmem S1024x512 .f32 := Memref.whole cc3_scratch0
abbrev hsS : (msS).IsWhole := Memref.isWhole_whole _

/-- One point's effect on the accumulator: the case the point is in, run on the point's blocks, from what the
    accumulator held (which the first block of a row tile does not read). Beyond the grid, nothing. -/
def accStep (c : Dev nD) (n : ℕ) (prev : Vec F S1024x512 .f32) : Vec F S1024x512 .f32 :=
  if h : n < cfg3.N then
    (if h0 : n % 10 = 0 then
       accFirst c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS ((hreset ⟨n, h⟩).mpr h0) (not_store ⟨n, h⟩ (by show ¬ n % 10 = 9; omega)) (iblk V c 0 ⟨n, h⟩) (iblk V c 1 ⟨n, h⟩)
     else if h9 : n % 10 = 9 then
       accLast c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) ((hstore ⟨n, h⟩).mpr h9) (iblk V c 0 ⟨n, h⟩) (iblk V c 1 ⟨n, h⟩) (iblk V c 2 ⟨n, h⟩) prev
     else
       accMid c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) (not_store ⟨n, h⟩ h9) (iblk V c 0 ⟨n, h⟩) (iblk V c 1 ⟨n, h⟩) prev)
  else prev

/-- THE ACCUMULATION: what the accumulator holds after the body at point `n`. -/
def accAt (c : Dev nD) : ℕ → Vec F S1024x512 .f32
  | 0 => accStep V c 0 (VS.read (Elt F) VS.junk)
  | n + 1 => accStep V c (n + 1) (accAt c n)

theorem accAt_pos (c : Dev nD) (n : ℕ) (hn : n ≠ 0) : accAt V c n = accStep V c n (accAt V c (n - 1)) := by
  cases n with
  | zero => exact absurd rfl hn
  | succ n => rfl

theorem accStep_first (c : Dev nD) (t : Fin cfg3.N) (h0 : t.val % 10 = 0) (prev : Vec F S1024x512 .f32) :
    accStep V c t.val prev = accFirst c (grid3.coords t) (ms0 t) (hs0 t) (ms1 t) (hs1 t) (ms2 t) (hs2 t) (ms3 t) (hs3 t) msS hsS ((hreset t).mpr h0) (not_store t (fun h9 => by omega)) (iblk V c 0 t) (iblk V c 1 t) := by
  unfold accStep; rw [dif_pos t.isLt, dif_pos h0]
theorem accStep_last (c : Dev nD) (t : Fin cfg3.N) (h0 : ¬ t.val % 10 = 0) (h9 : t.val % 10 = 9) (prev : Vec F S1024x512 .f32) :
    accStep V c t.val prev = accLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) prev := by
  unfold accStep; rw [dif_pos t.isLt, dif_neg h0, dif_pos h9]
theorem accStep_mid (c : Dev nD) (t : Fin cfg3.N) (h0 : ¬ t.val % 10 = 0) (h9 : ¬ t.val % 10 = 9) (prev : Vec F S1024x512 .f32) :
    accStep V c t.val prev = accMid c (grid3.coords t) (ms0 t) (hs0 t) (ms1 t) (hs1 t) (ms2 t) (hs2 t) (ms3 t) (hs3 t) msS hsS (not_reset t h0) (not_store t h9) (iblk V c 0 t) (iblk V c 1 t) prev := by
  unfold accStep; rw [dif_pos t.isLt, dif_neg h0, dif_neg h9]

theorem accAt_first (c : Dev nD) (t : Fin cfg3.N) (h0 : t.val % 10 = 0) :
    accAt V c t.val = accFirst c (grid3.coords t) (ms0 t) (hs0 t) (ms1 t) (hs1 t) (ms2 t) (hs2 t) (ms3 t) (hs3 t) msS hsS ((hreset t).mpr h0) (not_store t (fun h9 => by omega)) (iblk V c 0 t) (iblk V c 1 t) := by
  by_cases hz : t.val = 0
  · have e : accAt V c t.val = accStep V c t.val (VS.read (Elt F) VS.junk) := by rw [hz]; rfl
    rw [e]; exact accStep_first V c t h0 _
  · rw [accAt_pos V c t.val hz]; exact accStep_first V c t h0 _

/-- The tile of the result that the last block of a row tile writes. -/
def outAt (c : Dev nD) (t : Fin cfg3.N) : Vec F S1024x512 .bf16 :=
  if h9 : t.val % 10 = 9 then
    outLast c (grid3.coords t) (ms0 t) (hs0 t) (ms1 t) (hs1 t) (ms2 t) (hs2 t) (ms3 t) (hs3 t) msS hsS (not_reset t (fun h0 => by omega)) ((hstore t).mpr h9) (iblk V c 0 t) (iblk V c 1 t) (iblk V c 2 t) (accAt V c (t.val - 1))
  else VO.read (Elt F) VO.junk

/-- The invariant between points: the accumulator's buffer at some contents — after a point that is not the last of
    its row tile, what the accumulation says — beside the other scoped buffers that are no staging buffer and the
    generator register. -/
def inv (c : Dev nD) (t : Fin (cfg3.N + 1)) : sProp 𝕄 :=
  iprop((∃ f : Vec F S1024x512 .f32, ⌜¬ t.val % 10 = 0 → f = accAt V c (t.val - 1)⌝ ∗ owns (c : Thread nD τ) msS fullShare f)
    ∗ Pipeline.scopedRestBut (Ix := Unit) (Name := ℕ) (U := UR sig nD τ) (Lvl := ℕ) (Val := Elt F) spec3 c [cc3_scratch0]
    ∗ ∃ r, prngReg c r)

/-- The proof data of this pipeline on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = outAt V c t := by dsimp only [dat]

theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- what it returns at a point that stores the tile, -/
def bodyPostStore (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- and at a point that does not: the result's buffer as it was found. -/
def bodyPostKeep (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ (∃ d, owns (c : Thread nD τ) (st3_3 t) fullShare ((dat V c).before 3 t d)))

set_option maxHeartbeats 1600000 in
/-- A point that does not store the tile (the first or a middle block of a row tile). -/
theorem sound_keep (c : Dev nD) (t : Fin cfg3.N) (h9 : ¬ t.val % 10 = 9) :
    bodyPre V c t ⊢ wp frame (wpE (defs₀ (F := F)) Variants.none c none) Set.univ (bodyAt3 t) (fun _ => bodyPostKeep V c t) := by
  unfold bodyPre bodyPostKeep bodyAt3
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2]
  unfold inv
  have hsucc : ¬ (t.succ : Fin (cfg3.N + 1)).val % 10 = 0 := by rw [Fin.val_succ]; omega
  have hprev : (t.succ : Fin (cfg3.N + 1)).val - 1 = t.val := by rw [Fin.val_succ]; omega
  iintro ⟨⟨⟨%fs, %hfs, Hs⟩, Hrest, Hp⟩, Ho, ⟨%d0, H0⟩, ⟨%d1, H1⟩, ⟨%d2, H2⟩, ⟨%d3, H3⟩⟩
  by_cases h0 : t.val % 10 = 0
  · iapply ((runFirst c (grid3.coords t) (ms0 t) (hs0 t) (ms1 t) (hs1 t) (ms2 t) (hs2 t) (ms3 t) (hs3 t) msS hsS ((hreset t).mpr h0) (not_store t h9) (iblk V c 0 t) (iblk V c 1 t)).2 Set.univ _)
    isplitl [H0]; · iexact H0
    isplitl [H1]; · iexact H1
    isplitl [Hs]; · iexists fs; iexact Hs
    iintro ⟨H0, H1, ⟨%e4, H4⟩⟩
    isplitl [H4 Hrest Hp]
    · isplitl [H4]
      · iexists (accFirst c (grid3.coords t) (ms0 t) (hs0 t) (ms1 t) (hs1 t) (ms2 t) (hs2 t) (ms3 t) (hs3 t) msS hsS ((hreset t).mpr h0) (not_store t h9) (iblk V c 0 t) (iblk V c 1 t))
        isplitr
        · ipureintro; intro _; rw [hprev]; exact (accAt_first V c t h0).symm
        unfold owns accFirst; iexists _; isplitr
        swap; · iexact H4
        ipureintro; exact View.read_writes_of_cover _ _ _ _ _ (coverFirst c _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3
  · have hfs' : fs = accAt V c (t.val - 1) := hfs h0
    subst hfs'
    iapply ((runMid c (grid3.coords t) (ms0 t) (hs0 t) (ms1 t) (hs1 t) (ms2 t) (hs2 t) (ms3 t) (hs3 t) msS hsS (not_reset t h0) (not_store t h9) (iblk V c 0 t) (iblk V c 1 t) (accAt V c (t.val - 1))).2 Set.univ _)
    isplitl [H0]; · iexact H0
    isplitl [H1]; · iexact H1
    isplitl [Hs]; · iexact Hs
    iintro ⟨H0, H1, ⟨%e4, H4⟩⟩
    isplitl [H4 Hrest Hp]
    · isplitl [H4]
      · iexists (accMid c (grid3.coords t) (ms0 t) (hs0 t) (ms1 t) (hs1 t) (ms2 t) (hs2 t) (ms3 t) (hs3 t) msS hsS (not_reset t h0) (not_store t h9) (iblk V c 0 t) (iblk V c 1 t) (accAt V c (t.val - 1)))
        isplitr
        · ipureintro; intro _; rw [hprev, accAt_pos V c t.val (fun e => h0 (by rw [e]))]; exact (accStep_mid V c t h0 h9 _).symm
        unfold owns accMid; iexists _; isplitr
        swap; · iexact H4
        ipureintro; exact View.read_writes_of_cover _ _ _ _ _ (coverMid c _ _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3

set_option maxHeartbeats 1600000 in
/-- The last block of a row tile: the tile is stored, and the accumulator is left for the next row tile to reset. -/
theorem sound_store (c : Dev nD) (t : Fin cfg3.N) (h9 : t.val % 10 = 9) :
    bodyPre V c t ⊢ wp frame (wpE (defs₀ (F := F)) Variants.none c none) Set.univ (bodyAt3 t) (fun _ => bodyPostStore V c t) := by
  unfold bodyPre bodyPostStore bodyAt3
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2, after_3]
  unfold inv
  have h0 : ¬ t.val % 10 = 0 := by omega
  have hsucc : (t.succ : Fin (cfg3.N + 1)).val % 10 = 0 := by rw [Fin.val_succ]; omega
  iintro ⟨⟨⟨%fs, %hfs, Hs⟩, Hrest, Hp⟩, Ho, ⟨%d0, H0⟩, ⟨%d1, H1⟩, ⟨%d2, H2⟩, ⟨%d3, H3⟩⟩
  have hfs' : fs = accAt V c (t.val - 1) := hfs h0
  subst hfs'
  iapply ((runLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%e4, H4⟩⟩
  isplitl [H4 Hrest Hp]
  · isplitl [H4]
    · iexists (accLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1)))
      isplitr
      · ipureintro; intro h; exact absurd hsucc h
      unfold owns accLast; iexists _; isplitr
      swap; · iexact H4
      ipureintro; exact View.read_writes_of_cover _ _ _ _ _ (coverLastAcc c _ _ _ _ _ _ _ _ _ _ _ _ _ _ _ _ _)
    isplitl [Hrest]; · iexact Hrest
    iexact Hp
  isplitl [Ho]; · iexact Ho
  isplitl [H0]; · iexact H0
  isplitl [H1]; · iexact H1
  isplitl [H2]; · iexact H2
  unfold outAt; rw [dif_pos h9]
  unfold owns outLast; iexists _; isplitr
  swap; · iexact H3
  ipureintro; exact View.read_writes_of_cover _ _ _ _ _ (coverLastOut c _ _ _ _ _ _ _ _ _ _ _ _ _ _ _ _ _)

/-- Where the result's window is idle: at the points that do not store the tile. -/
theorem idle_3 (t : Fin cfg3.N) : idle3 3 (grid3.coords t) = !(decide (t.val % 10 = 9)) := by
  show (!(k3_cond2 (grid3.coords t) == 1#1)) = !(decide (t.val % 10 = 9))
  by_cases h9 : t.val % 10 = 9
  · rw [(hstore t).mpr h9, decide_eq_true h9]; rfl
  · rw [decide_eq_false h9]
    have : ¬ k3_cond2 (grid3.coords t) = 1#1 := not_store t h9
    simp only [beq_iff_eq, this, Bool.not_false, Bool.not_eq_true', beq_eq_false_iff_ne, ne_eq, not_false_eq_true]

/-- The library's body obligation, at every point. -/
theorem body_obligation (c : Dev nD) : BodyObligation (dat (F := F) V c) (defs₀ (F := F)) Variants.none () Set.univ := fun t => by
  rw [bigSep_W3, bigSep_W3]
  dsimp only
  rw [idle_3 t]
  by_cases h9 : t.val % 10 = 9
  · rw [decide_eq_true h9]
    exact sound_store V c t h9
  · rw [decide_eq_false h9, show (win3 3).flush t = false from Bool.eq_false_iff.mpr fun h => h9 ((flush3_3 t).mp h)]
    exact sound_keep V c t h9

end Region

end Cert.KernelIdeal.Agg2

end
-- ==== Proof.IdealLogits.lean ====
/-
  The last matrix product of the kernel program: the second layer's activations (10240 x 512) times the output weight
  matrix (512 x 16) plus the output bias row, row tile by row tile, kept in f32. Ten grid points, one per tile of 1024
  rows; the contraction is one block long, so at every point the body resets its accumulator, adds the tile's product
  into it, adds the bias row and stores the tile of the logits. Here: that body run at a point, what it leaves in the
  result's buffer, and the pipeline's account of the ten points.
-/
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Logits

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid4.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg4.N, condReset (grid4.coords t) :=
  (by decide +kernel : ∀ t : Fin grid4.N, condReset (grid4.coords t))
/-- and it is also the last, so the result is stored at every point. -/
theorem hstore : ∀ t : Fin cfg4.N, k4_cond2 (grid4.coords t) = 1#1 :=
  (by decide +kernel : ∀ t : Fin grid4.N, k4_cond2 (grid4.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) :
    { L : List (View.Piece (Elt F) S1024x16 .f32) × List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc4__matmul_kernel_plain i arg2 harg2 arg3 harg3 arg4 harg4 arg5 harg5 arg6 harg6) K } := by
  refine ⟨⟨?_, ?_⟩, fun E K => ?run⟩
  case run =>
    simp only [cc4__matmul_kernel_plain_eq_skeleton]; unfold cc4__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x16 .f32 := (Memref.whole cc4_stg3_0 : Memref sig .tc .vmem S1024x16 .f32).view

/-- The stores into the result's buffer tile it (one store of the whole tile), so they cover it. -/
theorem cover (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) (y : S1024x16.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x16.size (by sl_kernel_rfl) y

/-- What the body leaves in the result's buffer: its pieces read back. -/
def out (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) : Vec F S1024x16 .f32 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each window's current staging memref at point `t`, and its wholeness. -/
abbrev ms0 (t : Fin cfg4.N) : Memref sig .tc .vmem S1024x512 .bf16 := win4_0.stage (cfg4.slots t 0)
abbrev hs0 (t : Fin cfg4.N) : (ms0 t).IsWhole := hstage4_0 ((cfg4.slots t 0).cast nbuf4_0)
abbrev ms1 (t : Fin cfg4.N) : Memref sig .tc .vmem S512x16 .bf16 := win4_1.stage (cfg4.slots t 1)
abbrev hs1 (t : Fin cfg4.N) : (ms1 t).IsWhole := hstage4_1 ((cfg4.slots t 1).cast nbuf4_1)
abbrev ms2 (t : Fin cfg4.N) : Memref sig .tc .vmem S1x16 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S1024x16 .f32 := win4_3.stage (cfg4.slots t 3)
abbrev hs3 (t : Fin cfg4.N) : (ms3 t).IsWhole := hstage4_3 ((cfg4.slots t 3).cast nbuf4_3)
abbrev msS : Memref sig .tc .vmem S1024x16 .f32 := Memref.whole cc4_scratch0
abbrev hsS : (msS).IsWhole := Memref.isWhole_whole _

/-- The tile of the result that point `t` writes: the body's result on the point's three input blocks. -/
def outAt (c : Dev nD) (t : Fin cfg4.N) : Vec F S1024x16 .f32 :=
  out c (grid4.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec4 c
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = outAt V c t := by dsimp only [dat]

/-- Each input's current staging buffer holds its block at every point, fetched there or not: where it is not fetched
    its block index has not moved. -/
theorem before_0 (c : Dev nD) (t : Fin cfg4.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg4.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg4.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = Pipeline.ΦA spec4 c from rfl, show (dat V c).Φ t.castSucc = Pipeline.ΦA spec4 c from rfl,
    show (dat V c).owesAt () t.succ = (dat V c).owesAt () t.castSucc from rfl,
    after_0, after_1, after_2, after_3]
  unfold Pipeline.ΦA
  rw [scopedRest4_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid4.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg4.N) : idle4 3 (grid4.coords t) = false := by
  show (!(k4_cond2 (grid4.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.KernelIdeal.Logits

end
-- ==== Proof.IdealRun.lean ====
/-
  The kernel program's run, from the launch to the return: @main is a stretch of host operations (the degree count,
  the normalisation, the dense adjacency, the padding and the changes of format), five kernel regions back to back
  (the five matrix products), and a last stretch of host operations (the first 10000 rows and the softmax). Between
  two items every unscoped buffer of the core is held whole at contents named here (`W0` … `W7`): the launch memory,
  then what the host operations compute, then after each region its arrays at what the pipeline leaves. Every weakly
  fair execution terminates, nothing faulting, and ends with every unscoped buffer at `W7` (`run`).
-/
import proofs.«110679_j6047313952840_1_alg».proof.Proof.IdealXW1
import proofs.«110679_j6047313952840_1_alg».proof.Proof.IdealAgg1
import proofs.«110679_j6047313952840_1_alg».proof.Proof.IdealXW2
import proofs.«110679_j6047313952840_1_alg».proof.Proof.IdealAgg2
import proofs.«110679_j6047313952840_1_alg».proof.Proof.IdealLogits
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the result's write-backs
    folded), every other buffer as entered. -/
def W2 (c : Dev nD) : Valuation τ sig (Elt F) :=
  Pipeline.withArrays spec0 c (W1 m ρ c) fun w => (XW1.dat (V1 m ρ) c).arrAt w cfg0.N
theorem W2_arr (c : Dev nD) (w : Fin cfg0.W) :
    W2 m ρ c (Proc.devRef .tc (Pipeline.arrRef spec0 w)) = (XW1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (XW1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the result's write-backs
    folded), every other buffer as entered. -/
def W3 (c : Dev nD) : Valuation τ sig (Elt F) :=
  Pipeline.withArrays spec1 c (W2 m ρ c) fun w => (Agg1.dat (V2 m ρ) c).arrAt w cfg1.N
theorem W3_arr (c : Dev nD) (w : Fin cfg1.W) :
    W3 m ρ c (Proc.devRef .tc (Pipeline.arrRef spec1 w)) = (Agg1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Agg1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the result's write-backs
    folded), every other buffer as entered. -/
def W4 (c : Dev nD) : Valuation τ sig (Elt F) :=
  Pipeline.withArrays spec2 c (W3 m ρ c) fun w => (XW2.dat (V3 m ρ) c).arrAt w cfg2.N
theorem W4_arr (c : Dev nD) (w : Fin cfg2.W) :
    W4 m ρ c (Proc.devRef .tc (Pipeline.arrRef spec2 w)) = (XW2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (XW2.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, the result's write-backs
    folded), every other buffer as entered. -/
def W5 (c : Dev nD) : Valuation τ sig (Elt F) :=
  Pipeline.withArrays spec3 c (W4 m ρ c) fun w => (Agg2.dat (V4 m ρ) c).arrAt w cfg3.N
theorem W5_arr (c : Dev nD) (w : Fin cfg3.W) :
    W5 m ρ c (Proc.devRef .tc (Pipeline.arrRef spec3 w)) = (Agg2.dat (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (Agg2.dat (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, the result's write-backs
    folded), every other buffer as entered. -/
def W6 (c : Dev nD) : Valuation τ sig (Elt F) :=
  Pipeline.withArrays spec4 c (W5 m ρ c) fun w => (Logits.dat (V5 m ρ) c).arrAt w cfg4.N
theorem W6_arr (c : Dev nD) (w : Fin cfg4.W) :
    W6 m ρ c (Proc.devRef .tc (Pipeline.arrRef spec4 w)) = (Logits.dat (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (Logits.dat (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After the last stretch of host operations: the return. -/
abbrev W7 : Dev nD → Valuation τ sig (Elt F) := fun c => StableHlo.after hostOps5 (W6 m ρ c)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => XW1.dat (V1 m ρ) c
  | ⟨1, _⟩ => fun c => Agg1.dat (V2 m ρ) c
  | ⟨2, _⟩ => fun c => XW2.dat (V3 m ρ) c
  | ⟨3, _⟩ => fun c => Agg2.dat (V4 m ρ) c
  | ⟨4, _⟩ => fun c => Logits.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (XW1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the accumulator's buffer go into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Agg1.inv (V2 m ρ) c 0 from rfl]; unfold Agg1.inv
    rw [show (Pipeline.scopedRest (Ix := Unit) (Name := ℕ) (U := UR sig nD τ) (Lvl := ℕ) (Val := Elt F) (Pipeline.pin (pcfgs (F := F)) adm 1).spec c : sProp 𝕄) = _ from scopedRest1_split c]
    simp only [owns_whole]
    iintro ⟨Hp, -, ⟨⟨%f, Hs⟩, Hr⟩⟩
    isplitl [Hs]
    · iexists f; isplitr
      · ipureintro; intro h; exact (h (by simp)).elim
      iexact Hs
    isplitl [Hr]; · iexact Hr
    iexact Hp
  hout c := by
    rw [Pipeline.ownSems0_none, show (pdats m ρ 1 c).Φ (Fin.last _) = Agg1.inv (V2 m ρ) c (Fin.last _) from rfl]; unfold Agg1.inv
    rw [show (Pipeline.scopedRest (Ix := Unit) (Name := ℕ) (U := UR sig nD τ) (Lvl := ℕ) (Val := Elt F) (Pipeline.pin (pcfgs (F := F)) adm 1).spec c : sProp 𝕄) = _ from scopedRest1_split c]
    simp only [owns_whole]
    iintro ⟨⟨%f, -, Hs⟩, Hr, Hp⟩
    isplitl [Hp]; · iexact Hp
    isplitr; · iempintro
    isplitl [Hs]
    · iexists f; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at the exit contents; the generator register goes into
    the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (XW2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays are
    split out of the unscoped buffers and put back at the exit contents; the generator register and the accumulator's buffer go into
    the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Agg2.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Agg2.inv (V4 m ρ) c 0 from rfl]; unfold Agg2.inv
    rw [show (Pipeline.scopedRest (Ix := Unit) (Name := ℕ) (U := UR sig nD τ) (Lvl := ℕ) (Val := Elt F) (Pipeline.pin (pcfgs (F := F)) adm 3).spec c : sProp 𝕄) = _ from scopedRest3_split c]
    simp only [owns_whole]
    iintro ⟨Hp, -, ⟨⟨%f, Hs⟩, Hr⟩⟩
    isplitl [Hs]
    · iexists f; isplitr
      · ipureintro; intro h; exact (h (by simp)).elim
      iexact Hs
    isplitl [Hr]; · iexact Hr
    iexact Hp
  hout c := by
    rw [Pipeline.ownSems0_none, show (pdats m ρ 3 c).Φ (Fin.last _) = Agg2.inv (V4 m ρ) c (Fin.last _) from rfl]; unfold Agg2.inv
    rw [show (Pipeline.scopedRest (Ix := Unit) (Name := ℕ) (U := UR sig nD τ) (Lvl := ℕ) (Val := Elt F) (Pipeline.pin (pcfgs (F := F)) adm 3).spec c : sProp 𝕄) = _ from scopedRest3_split c]
    simp only [owns_whole]
    iintro ⟨⟨%f, -, Hs⟩, Hr, Hp⟩
    isplitl [Hp]; · iexact Hp
    isplitr; · iempintro
    isplitl [Hs]
    · iexists f; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are
    split out of the unscoped buffers and put back at the exit contents; the generator register goes into
    the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Logits.body_obligation (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's items as segments. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ), .region (reg4 m ρ),
    .host (hseg hostOps5 hostOps5_sub hostOps5_fresh (W6 m ρ)) ]
/-- @main IS the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped buffer of every core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps5 (W6 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Run

end
-- ==== Proof.IdealFrame.lean ====
/-
  The kernel program's frame: no host operation of either stretch writes an argument array and no region has one
  among its windows' arrays, so the last boundary's contents at an argument walk back to the launch memory; with the
  run this is the frame claim — every weakly fair execution terminates, nothing faulting, and the eight argument
  arrays end as launched.
-/
import proofs.«110679_j6047313952840_1_alg».proof.Proof.IdealRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first stretch of host operations writes no argument array. -/
theorem hostOps0_keeps (b : Ref sig .tc) (hb : b = main_arg0 ∨ b = main_arg1 ∨ b = main_arg2 ∨ b = main_arg3 ∨ b = main_arg4 ∨ b = main_arg5 ∨ b = main_arg6 ∨ b = main_arg7) (W : Valuation τ sig (Elt F)) :
    StableHlo.after hostOps0 W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl | rfl <;>
  · simp only [hostOps0, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- Nor does the last. -/
theorem hostOps5_keeps (b : Ref sig .tc) (hb : b = main_arg0 ∨ b = main_arg1 ∨ b = main_arg2 ∨ b = main_arg3 ∨ b = main_arg4 ∨ b = main_arg5 ∨ b = main_arg6 ∨ b = main_arg7) (W : Valuation τ sig (Elt F)) :
    StableHlo.after hostOps5 W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl | rfl <;>
  · simp only [hostOps5, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- An argument array is no window's array in any of the five regions. -/
theorem arg_not_window (b : Ref sig .tc) (hb : b = main_arg0 ∨ b = main_arg1 ∨ b = main_arg2 ∨ b = main_arg3 ∨ b = main_arg4 ∨ b = main_arg5 ∨ b = main_arg6 ∨ b = main_arg7) :
    (∀ w, Pipeline.arrRef spec0 w ≠ b) ∧ (∀ w, Pipeline.arrRef spec1 w ≠ b) ∧ (∀ w, Pipeline.arrRef spec2 w ≠ b)
      ∧ (∀ w, Pipeline.arrRef spec3 w ≠ b) ∧ (∀ w, Pipeline.arrRef spec4 w ≠ b) := by
  rcases hb with rfl | rfl | rfl | rfl | rfl | rfl | rfl | rfl <;> decide

/-- The last boundary's contents at an argument array are the launch memory's. -/
theorem W7_arg (c : Dev nD) (b : Ref sig .tc) (hb : b = main_arg0 ∨ b = main_arg1 ∨ b = main_arg2 ∨ b = main_arg3 ∨ b = main_arg4 ∨ b = main_arg5 ∨ b = main_arg6 ∨ b = main_arg7) :
    W7 m ρ c (Proc.devRef .tc b) = m ((c : Thread nD τ).loc b) := by
  obtain ⟨n0, n1, n2, n3, n4⟩ := arg_not_window b hb
  exact (hostOps5_keeps b hb (W6 m ρ c)).trans ((W6_of_ne m ρ c b n4).trans ((W5_of_ne m ρ c b n3).trans ((W4_of_ne m ρ c b n2).trans
    ((W3_of_ne m ρ c b n1).trans ((W2_of_ne m ρ c b n0).trans (hostOps0_keeps b hb (W0 m ρ c)))))))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W7_arg m ρ c main_arg0 (by decide)),
      (h c _ (mem_uc main_arg1 (by decide))).trans (W7_arg m ρ c main_arg1 (by decide)),
      (h c _ (mem_uc main_arg2 (by decide))).trans (W7_arg m ρ c main_arg2 (by decide)),
      (h c _ (mem_uc main_arg3 (by decide))).trans (W7_arg m ρ c main_arg3 (by decide)),
      (h c _ (mem_uc main_arg4 (by decide))).trans (W7_arg m ρ c main_arg4 (by decide)),
      (h c _ (mem_uc main_arg5 (by decide))).trans (W7_arg m ρ c main_arg5 (by decide)),
      (h c _ (mem_uc main_arg6 (by decide))).trans (W7_arg m ρ c main_arg6 (by decide)),
      (h c _ (mem_uc main_arg7 (by decide))).trans (W7_arg m ρ c main_arg7 (by decide))⟩)
    (run m ρ)

end Cert.KernelIdeal.Run

end
-- ==== Proof.BitsXW1.lean ====
/-
  The first matrix product of the kernel program: the padded features (10240 x 512) times the first weight matrix
  (512 x 512), row tile by row tile. The grid has ten points, one per tile of 1024 rows; the contraction is one block
  long, so at every point the body resets its accumulator, adds the tile's product into it, adds the bias row and
  stores the tile of the result. Here: that body run at a point, what it leaves in the result's buffer, and the
  pipeline's account of the ten points (every input buffer holds its block, the result's buffer is written whole).
-/
import proofs.«110679_j6047313952840_1_alg».proof.Proof.Gen.Kernel.Launch
import proofs.«110679_j6047313952840_1_alg».proof.Proof.Gen.Kernel.Skeleton
import proofs.«110679_j6047313952840_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.XW1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid0.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg0.N, condReset (grid0.coords t) :=
  (by decide +kernel : ∀ t : Fin grid0.N, condReset (grid0.coords t))
/-- and it is also the last, so the result is stored at every point. -/
theorem hstore : ∀ t : Fin cfg0.N, k0_cond2 (grid0.coords t) = 1#1 :=
  (by decide +kernel : ∀ t : Fin grid0.N, k0_cond2 (grid0.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__matmul_kernel_plain i arg2 harg2 arg3 harg3 arg4 harg4 arg5 harg5 arg6 harg6) K } := by
  refine ⟨⟨?_, ?_⟩, fun E K => ?run⟩
  case run =>
    simp only [cc0__matmul_kernel_plain_eq_skeleton]; unfold cc0__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x512 .bf16 := (Memref.whole cc0_stg3_0 : Memref sig .tc .vmem S1024x512 .bf16).view

/-- The stores into the result's buffer tile it (one store of the whole tile), so they cover it. -/
theorem cover (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) (y : S1024x512.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x512.size (by sl_kernel_rfl) y

/-- What the body leaves in the result's buffer: its pieces read back. -/
def out (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) : Vec F S1024x512 .bf16 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev msS : Memref sig .tc .vmem S1024x512 .f32 := Memref.whole cc0_scratch0
abbrev hsS : (msS).IsWhole := Memref.isWhole_whole _

/-- The tile of the result that point `t` writes: the body's result on the point's three input blocks. -/
def outAt (c : Dev nD) (t : Fin cfg0.N) : Vec F S1024x512 .bf16 :=
  out c (grid0.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

/-- Each input's current staging buffer holds its block at every point, fetched there or not: where it is not fetched
    its block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = Pipeline.ΦA spec0 c from rfl, show (dat V c).Φ t.castSucc = Pipeline.ΦA spec0 c from rfl,
    show (dat V c).owesAt () t.succ = (dat V c).owesAt () t.castSucc from rfl,
    after_0, after_1, after_2, after_3]
  unfold Pipeline.ΦA
  rw [scopedRest0_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid0.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg0.N) : idle0 3 (grid0.coords t) = false := by
  show (!(k0_cond2 (grid0.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.Kernel.XW1

end
-- ==== Proof.BitsAgg1.lean ====
/-
  The second matrix product of the kernel program: the dense normalised adjacency (10240 x 10240) times the first
  layer's projected features (10240 x 512), plus the first bias row, clipped below at zero. The grid is ten row tiles
  by ten column blocks of 1024; a point (i, k) adds the product of block (i, k) of the adjacency with block k of the
  features into an accumulator the body keeps between points: reset when k = 0, and when k = 9 the bias row is added,
  the maximum with zero taken and the tile of the result stored. Here: the body in its three cases (first, middle and
  last block of a row tile), what the accumulator holds after each point, and the pipeline's account of the hundred points.
-/
import proofs.«110679_j6047313952840_1_alg».proof.Proof.Gen.Kernel.Launch
import proofs.«110679_j6047313952840_1_alg».proof.Proof.Gen.Kernel.Skeleton
import proofs.«110679_j6047313952840_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero: -/
abbrev condReset (i : grid1.Coords) : Prop :=
  (Scalar.cmpi .ne (Scalar.extui (Scalar.cmpi .eq (BitVec.ofNat 32 (i 1).val) 0#32)) 0#32) = 1#1
/-- at the first of each ten consecutive points; -/
theorem hreset : ∀ t : Fin cfg1.N, condReset (grid1.coords t) ↔ t.val % 10 = 0 :=
  (by decide +kernel : ∀ t : Fin grid1.N, condReset (grid1.coords t) ↔ t.val % 10 = 0)
/-- the result is stored when the second coordinate is nine: at the last of each ten. -/
theorem hstore : ∀ t : Fin cfg1.N, k1_cond2 (grid1.coords t) = 1#1 ↔ t.val % 10 = 9 :=
  (by decide +kernel : ∀ t : Fin grid1.N, k1_cond2 (grid1.coords t) = 1#1 ↔ t.val % 10 = 9)

theorem not_reset (t : Fin cfg1.N) (h : ¬ t.val % 10 = 0) : ¬ condReset (grid1.coords t) := fun hr => h ((hreset t).mp hr)
theorem not_store (t : Fin cfg1.N) (h : ¬ t.val % 10 = 9) : ¬ k1_cond2 (grid1.coords t) = 1#1 := fun hs => h ((hstore t).mp hs)

/-! ## The body in its three cases -/

set_option maxHeartbeats 1000000 in
/-- First block of a row tile: the accumulator is reset, then the block's product added; nothing is stored into the
    result's buffer and the bias row is not read. -/
noncomputable def runFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1)
    (x0 : Vec F S1024x1024 .bf16) (x1 : Vec F S1024x512 .bf16) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc1__matmul_kernel_relu i arg2 harg2 arg3 harg3 arg4 harg4 arg5 harg5 arg6 harg6) K } := by
  refine ⟨?_, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%d4, %f4, -, H4⟩, Hk⟩
    obtain rfl := harg2.eq_unread hf0
    obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- A middle block: the block's product is added into the accumulator as it stands. -/
noncomputable def runMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1)
    (x0 : Vec F S1024x1024 .bf16) (x1 : Vec F S1024x512 .bf16) (xs : Vec F S1024x512 .f32) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc1__matmul_kernel_relu i arg2 harg2 arg3 harg3 arg4 harg4 arg5 harg5 arg6 harg6) K } := by
  refine ⟨?_, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%f4, %hf4, H4⟩, Hk⟩
    obtain rfl := harg2.eq_unread hf0
    obtain rfl := harg3.eq_unread hf1
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- Last block of a row tile: the block's product is added into the accumulator, then the bias row is added to it, the
    maximum with zero taken and the tile stored into the result's buffer. -/
noncomputable def runLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1)
    (x0 : Vec F S1024x1024 .bf16) (x1 : Vec F S1024x512 .bf16) (x2 : Vec F S1x512 .f32) (xs : Vec F S1024x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__matmul_kernel_relu i arg2 harg2 arg3 harg3 arg4 harg4 arg5 harg5 arg6 harg6) K } := by
  refine ⟨⟨?_, ?_⟩, fun E K => ?run⟩
  case run =>
    simp only [cc1__matmul_kernel_relu_eq_skeleton]; unfold cc1__matmul_kernel_relu_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0
    obtain rfl := harg3.eq_unread hf1
    obtain rfl := harg4.eq_unread hf2
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- The accumulator's buffer and one staging buffer of the result's window, through which contents are stated. -/
abbrev VS : View sig .tc .vmem S1024x512 .f32 := (Memref.whole cc1_scratch0 : Memref sig .tc .vmem S1024x512 .f32).view
abbrev VO : View sig .tc .vmem S1024x512 .bf16 := (Memref.whole cc1_stg3_0 : Memref sig .tc .vmem S1024x512 .bf16).view

/-- In each case the stores into the accumulator (and, in the last, into the result's buffer) cover the buffer. -/
theorem coverFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1) (x0 : Vec F S1024x1024 .bf16) (x1 : Vec F S1024x512 .bf16) (y : S1024x512.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x512.size (by sl_kernel_rfl) y
theorem coverMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1) (x0 : Vec F S1024x1024 .bf16) (x1 : Vec F S1024x512 .bf16) (xs : Vec F S1024x512 .f32) (y : S1024x512.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x512.size (by sl_kernel_rfl) y
theorem coverLastAcc (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.2, y ∈ pc.1.set :=
  View.cover_of_tiledL (runLast c i arg2 harg2 arg3 harg3 arg4 harg4 arg5 harg5 arg6 harg6 hc0 hc1 x0 x1 x2 xs).1.2 S1024x512.size (by sl_kernel_rfl) y
theorem coverLastOut (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.1, y ∈ pc.1.set :=
  View.cover_of_tiledL (runLast c i arg2 harg2 arg3 harg3 arg4 harg4 arg5 harg5 arg6 harg6 hc0 hc1 x0 x1 x2 xs).1.1 S1024x512.size (by sl_kernel_rfl) y

/-- What each case leaves in the accumulator, and the last in the result's buffer: its pieces read back. -/
def accFirst (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1) (x0 : Vec F S1024x1024 .bf16) (x1 : Vec F S1024x512 .bf16) : Vec F S1024x512 .f32 :=
  VS.read (Elt F) (VS.writes (Elt F) VS.junk (runFirst c i arg2 harg2 arg3 harg3 arg4 harg4 arg5 harg5 arg6 harg6 hc0 hc1 x0 x1).1)
def accMid (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1) (x0 : Vec F S1024x1024 .bf16) (x1 : Vec F S1024x512 .bf16) (xs : Vec F S1024x512 .f32) : Vec F S1024x512 .f32 :=
  VS.read (Elt F) (VS.writes (Elt F) VS.junk (runMid c i arg2 harg2 arg3 harg3 arg4 harg4 arg5 harg5 arg6 harg6 hc0 hc1 x0 x1 xs).1)
def accLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) : Vec F S1024x512 .f32 :=
  VS.read (Elt F) (VS.writes (Elt F) VS.junk (runLast c i arg2 harg2 arg3 harg3 arg4 harg4 arg5 harg5 arg6 harg6 hc0 hc1 x0 x1 x2 xs).1.2)
def outLast (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1) (x0 : Vec F S1024x1024 .bf16) (x1 : Vec F S1024x512 .bf16) (x2 : Vec F S1x512 .f32) (xs : Vec F S1024x512 .f32) : Vec F S1024x512 .bf16 :=
  VO.read (Elt F) (VO.writes (Elt F) VO.junk (runLast c i arg2 harg2 arg3 harg3 arg4 harg4 arg5 harg5 arg6 harg6 hc0 hc1 x0 x1 x2 xs).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .bf16 := win1_3.stage (cfg1.slots t 3)
abbrev hs3 (t : Fin cfg1.N) : (ms3 t).IsWhole := hstage1_3 ((cfg1.slots t 3).cast nbuf1_3)
abbrev msS : Memref sig .tc .vmem S1024x512 .f32 := Memref.whole cc1_scratch0
abbrev hsS : (msS).IsWhole := Memref.isWhole_whole _

/-- One point's effect on the accumulator: the case the point is in, run on the point's blocks, from what the
    accumulator held (which the first block of a row tile does not read). Beyond the grid, nothing. -/
def accStep (c : Dev nD) (n : ℕ) (prev : Vec F S1024x512 .f32) : Vec F S1024x512 .f32 :=
  if h : n < cfg1.N then
    (if h0 : n % 10 = 0 then
       accFirst c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS ((hreset ⟨n, h⟩).mpr h0) (not_store ⟨n, h⟩ (by show ¬ n % 10 = 9; omega)) (iblk V c 0 ⟨n, h⟩) (iblk V c 1 ⟨n, h⟩)
     else if h9 : n % 10 = 9 then
       accLast c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) ((hstore ⟨n, h⟩).mpr h9) (iblk V c 0 ⟨n, h⟩) (iblk V c 1 ⟨n, h⟩) (iblk V c 2 ⟨n, h⟩) prev
     else
       accMid c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) (not_store ⟨n, h⟩ h9) (iblk V c 0 ⟨n, h⟩) (iblk V c 1 ⟨n, h⟩) prev)
  else prev

/-- THE ACCUMULATION: what the accumulator holds after the body at point `n`. -/
def accAt (c : Dev nD) : ℕ → Vec F S1024x512 .f32
  | 0 => accStep V c 0 (VS.read (Elt F) VS.junk)
  | n + 1 => accStep V c (n + 1) (accAt c n)

theorem accAt_pos (c : Dev nD) (n : ℕ) (hn : n ≠ 0) : accAt V c n = accStep V c n (accAt V c (n - 1)) := by
  cases n with
  | zero => exact absurd rfl hn
  | succ n => rfl

theorem accStep_first (c : Dev nD) (t : Fin cfg1.N) (h0 : t.val % 10 = 0) (prev : Vec F S1024x512 .f32) :
    accStep V c t.val prev = accFirst c (grid1.coords t) (ms0 t) (hs0 t) (ms1 t) (hs1 t) (ms2 t) (hs2 t) (ms3 t) (hs3 t) msS hsS ((hreset t).mpr h0) (not_store t (fun h9 => by omega)) (iblk V c 0 t) (iblk V c 1 t) := by
  unfold accStep; rw [dif_pos t.isLt, dif_pos h0]
theorem accStep_last (c : Dev nD) (t : Fin cfg1.N) (h0 : ¬ t.val % 10 = 0) (h9 : t.val % 10 = 9) (prev : Vec F S1024x512 .f32) :
    accStep V c t.val prev = accLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) prev := by
  unfold accStep; rw [dif_pos t.isLt, dif_neg h0, dif_pos h9]
theorem accStep_mid (c : Dev nD) (t : Fin cfg1.N) (h0 : ¬ t.val % 10 = 0) (h9 : ¬ t.val % 10 = 9) (prev : Vec F S1024x512 .f32) :
    accStep V c t.val prev = accMid c (grid1.coords t) (ms0 t) (hs0 t) (ms1 t) (hs1 t) (ms2 t) (hs2 t) (ms3 t) (hs3 t) msS hsS (not_reset t h0) (not_store t h9) (iblk V c 0 t) (iblk V c 1 t) prev := by
  unfold accStep; rw [dif_pos t.isLt, dif_neg h0, dif_neg h9]

theorem accAt_first (c : Dev nD) (t : Fin cfg1.N) (h0 : t.val % 10 = 0) :
    accAt V c t.val = accFirst c (grid1.coords t) (ms0 t) (hs0 t) (ms1 t) (hs1 t) (ms2 t) (hs2 t) (ms3 t) (hs3 t) msS hsS ((hreset t).mpr h0) (not_store t (fun h9 => by omega)) (iblk V c 0 t) (iblk V c 1 t) := by
  by_cases hz : t.val = 0
  · have e : accAt V c t.val = accStep V c t.val (VS.read (Elt F) VS.junk) := by rw [hz]; rfl
    rw [e]; exact accStep_first V c t h0 _
  · rw [accAt_pos V c t.val hz]; exact accStep_first V c t h0 _

/-- The tile of the result that the last block of a row tile writes. -/
def outAt (c : Dev nD) (t : Fin cfg1.N) : Vec F S1024x512 .bf16 :=
  if h9 : t.val % 10 = 9 then
    outLast c (grid1.coords t) (ms0 t) (hs0 t) (ms1 t) (hs1 t) (ms2 t) (hs2 t) (ms3 t) (hs3 t) msS hsS (not_reset t (fun h0 => by omega)) ((hstore t).mpr h9) (iblk V c 0 t) (iblk V c 1 t) (iblk V c 2 t) (accAt V c (t.val - 1))
  else VO.read (Elt F) VO.junk

/-- The invariant between points: the accumulator's buffer at some contents — after a point that is not the last of
    its row tile, what the accumulation says — beside the other scoped buffers that are no staging buffer and the
    generator register. -/
def inv (c : Dev nD) (t : Fin (cfg1.N + 1)) : sProp 𝕄 :=
  iprop((∃ f : Vec F S1024x512 .f32, ⌜¬ t.val % 10 = 0 → f = accAt V c (t.val - 1)⌝ ∗ owns (c : Thread nD τ) msS fullShare f)
    ∗ Pipeline.scopedRestBut (Ix := Unit) (Name := ℕ) (U := UR sig nD τ) (Lvl := ℕ) (Val := Elt F) spec1 c [cc1_scratch0]
    ∗ ∃ r, prngReg c r)

/-- The proof data of this pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- what it returns at a point that stores the tile, -/
def bodyPostStore (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- and at a point that does not: the result's buffer as it was found. -/
def bodyPostKeep (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ (∃ d, owns (c : Thread nD τ) (st1_3 t) fullShare ((dat V c).before 3 t d)))

set_option maxHeartbeats 1600000 in
/-- A point that does not store the tile (the first or a middle block of a row tile). -/
theorem sound_keep (c : Dev nD) (t : Fin cfg1.N) (h9 : ¬ t.val % 10 = 9) :
    bodyPre V c t ⊢ wp frame (wpE (defs₀ (F := F)) Variants.none c none) Set.univ (bodyAt1 t) (fun _ => bodyPostKeep V c t) := by
  unfold bodyPre bodyPostKeep bodyAt1
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2]
  unfold inv
  have hsucc : ¬ (t.succ : Fin (cfg1.N + 1)).val % 10 = 0 := by rw [Fin.val_succ]; omega
  have hprev : (t.succ : Fin (cfg1.N + 1)).val - 1 = t.val := by rw [Fin.val_succ]; omega
  iintro ⟨⟨⟨%fs, %hfs, Hs⟩, Hrest, Hp⟩, Ho, ⟨%d0, H0⟩, ⟨%d1, H1⟩, ⟨%d2, H2⟩, ⟨%d3, H3⟩⟩
  by_cases h0 : t.val % 10 = 0
  · iapply ((runFirst c (grid1.coords t) (ms0 t) (hs0 t) (ms1 t) (hs1 t) (ms2 t) (hs2 t) (ms3 t) (hs3 t) msS hsS ((hreset t).mpr h0) (not_store t h9) (iblk V c 0 t) (iblk V c 1 t)).2 Set.univ _)
    isplitl [H0]; · iexact H0
    isplitl [H1]; · iexact H1
    isplitl [Hs]; · iexists fs; iexact Hs
    iintro ⟨H0, H1, ⟨%e4, H4⟩⟩
    isplitl [H4 Hrest Hp]
    · isplitl [H4]
      · iexists (accFirst c (grid1.coords t) (ms0 t) (hs0 t) (ms1 t) (hs1 t) (ms2 t) (hs2 t) (ms3 t) (hs3 t) msS hsS ((hreset t).mpr h0) (not_store t h9) (iblk V c 0 t) (iblk V c 1 t))
        isplitr
        · ipureintro; intro _; rw [hprev]; exact (accAt_first V c t h0).symm
        unfold owns accFirst; iexists _; isplitr
        swap; · iexact H4
        ipureintro; exact View.read_writes_of_cover _ _ _ _ _ (coverFirst c _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3
  · have hfs' : fs = accAt V c (t.val - 1) := hfs h0
    subst hfs'
    iapply ((runMid c (grid1.coords t) (ms0 t) (hs0 t) (ms1 t) (hs1 t) (ms2 t) (hs2 t) (ms3 t) (hs3 t) msS hsS (not_reset t h0) (not_store t h9) (iblk V c 0 t) (iblk V c 1 t) (accAt V c (t.val - 1))).2 Set.univ _)
    isplitl [H0]; · iexact H0
    isplitl [H1]; · iexact H1
    isplitl [Hs]; · iexact Hs
    iintro ⟨H0, H1, ⟨%e4, H4⟩⟩
    isplitl [H4 Hrest Hp]
    · isplitl [H4]
      · iexists (accMid c (grid1.coords t) (ms0 t) (hs0 t) (ms1 t) (hs1 t) (ms2 t) (hs2 t) (ms3 t) (hs3 t) msS hsS (not_reset t h0) (not_store t h9) (iblk V c 0 t) (iblk V c 1 t) (accAt V c (t.val - 1)))
        isplitr
        · ipureintro; intro _; rw [hprev, accAt_pos V c t.val (fun e => h0 (by rw [e]))]; exact (accStep_mid V c t h0 h9 _).symm
        unfold owns accMid; iexists _; isplitr
        swap; · iexact H4
        ipureintro; exact View.read_writes_of_cover _ _ _ _ _ (coverMid c _ _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3

set_option maxHeartbeats 1600000 in
/-- The last block of a row tile: the tile is stored, and the accumulator is left for the next row tile to reset. -/
theorem sound_store (c : Dev nD) (t : Fin cfg1.N) (h9 : t.val % 10 = 9) :
    bodyPre V c t ⊢ wp frame (wpE (defs₀ (F := F)) Variants.none c none) Set.univ (bodyAt1 t) (fun _ => bodyPostStore V c t) := by
  unfold bodyPre bodyPostStore bodyAt1
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2, after_3]
  unfold inv
  have h0 : ¬ t.val % 10 = 0 := by omega
  have hsucc : (t.succ : Fin (cfg1.N + 1)).val % 10 = 0 := by rw [Fin.val_succ]; omega
  iintro ⟨⟨⟨%fs, %hfs, Hs⟩, Hrest, Hp⟩, Ho, ⟨%d0, H0⟩, ⟨%d1, H1⟩, ⟨%d2, H2⟩, ⟨%d3, H3⟩⟩
  have hfs' : fs = accAt V c (t.val - 1) := hfs h0
  subst hfs'
  iapply ((runLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%e4, H4⟩⟩
  isplitl [H4 Hrest Hp]
  · isplitl [H4]
    · iexists (accLast c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1)))
      isplitr
      · ipureintro; intro h; exact absurd hsucc h
      unfold owns accLast; iexists _; isplitr
      swap; · iexact H4
      ipureintro; exact View.read_writes_of_cover _ _ _ _ _ (coverLastAcc c _ _ _ _ _ _ _ _ _ _ _ _ _ _ _ _ _)
    isplitl [Hrest]; · iexact Hrest
    iexact Hp
  isplitl [Ho]; · iexact Ho
  isplitl [H0]; · iexact H0
  isplitl [H1]; · iexact H1
  isplitl [H2]; · iexact H2
  unfold outAt; rw [dif_pos h9]
  unfold owns outLast; iexists _; isplitr
  swap; · iexact H3
  ipureintro; exact View.read_writes_of_cover _ _ _ _ _ (coverLastOut c _ _ _ _ _ _ _ _ _ _ _ _ _ _ _ _ _)

/-- Where the result's window is idle: at the points that do not store the tile. -/
theorem idle_3 (t : Fin cfg1.N) : idle1 3 (grid1.coords t) = !(decide (t.val % 10 = 9)) := by
  show (!(k1_cond2 (grid1.coords t) == 1#1)) = !(decide (t.val % 10 = 9))
  by_cases h9 : t.val % 10 = 9
  · rw [(hstore t).mpr h9, decide_eq_true h9]; rfl
  · rw [decide_eq_false h9]
    have : ¬ k1_cond2 (grid1.coords t) = 1#1 := not_store t h9
    simp only [beq_iff_eq, this, Bool.not_false, Bool.not_eq_true', beq_eq_false_iff_ne, ne_eq, not_false_eq_true]

/-- The library's body obligation, at every point. -/
theorem body_obligation (c : Dev nD) : BodyObligation (dat (F := F) V c) (defs₀ (F := F)) Variants.none () Set.univ := fun t => by
  rw [bigSep_W1, bigSep_W1]
  dsimp only
  rw [idle_3 t]
  by_cases h9 : t.val % 10 = 9
  · rw [decide_eq_true h9]
    exact sound_store V c t h9
  · rw [decide_eq_false h9, show (win1 3).flush t = false from Bool.eq_false_iff.mpr fun h => h9 ((flush1_3 t).mp h)]
    exact sound_keep V c t h9

end Region

end Cert.Kernel.Agg1

end
-- ==== Proof.BitsXW2.lean ====
/-
  The third matrix product of the kernel program: the first layer's activations (10240 x 512) times the second weight
  matrix (512 x 512), row tile by row tile, with a zero bias row. Ten grid points, one per tile of 1024 rows; the
  contraction is one block long, so at every point the body resets its accumulator, adds the tile's product into it,
  adds the bias row and stores the tile of the result. Here: that body run at a point, what it leaves in the result's
  buffer, and the pipeline's account of the ten points.
-/
import proofs.«110679_j6047313952840_1_alg».proof.Proof.Gen.Kernel.Launch
import proofs.«110679_j6047313952840_1_alg».proof.Proof.Gen.Kernel.Skeleton
import proofs.«110679_j6047313952840_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.XW2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid2.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg2.N, condReset (grid2.coords t) :=
  (by decide +kernel : ∀ t : Fin grid2.N, condReset (grid2.coords t))
/-- and it is also the last, so the result is stored at every point. -/
theorem hstore : ∀ t : Fin cfg2.N, k2_cond2 (grid2.coords t) = 1#1 :=
  (by decide +kernel : ∀ t : Fin grid2.N, k2_cond2 (grid2.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc2__matmul_kernel_plain i arg2 harg2 arg3 harg3 arg4 harg4 arg5 harg5 arg6 harg6) K } := by
  refine ⟨⟨?_, ?_⟩, fun E K => ?run⟩
  case run =>
    simp only [cc2__matmul_kernel_plain_eq_skeleton]; unfold cc2__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x512 .bf16 := (Memref.whole cc2_stg3_0 : Memref sig .tc .vmem S1024x512 .bf16).view

/-- The stores into the result's buffer tile it (one store of the whole tile), so they cover it. -/
theorem cover (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) (y : S1024x512.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x512.size (by sl_kernel_rfl) y

/-- What the body leaves in the result's buffer: its pieces read back. -/
def out (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) : Vec F S1024x512 .bf16 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each window's current staging memref at point `t`, and its wholeness. -/
abbrev ms0 (t : Fin cfg2.N) : Memref sig .tc .vmem S1024x512 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x512 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x512 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x512 .bf16 := win2_3.stage (cfg2.slots t 3)
abbrev hs3 (t : Fin cfg2.N) : (ms3 t).IsWhole := hstage2_3 ((cfg2.slots t 3).cast nbuf2_3)
abbrev msS : Memref sig .tc .vmem S1024x512 .f32 := Memref.whole cc2_scratch0
abbrev hsS : (msS).IsWhole := Memref.isWhole_whole _

/-- The tile of the result that point `t` writes: the body's result on the point's three input blocks. -/
def outAt (c : Dev nD) (t : Fin cfg2.N) : Vec F S1024x512 .bf16 :=
  out c (grid2.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outAt V c t := by dsimp only [dat]

/-- Each input's current staging buffer holds its block at every point, fetched there or not: where it is not fetched
    its block index has not moved. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = Pipeline.ΦA spec2 c from rfl, show (dat V c).Φ t.castSucc = Pipeline.ΦA spec2 c from rfl,
    show (dat V c).owesAt () t.succ = (dat V c).owesAt () t.castSucc from rfl,
    after_0, after_1, after_2, after_3]
  unfold Pipeline.ΦA
  rw [scopedRest2_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid2.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg2.N) : idle2 3 (grid2.coords t) = false := by
  show (!(k2_cond2 (grid2.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.Kernel.XW2

end
-- ==== Proof.BitsAgg2.lean ====
/-
  The fourth matrix product of the kernel program: the dense normalised adjacency (10240 x 10240) times the second
  layer's projected features (10240 x 512), plus the second bias row, clipped below at zero. The grid is ten row tiles
  by ten column blocks of 1024; a point (i, k) adds the product of block (i, k) of the adjacency with block k of the
  features into an accumulator the body keeps between points: reset when k = 0, and when k = 9 the bias row is added,
  the maximum with zero taken and the tile of the result stored. Here: the body in its three cases (first, middle and
  last block of a row tile), what the accumulator holds after each point, and the pipeline's account of the hundred points.
-/
import proofs.«110679_j6047313952840_1_alg».proof.Proof.Gen.Kernel.Launch
import proofs.«110679_j6047313952840_1_alg».proof.Proof.Gen.Kernel.Skeleton
import proofs.«110679_j6047313952840_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero: -/
abbrev condReset (i : grid3.Coords) : Prop :=
  (Scalar.cmpi .ne (Scalar.extui (Scalar.cmpi .eq (BitVec.ofNat 32 (i 1).val) 0#32)) 0#32) = 1#1
/-- at the first of each ten consecutive points; -/
theorem hreset : ∀ t : Fin cfg3.N, condReset (grid3.coords t) ↔ t.val % 10 = 0 :=
  (by decide +kernel : ∀ t : Fin grid3.N, condReset (grid3.coords t) ↔ t.val % 10 = 0)
/-- the result is stored when the second coordinate is nine: at the last of each ten. -/
theorem hstore : ∀ t : Fin cfg3.N, k3_cond2 (grid3.coords t) = 1#1 ↔ t.val % 10 = 9 :=
  (by decide +kernel : ∀ t : Fin grid3.N, k3_cond2 (grid3.coords t) = 1#1 ↔ t.val % 10 = 9)

theorem not_reset (t : Fin cfg3.N) (h : ¬ t.val % 10 = 0) : ¬ condReset (grid3.coords t) := fun hr => h ((hreset t).mp hr)
theorem not_store (t : Fin cfg3.N) (h : ¬ t.val % 10 = 9) : ¬ k3_cond2 (grid3.coords t) = 1#1 := fun hs => h ((hstore t).mp hs)

/-! ## The body in its three cases -/

set_option maxHeartbeats 1000000 in
/-- First block of a row tile: the accumulator is reset, then the block's product added; nothing is stored into the
    result's buffer and the bias row is not read. -/
noncomputable def runFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1)
    (x0 : Vec F S1024x1024 .bf16) (x1 : Vec F S1024x512 .bf16) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc3__matmul_kernel_relu i arg2 harg2 arg3 harg3 arg4 harg4 arg5 harg5 arg6 harg6) K } := by
  refine ⟨?_, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%d4, %f4, -, H4⟩, Hk⟩
    obtain rfl := harg2.eq_unread hf0
    obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- A middle block: the block's product is added into the accumulator as it stands. -/
noncomputable def runMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1)
    (x0 : Vec F S1024x1024 .bf16) (x1 : Vec F S1024x512 .bf16) (xs : Vec F S1024x512 .f32) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc3__matmul_kernel_relu i arg2 harg2 arg3 harg3 arg4 harg4 arg5 harg5 arg6 harg6) K } := by
  refine ⟨?_, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%f4, %hf4, H4⟩, Hk⟩
    obtain rfl := harg2.eq_unread hf0
    obtain rfl := harg3.eq_unread hf1
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H4

set_option maxHeartbeats 1000000 in
/-- Last block of a row tile: the block's product is added into the accumulator, then the bias row is added to it, the
    maximum with zero taken and the tile stored into the result's buffer. -/
noncomputable def runLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1)
    (x0 : Vec F S1024x1024 .bf16) (x1 : Vec F S1024x512 .bf16) (x2 : Vec F S1x512 .f32) (xs : Vec F S1024x512 .f32) :
    { L : List (View.Piece (Elt F) S1024x512 .bf16) × List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc3__matmul_kernel_relu i arg2 harg2 arg3 harg3 arg4 harg4 arg5 harg5 arg6 harg6) K } := by
  refine ⟨⟨?_, ?_⟩, fun E K => ?run⟩
  case run =>
    simp only [cc3__matmul_kernel_relu_eq_skeleton]; unfold cc3__matmul_kernel_relu_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0
    obtain rfl := harg3.eq_unread hf1
    obtain rfl := harg4.eq_unread hf2
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- The accumulator's buffer and one staging buffer of the result's window, through which contents are stated. -/
abbrev VS : View sig .tc .vmem S1024x512 .f32 := (Memref.whole cc3_scratch0 : Memref sig .tc .vmem S1024x512 .f32).view
abbrev VO : View sig .tc .vmem S1024x512 .bf16 := (Memref.whole cc3_stg3_0 : Memref sig .tc .vmem S1024x512 .bf16).view

/-- In each case the stores into the accumulator (and, in the last, into the result's buffer) cover the buffer. -/
theorem coverFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1) (x0 : Vec F S1024x1024 .bf16) (x1 : Vec F S1024x512 .bf16) (y : S1024x512.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x512.size (by sl_kernel_rfl) y
theorem coverMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1) (x0 : Vec F S1024x1024 .bf16) (x1 : Vec F S1024x512 .bf16) (xs : Vec F S1024x512 .f32) (y : S1024x512.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x512.size (by sl_kernel_rfl) y
theorem coverLastAcc (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.2, y ∈ pc.1.set :=
  View.cover_of_tiledL (runLast c i arg2 harg2 arg3 harg3 arg4 harg4 arg5 harg5 arg6 harg6 hc0 hc1 x0 x1 x2 xs).1.2 S1024x512.size (by sl_kernel_rfl) y
theorem coverLastOut (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1.1, y ∈ pc.1.set :=
  View.cover_of_tiledL (runLast c i arg2 harg2 arg3 harg3 arg4 harg4 arg5 harg5 arg6 harg6 hc0 hc1 x0 x1 x2 xs).1.1 S1024x512.size (by sl_kernel_rfl) y

/-- What each case leaves in the accumulator, and the last in the result's buffer: its pieces read back. -/
def accFirst (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1) (x0 : Vec F S1024x1024 .bf16) (x1 : Vec F S1024x512 .bf16) : Vec F S1024x512 .f32 :=
  VS.read (Elt F) (VS.writes (Elt F) VS.junk (runFirst c i arg2 harg2 arg3 harg3 arg4 harg4 arg5 harg5 arg6 harg6 hc0 hc1 x0 x1).1)
def accMid (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1) (x0 : Vec F S1024x1024 .bf16) (x1 : Vec F S1024x512 .bf16) (xs : Vec F S1024x512 .f32) : Vec F S1024x512 .f32 :=
  VS.read (Elt F) (VS.writes (Elt F) VS.junk (runMid c i arg2 harg2 arg3 harg3 arg4 harg4 arg5 harg5 arg6 harg6 hc0 hc1 x0 x1 xs).1)
def accLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) : Vec F S1024x512 .f32 :=
  VS.read (Elt F) (VS.writes (Elt F) VS.junk (runLast c i arg2 harg2 arg3 harg3 arg4 harg4 arg5 harg5 arg6 harg6 hc0 hc1 x0 x1 x2 xs).1.2)
def outLast (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1) (x0 : Vec F S1024x1024 .bf16) (x1 : Vec F S1024x512 .bf16) (x2 : Vec F S1x512 .f32) (xs : Vec F S1024x512 .f32) : Vec F S1024x512 .bf16 :=
  VO.read (Elt F) (VO.writes (Elt F) VO.junk (runLast c i arg2 harg2 arg3 harg3 arg4 harg4 arg5 harg5 arg6 harg6 hc0 hc1 x0 x1 x2 xs).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S1024x512 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x512 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x512 .bf16 := win3_3.stage (cfg3.slots t 3)
abbrev hs3 (t : Fin cfg3.N) : (ms3 t).IsWhole := hstage3_3 ((cfg3.slots t 3).cast nbuf3_3)
abbrev msS : Memref sig .tc .vmem S1024x512 .f32 := Memref.whole cc3_scratch0
abbrev hsS : (msS).IsWhole := Memref.isWhole_whole _

/-- One point's effect on the accumulator: the case the point is in, run on the point's blocks, from what the
    accumulator held (which the first block of a row tile does not read). Beyond the grid, nothing. -/
def accStep (c : Dev nD) (n : ℕ) (prev : Vec F S1024x512 .f32) : Vec F S1024x512 .f32 :=
  if h : n < cfg3.N then
    (if h0 : n % 10 = 0 then
       accFirst c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS ((hreset ⟨n, h⟩).mpr h0) (not_store ⟨n, h⟩ (by show ¬ n % 10 = 9; omega)) (iblk V c 0 ⟨n, h⟩) (iblk V c 1 ⟨n, h⟩)
     else if h9 : n % 10 = 9 then
       accLast c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) ((hstore ⟨n, h⟩).mpr h9) (iblk V c 0 ⟨n, h⟩) (iblk V c 1 ⟨n, h⟩) (iblk V c 2 ⟨n, h⟩) prev
     else
       accMid c (grid3.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) msS hsS (not_reset ⟨n, h⟩ h0) (not_store ⟨n, h⟩ h9) (iblk V c 0 ⟨n, h⟩) (iblk V c 1 ⟨n, h⟩) prev)
  else prev

/-- THE ACCUMULATION: what the accumulator holds after the body at point `n`. -/
def accAt (c : Dev nD) : ℕ → Vec F S1024x512 .f32
  | 0 => accStep V c 0 (VS.read (Elt F) VS.junk)
  | n + 1 => accStep V c (n + 1) (accAt c n)

theorem accAt_pos (c : Dev nD) (n : ℕ) (hn : n ≠ 0) : accAt V c n = accStep V c n (accAt V c (n - 1)) := by
  cases n with
  | zero => exact absurd rfl hn
  | succ n => rfl

theorem accStep_first (c : Dev nD) (t : Fin cfg3.N) (h0 : t.val % 10 = 0) (prev : Vec F S1024x512 .f32) :
    accStep V c t.val prev = accFirst c (grid3.coords t) (ms0 t) (hs0 t) (ms1 t) (hs1 t) (ms2 t) (hs2 t) (ms3 t) (hs3 t) msS hsS ((hreset t).mpr h0) (not_store t (fun h9 => by omega)) (iblk V c 0 t) (iblk V c 1 t) := by
  unfold accStep; rw [dif_pos t.isLt, dif_pos h0]
theorem accStep_last (c : Dev nD) (t : Fin cfg3.N) (h0 : ¬ t.val % 10 = 0) (h9 : t.val % 10 = 9) (prev : Vec F S1024x512 .f32) :
    accStep V c t.val prev = accLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) prev := by
  unfold accStep; rw [dif_pos t.isLt, dif_neg h0, dif_pos h9]
theorem accStep_mid (c : Dev nD) (t : Fin cfg3.N) (h0 : ¬ t.val % 10 = 0) (h9 : ¬ t.val % 10 = 9) (prev : Vec F S1024x512 .f32) :
    accStep V c t.val prev = accMid c (grid3.coords t) (ms0 t) (hs0 t) (ms1 t) (hs1 t) (ms2 t) (hs2 t) (ms3 t) (hs3 t) msS hsS (not_reset t h0) (not_store t h9) (iblk V c 0 t) (iblk V c 1 t) prev := by
  unfold accStep; rw [dif_pos t.isLt, dif_neg h0, dif_neg h9]

theorem accAt_first (c : Dev nD) (t : Fin cfg3.N) (h0 : t.val % 10 = 0) :
    accAt V c t.val = accFirst c (grid3.coords t) (ms0 t) (hs0 t) (ms1 t) (hs1 t) (ms2 t) (hs2 t) (ms3 t) (hs3 t) msS hsS ((hreset t).mpr h0) (not_store t (fun h9 => by omega)) (iblk V c 0 t) (iblk V c 1 t) := by
  by_cases hz : t.val = 0
  · have e : accAt V c t.val = accStep V c t.val (VS.read (Elt F) VS.junk) := by rw [hz]; rfl
    rw [e]; exact accStep_first V c t h0 _
  · rw [accAt_pos V c t.val hz]; exact accStep_first V c t h0 _

/-- The tile of the result that the last block of a row tile writes. -/
def outAt (c : Dev nD) (t : Fin cfg3.N) : Vec F S1024x512 .bf16 :=
  if h9 : t.val % 10 = 9 then
    outLast c (grid3.coords t) (ms0 t) (hs0 t) (ms1 t) (hs1 t) (ms2 t) (hs2 t) (ms3 t) (hs3 t) msS hsS (not_reset t (fun h0 => by omega)) ((hstore t).mpr h9) (iblk V c 0 t) (iblk V c 1 t) (iblk V c 2 t) (accAt V c (t.val - 1))
  else VO.read (Elt F) VO.junk

/-- The invariant between points: the accumulator's buffer at some contents — after a point that is not the last of
    its row tile, what the accumulation says — beside the other scoped buffers that are no staging buffer and the
    generator register. -/
def inv (c : Dev nD) (t : Fin (cfg3.N + 1)) : sProp 𝕄 :=
  iprop((∃ f : Vec F S1024x512 .f32, ⌜¬ t.val % 10 = 0 → f = accAt V c (t.val - 1)⌝ ∗ owns (c : Thread nD τ) msS fullShare f)
    ∗ Pipeline.scopedRestBut (Ix := Unit) (Name := ℕ) (U := UR sig nD τ) (Lvl := ℕ) (Val := Elt F) spec3 c [cc3_scratch0]
    ∗ ∃ r, prngReg c r)

/-- The proof data of this pipeline on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = outAt V c t := by dsimp only [dat]

theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- what it returns at a point that stores the tile, -/
def bodyPostStore (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- and at a point that does not: the result's buffer as it was found. -/
def bodyPostKeep (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ (∃ d, owns (c : Thread nD τ) (st3_3 t) fullShare ((dat V c).before 3 t d)))

set_option maxHeartbeats 1600000 in
/-- A point that does not store the tile (the first or a middle block of a row tile). -/
theorem sound_keep (c : Dev nD) (t : Fin cfg3.N) (h9 : ¬ t.val % 10 = 9) :
    bodyPre V c t ⊢ wp frame (wpE (defs₀ (F := F)) Variants.none c none) Set.univ (bodyAt3 t) (fun _ => bodyPostKeep V c t) := by
  unfold bodyPre bodyPostKeep bodyAt3
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2]
  unfold inv
  have hsucc : ¬ (t.succ : Fin (cfg3.N + 1)).val % 10 = 0 := by rw [Fin.val_succ]; omega
  have hprev : (t.succ : Fin (cfg3.N + 1)).val - 1 = t.val := by rw [Fin.val_succ]; omega
  iintro ⟨⟨⟨%fs, %hfs, Hs⟩, Hrest, Hp⟩, Ho, ⟨%d0, H0⟩, ⟨%d1, H1⟩, ⟨%d2, H2⟩, ⟨%d3, H3⟩⟩
  by_cases h0 : t.val % 10 = 0
  · iapply ((runFirst c (grid3.coords t) (ms0 t) (hs0 t) (ms1 t) (hs1 t) (ms2 t) (hs2 t) (ms3 t) (hs3 t) msS hsS ((hreset t).mpr h0) (not_store t h9) (iblk V c 0 t) (iblk V c 1 t)).2 Set.univ _)
    isplitl [H0]; · iexact H0
    isplitl [H1]; · iexact H1
    isplitl [Hs]; · iexists fs; iexact Hs
    iintro ⟨H0, H1, ⟨%e4, H4⟩⟩
    isplitl [H4 Hrest Hp]
    · isplitl [H4]
      · iexists (accFirst c (grid3.coords t) (ms0 t) (hs0 t) (ms1 t) (hs1 t) (ms2 t) (hs2 t) (ms3 t) (hs3 t) msS hsS ((hreset t).mpr h0) (not_store t h9) (iblk V c 0 t) (iblk V c 1 t))
        isplitr
        · ipureintro; intro _; rw [hprev]; exact (accAt_first V c t h0).symm
        unfold owns accFirst; iexists _; isplitr
        swap; · iexact H4
        ipureintro; exact View.read_writes_of_cover _ _ _ _ _ (coverFirst c _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3
  · have hfs' : fs = accAt V c (t.val - 1) := hfs h0
    subst hfs'
    iapply ((runMid c (grid3.coords t) (ms0 t) (hs0 t) (ms1 t) (hs1 t) (ms2 t) (hs2 t) (ms3 t) (hs3 t) msS hsS (not_reset t h0) (not_store t h9) (iblk V c 0 t) (iblk V c 1 t) (accAt V c (t.val - 1))).2 Set.univ _)
    isplitl [H0]; · iexact H0
    isplitl [H1]; · iexact H1
    isplitl [Hs]; · iexact Hs
    iintro ⟨H0, H1, ⟨%e4, H4⟩⟩
    isplitl [H4 Hrest Hp]
    · isplitl [H4]
      · iexists (accMid c (grid3.coords t) (ms0 t) (hs0 t) (ms1 t) (hs1 t) (ms2 t) (hs2 t) (ms3 t) (hs3 t) msS hsS (not_reset t h0) (not_store t h9) (iblk V c 0 t) (iblk V c 1 t) (accAt V c (t.val - 1)))
        isplitr
        · ipureintro; intro _; rw [hprev, accAt_pos V c t.val (fun e => h0 (by rw [e]))]; exact (accStep_mid V c t h0 h9 _).symm
        unfold owns accMid; iexists _; isplitr
        swap; · iexact H4
        ipureintro; exact View.read_writes_of_cover _ _ _ _ _ (coverMid c _ _ _ _ _ _ _ _ _ _ _ _ _ _ _ _)
      isplitl [Hrest]; · iexact Hrest
      iexact Hp
    isplitl [Ho]; · iexact Ho
    isplitl [H0]; · iexact H0
    isplitl [H1]; · iexact H1
    isplitl [H2]; · iexact H2
    iexists d3; iexact H3

set_option maxHeartbeats 1600000 in
/-- The last block of a row tile: the tile is stored, and the accumulator is left for the next row tile to reset. -/
theorem sound_store (c : Dev nD) (t : Fin cfg3.N) (h9 : t.val % 10 = 9) :
    bodyPre V c t ⊢ wp frame (wpE (defs₀ (F := F)) Variants.none c none) Set.univ (bodyAt3 t) (fun _ => bodyPostStore V c t) := by
  unfold bodyPre bodyPostStore bodyAt3
  simp only [before_0, before_1, before_2]
  rw [show (dat V c).Φ t.succ = inv V c t.succ from rfl, show (dat V c).Φ t.castSucc = inv V c t.castSucc from rfl,
    show (dat V c).owesAt () t.succ = (dat V c).owesAt () t.castSucc from rfl,
    after_0, after_1, after_2, after_3]
  unfold inv
  have h0 : ¬ t.val % 10 = 0 := by omega
  have hsucc : (t.succ : Fin (cfg3.N + 1)).val % 10 = 0 := by rw [Fin.val_succ]; omega
  iintro ⟨⟨⟨%fs, %hfs, Hs⟩, Hrest, Hp⟩, Ho, ⟨%d0, H0⟩, ⟨%d1, H1⟩, ⟨%d2, H2⟩, ⟨%d3, H3⟩⟩
  have hfs' : fs = accAt V c (t.val - 1) := hfs h0
  subst hfs'
  iapply ((runLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%e4, H4⟩⟩
  isplitl [H4 Hrest Hp]
  · isplitl [H4]
    · iexists (accLast c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1)))
      isplitr
      · ipureintro; intro h; exact absurd hsucc h
      unfold owns accLast; iexists _; isplitr
      swap; · iexact H4
      ipureintro; exact View.read_writes_of_cover _ _ _ _ _ (coverLastAcc c _ _ _ _ _ _ _ _ _ _ _ _ _ _ _ _ _)
    isplitl [Hrest]; · iexact Hrest
    iexact Hp
  isplitl [Ho]; · iexact Ho
  isplitl [H0]; · iexact H0
  isplitl [H1]; · iexact H1
  isplitl [H2]; · iexact H2
  unfold outAt; rw [dif_pos h9]
  unfold owns outLast; iexists _; isplitr
  swap; · iexact H3
  ipureintro; exact View.read_writes_of_cover _ _ _ _ _ (coverLastOut c _ _ _ _ _ _ _ _ _ _ _ _ _ _ _ _ _)

/-- Where the result's window is idle: at the points that do not store the tile. -/
theorem idle_3 (t : Fin cfg3.N) : idle3 3 (grid3.coords t) = !(decide (t.val % 10 = 9)) := by
  show (!(k3_cond2 (grid3.coords t) == 1#1)) = !(decide (t.val % 10 = 9))
  by_cases h9 : t.val % 10 = 9
  · rw [(hstore t).mpr h9, decide_eq_true h9]; rfl
  · rw [decide_eq_false h9]
    have : ¬ k3_cond2 (grid3.coords t) = 1#1 := not_store t h9
    simp only [beq_iff_eq, this, Bool.not_false, Bool.not_eq_true', beq_eq_false_iff_ne, ne_eq, not_false_eq_true]

/-- The library's body obligation, at every point. -/
theorem body_obligation (c : Dev nD) : BodyObligation (dat (F := F) V c) (defs₀ (F := F)) Variants.none () Set.univ := fun t => by
  rw [bigSep_W3, bigSep_W3]
  dsimp only
  rw [idle_3 t]
  by_cases h9 : t.val % 10 = 9
  · rw [decide_eq_true h9]
    exact sound_store V c t h9
  · rw [decide_eq_false h9, show (win3 3).flush t = false from Bool.eq_false_iff.mpr fun h => h9 ((flush3_3 t).mp h)]
    exact sound_keep V c t h9

end Region

end Cert.Kernel.Agg2

end
-- ==== Proof.BitsLogits.lean ====
/-
  The last matrix product of the kernel program: the second layer's activations (10240 x 512) times the output weight
  matrix (512 x 16) plus the output bias row, row tile by row tile, kept in f32. Ten grid points, one per tile of 1024
  rows; the contraction is one block long, so at every point the body resets its accumulator, adds the tile's product
  into it, adds the bias row and stores the tile of the logits. Here: that body run at a point, what it leaves in the
  result's buffer, and the pipeline's account of the ten points.
-/
import proofs.«110679_j6047313952840_1_alg».proof.Proof.Gen.Kernel.Launch
import proofs.«110679_j6047313952840_1_alg».proof.Proof.Gen.Kernel.Skeleton
import proofs.«110679_j6047313952840_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Logits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, over the grid -/

/-- The accumulator is reset when the second grid coordinate is zero; -/
abbrev condReset (i : grid4.Coords) : Prop :=
  (Scalar.cmpi .ne (Scalar.extui (Scalar.cmpi .eq (BitVec.ofNat 32 (i 1).val) 0#32)) 0#32) = 1#1
/-- it is zero at every point of the grid (the contraction axis has extent one), -/
theorem hreset : ∀ t : Fin cfg4.N, condReset (grid4.coords t) :=
  (by decide +kernel : ∀ t : Fin grid4.N, condReset (grid4.coords t))
/-- and it is also the last, so the result is stored at every point. -/
theorem hstore : ∀ t : Fin cfg4.N, k4_cond2 (grid4.coords t) = 1#1 :=
  (by decide +kernel : ∀ t : Fin grid4.N, k4_cond2 (grid4.coords t) = 1#1)

/-! ## The body at a point -/

set_option maxHeartbeats 1000000 in
/-- The body where both branches are taken: the three input blocks are left as they were; the result's buffer and the
    accumulator end at the pieces the stores wrote, which the run finds. -/
noncomputable def run (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) :
    { L : List (View.Piece (Elt F) S1024x16 .f32) × List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc4__matmul_kernel_plain i arg2 harg2 arg3 harg3 arg4 harg4 arg5 harg5 arg6 harg6) K } := by
  refine ⟨⟨?_, ?_⟩, fun E K => ?run⟩
  case run =>
    simp only [cc4__matmul_kernel_plain_eq_skeleton]; unfold cc4__matmul_kernel_plain_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-- One staging buffer of the result's window, through which its contents are stated (the choice does not matter). -/
abbrev VO : View sig .tc .vmem S1024x16 .f32 := (Memref.whole cc4_stg3_0 : Memref sig .tc .vmem S1024x16 .f32).view

/-- The stores into the result's buffer tile it (one store of the whole tile), so they cover it. -/
theorem cover (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) (y : S1024x16.Idx) :
    ∃ pc ∈ (run c i arg2 harg2 arg3 harg3 arg4 harg4 arg5 harg5 arg6 harg6 hc0 hc1 x0 x1 x2).1.1, y ∈ pc.1.set :=
  View.cover_of_tiledL (run c i arg2 harg2 arg3 harg3 arg4 harg4 arg5 harg5 arg6 harg6 hc0 hc1 x0 x1 x2).1.1 S1024x16.size (by sl_kernel_rfl) y

/-- What the body leaves in the result's buffer: its pieces read back. -/
def out (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) : Vec F S1024x16 .f32 :=
  VO.read (Elt F) (VO.writes (Elt F) VO.junk (run c i arg2 harg2 arg3 harg3 arg4 harg4 arg5 harg5 arg6 harg6 hc0 hc1 x0 x1 x2).1.1)

/-! ## The region at the contents it is entered with -/

section Region

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each window's current staging memref at point `t`, and its wholeness. -/
abbrev ms0 (t : Fin cfg4.N) : Memref sig .tc .vmem S1024x512 .bf16 := win4_0.stage (cfg4.slots t 0)
abbrev hs0 (t : Fin cfg4.N) : (ms0 t).IsWhole := hstage4_0 ((cfg4.slots t 0).cast nbuf4_0)
abbrev ms1 (t : Fin cfg4.N) : Memref sig .tc .vmem S512x16 .bf16 := win4_1.stage (cfg4.slots t 1)
abbrev hs1 (t : Fin cfg4.N) : (ms1 t).IsWhole := hstage4_1 ((cfg4.slots t 1).cast nbuf4_1)
abbrev ms2 (t : Fin cfg4.N) : Memref sig .tc .vmem S1x16 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S1024x16 .f32 := win4_3.stage (cfg4.slots t 3)
abbrev hs3 (t : Fin cfg4.N) : (ms3 t).IsWhole := hstage4_3 ((cfg4.slots t 3).cast nbuf4_3)
abbrev msS : Memref sig .tc .vmem S1024x16 .f32 := Memref.whole cc4_scratch0
abbrev hsS : (msS).IsWhole := Memref.isWhole_whole _

/-- The tile of the result that point `t` writes: the body's result on the point's three input blocks. -/
def outAt (c : Dev nD) (t : Fin cfg4.N) : Vec F S1024x16 .f32 :=
  out c (grid4.coords t) (ms0 t) (hs0 t) (ms1 t) (hs1 t) (ms2 t) (hs2 t) (ms3 t) (hs3 t) msS hsS (hreset t) (hstore t)
    (iblk V c 0 t) (iblk V c 1 t) (iblk V c 2 t)

/-- The proof data of this pipeline on core `c`: the arrays as the region finds them; after the body at point `t` each
    input's buffer at its block and the result's at the tile the point writes; the invariant is the scoped buffers that
    are no staging buffer (the accumulator among them, at anything: every point resets it before reading it) and the
    generator register; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec4 c
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = outAt V c t := by dsimp only [dat]

/-- Each input's current staging buffer holds its block at every point, fetched there or not: where it is not fetched
    its block index has not moved. -/
theorem before_0 (c : Dev nD) (t : Fin cfg4.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg4.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg4.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

set_option maxHeartbeats 800000 in
/-- The body at any point: the inputs' buffers hold their blocks, the accumulator is taken out of the scoped rest at
    whatever it holds and put back at whatever the body leaves, and the body's run applies. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = Pipeline.ΦA spec4 c from rfl, show (dat V c).Φ t.castSucc = Pipeline.ΦA spec4 c from rfl,
    show (dat V c).owesAt () t.succ = (dat V c).owesAt () t.castSucc from rfl,
    after_0, after_1, after_2, after_3]
  unfold Pipeline.ΦA
  rw [scopedRest4_split]
  iintro ⟨⟨⟨⟨%fs, Hs⟩, Hrest⟩, Hp⟩, Ho, ⟨%d0, H0⟩, ⟨%d1, H1⟩, ⟨%d2, H2⟩, ⟨%d3, H3⟩⟩
  unfold outAt out
  iapply ((run c (grid4.coords t) _ _ _ _ _ _ _ _ msS hsS (hreset t) (hstore t) (iblk V c 0 t) (iblk V c 1 t) (iblk V c 2 t)).2 Set.univ _)
  isplitl [H0]; · iexact H0
  isplitl [H1]; · iexact H1
  isplitl [H2]; · iexact H2
  isplitl [H3]; · iexists _; iexact H3
  isplitl [Hs]
  · iexists fs; rw [owns_whole]; iexact Hs
  iintro ⟨H0, H1, H2, ⟨%e3, H3⟩, ⟨%e4, H4⟩⟩
  isplitl [H4 Hrest Hp]
  · isplitl [H4 Hrest]
    · isplitl [H4]
      · iexists _
        simp only [Memref.view_whole, View.set_whole]
        iexact H4
      iexact Hrest
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _ _ _)

/-- The result's window is never idle: the body stores the tile at every point. -/
theorem live_3 (t : Fin cfg4.N) : idle4 3 (grid4.coords t) = false := by
  show (!(k4_cond2 (grid4.coords t) == 1#1)) = false
  rw [hstore t]; rfl

/-- The library's body obligation, at every point. -/
theorem body_obligation (c : Dev nD) : BodyObligation (dat (F := F) V c) (defs₀ (F := F)) Variants.none () Set.univ := fun t => by
  rw [bigSep_W0, bigSep_W0]
  dsimp only
  rw [live_3 t]
  exact sound_body V c t

end Region

end Cert.Kernel.Logits

end
-- ==== Proof.BitsRun.lean ====
/-
  The kernel program's run, from the launch to the return: @main is a stretch of host operations (the degree count,
  the normalisation, the dense adjacency, the padding and the changes of format), five kernel regions back to back
  (the five matrix products), and a last stretch of host operations (the first 10000 rows and the softmax). Between
  two items every unscoped buffer of the core is held whole at contents named here (`W0` … `W7`): the launch memory,
  then what the host operations compute, then after each region its arrays at what the pipeline leaves. Every weakly
  fair execution terminates, nothing faulting, and ends with every unscoped buffer at `W7` (`run`).
-/
import proofs.«110679_j6047313952840_1_alg».proof.Proof.BitsXW1
import proofs.«110679_j6047313952840_1_alg».proof.Proof.BitsAgg1
import proofs.«110679_j6047313952840_1_alg».proof.Proof.BitsXW2
import proofs.«110679_j6047313952840_1_alg».proof.Proof.BitsAgg2
import proofs.«110679_j6047313952840_1_alg».proof.Proof.BitsLogits
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the result's write-backs
    folded), every other buffer as entered. -/
def W2 (c : Dev nD) : Valuation τ sig (Elt F) :=
  Pipeline.withArrays spec0 c (W1 m ρ c) fun w => (XW1.dat (V1 m ρ) c).arrAt w cfg0.N
theorem W2_arr (c : Dev nD) (w : Fin cfg0.W) :
    W2 m ρ c (Proc.devRef .tc (Pipeline.arrRef spec0 w)) = (XW1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (XW1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the result's write-backs
    folded), every other buffer as entered. -/
def W3 (c : Dev nD) : Valuation τ sig (Elt F) :=
  Pipeline.withArrays spec1 c (W2 m ρ c) fun w => (Agg1.dat (V2 m ρ) c).arrAt w cfg1.N
theorem W3_arr (c : Dev nD) (w : Fin cfg1.W) :
    W3 m ρ c (Proc.devRef .tc (Pipeline.arrRef spec1 w)) = (Agg1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Agg1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the result's write-backs
    folded), every other buffer as entered. -/
def W4 (c : Dev nD) : Valuation τ sig (Elt F) :=
  Pipeline.withArrays spec2 c (W3 m ρ c) fun w => (XW2.dat (V3 m ρ) c).arrAt w cfg2.N
theorem W4_arr (c : Dev nD) (w : Fin cfg2.W) :
    W4 m ρ c (Proc.devRef .tc (Pipeline.arrRef spec2 w)) = (XW2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (XW2.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, the result's write-backs
    folded), every other buffer as entered. -/
def W5 (c : Dev nD) : Valuation τ sig (Elt F) :=
  Pipeline.withArrays spec3 c (W4 m ρ c) fun w => (Agg2.dat (V4 m ρ) c).arrAt w cfg3.N
theorem W5_arr (c : Dev nD) (w : Fin cfg3.W) :
    W5 m ρ c (Proc.devRef .tc (Pipeline.arrRef spec3 w)) = (Agg2.dat (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (Agg2.dat (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, the result's write-backs
    folded), every other buffer as entered. -/
def W6 (c : Dev nD) : Valuation τ sig (Elt F) :=
  Pipeline.withArrays spec4 c (W5 m ρ c) fun w => (Logits.dat (V5 m ρ) c).arrAt w cfg4.N
theorem W6_arr (c : Dev nD) (w : Fin cfg4.W) :
    W6 m ρ c (Proc.devRef .tc (Pipeline.arrRef spec4 w)) = (Logits.dat (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (Logits.dat (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After the last stretch of host operations: the return. -/
abbrev W7 : Dev nD → Valuation τ sig (Elt F) := fun c => StableHlo.after hostOps5 (W6 m ρ c)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => XW1.dat (V1 m ρ) c
  | ⟨1, _⟩ => fun c => Agg1.dat (V2 m ρ) c
  | ⟨2, _⟩ => fun c => XW2.dat (V3 m ρ) c
  | ⟨3, _⟩ => fun c => Agg2.dat (V4 m ρ) c
  | ⟨4, _⟩ => fun c => Logits.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (XW1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the accumulator's buffer go into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Agg1.inv (V2 m ρ) c 0 from rfl]; unfold Agg1.inv
    rw [show (Pipeline.scopedRest (Ix := Unit) (Name := ℕ) (U := UR sig nD τ) (Lvl := ℕ) (Val := Elt F) (Pipeline.pin (pcfgs (F := F)) adm 1).spec c : sProp 𝕄) = _ from scopedRest1_split c]
    simp only [owns_whole]
    iintro ⟨Hp, -, ⟨⟨%f, Hs⟩, Hr⟩⟩
    isplitl [Hs]
    · iexists f; isplitr
      · ipureintro; intro h; exact (h (by simp)).elim
      iexact Hs
    isplitl [Hr]; · iexact Hr
    iexact Hp
  hout c := by
    rw [Pipeline.ownSems0_none, show (pdats m ρ 1 c).Φ (Fin.last _) = Agg1.inv (V2 m ρ) c (Fin.last _) from rfl]; unfold Agg1.inv
    rw [show (Pipeline.scopedRest (Ix := Unit) (Name := ℕ) (U := UR sig nD τ) (Lvl := ℕ) (Val := Elt F) (Pipeline.pin (pcfgs (F := F)) adm 1).spec c : sProp 𝕄) = _ from scopedRest1_split c]
    simp only [owns_whole]
    iintro ⟨⟨%f, -, Hs⟩, Hr, Hp⟩
    isplitl [Hp]; · iexact Hp
    isplitr; · iempintro
    isplitl [Hs]
    · iexists f; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at the exit contents; the generator register goes into
    the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (XW2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays are
    split out of the unscoped buffers and put back at the exit contents; the generator register and the accumulator's buffer go into
    the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Agg2.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Agg2.inv (V4 m ρ) c 0 from rfl]; unfold Agg2.inv
    rw [show (Pipeline.scopedRest (Ix := Unit) (Name := ℕ) (U := UR sig nD τ) (Lvl := ℕ) (Val := Elt F) (Pipeline.pin (pcfgs (F := F)) adm 3).spec c : sProp 𝕄) = _ from scopedRest3_split c]
    simp only [owns_whole]
    iintro ⟨Hp, -, ⟨⟨%f, Hs⟩, Hr⟩⟩
    isplitl [Hs]
    · iexists f; isplitr
      · ipureintro; intro h; exact (h (by simp)).elim
      iexact Hs
    isplitl [Hr]; · iexact Hr
    iexact Hp
  hout c := by
    rw [Pipeline.ownSems0_none, show (pdats m ρ 3 c).Φ (Fin.last _) = Agg2.inv (V4 m ρ) c (Fin.last _) from rfl]; unfold Agg2.inv
    rw [show (Pipeline.scopedRest (Ix := Unit) (Name := ℕ) (U := UR sig nD τ) (Lvl := ℕ) (Val := Elt F) (Pipeline.pin (pcfgs (F := F)) adm 3).spec c : sProp 𝕄) = _ from scopedRest3_split c]
    simp only [owns_whole]
    iintro ⟨⟨%f, -, Hs⟩, Hr, Hp⟩
    isplitl [Hp]; · iexact Hp
    isplitr; · iempintro
    isplitl [Hs]
    · iexists f; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are
    split out of the unscoped buffers and put back at the exit contents; the generator register goes into
    the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Logits.body_obligation (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's items as segments. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ), .region (reg4 m ρ),
    .host (hseg hostOps5 hostOps5_sub hostOps5_fresh (W6 m ρ)) ]
/-- @main IS the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped buffer of every core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps5 (W6 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Run

end
-- ==== Proof.BitsFrame.lean ====
/-
  The kernel program's frame: no host operation of either stretch writes an argument array and no region has one
  among its windows' arrays, so the last boundary's contents at an argument walk back to the launch memory; with the
  run this is the frame claim — every weakly fair execution terminates, nothing faulting, and the eight argument
  arrays end as launched.
-/
import proofs.«110679_j6047313952840_1_alg».proof.Proof.BitsRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first stretch of host operations writes no argument array. -/
theorem hostOps0_keeps (b : Ref sig .tc) (hb : b = main_arg0 ∨ b = main_arg1 ∨ b = main_arg2 ∨ b = main_arg3 ∨ b = main_arg4 ∨ b = main_arg5 ∨ b = main_arg6 ∨ b = main_arg7) (W : Valuation τ sig (Elt F)) :
    StableHlo.after hostOps0 W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl | rfl <;>
  · simp only [hostOps0, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- Nor does the last. -/
theorem hostOps5_keeps (b : Ref sig .tc) (hb : b = main_arg0 ∨ b = main_arg1 ∨ b = main_arg2 ∨ b = main_arg3 ∨ b = main_arg4 ∨ b = main_arg5 ∨ b = main_arg6 ∨ b = main_arg7) (W : Valuation τ sig (Elt F)) :
    StableHlo.after hostOps5 W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl | rfl <;>
  · simp only [hostOps5, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- An argument array is no window's array in any of the five regions. -/
theorem arg_not_window (b : Ref sig .tc) (hb : b = main_arg0 ∨ b = main_arg1 ∨ b = main_arg2 ∨ b = main_arg3 ∨ b = main_arg4 ∨ b = main_arg5 ∨ b = main_arg6 ∨ b = main_arg7) :
    (∀ w, Pipeline.arrRef spec0 w ≠ b) ∧ (∀ w, Pipeline.arrRef spec1 w ≠ b) ∧ (∀ w, Pipeline.arrRef spec2 w ≠ b)
      ∧ (∀ w, Pipeline.arrRef spec3 w ≠ b) ∧ (∀ w, Pipeline.arrRef spec4 w ≠ b) := by
  rcases hb with rfl | rfl | rfl | rfl | rfl | rfl | rfl | rfl <;> decide

/-- The last boundary's contents at an argument array are the launch memory's. -/
theorem W7_arg (c : Dev nD) (b : Ref sig .tc) (hb : b = main_arg0 ∨ b = main_arg1 ∨ b = main_arg2 ∨ b = main_arg3 ∨ b = main_arg4 ∨ b = main_arg5 ∨ b = main_arg6 ∨ b = main_arg7) :
    W7 m ρ c (Proc.devRef .tc b) = m ((c : Thread nD τ).loc b) := by
  obtain ⟨n0, n1, n2, n3, n4⟩ := arg_not_window b hb
  exact (hostOps5_keeps b hb (W6 m ρ c)).trans ((W6_of_ne m ρ c b n4).trans ((W5_of_ne m ρ c b n3).trans ((W4_of_ne m ρ c b n2).trans
    ((W3_of_ne m ρ c b n1).trans ((W2_of_ne m ρ c b n0).trans (hostOps0_keeps b hb (W0 m ρ c)))))))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W7_arg m ρ c main_arg0 (by decide)),
      (h c _ (mem_uc main_arg1 (by decide))).trans (W7_arg m ρ c main_arg1 (by decide)),
      (h c _ (mem_uc main_arg2 (by decide))).trans (W7_arg m ρ c main_arg2 (by decide)),
      (h c _ (mem_uc main_arg3 (by decide))).trans (W7_arg m ρ c main_arg3 (by decide)),
      (h c _ (mem_uc main_arg4 (by decide))).trans (W7_arg m ρ c main_arg4 (by decide)),
      (h c _ (mem_uc main_arg5 (by decide))).trans (W7_arg m ρ c main_arg5 (by decide)),
      (h c _ (mem_uc main_arg6 (by decide))).trans (W7_arg m ρ c main_arg6 (by decide)),
      (h c _ (mem_uc main_arg7 (by decide))).trans (W7_arg m ρ c main_arg7 (by decide))⟩)
    (run m ρ)

end Cert.Kernel.Run

end
-- ==== Proof.IdealKeep.lean ====
/-
  What the regions leave alone. A region's pipeline moves blocks of its input arrays into staging buffers and writes
  back blocks of its result array only, so at the region's exit every buffer other than the result array holds what it
  held at the entry. Hence an operand a later region reads — the adjacency, a weight matrix, a bias row — still holds
  what the first stretch of host operations computed, and each region's left operand is the region before's result.
-/
import proofs.«110679_j6047313952840_1_alg».proof.Proof.IdealRun

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Region 0 changes only its result array: every other buffer is at its exit what it was at its entry (an input
    window's array by the pipeline's account of an input, a buffer no window stages by bypassing the region). -/
theorem W2_keep (c : Dev nD) (b : Ref sig .tc) (hb : b ≠ main_v54) :
    W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((XW1.dat (V1 m ρ) c).arrAt_in 0 rfl _).trans (XW1.A_eq _ c 0)
    | ⟨1, _⟩, _ => exact ((XW1.dat (V1 m ρ) c).arrAt_in 1 rfl _).trans (XW1.A_eq _ c 1)
    | ⟨2, _⟩, _ => exact ((XW1.dat (V1 m ρ) c).arrAt_in 2 rfl _).trans (XW1.A_eq _ c 2)
    | ⟨3, _⟩, hb => exact absurd rfl hb
  · exact W2_of_ne m ρ c b (fun w e => h ⟨w, e⟩)

/-- Region 1 changes only its result array: every other buffer is at its exit what it was at its entry (an input
    window's array by the pipeline's account of an input, a buffer no window stages by bypassing the region). -/
theorem W3_keep (c : Dev nD) (b : Ref sig .tc) (hb : b ≠ main_v55) :
    W3 m ρ c (Proc.devRef .tc b) = W2 m ρ c (Proc.devRef .tc b) := by
  by_cases h : ∃ w, Pipeline.arrRef spec1 w = b
  · obtain ⟨w, rfl⟩ := h
    rw [W3_arr]
    match w, hb with
    | ⟨0, _⟩, _ => exact ((Agg1.dat (V2 m ρ) c).arrAt_in 0 rfl _).trans (Agg1.A_eq _ c 0)
    | ⟨1, _⟩, _ => exact ((Agg1.dat (V2 m ρ) c).arrAt_in 1 rfl _).trans (Agg1.A_eq _ c 1)
    | ⟨2, _⟩, _ => exact ((Agg1.dat (V2 m ρ) c).arrAt_in 2 rfl _).trans (Agg1.A_eq _ c 2)
    | ⟨3, _⟩, hb => exact absurd rfl hb
  · exact W3_of_ne m ρ c b (fun w e => h ⟨w, e⟩)

/-- Region 2 changes only its result array: every other buffer is at its exit what it was at its entry (an input
    window's array by the pipeline's account of an input, a buffer no window stages by bypassing the region). -/
theorem W4_keep (c : Dev nD) (b : Ref sig .tc) (hb : b ≠ main_v56) :
    W4 m ρ c (Proc.devRef .tc b) = W3 m ρ c (Proc.devRef .tc b) := by
  by_cases h : ∃ w, Pipeline.arrRef spec2 w = b
  · obtain ⟨w, rfl⟩ := h
    rw [W4_arr]
    match w, hb with
    | ⟨0, _⟩, _ => exact ((XW2.dat (V3 m ρ) c).arrAt_in 0 rfl _).trans (XW2.A_eq _ c 0)
    | ⟨1, _⟩, _ => exact ((XW2.dat (V3 m ρ) c).arrAt_in 1 rfl _).trans (XW2.A_eq _ c 1)
    | ⟨2, _⟩, _ => exact ((XW2.dat (V3 m ρ) c).arrAt_in 2 rfl _).trans (XW2.A_eq _ c 2)
    | ⟨3, _⟩, hb => exact absurd rfl hb
  · exact W4_of_ne m ρ c b (fun w e => h ⟨w, e⟩)

/-- Region 3 changes only its result array: every other buffer is at its exit what it was at its entry (an input
    window's array by the pipeline's account of an input, a buffer no window stages by bypassing the region). -/
theorem W5_keep (c : Dev nD) (b : Ref sig .tc) (hb : b ≠ main_v57) :
    W5 m ρ c (Proc.devRef .tc b) = W4 m ρ c (Proc.devRef .tc b) := by
  by_cases h : ∃ w, Pipeline.arrRef spec3 w = b
  · obtain ⟨w, rfl⟩ := h
    rw [W5_arr]
    match w, hb with
    | ⟨0, _⟩, _ => exact ((Agg2.dat (V4 m ρ) c).arrAt_in 0 rfl _).trans (Agg2.A_eq _ c 0)
    | ⟨1, _⟩, _ => exact ((Agg2.dat (V4 m ρ) c).arrAt_in 1 rfl _).trans (Agg2.A_eq _ c 1)
    | ⟨2, _⟩, _ => exact ((Agg2.dat (V4 m ρ) c).arrAt_in 2 rfl _).trans (Agg2.A_eq _ c 2)
    | ⟨3, _⟩, hb => exact absurd rfl hb
  · exact W5_of_ne m ρ c b (fun w e => h ⟨w, e⟩)

/-- Region 4 changes only its result array: every other buffer is at its exit what it was at its entry (an input
    window's array by the pipeline's account of an input, a buffer no window stages by bypassing the region). -/
theorem W6_keep (c : Dev nD) (b : Ref sig .tc) (hb : b ≠ main_v58) :
    W6 m ρ c (Proc.devRef .tc b) = W5 m ρ c (Proc.devRef .tc b) := by
  by_cases h : ∃ w, Pipeline.arrRef spec4 w = b
  · obtain ⟨w, rfl⟩ := h
    rw [W6_arr]
    match w, hb with
    | ⟨0, _⟩, _ => exact ((Logits.dat (V5 m ρ) c).arrAt_in 0 rfl _).trans (Logits.A_eq _ c 0)
    | ⟨1, _⟩, _ => exact ((Logits.dat (V5 m ρ) c).arrAt_in 1 rfl _).trans (Logits.A_eq _ c 1)
    | ⟨2, _⟩, _ => exact ((Logits.dat (V5 m ρ) c).arrAt_in 2 rfl _).trans (Logits.A_eq _ c 2)
    | ⟨3, _⟩, hb => exact absurd rfl hb
  · exact W6_of_ne m ρ c b (fun w e => h ⟨w, e⟩)

end Cert.KernelIdeal.Run

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibWholeStore.lean ====
/-
  Whole-buffer stores read back. A kernel body that stores a whole buffer several times and then loads the whole
  buffer reads the LAST store's payload, whatever the earlier stores were: the form an accumulator takes when it is
  zeroed, added into and read again within one body.
-/
import Idealize.ShloMosaic.Lib.Pipeline.Value
import Idealize.ShloMosaic.Lib.Pipeline.FrameBody

noncomputable section

namespace Idealize.ShloMosaic.WholeStore

open Idealize.ShloMosaic

/-- A load of a whole buffer after several stores of the whole buffer reads the last store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, View.mem_set_unit_zero rfl inb y⟩), View.canon_cons_unit_zero rfl, View.ld_unit_zero rfl]

/-- The zero offsets of a rank-two rectangle, as a function. -/
theorem zero2 : (![0, 0] : Fin 2 → Nat) = fun _ => 0 := funext fun a => by fin_cases a <;> rfl

end Idealize.ShloMosaic.WholeStore

end
-- ==== Proof.Layer.lean ====
/-
  The kernel program's layers as whole-array functions on the extended reals, with plain row and column numbers:
  a matrix product with a bias row (`dense`), the same clipped below at zero (`denseRelu`), and the five of them
  composed as the kernel program composes them (`kernelLogits`): with `adj` the dense normalised adjacency and `xp`
  the padded features, logits = (relu(adj · (relu(adj · (xp · W1) + b1) · W2) + b2)) · Wout + bout, the two inner
  products without a bias (the program passes a zero bias row there). What a grid of row tiles and column blocks
  computes tile by tile is one of these functions read at an index; here they are only stated.
-/
import Mathlib

noncomputable section

namespace Cert.Layer

/-- Row `i`, column `j` of `a · b` plus the bias row. -/
def dense {M K N : ℕ} (a : Fin M → Fin K → EReal) (b : Fin K → Fin N → EReal) (bias : Fin N → EReal) (i : Fin M) (j : Fin N) : EReal :=
  (∑ k, a i k * b k j) + bias j

/-- The same, clipped below at zero. -/
def denseRelu {M K N : ℕ} (a : Fin M → Fin K → EReal) (b : Fin K → Fin N → EReal) (bias : Fin N → EReal) (i : Fin M) (j : Fin N) : EReal :=
  max ((∑ k, a i k * b k j) + bias j) 0

/-- The kernel program's logits on its 10240 padded rows. -/
def kernelLogits (adj : Fin 10240 → Fin 10240 → EReal) (xp : Fin 10240 → Fin 512 → EReal)
    (W1 : Fin 512 → Fin 512 → EReal) (b1 : Fin 512 → EReal) (W2 : Fin 512 → Fin 512 → EReal) (b2 : Fin 512 → EReal)
    (Wout : Fin 512 → Fin 16 → EReal) (bout : Fin 16 → EReal) : Fin 10240 → Fin 16 → EReal :=
  dense (denseRelu adj (dense (denseRelu adj (dense xp W1 (fun _ => 0)) b1) W2 (fun _ => 0)) b2) Wout bout

end Cert.Layer

end
-- ==== Proof.IdealXW1Value.lean ====
/-
  The first matrix product as ONE function of its three operand arrays: at row p and column q of the 10240 x 512
  result, the sum over the 512 contracted columns of the padded features at (p, k) times the weights at (k, q), plus the
  bias row at q (`final`). Step by step: what the body's stores leave is the store payload of the accumulate payload of
  the reset payload (`out_eq`); read at an index over the extended reals that is the sum plus the bias (`pay_apply`);
  point t writes back rows 1024 t … 1024 t + 1023 (`flushed_eq`), and the ten points cover the array.
-/
import proofs.«110679_j6047313952840_1_alg».proof.Proof.IdealXW1
import proofs.«110679_j6047313952840_1_alg».proof.Proof.LibPlainMatmul
import proofs.«110679_j6047313952840_1_alg».proof.Proof.LibWholeStore
import proofs.«110679_j6047313952840_1_alg».proof.Proof.Layer
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.XW1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WholeStore

set_option maxHeartbeats 1000000 in
/-- What the body leaves in the result's buffer is the store payload, of the accumulate payload, of the reset payload. -/
theorem out_eq (c : Dev nD) (i : grid0.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k0_cond2 i = 1#1)
    (x0 : Vec F S1024x512 .bf16) (x1 : Vec F S512x512 .bf16) (x2 : Vec F S1x512 .f32) :
    out c i arg2 harg2 arg3 harg3 arg4 harg4 arg5 harg5 arg6 harg6 hc0 hc1 x0 x1 x2 = k0_pay3 (k0_pay2 (k0_pay1 (F := F)) x0 x1) x2 := by
  unfold out
  rw [View.read_writes_eq_canon _ _ _ (cover c i arg2 harg2 arg3 harg3 arg4 harg4 arg5 harg5 arg6 harg6 hc0 hc1 x0 x1 x2)]
  unfold run
  dsimp only
  sl_unfold_words
  rw [View.canon_unit_zero zero2]
  simp only [readCov_cons_whole (S := S1024x512) _ zero2, View.readCov_unit_zero (S := S1024x512) _ zero2, View.readAt_eq_ld,
    harg2.read_unread, harg3.read_unread, harg4.read_unread,
    View.ld_unit_zero (S := S1024x512) zero2, View.ld_unit_zero (S := S512x512) zero2, View.ld_unit_zero (S := S1x512) zero2]

/-- Over the extended reals that payload, at row p and column q of the tile, is the tile's row of the left block times
    the column of the right block, plus the bias row's entry. -/
theorem pay_apply (x0 : Vec Ideal S1024x512 .bf16) (x1 : Vec Ideal S512x512 .bf16) (x2 : Vec Ideal S1x512 .f32) (p : Fin 1024) (q : Fin 512) :
    (k0_pay3 (F := Ideal) (k0_pay2 (F := Ideal) (k0_pay1 (F := Ideal)) x0 x1) x2 : S1024x512.Idx → EReal) (ix2 p q)
      = (∑ k : Fin 512, x0 (ix2 p k) * x1 (ix2 k q)) + x2 (ix2 0 q) := by
  unfold k0_pay3 k0_pay2 k0_pay1
  simp only [shapeCast_self]
  have hm : (matmul (F := Ideal) (φ₁ := .bf16) (φ₂ := .bf16) dot_S1024x512_S512x512_S1024x512_1_0_0_1_n_n none x0 x1 (constant (F := Ideal) S1024x512 .f32 0x00000000#32) : S1024x512.Idx → EReal) (ix2 p q)
      = ∑ k : Fin 512, x0 (ix2 p k) * x1 (ix2 k q) :=
    PlainMatmul.matmul_zero_apply (φ₁ := .bf16) (φ₂ := .bf16) dot_S1024x512_S512x512_S1024x512_1_0_0_1_n_n.wf none x0 x1 p q
  have hb : (broadcastTo S1024x512 x2 broadcasts_S1x512_S1024x512 : S1024x512.Idx → EReal) (ix2 p q) = x2 (ix2 0 q) :=
    broadcastTo_apply x2 _ (ix2 p q) (ix2 0 q) (fun a => by match a with | ⟨0, _⟩ => rfl | ⟨1, _⟩ => rfl)
  show (FloatOps.ofBits (F := Ideal) .f32 0x00000000#32 + (matmul (F := Ideal) (φ₁ := .bf16) (φ₂ := .bf16) dot_S1024x512_S512x512_S1024x512_1_0_0_1_n_n none x0 x1 (constant (F := Ideal) S1024x512 .f32 0x00000000#32) : S1024x512.Idx → EReal) (ix2 p q))
      + (broadcastTo S1024x512 x2 broadcasts_S1x512_S1024x512 : S1024x512.Idx → EReal) (ix2 p q) = _
  rw [hm, hb, show (FloatOps.ofBits (F := Ideal) .f32 0x00000000#32 : EReal) = 0 from Ideal.ofBits_zero_f32, zero_add]

section Region

variable (V : (c : Dev nD) → (b : Ref sig .tc) → Buf (Elt Ideal) ((c : Thread nD τ).loc b))

/-- The printed index maps, decided over the ten points: the left operand's and the result's row tiles move together,
    one per point; nothing else moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as one function of the three operand arrays as the region finds them. -/
def G (c : Dev nD) : S10240x512.Idx → EReal := fun i =>
  Cert.Layer.dense (fun p k => (V c main_v46 : S10240x512.Idx → EReal) (ix2 p k)) (fun k q => (V c main_v47 : S512x512.Idx → EReal) (ix2 k q))
    (fun q => (V c main_v50 : S1x512.Idx → EReal) (ix2 0 q)) (⟨(i 0).val, (i 0).isLt⟩ : Fin 10240) (⟨(i 1).val, (i 1).isLt⟩ : Fin 512)

set_option maxHeartbeats 1000000 in
/-- WHAT POINT t WRITES BACK is block t of that function. -/
theorem flushed_eq (c : Dev nD) (t : Fin cfg0.N) :
    (dat (F := Ideal) V c).flushed 3 t = ((cfg0.win 3).blk t).view.read (Elt Ideal) (G V c) := by
  show (cfg0.win 3).cut (grid0.coords t) ((dat V c).after 3 t) = _
  rw [after_3]
  unfold outAt
  rw [out_eq]
  obtain ⟨e0, e1, e2, e3, e4, e5, e6, e7⟩ := idx_facts t
  funext j
  obtain ⟨p, q, rfl⟩ : ∃ (p : Fin 1024) (q : Fin 512), j = ix2 p q := ⟨j 0, j 1, eq_ix2 j⟩
  show (k0_pay3 (F := Ideal) (k0_pay2 (F := Ideal) (k0_pay1 (F := Ideal)) (iblk V c 0 t) (iblk V c 1 t)) (iblk V c 2 t) : S1024x512.Idx → EReal) (ix2 p q)
    = G V c (((cfg0.win 3).blk t).view.emb (ix2 p q))
  rw [pay_apply]
  unfold G Cert.Layer.dense
  have hrow : ((((cfg0.win 3).blk t).view.emb (ix2 p q)) 0).val = t.val * 1024 + p.val := by
    show win0_3.index t (0 : Fin 2) * 1024 + 1 * p.val = t.val * 1024 + p.val; omega
  have hcol : ((((cfg0.win 3).blk t).view.emb (ix2 p q)) 1).val = q.val := by
    show win0_3.index t (1 : Fin 2) * 512 + 1 * q.val = q.val; omega
  congr 1
  · refine Finset.sum_congr rfl fun k _ => ?_
    congr 1
    · show (V c main_v46 : S10240x512.Idx → EReal) (((cfg0.win 0).blk t).view.emb (ix2 p k)) = (V c main_v46 : S10240x512.Idx → EReal) (ix2 _ k)
      refine congrArg (V c main_v46 : S10240x512.Idx → EReal) (funext fun a => Fin.ext ?_)
      match a with
      | ⟨0, _⟩ => show win0_0.index t (0 : Fin 2) * 1024 + 1 * p.val = ((((cfg0.win 3).blk t).view.emb (ix2 p q)) 0).val; rw [hrow]; omega
      | ⟨1, _⟩ => show win0_0.index t (1 : Fin 2) * 512 + 1 * k.val = k.val; omega
    · show (V c main_v47 : S512x512.Idx → EReal) (((cfg0.win 1).blk t).view.emb (ix2 k q)) = (V c main_v47 : S512x512.Idx → EReal) (ix2 k _)
      refine congrArg (V c main_v47 : S512x512.Idx → EReal) (funext fun a => Fin.ext ?_)
      match a with
      | ⟨0, _⟩ => show win0_1.index t (0 : Fin 2) * 512 + 1 * k.val = k.val; omega
      | ⟨1, _⟩ => show win0_1.index t (1 : Fin 2) * 512 + 1 * q.val = ((((cfg0.win 3).blk t).view.emb (ix2 p q)) 1).val; rw [hcol]; omega
  · show (V c main_v50 : S1x512.Idx → EReal) (((cfg0.win 2).blk t).view.emb (ix2 0 q)) = (V c main_v50 : S1x512.Idx → EReal) (ix2 0 _)
    refine congrArg (V c main_v50 : S1x512.Idx → EReal) (funext fun a => Fin.ext ?_)
    match a with
    | ⟨0, _⟩ => show win0_2.index t (0 : Fin 2) * 1 + 1 * 0 = 0; omega
    | ⟨1, _⟩ => show win0_2.index t (1 : Fin 2) * 512 + 1 * q.val = ((((cfg0.win 3).blk t).view.emb (ix2 p q)) 1).val; rw [hcol]; omega

/-- An index of the result array is in point t's block iff each coordinate is in the block's range on its axis. -/
theorem mem_blk (t : Fin cfg0.N) (i : S10240x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v54).slice (win0_3.rect t)).set ↔ _
  rw [View.set_slice_whole, Rect.mem_set_unit]
  exact Iff.rfl

/-- Row r of the result is written back by point r / 1024. -/
theorem covered (i : S10240x512.Idx) : ∃ t : Fin cfg0.N, (cfg0.win 3).flush t = true ∧ i ∈ ((cfg0.win 3).blk t).view.set := by
  have hi0 : (i 0).val < 10240 := (i 0).isLt
  have hi1 : (i 1).val < 512 := (i 1).isLt
  have hN : (i 0).val / 1024 < cfg0.N := by rw [show cfg0.N = 10 from N_0]; omega
  refine ⟨⟨(i 0).val / 1024, hN⟩, flush0_3 _, ?_⟩
  rw [mem_blk]
  obtain ⟨-, -, -, -, -, -, e6, e7⟩ := idx_facts ⟨(i 0).val / 1024, hN⟩
  have e6' : win0_3.index ⟨(i 0).val / 1024, hN⟩ (0 : Fin 2) = (i 0).val / 1024 := e6
  intro a
  match a with
  | ⟨0, _⟩ => show win0_3.index ⟨(i 0).val / 1024, hN⟩ (0 : Fin 2) * 1024 ≤ (i 0).val ∧ (i 0).val < win0_3.index ⟨(i 0).val / 1024, hN⟩ (0 : Fin 2) * 1024 + 1024; rw [e6']; omega
  | ⟨1, _⟩ => show win0_3.index ⟨(i 0).val / 1024, hN⟩ (1 : Fin 2) * 512 ≤ (i 1).val ∧ (i 1).val < win0_3.index ⟨(i 0).val / 1024, hN⟩ (1 : Fin 2) * 512 + 512; rw [e7]; omega

/-- THE RESULT ARRAY after the region: that one function of the three operand arrays. -/
theorem final (c : Dev nD) : (dat (F := Ideal) V c).arrAt 3 cfg0.N = G V c :=
  (dat (F := Ideal) V c).arrAt_eq_of_cover 3 (G V c) (fun t _ => flushed_eq V c t) (fun i => covered i)

/-- Read at row p and column q: the matrix product with the bias row. -/
theorem final_apply (c : Dev nD) (p : Fin 10240) (q : Fin 512) :
    ((dat (F := Ideal) V c).arrAt 3 cfg0.N : S10240x512.Idx → EReal) (ix2 p q)
      = Cert.Layer.dense (fun p k => (V c main_v46 : S10240x512.Idx → EReal) (ix2 p k)) (fun k q => (V c main_v47 : S512x512.Idx → EReal) (ix2 k q))
          (fun q => (V c main_v50 : S1x512.Idx → EReal) (ix2 0 q)) p q := by
  rw [final]; rfl

end Region

end Cert.KernelIdeal.XW1

end
-- ==== Proof.IdealAgg1Pieces.lean ====
/-
  The second matrix product of the kernel program, its found pieces named. What each of the body's three cases leaves
  in the accumulator, and the last in the result's buffer, is a payload of the skeleton applied to the blocks the case
  read: after the first block of a row tile the accumulate payload of the reset payload, after a middle and the last
  block the accumulate payload of what the accumulator held, and the stored tile is the store payload of that and the
  bias row. From these the accumulation's recurrence over the points: reset-and-add at the first block of a row tile,
  add at every later one; and the stored tile in terms of the accumulator after the storing point.
-/
import proofs.«110679_j6047313952840_1_alg».proof.Proof.IdealAgg1
import proofs.«110679_j6047313952840_1_alg».proof.Proof.LibPlainMatmul
import proofs.«110679_j6047313952840_1_alg».proof.Proof.LibWholeStore
import proofs.«110679_j6047313952840_1_alg».proof.Proof.Layer
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WholeStore

variable {F : FTy → Type} [FloatOps F]

set_option maxHeartbeats 1000000 in
/-- First block of a row tile: the accumulator is left at the accumulate payload of the reset payload. -/
theorem accFirst_eq (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k1_cond2 i = 1#1)
    (x0 : Vec F S1024x1024 .bf16) (x1 : Vec F S1024x512 .bf16) :
    accFirst c i arg2 harg2 arg3 harg3 arg4 harg4 arg5 harg5 arg6 harg6 hc0 hc1 x0 x1 = k1_pay2 (k1_pay1 (F := F)) x0 x1 := by
  unfold accFirst
  rw [View.read_writes_eq_canon _ _ _ (coverFirst c i arg2 harg2 arg3 harg3 arg4 harg4 arg5 harg5 arg6 harg6 hc0 hc1 x0 x1)]
  unfold runFirst
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- A middle block: the accumulator is left at the accumulate payload of what it held. -/
theorem accMid_eq (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k1_cond2 i = 1#1)
    (x0 : Vec F S1024x1024 .bf16) (x1 : Vec F S1024x512 .bf16) (xs : Vec F S1024x512 .f32) :
    accMid c i arg2 harg2 arg3 harg3 arg4 harg4 arg5 harg5 arg6 harg6 hc0 hc1 x0 x1 xs = k1_pay2 xs x0 x1 := by
  unfold accMid
  rw [View.read_writes_eq_canon _ _ _ (coverMid c i arg2 harg2 arg3 harg3 arg4 harg4 arg5 harg5 arg6 harg6 hc0 hc1 x0 x1 xs)]
  unfold runMid
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- Last block of a row tile: the accumulator is left at the accumulate payload of what it held, -/
theorem accLast_eq (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1)
    (x0 : Vec F S1024x1024 .bf16) (x1 : Vec F S1024x512 .bf16) (x2 : Vec F S1x512 .f32) (xs : Vec F S1024x512 .f32) :
    accLast c i arg2 harg2 arg3 harg3 arg4 harg4 arg5 harg5 arg6 harg6 hc0 hc1 x0 x1 x2 xs = k1_pay2 xs x0 x1 := by
  unfold accLast
  rw [View.read_writes_eq_canon _ _ _ (coverLastAcc c i arg2 harg2 arg3 harg3 arg4 harg4 arg5 harg5 arg6 harg6 hc0 hc1 x0 x1 x2 xs)]
  unfold runLast
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- and the result's buffer at the store payload of that and the bias row. -/
theorem outLast_eq (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k1_cond2 i = 1#1)
    (x0 : Vec F S1024x1024 .bf16) (x1 : Vec F S1024x512 .bf16) (x2 : Vec F S1x512 .f32) (xs : Vec F S1024x512 .f32) :
    outLast c i arg2 harg2 arg3 harg3 arg4 harg4 arg5 harg5 arg6 harg6 hc0 hc1 x0 x1 x2 xs = k1_pay3 (k1_pay2 xs x0 x1) x2 := by
  unfold outLast
  rw [View.read_writes_eq_canon _ _ _ (coverLastOut c i arg2 harg2 arg3 harg3 arg4 harg4 arg5 harg5 arg6 harg6 hc0 hc1 x0 x1 x2 xs)]
  unfold runLast
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

/-! ## The accumulation's recurrence, in payloads -/

section Recurrence

variable (V : (c : Dev nD) → (b : Ref sig .tc) → Buf (Elt F) ((c : Thread nD τ).loc b))

/-- After the first block of a row tile the accumulator holds the block's product added to zero. -/
theorem accAt_reset (c : Dev nD) (t : Fin cfg1.N) (h0 : t.val % 10 = 0) :
    accAt V c t.val = k1_pay2 (k1_pay1 (F := F)) (iblk V c 0 t) (iblk V c 1 t) :=
  (accAt_first V c t h0).trans
    (accFirst_eq c (grid1.coords t) (ms0 t) (hs0 t) (ms1 t) (hs1 t) (ms2 t) (hs2 t) (ms3 t) (hs3 t) msS hsS ((hreset t).mpr h0) (not_store t (fun h9 => by omega)) (iblk V c 0 t) (iblk V c 1 t))

/-- After any later block it holds the block's product added to what it held after the point before. -/
theorem accAt_add (c : Dev nD) (t : Fin cfg1.N) (h0 : ¬ t.val % 10 = 0) :
    accAt V c t.val = k1_pay2 (accAt V c (t.val - 1)) (iblk V c 0 t) (iblk V c 1 t) := by
  rw [accAt_pos V c t.val (fun e => h0 (by rw [e]))]
  by_cases h9 : t.val % 10 = 9
  · rw [accStep_last V c t h0 h9]
    exact accLast_eq c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))
  · rw [accStep_mid V c t h0 h9]
    exact accMid_eq c (grid1.coords t) (ms0 t) (hs0 t) (ms1 t) (hs1 t) (ms2 t) (hs2 t) (ms3 t) (hs3 t) msS hsS (not_reset t h0) (not_store t h9) (iblk V c 0 t) (iblk V c 1 t) (accAt V c (t.val - 1))

/-- The tile the last block of a row tile stores: the store payload of the accumulator after that point and the bias row. -/
theorem outAt_store (c : Dev nD) (t : Fin cfg1.N) (h9 : t.val % 10 = 9) :
    outAt V c t = k1_pay3 (accAt V c t.val) (iblk V c 2 t) := by
  have h0 : ¬ t.val % 10 = 0 := by omega
  unfold outAt
  rw [dif_pos h9, accAt_add V c t h0]
  exact outLast_eq c (grid1.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))

end Recurrence

end Cert.KernelIdeal.Agg1

end
-- ==== Proof.IdealAgg1Value.lean ====
/-
  The second matrix product of the kernel program as ONE function of its three operand arrays: at row p and column q
  of the 10240 x 512 result, the sum over the 10240 columns k of the dense adjacency at (p, k) times the projected
  features at (k, q), plus the bias row at q, clipped below at zero (`final_apply`). Step by step: the payloads read
  at an index over the extended reals (`pay1_apply`, `pay2_apply`, `pay3_apply`); the index maps of the hundred
  points (`idx_facts`) and each point's blocks as rows and columns of the arrays (`iblk0_apply`, `iblk1_apply`,
  `iblk2_apply`); THE ACCUMULATION in closed form, by induction on the column block within a row tile: after block k
  of row tile i the accumulator holds the sum over the first 1024 (k + 1) columns (`accAt_closed`), so after block 9
  the sum over all of them; the last point of row tile i writes back rows 1024 i … 1024 i + 1023 (`flushed_eq`), and
  the ten storing points cover the array (`covered`).
-/
import proofs.«110679_j6047313952840_1_alg».proof.Proof.IdealAgg1
import proofs.«110679_j6047313952840_1_alg».proof.Proof.LibPlainMatmul
import proofs.«110679_j6047313952840_1_alg».proof.Proof.LibWholeStore
import proofs.«110679_j6047313952840_1_alg».proof.Proof.Layer
import proofs.«110679_j6047313952840_1_alg».proof.Proof.IdealAgg1Pieces
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WholeStore

/-- Over the extended reals the reset payload is zero everywhere. -/
theorem pay1_apply (p : Fin 1024) (q : Fin 512) :
    (k1_pay1 (F := Ideal) : S1024x512.Idx → EReal) (ix2 p q) = 0 := by
  unfold k1_pay1
  simp only [shapeCast_self]
  show (FloatOps.ofBits (F := Ideal) .f32 0x00000000#32 : EReal) = 0
  exact Ideal.ofBits_zero_f32

/-- The accumulate payload at row p and column q of the tile: what the accumulator held there plus the tile's row of the
    adjacency block times the column of the feature block. -/
theorem pay2_apply (xs : Vec Ideal S1024x512 .f32) (x0 : Vec Ideal S1024x1024 .bf16) (x1 : Vec Ideal S1024x512 .bf16) (p : Fin 1024) (q : Fin 512) :
    (k1_pay2 (F := Ideal) xs x0 x1 : S1024x512.Idx → EReal) (ix2 p q)
      = (xs : S1024x512.Idx → EReal) (ix2 p q) + ∑ kk : Fin 1024, (x0 : S1024x1024.Idx → EReal) (ix2 p kk) * (x1 : S1024x512.Idx → EReal) (ix2 kk q) := by
  unfold k1_pay2
  simp only [shapeCast_self]
  have hm : (matmul (F := Ideal) (φ₁ := .bf16) (φ₂ := .bf16) dot_S1024x1024_S1024x512_S1024x512_1_0_0_1_n_n none x0 x1 (constant (F := Ideal) S1024x512 .f32 0x00000000#32) : S1024x512.Idx → EReal) (ix2 p q)
      = ∑ kk : Fin 1024, x0 (ix2 p kk) * x1 (ix2 kk q) :=
    PlainMatmul.matmul_zero_apply (φ₁ := .bf16) (φ₂ := .bf16) dot_S1024x1024_S1024x512_S1024x512_1_0_0_1_n_n.wf none x0 x1 p q
  show (xs : S1024x512.Idx → EReal) (ix2 p q) + (matmul (F := Ideal) (φ₁ := .bf16) (φ₂ := .bf16) dot_S1024x1024_S1024x512_S1024x512_1_0_0_1_n_n none x0 x1 (constant (F := Ideal) S1024x512 .f32 0x00000000#32) : S1024x512.Idx → EReal) (ix2 p q) = _
  rw [hm]

/-- The store payload at row p and column q of the tile: the accumulator there plus the bias row's entry, clipped below at zero. -/
theorem pay3_apply (a : Vec Ideal S1024x512 .f32) (x2 : Vec Ideal S1x512 .f32) (p : Fin 1024) (q : Fin 512) :
    (k1_pay3 (F := Ideal) a x2 : S1024x512.Idx → EReal) (ix2 p q)
      = max ((a : S1024x512.Idx → EReal) (ix2 p q) + (x2 : S1x512.Idx → EReal) (ix2 0 q)) 0 := by
  unfold k1_pay3
  simp only [shapeCast_self]
  have hb : (broadcastTo S1024x512 x2 broadcasts_S1x512_S1024x512 : S1024x512.Idx → EReal) (ix2 p q) = x2 (ix2 0 q) :=
    broadcastTo_apply x2 _ (ix2 p q) (ix2 0 q) (fun a => by match a with | ⟨0, _⟩ => rfl | ⟨1, _⟩ => rfl)
  show max ((a : S1024x512.Idx → EReal) (ix2 p q) + (broadcastTo S1024x512 x2 broadcasts_S1x512_S1024x512 : S1024x512.Idx → EReal) (ix2 p q)) (FloatOps.ofBits (F := Ideal) .f32 0x00000000#32) = _
  rw [hb, show (FloatOps.ofBits (F := Ideal) .f32 0x00000000#32 : EReal) = 0 from Ideal.ofBits_zero_f32]

/-- The printed index maps, decided over the hundred points: the adjacency's block is (row tile, column block), the
    features' block follows the column block, the bias row does not move, the result's tile follows the row tile. -/
theorem idx_facts : ∀ t : Fin cfg1.N, win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = t.val / 10 ∧ win1_3.index t (1 : Fin 2) = 0 :=
  (by decide +kernel : ∀ t : Fin grid1.N, _)

section Region

variable (V : (c : Dev nD) → (b : Ref sig .tc) → Buf (Elt Ideal) ((c : Thread nD τ).loc b))

/-- The adjacency and the features as the region finds them, by plain row and column numbers. -/
abbrev adj (c : Dev nD) : Fin 10240 → Fin 10240 → EReal := fun p k => (V c main_v42 : S10240x10240.Idx → EReal) (ix2 p k)
abbrev feat (c : Dev nD) : Fin 10240 → Fin 512 → EReal := fun k q => (V c main_v54 : S10240x512.Idx → EReal) (ix2 k q)

/-- The adjacency with plain natural row and column numbers, zero outside the array; -/
def adjN (c : Dev nD) (r s : ℕ) : EReal :=
  if h : r < 10240 ∧ s < 10240 then (V c main_v42 : S10240x10240.Idx → EReal) (ix2 (⟨r, h.1⟩ : Fin 10240) (⟨s, h.2⟩ : Fin 10240)) else 0
/-- the features likewise, by a natural row number. -/
def featN (c : Dev nD) (s : ℕ) (q : Fin 512) : EReal :=
  if h : s < 10240 then (V c main_v54 : S10240x512.Idx → EReal) (ix2 (⟨s, h⟩ : Fin 10240) q) else 0

theorem lt_N (t : Fin cfg1.N) : t.val < 100 := Nat.lt_of_lt_of_eq t.isLt (show cfg1.N = 100 from N_1)

/-- Point t's adjacency block is rows 1024 i … and columns 1024 k … of the adjacency, t = 10 i + k. -/
theorem iblk0_apply (c : Dev nD) (t : Fin cfg1.N) (i k : ℕ) (hi : t.val / 10 = i) (hk : t.val % 10 = k) (p kk : Fin 1024) :
    (iblk V c 0 t : S1024x1024.Idx → EReal) (ix2 p kk) = adjN V c (1024 * i + p.val) (1024 * k + kk.val) := by
  subst hi hk
  obtain ⟨e0, e1, -, -, -, -, -, -⟩ := idx_facts t
  have ht := lt_N t
  have hr : 1024 * (t.val / 10) + p.val < 10240 ∧ 1024 * (t.val % 10) + kk.val < 10240 := by
    have hp := p.isLt; have hkk := kk.isLt; omega
  unfold adjN
  rw [dif_pos hr]
  show (V c main_v42 : S10240x10240.Idx → EReal) (((cfg1.win 0).blk t).view.emb (ix2 p kk)) = _
  refine congrArg (V c main_v42 : S10240x10240.Idx → EReal) (funext fun a => Fin.ext ?_)
  match a with
  | ⟨0, _⟩ => show win1_0.index t (0 : Fin 2) * 1024 + 1 * p.val = 1024 * (t.val / 10) + p.val; omega
  | ⟨1, _⟩ => show win1_0.index t (1 : Fin 2) * 1024 + 1 * kk.val = 1024 * (t.val % 10) + kk.val; omega

/-- Point t's feature block is rows 1024 k … of the features. -/
theorem iblk1_apply (c : Dev nD) (t : Fin cfg1.N) (k : ℕ) (hk : t.val % 10 = k) (kk : Fin 1024) (q : Fin 512) :
    (iblk V c 1 t : S1024x512.Idx → EReal) (ix2 kk q) = featN V c (1024 * k + kk.val) q := by
  subst hk
  obtain ⟨-, -, e2, e3, -, -, -, -⟩ := idx_facts t
  have hr : 1024 * (t.val % 10) + kk.val < 10240 := by have hkk := kk.isLt; omega
  unfold featN
  rw [dif_pos hr]
  show (V c main_v54 : S10240x512.Idx → EReal) (((cfg1.win 1).blk t).view.emb (ix2 kk q)) = _
  refine congrArg (V c main_v54 : S10240x512.Idx → EReal) (funext fun a => Fin.ext ?_)
  match a with
  | ⟨0, _⟩ => show win1_1.index t (0 : Fin 2) * 1024 + 1 * kk.val = 1024 * (t.val % 10) + kk.val; omega
  | ⟨1, _⟩ => show win1_1.index t (1 : Fin 2) * 512 + 1 * q.val = q.val; omega

/-- The bias row's block is the bias row at every point. -/
theorem iblk2_apply (c : Dev nD) (t : Fin cfg1.N) (q : Fin 512) :
    (iblk V c 2 t : S1x512.Idx → EReal) (ix2 0 q) = (V c main_v51 : S1x512.Idx → EReal) (ix2 0 q) := by
  obtain ⟨-, -, -, -, e4, e5, -, -⟩ := idx_facts t
  show (V c main_v51 : S1x512.Idx → EReal) (((cfg1.win 2).blk t).view.emb (ix2 0 q)) = _
  refine congrArg (V c main_v51 : S1x512.Idx → EReal) (funext fun a => Fin.ext ?_)
  match a with
  | ⟨0, _⟩ => show win1_2.index t (0 : Fin 2) * 1 + 1 * 0 = 0; omega
  | ⟨1, _⟩ => show win1_2.index t (1 : Fin 2) * 512 + 1 * q.val = q.val; omega

/-- One point's product of blocks, as a sum over the block's 1024 columns of the adjacency: for any two blocks that read
    as rows 1024 i … and columns 1024 k … of the adjacency and rows 1024 k … of the features. -/
theorem blockSum (c : Dev nD) (i k : ℕ) (p : Fin 1024) (q : Fin 512) (x0 : Vec Ideal S1024x1024 .bf16) (x1 : Vec Ideal S1024x512 .bf16)
    (h0 : ∀ kk : Fin 1024, (x0 : S1024x1024.Idx → EReal) (ix2 p kk) = adjN V c (1024 * i + p.val) (1024 * k + kk.val))
    (h1 : ∀ kk : Fin 1024, (x1 : S1024x512.Idx → EReal) (ix2 kk q) = featN V c (1024 * k + kk.val) q) :
    ∑ kk : Fin 1024, (x0 : S1024x1024.Idx → EReal) (ix2 p kk) * (x1 : S1024x512.Idx → EReal) (ix2 kk q)
      = ∑ kk ∈ Finset.range 1024, adjN V c (1024 * i + p.val) (1024 * k + kk) * featN V c (1024 * k + kk) q := by
  rw [Finset.sum_range]
  exact Finset.sum_congr rfl fun kk _ => by rw [h0 kk, h1 kk]

/-- THE ACCUMULATION IN CLOSED FORM, by induction on the column block within a row tile: after block k of row tile i
    the accumulator holds, at row p and column q of the tile, the sum over the first 1024 (k + 1) columns j of the
    adjacency at (1024 i + p, j) times the features at (j, q). -/
theorem accAt_closed (c : Dev nD) (i : ℕ) (p : Fin 1024) (q : Fin 512) :
    ∀ (k : ℕ) (t : Fin cfg1.N), k < 10 → t.val = 10 * i + k →
      (accAt V c t.val : S1024x512.Idx → EReal) (ix2 p q)
        = ∑ j ∈ Finset.range (1024 * (k + 1)), adjN V c (1024 * i + p.val) j * featN V c j q := by
  intro k
  induction k with
  | zero =>
    intro t _ ht
    have h0 : t.val % 10 = 0 := by omega
    rw [accAt_reset V c t h0, pay2_apply, pay1_apply, zero_add, blockSum V c i 0 p q (iblk V c 0 t) (iblk V c 1 t) (fun kk => iblk0_apply V c t i 0 (by omega) (by omega) p kk) (fun kk => iblk1_apply V c t 0 (by omega) kk q)]
    refine Finset.sum_congr (by norm_num) fun kk _ => ?_
    rw [Nat.mul_zero, Nat.zero_add]
  | succ k ih =>
    intro t hk ht
    have h0 : ¬ t.val % 10 = 0 := by omega
    have hN : t.val - 1 < cfg1.N := lt_of_le_of_lt (Nat.sub_le _ _) t.isLt
    have ih' : (accAt V c (t.val - 1) : S1024x512.Idx → EReal) (ix2 p q)
        = ∑ j ∈ Finset.range (1024 * (k + 1)), adjN V c (1024 * i + p.val) j * featN V c j q :=
      ih ⟨t.val - 1, hN⟩ (by omega) (by show t.val - 1 = 10 * i + k; omega)
    rw [accAt_add V c t h0, pay2_apply, ih', blockSum V c i (k + 1) p q (iblk V c 0 t) (iblk V c 1 t) (fun kk => iblk0_apply V c t i (k + 1) (by omega) (by omega) p kk) (fun kk => iblk1_apply V c t (k + 1) (by omega) kk q),
      show 1024 * (k + 1 + 1) = 1024 * (k + 1) + 1024 by ring, Finset.sum_range_add]

/-- The full sum over natural column numbers is the sum over the array's 10240 columns. -/
theorem sum_full (c : Dev nD) (r : Fin 10240) (q : Fin 512) :
    ∑ j ∈ Finset.range 10240, adjN V c r.val j * featN V c j q
      = ∑ j : Fin 10240, adj V c r j * feat V c j q := by
  rw [Finset.sum_range]
  refine Finset.sum_congr rfl fun j _ => ?_
  unfold adjN featN
  rw [dif_pos ⟨r.isLt, j.isLt⟩, dif_pos j.isLt]
  all_goals rfl

/-- The tile stored at the last block of row tile i, at row p and column q: row 1024 i + p of the adjacency times
    column q of the features, plus the bias, clipped below at zero. -/
theorem outAt_apply (c : Dev nD) (t : Fin cfg1.N) (h9 : t.val % 10 = 9) (p : Fin 1024) (q : Fin 512)
    (R : Fin 10240) (Q : Fin 512) (hR : R.val = 1024 * (t.val / 10) + p.val) (hQ : Q.val = q.val) :
    (outAt V c t : S1024x512.Idx → EReal) (ix2 p q)
      = Cert.Layer.denseRelu (fun p k => (V c main_v42 : S10240x10240.Idx → EReal) (ix2 p k)) (fun k q => (V c main_v54 : S10240x512.Idx → EReal) (ix2 k q))
          (fun q => (V c main_v51 : S1x512.Idx → EReal) (ix2 0 q)) R Q := by
  have ht := lt_N t
  rw [show Q = q from Fin.ext hQ, outAt_store V c t h9, pay3_apply, accAt_closed V c (t.val / 10) p q 9 t (by omega) (by omega), iblk2_apply V c t q,
    show 1024 * (9 + 1) = 10240 by norm_num, ← hR, sum_full V c R q]
  all_goals rfl

/-- The result as one function of the adjacency, the features and the bias row as the region finds them. -/
def G (c : Dev nD) : S10240x512.Idx → EReal := fun i =>
  Cert.Layer.denseRelu (fun p k => (V c main_v42 : S10240x10240.Idx → EReal) (ix2 p k)) (fun k q => (V c main_v54 : S10240x512.Idx → EReal) (ix2 k q))
    (fun q => (V c main_v51 : S1x512.Idx → EReal) (ix2 0 q)) (⟨(i 0).val, (i 0).isLt⟩ : Fin 10240) (⟨(i 1).val, (i 1).isLt⟩ : Fin 512)

set_option maxHeartbeats 1000000 in
/-- WHAT THE LAST POINT OF ROW TILE i WRITES BACK is rows 1024 i … 1024 i + 1023 of that function. -/
theorem flushed_eq (c : Dev nD) (t : Fin cfg1.N) (h9 : t.val % 10 = 9) :
    (dat (F := Ideal) V c).flushed 3 t = ((cfg1.win 3).blk t).view.read (Elt Ideal) (G V c) := by
  show (cfg1.win 3).cut (grid1.coords t) ((dat V c).after 3 t) = _
  rw [after_3]
  obtain ⟨-, -, -, -, -, -, e6, e7⟩ := idx_facts t
  funext j
  obtain ⟨p, q, rfl⟩ : ∃ (p : Fin 1024) (q : Fin 512), j = ix2 p q := ⟨j 0, j 1, eq_ix2 j⟩
  show (outAt V c t : S1024x512.Idx → EReal) (ix2 p q) = G V c (((cfg1.win 3).blk t).view.emb (ix2 p q))
  unfold G
  refine outAt_apply V c t h9 p q _ _ ?_ ?_
  · show win1_3.index t (0 : Fin 2) * 1024 + 1 * p.val = 1024 * (t.val / 10) + p.val; omega
  · show win1_3.index t (1 : Fin 2) * 512 + 1 * q.val = q.val; omega

/-- An index of the result array is in point t's block iff each coordinate is in the block's range on its axis. -/
theorem mem_blk (t : Fin cfg1.N) (i : S10240x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v55).slice (win1_3.rect t)).set ↔ _
  rw [View.set_slice_whole, Rect.mem_set_unit]
  exact Iff.rfl

/-- Row r of the result is written back by the last point of row tile r / 1024. -/
theorem covered (i : S10240x512.Idx) : ∃ t : Fin cfg1.N, (cfg1.win 3).flush t = true ∧ i ∈ ((cfg1.win 3).blk t).view.set := by
  have hi0 : (i 0).val < 10240 := (i 0).isLt
  have hi1 : (i 1).val < 512 := (i 1).isLt
  have hN : 10 * ((i 0).val / 1024) + 9 < cfg1.N := by rw [show cfg1.N = 100 from N_1]; omega
  refine ⟨⟨10 * ((i 0).val / 1024) + 9, hN⟩, (flush1_3 _).mpr (by show (10 * ((i 0).val / 1024) + 9) % 10 = 9; omega), ?_⟩
  rw [mem_blk]
  obtain ⟨-, -, -, -, -, -, e6, e7⟩ := idx_facts ⟨10 * ((i 0).val / 1024) + 9, hN⟩
  have e6' : win1_3.index ⟨10 * ((i 0).val / 1024) + 9, hN⟩ (0 : Fin 2) = (i 0).val / 1024 := by
    rw [e6]; show (10 * ((i 0).val / 1024) + 9) / 10 = (i 0).val / 1024; omega
  intro a
  match a with
  | ⟨0, _⟩ => show win1_3.index ⟨10 * ((i 0).val / 1024) + 9, hN⟩ (0 : Fin 2) * 1024 ≤ (i 0).val ∧ (i 0).val < win1_3.index ⟨10 * ((i 0).val / 1024) + 9, hN⟩ (0 : Fin 2) * 1024 + 1024; rw [e6']; omega
  | ⟨1, _⟩ => show win1_3.index ⟨10 * ((i 0).val / 1024) + 9, hN⟩ (1 : Fin 2) * 512 ≤ (i 1).val ∧ (i 1).val < win1_3.index ⟨10 * ((i 0).val / 1024) + 9, hN⟩ (1 : Fin 2) * 512 + 512; rw [e7]; omega

/-- THE RESULT ARRAY after the region: that one function of the adjacency, the features and the bias row. -/
theorem final (c : Dev nD) : (dat (F := Ideal) V c).arrAt 3 cfg1.N = G V c :=
  (dat (F := Ideal) V c).arrAt_eq_of_cover 3 (G V c) (fun t ht => flushed_eq V c t ((flush1_3 t).mp ht)) (fun i => covered i)

/-- Read at row p and column q: the adjacency's row p times the features' column q, plus the bias, clipped below at zero. -/
theorem final_apply (V : (c : Dev nD) → (b : Ref sig .tc) → Buf (Elt Ideal) ((c : Thread nD τ).loc b)) (c : Dev nD) (p : Fin 10240) (q : Fin 512) :
    ((dat (F := Ideal) V c).arrAt 3 cfg1.N : S10240x512.Idx → EReal) (ix2 p q)
      = Cert.Layer.denseRelu (fun p k => (V c main_v42 : S10240x10240.Idx → EReal) (ix2 p k)) (fun k q => (V c main_v54 : S10240x512.Idx → EReal) (ix2 k q)) (fun q => (V c main_v51 : S1x512.Idx → EReal) (ix2 0 q)) p q := by
  rw [final]; rfl

end Region

end Cert.KernelIdeal.Agg1

end
-- ==== Proof.IdealXW2Value.lean ====
/-
  The third matrix product (first layer's activations times the second weight matrix) as ONE function of its three operand arrays: at row p and column q of the result, the sum over the 512
  contracted columns of the left operand at (p, k) times the weights at (k, q), plus the bias row at q (`final`).
  Step by step: what the body's stores leave is the store payload of the accumulate payload of the reset payload
  (`out_eq`); read at an index over the extended reals that is the sum plus the bias (`pay_apply`); point t writes
  back rows 1024 t … 1024 t + 1023 (`flushed_eq`), and the ten points cover the array.
-/
import proofs.«110679_j6047313952840_1_alg».proof.Proof.IdealXW2
import proofs.«110679_j6047313952840_1_alg».proof.Proof.LibPlainMatmul
import proofs.«110679_j6047313952840_1_alg».proof.Proof.LibWholeStore
import proofs.«110679_j6047313952840_1_alg».proof.Proof.Layer
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.XW2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WholeStore

set_option maxHeartbeats 1000000 in
/-- What the body leaves in the result's buffer is the store payload, of the accumulate payload, of the reset payload. -/
theorem out_eq (c : Dev nD) (i : grid2.Coords)
    (arg2 : Memref sig .tc .vmem S1024x512 .bf16) (harg2 : arg2.IsWhole)
    (arg3 : Memref sig .tc .vmem S512x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : k2_cond2 i = 1#1)
    (x0 : Vec F S1024x512 .bf16) (x1 : Vec F S512x512 .bf16) (x2 : Vec F S1x512 .f32) :
    out c i arg2 harg2 arg3 harg3 arg4 harg4 arg5 harg5 arg6 harg6 hc0 hc1 x0 x1 x2 = k2_pay3 (k2_pay2 (k2_pay1 (F := F)) x0 x1) x2 := by
  unfold out
  rw [View.read_writes_eq_canon _ _ _ (cover c i arg2 harg2 arg3 harg3 arg4 harg4 arg5 harg5 arg6 harg6 hc0 hc1 x0 x1 x2)]
  unfold run
  dsimp only
  sl_unfold_words
  rw [View.canon_unit_zero zero2]
  simp only [readCov_cons_whole (S := S1024x512) _ zero2, View.readCov_unit_zero (S := S1024x512) _ zero2, View.readAt_eq_ld,
    harg2.read_unread, harg3.read_unread, harg4.read_unread,
    View.ld_unit_zero (S := S1024x512) zero2, View.ld_unit_zero (S := S512x512) zero2, View.ld_unit_zero (S := S1x512) zero2, View.ld_unit_zero (S := S1024x512) zero2]

/-- Over the extended reals that payload, at row p and column q of the tile, is the tile's row of the left block times
    the column of the right block, plus the bias row's entry. -/
theorem pay_apply (x0 : Vec Ideal S1024x512 .bf16) (x1 : Vec Ideal S512x512 .bf16) (x2 : Vec Ideal S1x512 .f32) (p : Fin 1024) (q : Fin 512) :
    (k2_pay3 (F := Ideal) (k2_pay2 (F := Ideal) (k2_pay1 (F := Ideal)) x0 x1) x2 : S1024x512.Idx → EReal) (ix2 p q)
      = (∑ k : Fin 512, x0 (ix2 p k) * x1 (ix2 k q)) + x2 (ix2 0 q) := by
  unfold k2_pay3 k2_pay2 k2_pay1
  simp only [shapeCast_self]
  have hm : (matmul (F := Ideal) (φ₁ := .bf16) (φ₂ := .bf16) dot_S1024x512_S512x512_S1024x512_1_0_0_1_n_n none x0 x1 (constant (F := Ideal) S1024x512 .f32 0x00000000#32) : S1024x512.Idx → EReal) (ix2 p q)
      = ∑ k : Fin 512, x0 (ix2 p k) * x1 (ix2 k q) :=
    PlainMatmul.matmul_zero_apply (φ₁ := .bf16) (φ₂ := .bf16) dot_S1024x512_S512x512_S1024x512_1_0_0_1_n_n.wf none x0 x1 p q
  have hb : (broadcastTo S1024x512 x2 broadcasts_S1x512_S1024x512 : S1024x512.Idx → EReal) (ix2 p q) = x2 (ix2 0 q) :=
    broadcastTo_apply x2 _ (ix2 p q) (ix2 0 q) (fun a => by match a with | ⟨0, _⟩ => rfl | ⟨1, _⟩ => rfl)
  show (FloatOps.ofBits (F := Ideal) .f32 0x00000000#32 + (matmul (F := Ideal) (φ₁ := .bf16) (φ₂ := .bf16) dot_S1024x512_S512x512_S1024x512_1_0_0_1_n_n none x0 x1 (constant (F := Ideal) S1024x512 .f32 0x00000000#32) : S1024x512.Idx → EReal) (ix2 p q))
      + (broadcastTo S1024x512 x2 broadcasts_S1x512_S1024x512 : S1024x512.Idx → EReal) (ix2 p q) = _
  rw [hm, hb, show (FloatOps.ofBits (F := Ideal) .f32 0x00000000#32 : EReal) = 0 from Ideal.ofBits_zero_f32, zero_add]

section Region

variable (V : (c : Dev nD) → (b : Ref sig .tc) → Buf (Elt Ideal) ((c : Thread nD τ).loc b))

/-- The printed index maps, decided over the ten points: the left operand's and the result's row tiles move together,
    one per point; nothing else moves. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The result as one function of the three operand arrays as the region finds them. -/
def G (c : Dev nD) : S10240x512.Idx → EReal := fun i =>
  Cert.Layer.dense (fun p k => (V c main_v55 : S10240x512.Idx → EReal) (ix2 p k)) (fun k q => (V c main_v48 : S512x512.Idx → EReal) (ix2 k q))
    (fun q => (V c main_v50 : S1x512.Idx → EReal) (ix2 0 q)) (⟨(i 0).val, (i 0).isLt⟩ : Fin 10240) (⟨(i 1).val, (i 1).isLt⟩ : Fin 512)

set_option maxHeartbeats 1000000 in
/-- WHAT POINT t WRITES BACK is block t of that function. -/
theorem flushed_eq (c : Dev nD) (t : Fin cfg2.N) :
    (dat (F := Ideal) V c).flushed 3 t = ((cfg2.win 3).blk t).view.read (Elt Ideal) (G V c) := by
  show (cfg2.win 3).cut (grid2.coords t) ((dat V c).after 3 t) = _
  rw [after_3]
  unfold outAt
  rw [out_eq]
  obtain ⟨e0, e1, e2, e3, e4, e5, e6, e7⟩ := idx_facts t
  funext j
  obtain ⟨p, q, rfl⟩ : ∃ (p : Fin 1024) (q : Fin 512), j = ix2 p q := ⟨j 0, j 1, eq_ix2 j⟩
  show (k2_pay3 (F := Ideal) (k2_pay2 (F := Ideal) (k2_pay1 (F := Ideal)) (iblk V c 0 t) (iblk V c 1 t)) (iblk V c 2 t) : S1024x512.Idx → EReal) (ix2 p q)
    = G V c (((cfg2.win 3).blk t).view.emb (ix2 p q))
  rw [pay_apply]
  unfold G Cert.Layer.dense
  have hrow : ((((cfg2.win 3).blk t).view.emb (ix2 p q)) 0).val = t.val * 1024 + p.val := by
    show win2_3.index t (0 : Fin 2) * 1024 + 1 * p.val = t.val * 1024 + p.val; omega
  have hcol : ((((cfg2.win 3).blk t).view.emb (ix2 p q)) 1).val = q.val := by
    show win2_3.index t (1 : Fin 2) * 512 + 1 * q.val = q.val; omega
  congr 1
  · refine Finset.sum_congr rfl fun k _ => ?_
    congr 1
    · show (V c main_v55 : S10240x512.Idx → EReal) (((cfg2.win 0).blk t).view.emb (ix2 p k)) = (V c main_v55 : S10240x512.Idx → EReal) (ix2 _ k)
      refine congrArg (V c main_v55 : S10240x512.Idx → EReal) (funext fun a => Fin.ext ?_)
      match a with
      | ⟨0, _⟩ => show win2_0.index t (0 : Fin 2) * 1024 + 1 * p.val = ((((cfg2.win 3).blk t).view.emb (ix2 p q)) 0).val; rw [hrow]; omega
      | ⟨1, _⟩ => show win2_0.index t (1 : Fin 2) * 512 + 1 * k.val = k.val; omega
    · show (V c main_v48 : S512x512.Idx → EReal) (((cfg2.win 1).blk t).view.emb (ix2 k q)) = (V c main_v48 : S512x512.Idx → EReal) (ix2 k _)
      refine congrArg (V c main_v48 : S512x512.Idx → EReal) (funext fun a => Fin.ext ?_)
      match a with
      | ⟨0, _⟩ => show win2_1.index t (0 : Fin 2) * 512 + 1 * k.val = k.val; omega
      | ⟨1, _⟩ => show win2_1.index t (1 : Fin 2) * 512 + 1 * q.val = ((((cfg2.win 3).blk t).view.emb (ix2 p q)) 1).val; rw [hcol]; omega
  · show (V c main_v50 : S1x512.Idx → EReal) (((cfg2.win 2).blk t).view.emb (ix2 0 q)) = (V c main_v50 : S1x512.Idx → EReal) (ix2 0 _)
    refine congrArg (V c main_v50 : S1x512.Idx → EReal) (funext fun a => Fin.ext ?_)
    match a with
    | ⟨0, _⟩ => show win2_2.index t (0 : Fin 2) * 1 + 1 * 0 = 0; omega
    | ⟨1, _⟩ => show win2_2.index t (1 : Fin 2) * 512 + 1 * q.val = ((((cfg2.win 3).blk t).view.emb (ix2 p q)) 1).val; rw [hcol]; omega

/-- An index of the result array is in point t's block iff each coordinate is in the block's range on its axis. -/
theorem mem_blk (t : Fin cfg2.N) (i : S10240x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v56).slice (win2_3.rect t)).set ↔ _
  rw [View.set_slice_whole, Rect.mem_set_unit]
  exact Iff.rfl

/-- Row r of the result is written back by point r / 1024. -/
theorem covered (i : S10240x512.Idx) : ∃ t : Fin cfg2.N, (cfg2.win 3).flush t = true ∧ i ∈ ((cfg2.win 3).blk t).view.set := by
  have hi0 : (i 0).val < 10240 := (i 0).isLt
  have hi1 : (i 1).val < 512 := (i 1).isLt
  have hN : (i 0).val / 1024 < cfg2.N := by rw [show cfg2.N = 10 from N_2]; omega
  refine ⟨⟨(i 0).val / 1024, hN⟩, flush2_3 _, ?_⟩
  rw [mem_blk]
  obtain ⟨-, -, -, -, -, -, e6, e7⟩ := idx_facts ⟨(i 0).val / 1024, hN⟩
  have e6' : win2_3.index ⟨(i 0).val / 1024, hN⟩ (0 : Fin 2) = (i 0).val / 1024 := e6
  intro a
  match a with
  | ⟨0, _⟩ => show win2_3.index ⟨(i 0).val / 1024, hN⟩ (0 : Fin 2) * 1024 ≤ (i 0).val ∧ (i 0).val < win2_3.index ⟨(i 0).val / 1024, hN⟩ (0 : Fin 2) * 1024 + 1024; rw [e6']; omega
  | ⟨1, _⟩ => show win2_3.index ⟨(i 0).val / 1024, hN⟩ (1 : Fin 2) * 512 ≤ (i 1).val ∧ (i 1).val < win2_3.index ⟨(i 0).val / 1024, hN⟩ (1 : Fin 2) * 512 + 512; rw [e7]; omega

/-- THE RESULT ARRAY after the region: that one function of the three operand arrays. -/
theorem final (c : Dev nD) : (dat (F := Ideal) V c).arrAt 3 cfg2.N = G V c :=
  (dat (F := Ideal) V c).arrAt_eq_of_cover 3 (G V c) (fun t _ => flushed_eq V c t) (fun i => covered i)

/-- Read at row p and column q: the matrix product with the bias row. -/
theorem final_apply (c : Dev nD) (p : Fin 10240) (q : Fin 512) :
    ((dat (F := Ideal) V c).arrAt 3 cfg2.N : S10240x512.Idx → EReal) (ix2 p q)
      = Cert.Layer.dense (fun p k => (V c main_v55 : S10240x512.Idx → EReal) (ix2 p k)) (fun k q => (V c main_v48 : S512x512.Idx → EReal) (ix2 k q))
          (fun q => (V c main_v50 : S1x512.Idx → EReal) (ix2 0 q)) p q := by
  rw [final]; rfl

end Region

end Cert.KernelIdeal.XW2

end
-- ==== Proof.IdealAgg2Pieces.lean ====
/-
  The fourth matrix product of the kernel program, its found pieces named. What each of the body's three cases leaves
  in the accumulator, and the last in the result's buffer, is a payload of the skeleton applied to the blocks the case
  read: after the first block of a row tile the accumulate payload of the reset payload, after a middle and the last
  block the accumulate payload of what the accumulator held, and the stored tile is the store payload of that and the
  bias row. From these the accumulation's recurrence over the points: reset-and-add at the first block of a row tile,
  add at every later one; and the stored tile in terms of the accumulator after the storing point.
-/
import proofs.«110679_j6047313952840_1_alg».proof.Proof.IdealAgg2
import proofs.«110679_j6047313952840_1_alg».proof.Proof.LibPlainMatmul
import proofs.«110679_j6047313952840_1_alg».proof.Proof.LibWholeStore
import proofs.«110679_j6047313952840_1_alg».proof.Proof.Layer
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WholeStore

variable {F : FTy → Type} [FloatOps F]

set_option maxHeartbeats 1000000 in
/-- First block of a row tile: the accumulator is left at the accumulate payload of the reset payload. -/
theorem accFirst_eq (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : condReset i) (hc1 : ¬ k3_cond2 i = 1#1)
    (x0 : Vec F S1024x1024 .bf16) (x1 : Vec F S1024x512 .bf16) :
    accFirst c i arg2 harg2 arg3 harg3 arg4 harg4 arg5 harg5 arg6 harg6 hc0 hc1 x0 x1 = k3_pay2 (k3_pay1 (F := F)) x0 x1 := by
  unfold accFirst
  rw [View.read_writes_eq_canon _ _ _ (coverFirst c i arg2 harg2 arg3 harg3 arg4 harg4 arg5 harg5 arg6 harg6 hc0 hc1 x0 x1)]
  unfold runFirst
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- A middle block: the accumulator is left at the accumulate payload of what it held. -/
theorem accMid_eq (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : ¬ k3_cond2 i = 1#1)
    (x0 : Vec F S1024x1024 .bf16) (x1 : Vec F S1024x512 .bf16) (xs : Vec F S1024x512 .f32) :
    accMid c i arg2 harg2 arg3 harg3 arg4 harg4 arg5 harg5 arg6 harg6 hc0 hc1 x0 x1 xs = k3_pay2 xs x0 x1 := by
  unfold accMid
  rw [View.read_writes_eq_canon _ _ _ (coverMid c i arg2 harg2 arg3 harg3 arg4 harg4 arg5 harg5 arg6 harg6 hc0 hc1 x0 x1 xs)]
  unfold runMid
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- Last block of a row tile: the accumulator is left at the accumulate payload of what it held, -/
theorem accLast_eq (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1)
    (x0 : Vec F S1024x1024 .bf16) (x1 : Vec F S1024x512 .bf16) (x2 : Vec F S1x512 .f32) (xs : Vec F S1024x512 .f32) :
    accLast c i arg2 harg2 arg3 harg3 arg4 harg4 arg5 harg5 arg6 harg6 hc0 hc1 x0 x1 x2 xs = k3_pay2 xs x0 x1 := by
  unfold accLast
  rw [View.read_writes_eq_canon _ _ _ (coverLastAcc c i arg2 harg2 arg3 harg3 arg4 harg4 arg5 harg5 arg6 harg6 hc0 hc1 x0 x1 x2 xs)]
  unfold runLast
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

set_option maxHeartbeats 1000000 in
/-- and the result's buffer at the store payload of that and the bias row. -/
theorem outLast_eq (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x512 .bf16) (harg5 : arg5.IsWhole)
    (arg6 : Memref sig .tc .vmem S1024x512 .f32) (harg6 : arg6.IsWhole)
    (hc0 : ¬ condReset i) (hc1 : k3_cond2 i = 1#1)
    (x0 : Vec F S1024x1024 .bf16) (x1 : Vec F S1024x512 .bf16) (x2 : Vec F S1x512 .f32) (xs : Vec F S1024x512 .f32) :
    outLast c i arg2 harg2 arg3 harg3 arg4 harg4 arg5 harg5 arg6 harg6 hc0 hc1 x0 x1 x2 xs = k3_pay3 (k3_pay2 xs x0 x1) x2 := by
  unfold outLast
  rw [View.read_writes_eq_canon _ _ _ (coverLastOut c i arg2 harg2 arg3 harg3 arg4 harg4 arg5 harg5 arg6 harg6 hc0 hc1 x0 x1 x2 xs)]
  unfold runLast
  dsimp only
  sl_unfold_words
  rw [View.canon_cons_unit_zero zero2]
  simp only [readCov_cons_whole (S := S1024x512) _ zero2, View.readCov_unit_zero (S := S1024x512) _ zero2, View.readAt_eq_ld,
    harg2.read_unread, harg3.read_unread, harg4.read_unread, harg6.read_unread,
    View.ld_unit_zero (S := S1024x512) zero2, View.ld_unit_zero (S := S1024x1024) zero2, View.ld_unit_zero (S := S1x512) zero2]

/-! ## The accumulation's recurrence, in payloads -/

section Recurrence

variable (V : (c : Dev nD) → (b : Ref sig .tc) → Buf (Elt F) ((c : Thread nD τ).loc b))

/-- After the first block of a row tile the accumulator holds the block's product added to zero. -/
theorem accAt_reset (c : Dev nD) (t : Fin cfg3.N) (h0 : t.val % 10 = 0) :
    accAt V c t.val = k3_pay2 (k3_pay1 (F := F)) (iblk V c 0 t) (iblk V c 1 t) :=
  (accAt_first V c t h0).trans
    (accFirst_eq c (grid3.coords t) (ms0 t) (hs0 t) (ms1 t) (hs1 t) (ms2 t) (hs2 t) (ms3 t) (hs3 t) msS hsS ((hreset t).mpr h0) (not_store t (fun h9 => by omega)) (iblk V c 0 t) (iblk V c 1 t))

/-- After any later block it holds the block's product added to what it held after the point before. -/
theorem accAt_add (c : Dev nD) (t : Fin cfg3.N) (h0 : ¬ t.val % 10 = 0) :
    accAt V c t.val = k3_pay2 (accAt V c (t.val - 1)) (iblk V c 0 t) (iblk V c 1 t) := by
  rw [accAt_pos V c t.val (fun e => h0 (by rw [e]))]
  by_cases h9 : t.val % 10 = 9
  · rw [accStep_last V c t h0 h9]
    exact accLast_eq c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))
  · rw [accStep_mid V c t h0 h9]
    exact accMid_eq c (grid3.coords t) (ms0 t) (hs0 t) (ms1 t) (hs1 t) (ms2 t) (hs2 t) (ms3 t) (hs3 t) msS hsS (not_reset t h0) (not_store t h9) (iblk V c 0 t) (iblk V c 1 t) (accAt V c (t.val - 1))

/-- The tile the last block of a row tile stores: the store payload of the accumulator after that point and the bias row. -/
theorem outAt_store (c : Dev nD) (t : Fin cfg3.N) (h9 : t.val % 10 = 9) :
    outAt V c t = k3_pay3 (accAt V c t.val) (iblk V c 2 t) := by
  have h0 : ¬ t.val % 10 = 0 := by omega
  unfold outAt
  rw [dif_pos h9, accAt_add V c t h0]
  exact outLast_eq c (grid3.coords t) (ms0 t) (hs0 t) (ms1 t) (hs1 t) (ms2 t) (hs2 t) (ms3 t) (hs3 t) msS hsS (not_reset t h0) ((hstore t).mpr h9) (iblk V c 0 t) (iblk V c 1 t) (iblk V c 2 t) (accAt V c (t.val - 1))

end Recurrence

end Cert.KernelIdeal.Agg2

end
-- ==== Proof.IdealAgg2Value.lean ====
/-
  The fourth matrix product of the kernel program as ONE function of its three operand arrays: at row p and column q
  of the 10240 x 512 result, the sum over the 10240 columns k of the dense adjacency at (p, k) times the second
  layer's projected features at (k, q), plus the bias row at q, clipped below at zero (`final_apply`). Step by step: the payloads read
  at an index over the extended reals (`pay1_apply`, `pay2_apply`, `pay3_apply`); the index maps of the hundred
  points (`idx_facts`) and each point's blocks as rows and columns of the arrays (`iblk0_apply`, `iblk1_apply`,
  `iblk2_apply`); THE ACCUMULATION in closed form, by induction on the column block within a row tile: after block k
  of row tile i the accumulator holds the sum over the first 1024 (k + 1) columns (`accAt_closed`), so after block 9
  the sum over all of them; the last point of row tile i writes back rows 1024 i … 1024 i + 1023 (`flushed_eq`), and
  the ten storing points cover the array (`covered`).
-/
import proofs.«110679_j6047313952840_1_alg».proof.Proof.IdealAgg2
import proofs.«110679_j6047313952840_1_alg».proof.Proof.LibPlainMatmul
import proofs.«110679_j6047313952840_1_alg».proof.Proof.LibWholeStore
import proofs.«110679_j6047313952840_1_alg».proof.Proof.Layer
import proofs.«110679_j6047313952840_1_alg».proof.Proof.IdealAgg2Pieces
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.WholeStore

/-- Over the extended reals the reset payload is zero everywhere. -/
theorem pay1_apply (p : Fin 1024) (q : Fin 512) :
    (k3_pay1 (F := Ideal) : S1024x512.Idx → EReal) (ix2 p q) = 0 := by
  unfold k3_pay1
  simp only [shapeCast_self]
  show (FloatOps.ofBits (F := Ideal) .f32 0x00000000#32 : EReal) = 0
  exact Ideal.ofBits_zero_f32

/-- The accumulate payload at row p and column q of the tile: what the accumulator held there plus the tile's row of the
    adjacency block times the column of the feature block. -/
theorem pay2_apply (xs : Vec Ideal S1024x512 .f32) (x0 : Vec Ideal S1024x1024 .bf16) (x1 : Vec Ideal S1024x512 .bf16) (p : Fin 1024) (q : Fin 512) :
    (k3_pay2 (F := Ideal) xs x0 x1 : S1024x512.Idx → EReal) (ix2 p q)
      = (xs : S1024x512.Idx → EReal) (ix2 p q) + ∑ kk : Fin 1024, (x0 : S1024x1024.Idx → EReal) (ix2 p kk) * (x1 : S1024x512.Idx → EReal) (ix2 kk q) := by
  unfold k3_pay2
  simp only [shapeCast_self]
  have hm : (matmul (F := Ideal) (φ₁ := .bf16) (φ₂ := .bf16) dot_S1024x1024_S1024x512_S1024x512_1_0_0_1_n_n none x0 x1 (constant (F := Ideal) S1024x512 .f32 0x00000000#32) : S1024x512.Idx → EReal) (ix2 p q)
      = ∑ kk : Fin 1024, x0 (ix2 p kk) * x1 (ix2 kk q) :=
    PlainMatmul.matmul_zero_apply (φ₁ := .bf16) (φ₂ := .bf16) dot_S1024x1024_S1024x512_S1024x512_1_0_0_1_n_n.wf none x0 x1 p q
  show (xs : S1024x512.Idx → EReal) (ix2 p q) + (matmul (F := Ideal) (φ₁ := .bf16) (φ₂ := .bf16) dot_S1024x1024_S1024x512_S1024x512_1_0_0_1_n_n none x0 x1 (constant (F := Ideal) S1024x512 .f32 0x00000000#32) : S1024x512.Idx → EReal) (ix2 p q) = _
  rw [hm]

/-- The store payload at row p and column q of the tile: the accumulator there plus the bias row's entry, clipped below at zero. -/
theorem pay3_apply (a : Vec Ideal S1024x512 .f32) (x2 : Vec Ideal S1x512 .f32) (p : Fin 1024) (q : Fin 512) :
    (k3_pay3 (F := Ideal) a x2 : S1024x512.Idx → EReal) (ix2 p q)
      = max ((a : S1024x512.Idx → EReal) (ix2 p q) + (x2 : S1x512.Idx → EReal) (ix2 0 q)) 0 := by
  unfold k3_pay3
  simp only [shapeCast_self]
  have hb : (broadcastTo S1024x512 x2 broadcasts_S1x512_S1024x512 : S1024x512.Idx → EReal) (ix2 p q) = x2 (ix2 0 q) :=
    broadcastTo_apply x2 _ (ix2 p q) (ix2 0 q) (fun a => by match a with | ⟨0, _⟩ => rfl | ⟨1, _⟩ => rfl)
  show max ((a : S1024x512.Idx → EReal) (ix2 p q) + (broadcastTo S1024x512 x2 broadcasts_S1x512_S1024x512 : S1024x512.Idx → EReal) (ix2 p q)) (FloatOps.ofBits (F := Ideal) .f32 0x00000000#32) = _
  rw [hb, show (FloatOps.ofBits (F := Ideal) .f32 0x00000000#32 : EReal) = 0 from Ideal.ofBits_zero_f32]

/-- The printed index maps, decided over the hundred points: the adjacency's block is (row tile, column block), the
    features' block follows the column block, the bias row does not move, the result's tile follows the row tile. -/
theorem idx_facts : ∀ t : Fin cfg3.N, win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0 :=
  (by decide +kernel : ∀ t : Fin grid3.N, _)

section Region

variable (V : (c : Dev nD) → (b : Ref sig .tc) → Buf (Elt Ideal) ((c : Thread nD τ).loc b))

/-- The adjacency and the features as the region finds them, by plain row and column numbers. -/
abbrev adj (c : Dev nD) : Fin 10240 → Fin 10240 → EReal := fun p k => (V c main_v42 : S10240x10240.Idx → EReal) (ix2 p k)
abbrev feat (c : Dev nD) : Fin 10240 → Fin 512 → EReal := fun k q => (V c main_v56 : S10240x512.Idx → EReal) (ix2 k q)

/-- The adjacency with plain natural row and column numbers, zero outside the array; -/
def adjN (c : Dev nD) (r s : ℕ) : EReal :=
  if h : r < 10240 ∧ s < 10240 then (V c main_v42 : S10240x10240.Idx → EReal) (ix2 (⟨r, h.1⟩ : Fin 10240) (⟨s, h.2⟩ : Fin 10240)) else 0
/-- the features likewise, by a natural row number. -/
def featN (c : Dev nD) (s : ℕ) (q : Fin 512) : EReal :=
  if h : s < 10240 then (V c main_v56 : S10240x512.Idx → EReal) (ix2 (⟨s, h⟩ : Fin 10240) q) else 0

theorem lt_N (t : Fin cfg3.N) : t.val < 100 := Nat.lt_of_lt_of_eq t.isLt (show cfg3.N = 100 from N_3)

/-- Point t's adjacency block is rows 1024 i … and columns 1024 k … of the adjacency, t = 10 i + k. -/
theorem iblk0_apply (c : Dev nD) (t : Fin cfg3.N) (i k : ℕ) (hi : t.val / 10 = i) (hk : t.val % 10 = k) (p kk : Fin 1024) :
    (iblk V c 0 t : S1024x1024.Idx → EReal) (ix2 p kk) = adjN V c (1024 * i + p.val) (1024 * k + kk.val) := by
  subst hi hk
  obtain ⟨e0, e1, -, -, -, -, -, -⟩ := idx_facts t
  have ht := lt_N t
  have hr : 1024 * (t.val / 10) + p.val < 10240 ∧ 1024 * (t.val % 10) + kk.val < 10240 := by
    have hp := p.isLt; have hkk := kk.isLt; omega
  unfold adjN
  rw [dif_pos hr]
  show (V c main_v42 : S10240x10240.Idx → EReal) (((cfg3.win 0).blk t).view.emb (ix2 p kk)) = _
  refine congrArg (V c main_v42 : S10240x10240.Idx → EReal) (funext fun a => Fin.ext ?_)
  match a with
  | ⟨0, _⟩ => show win3_0.index t (0 : Fin 2) * 1024 + 1 * p.val = 1024 * (t.val / 10) + p.val; omega
  | ⟨1, _⟩ => show win3_0.index t (1 : Fin 2) * 1024 + 1 * kk.val = 1024 * (t.val % 10) + kk.val; omega

/-- Point t's feature block is rows 1024 k … of the features. -/
theorem iblk1_apply (c : Dev nD) (t : Fin cfg3.N) (k : ℕ) (hk : t.val % 10 = k) (kk : Fin 1024) (q : Fin 512) :
    (iblk V c 1 t : S1024x512.Idx → EReal) (ix2 kk q) = featN V c (1024 * k + kk.val) q := by
  subst hk
  obtain ⟨-, -, e2, e3, -, -, -, -⟩ := idx_facts t
  have hr : 1024 * (t.val % 10) + kk.val < 10240 := by have hkk := kk.isLt; omega
  unfold featN
  rw [dif_pos hr]
  show (V c main_v56 : S10240x512.Idx → EReal) (((cfg3.win 1).blk t).view.emb (ix2 kk q)) = _
  refine congrArg (V c main_v56 : S10240x512.Idx → EReal) (funext fun a => Fin.ext ?_)
  match a with
  | ⟨0, _⟩ => show win3_1.index t (0 : Fin 2) * 1024 + 1 * kk.val = 1024 * (t.val % 10) + kk.val; omega
  | ⟨1, _⟩ => show win3_1.index t (1 : Fin 2) * 512 + 1 * q.val = q.val; omega

/-- The bias row's block is the bias row at every point. -/
theorem iblk2_apply (c : Dev nD) (t : Fin cfg3.N) (q : Fin 512) :
    (iblk V c 2 t : S1x512.Idx → EReal) (ix2 0 q) = (V c main_v52 : S1x512.Idx → EReal) (ix2 0 q) := by
  obtain ⟨-, -, -, -, e4, e5, -, -⟩ := idx_facts t
  show (V c main_v52 : S1x512.Idx → EReal) (((cfg3.win 2).blk t).view.emb (ix2 0 q)) = _
  refine congrArg (V c main_v52 : S1x512.Idx → EReal) (funext fun a => Fin.ext ?_)
  match a with
  | ⟨0, _⟩ => show win3_2.index t (0 : Fin 2) * 1 + 1 * 0 = 0; omega
  | ⟨1, _⟩ => show win3_2.index t (1 : Fin 2) * 512 + 1 * q.val = q.val; omega

/-- One point's product of blocks, as a sum over the block's 1024 columns of the adjacency: for any two blocks that read
    as rows 1024 i … and columns 1024 k … of the adjacency and rows 1024 k … of the features. -/
theorem blockSum (c : Dev nD) (i k : ℕ) (p : Fin 1024) (q : Fin 512) (x0 : Vec Ideal S1024x1024 .bf16) (x1 : Vec Ideal S1024x512 .bf16)
    (h0 : ∀ kk : Fin 1024, (x0 : S1024x1024.Idx → EReal) (ix2 p kk) = adjN V c (1024 * i + p.val) (1024 * k + kk.val))
    (h1 : ∀ kk : Fin 1024, (x1 : S1024x512.Idx → EReal) (ix2 kk q) = featN V c (1024 * k + kk.val) q) :
    ∑ kk : Fin 1024, (x0 : S1024x1024.Idx → EReal) (ix2 p kk) * (x1 : S1024x512.Idx → EReal) (ix2 kk q)
      = ∑ kk ∈ Finset.range 1024, adjN V c (1024 * i + p.val) (1024 * k + kk) * featN V c (1024 * k + kk) q := by
  rw [Finset.sum_range]
  exact Finset.sum_congr rfl fun kk _ => by rw [h0 kk, h1 kk]

/-- THE ACCUMULATION IN CLOSED FORM, by induction on the column block within a row tile: after block k of row tile i
    the accumulator holds, at row p and column q of the tile, the sum over the first 1024 (k + 1) columns j of the
    adjacency at (1024 i + p, j) times the features at (j, q). -/
theorem accAt_closed (c : Dev nD) (i : ℕ) (p : Fin 1024) (q : Fin 512) :
    ∀ (k : ℕ) (t : Fin cfg3.N), k < 10 → t.val = 10 * i + k →
      (accAt V c t.val : S1024x512.Idx → EReal) (ix2 p q)
        = ∑ j ∈ Finset.range (1024 * (k + 1)), adjN V c (1024 * i + p.val) j * featN V c j q := by
  intro k
  induction k with
  | zero =>
    intro t _ ht
    have h0 : t.val % 10 = 0 := by omega
    rw [accAt_reset V c t h0, pay2_apply, pay1_apply, zero_add, blockSum V c i 0 p q (iblk V c 0 t) (iblk V c 1 t) (fun kk => iblk0_apply V c t i 0 (by omega) (by omega) p kk) (fun kk => iblk1_apply V c t 0 (by omega) kk q)]
    refine Finset.sum_congr (by norm_num) fun kk _ => ?_
    rw [Nat.mul_zero, Nat.zero_add]
  | succ k ih =>
    intro t hk ht
    have h0 : ¬ t.val % 10 = 0 := by omega
    have hN : t.val - 1 < cfg3.N := lt_of_le_of_lt (Nat.sub_le _ _) t.isLt
    have ih' : (accAt V c (t.val - 1) : S1024x512.Idx → EReal) (ix2 p q)
        = ∑ j ∈ Finset.range (1024 * (k + 1)), adjN V c (1024 * i + p.val) j * featN V c j q :=
      ih ⟨t.val - 1, hN⟩ (by omega) (by show t.val - 1 = 10 * i + k; omega)
    rw [accAt_add V c t h0, pay2_apply, ih', blockSum V c i (k + 1) p q (iblk V c 0 t) (iblk V c 1 t) (fun kk => iblk0_apply V c t i (k + 1) (by omega) (by omega) p kk) (fun kk => iblk1_apply V c t (k + 1) (by omega) kk q),
      show 1024 * (k + 1 + 1) = 1024 * (k + 1) + 1024 by ring, Finset.sum_range_add]

/-- The full sum over natural column numbers is the sum over the array's 10240 columns. -/
theorem sum_full (c : Dev nD) (r : Fin 10240) (q : Fin 512) :
    ∑ j ∈ Finset.range 10240, adjN V c r.val j * featN V c j q
      = ∑ j : Fin 10240, adj V c r j * feat V c j q := by
  rw [Finset.sum_range]
  refine Finset.sum_congr rfl fun j _ => ?_
  unfold adjN featN
  rw [dif_pos ⟨r.isLt, j.isLt⟩, dif_pos j.isLt]
  all_goals rfl

/-- The tile stored at the last block of row tile i, at row p and column q: row 1024 i + p of the adjacency times
    column q of the features, plus the bias, clipped below at zero. -/
theorem outAt_apply (c : Dev nD) (t : Fin cfg3.N) (h9 : t.val % 10 = 9) (p : Fin 1024) (q : Fin 512)
    (R : Fin 10240) (Q : Fin 512) (hR : R.val = 1024 * (t.val / 10) + p.val) (hQ : Q.val = q.val) :
    (outAt V c t : S1024x512.Idx → EReal) (ix2 p q)
      = Cert.Layer.denseRelu (fun p k => (V c main_v42 : S10240x10240.Idx → EReal) (ix2 p k)) (fun k q => (V c main_v56 : S10240x512.Idx → EReal) (ix2 k q))
          (fun q => (V c main_v52 : S1x512.Idx → EReal) (ix2 0 q)) R Q := by
  have ht := lt_N t
  rw [show Q = q from Fin.ext hQ, outAt_store V c t h9, pay3_apply, accAt_closed V c (t.val / 10) p q 9 t (by omega) (by omega), iblk2_apply V c t q,
    show 1024 * (9 + 1) = 10240 by norm_num, ← hR, sum_full V c R q]
  all_goals rfl

/-- The result as one function of the adjacency, the features and the bias row as the region finds them. -/
def G (c : Dev nD) : S10240x512.Idx → EReal := fun i =>
  Cert.Layer.denseRelu (fun p k => (V c main_v42 : S10240x10240.Idx → EReal) (ix2 p k)) (fun k q => (V c main_v56 : S10240x512.Idx → EReal) (ix2 k q))
    (fun q => (V c main_v52 : S1x512.Idx → EReal) (ix2 0 q)) (⟨(i 0).val, (i 0).isLt⟩ : Fin 10240) (⟨(i 1).val, (i 1).isLt⟩ : Fin 512)

set_option maxHeartbeats 1000000 in
/-- WHAT THE LAST POINT OF ROW TILE i WRITES BACK is rows 1024 i … 1024 i + 1023 of that function. -/
theorem flushed_eq (c : Dev nD) (t : Fin cfg3.N) (h9 : t.val % 10 = 9) :
    (dat (F := Ideal) V c).flushed 3 t = ((cfg3.win 3).blk t).view.read (Elt Ideal) (G V c) := by
  show (cfg3.win 3).cut (grid3.coords t) ((dat V c).after 3 t) = _
  rw [after_3]
  obtain ⟨-, -, -, -, -, -, e6, e7⟩ := idx_facts t
  funext j
  obtain ⟨p, q, rfl⟩ : ∃ (p : Fin 1024) (q : Fin 512), j = ix2 p q := ⟨j 0, j 1, eq_ix2 j⟩
  show (outAt V c t : S1024x512.Idx → EReal) (ix2 p q) = G V c (((cfg3.win 3).blk t).view.emb (ix2 p q))
  unfold G
  refine outAt_apply V c t h9 p q _ _ ?_ ?_
  · show win3_3.index t (0 : Fin 2) * 1024 + 1 * p.val = 1024 * (t.val / 10) + p.val; omega
  · show win3_3.index t (1 : Fin 2) * 512 + 1 * q.val = q.val; omega

/-- An index of the result array is in point t's block iff each coordinate is in the block's range on its axis. -/
theorem mem_blk (t : Fin cfg3.N) (i : S10240x512.Idx) :
    i ∈ ((cfg3.win 3).blk t).view.set ↔ ∀ a : Fin 2, win3_3.index t a * S1024x512.size a ≤ (i a).val ∧ (i a).val < win3_3.index t a * S1024x512.size a + S1024x512.size a := by
  show i ∈ ((View.whole main_v57).slice (win3_3.rect t)).set ↔ _
  rw [View.set_slice_whole, Rect.mem_set_unit]
  exact Iff.rfl

/-- Row r of the result is written back by the last point of row tile r / 1024. -/
theorem covered (i : S10240x512.Idx) : ∃ t : Fin cfg3.N, (cfg3.win 3).flush t = true ∧ i ∈ ((cfg3.win 3).blk t).view.set := by
  have hi0 : (i 0).val < 10240 := (i 0).isLt
  have hi1 : (i 1).val < 512 := (i 1).isLt
  have hN : 10 * ((i 0).val / 1024) + 9 < cfg3.N := by rw [show cfg3.N = 100 from N_3]; omega
  refine ⟨⟨10 * ((i 0).val / 1024) + 9, hN⟩, (flush3_3 _).mpr (by show (10 * ((i 0).val / 1024) + 9) % 10 = 9; omega), ?_⟩
  rw [mem_blk]
  obtain ⟨-, -, -, -, -, -, e6, e7⟩ := idx_facts ⟨10 * ((i 0).val / 1024) + 9, hN⟩
  have e6' : win3_3.index ⟨10 * ((i 0).val / 1024) + 9, hN⟩ (0 : Fin 2) = (i 0).val / 1024 := by
    rw [e6]; show (10 * ((i 0).val / 1024) + 9) / 10 = (i 0).val / 1024; omega
  intro a
  match a with
  | ⟨0, _⟩ => show win3_3.index ⟨10 * ((i 0).val / 1024) + 9, hN⟩ (0 : Fin 2) * 1024 ≤ (i 0).val ∧ (i 0).val < win3_3.index ⟨10 * ((i 0).val / 1024) + 9, hN⟩ (0 : Fin 2) * 1024 + 1024; rw [e6']; omega
  | ⟨1, _⟩ => show win3_3.index ⟨10 * ((i 0).val / 1024) + 9, hN⟩ (1 : Fin 2) * 512 ≤ (i 1).val ∧ (i 1).val < win3_3.index ⟨10 * ((i 0).val / 1024) + 9, hN⟩ (1 : Fin 2) * 512 + 512; rw [e7]; omega

/-- THE RESULT ARRAY after the region: that one function of the adjacency, the features and the bias row. -/
theorem final (c : Dev nD) : (dat (F := Ideal) V c).arrAt 3 cfg3.N = G V c :=
  (dat (F := Ideal) V c).arrAt_eq_of_cover 3 (G V c) (fun t ht => flushed_eq V c t ((flush3_3 t).mp ht)) (fun i => covered i)

/-- Read at row p and column q: the adjacency's row p times the features' column q, plus the bias, clipped below at zero. -/
theorem final_apply (V : (c : Dev nD) → (b : Ref sig .tc) → Buf (Elt Ideal) ((c : Thread nD τ).loc b)) (c : Dev nD) (p : Fin 10240) (q : Fin 512) :
    ((dat (F := Ideal) V c).arrAt 3 cfg3.N : S10240x512.Idx → EReal) (ix2 p q)
      = Cert.Layer.denseRelu (fun p k => (V c main_v42 : S10240x10240.Idx → EReal) (ix2 p k)) (fun k q => (V c main_v56 : S10240x512.Idx → EReal) (ix2 k q)) (fun q => (V c main_v52 : S1x512.Idx → EReal) (ix2 0 q)) p q := by
  rw [final]; rfl

end Region

end Cert.KernelIdeal.Agg2

end
-- ==== Proof.IdealLogitsValue.lean ====
/-
  The last matrix product (second layer's activations times the output weights, plus the output bias) as ONE function of its three operand arrays: at row p and column q of the result, the sum over the 512
  contracted columns of the left operand at (p, k) times the weights at (k, q), plus the bias row at q (`final`).
  Step by step: what the body's stores leave is the store payload of the accumulate payload of the reset payload
  (`out_eq`); read at an index over the extended reals that is the sum plus the bias (`pay_apply`); point t writes
  back rows 1024 t … 1024 t + 1023 (`flushed_eq`), and the ten points cover the array.
-/
import proofs.«110679_j6047313952840_1_alg».proof.Proof.IdealLogits
import proofs.«110679_j6047313952840_1_alg».proof.Proof.LibPlainMatmul
import proofs.«110679_j6047313952840_1_alg».proof.Proof.LibWholeStore
import proofs.«110679_j6047313952840_1_alg».proof.Proof.Layer
import Idealize.ShloMosaic.Lib.ValueIdx
import Idealize.ShloMosaic.Lib.ValueLayout
import Idealize.ShloMosaic.Lib.Pipeline.Value
import Idealize.ShloMosaic.PureOps.Ideal.Laws
import proofs.«110679_j6047313952840_1_alg».proof.Proof.Gen.KernelIdeal.Launch
import proofs.«110679_j6047313952840_1_alg».proof.Proof.Gen.KernelIdeal.Skeleton
import proofs.«110679_j6047313952840_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Logits

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WholeStore

set_option maxHeartbeats 1000000 in
/-- What the body leaves in the result's buffer is the store payload, of the accumulate payload, of the reset payload. -/
theorem out_eq (c : Dev nD) (i : grid4.Coords)
    (arg2 : Memref sig .tc .vmem S1024x512 .bf16) (harg2 : arg2.IsWhole)
    (arg3 : Memref sig .tc .vmem S512x16 .bf16) (harg3 : arg3.IsWhole)
    (arg4 : Memref sig .tc .vmem S1x16 .f32) (harg4 : arg4.IsWhole)
    (arg5 : Memref sig .tc .vmem S1024x16 .f32) (harg5 : arg5.IsWhole)
    (arg6 : Memref sig .tc .vmem S1024x16 .f32) (harg6 : arg6.IsWhole)
    (hc0 : condReset i) (hc1 : k4_cond2 i = 1#1)
    (x0 : Vec F S1024x512 .bf16) (x1 : Vec F S512x16 .bf16) (x2 : Vec F S1x16 .f32) :
    out c i arg2 harg2 arg3 harg3 arg4 harg4 arg5 harg5 arg6 harg6 hc0 hc1 x0 x1 x2 = k4_pay3 (k4_pay2 (k4_pay1 (F := F)) x0 x1) x2 := by
  unfold out
  rw [View.read_writes_eq_canon _ _ _ (cover c i arg2 harg2 arg3 harg3 arg4 harg4 arg5 harg5 arg6 harg6 hc0 hc1 x0 x1 x2)]
  unfold run
  dsimp only
  sl_unfold_words
  rw [View.canon_unit_zero zero2]
  simp only [readCov_cons_whole (S := S1024x16) _ zero2, View.readCov_unit_zero (S := S1024x16) _ zero2, View.readAt_eq_ld,
    harg2.read_unread, harg3.read_unread, harg4.read_unread,
    View.ld_unit_zero (S := S1024x512) zero2, View.ld_unit_zero (S := S512x16) zero2, View.ld_unit_zero (S := S1x16) zero2, View.ld_unit_zero (S := S1024x16) zero2]

/-- Over the extended reals that payload, at row p and column q of the tile, is the tile's row of the left block times
    the column of the right block, plus the bias row's entry. -/
theorem pay_apply (x0 : Vec Ideal S1024x512 .bf16) (x1 : Vec Ideal S512x16 .bf16) (x2 : Vec Ideal S1x16 .f32) (p : Fin 1024) (q : Fin 16) :
    (k4_pay3 (F := Ideal) (k4_pay2 (F := Ideal) (k4_pay1 (F := Ideal)) x0 x1) x2 : S1024x16.Idx → EReal) (ix2 p q)
      = (∑ k : Fin 512, x0 (ix2 p k) * x1 (ix2 k q)) + x2 (ix2 0 q) := by
  unfold k4_pay3 k4_pay2 k4_pay1
  simp only [shapeCast_self]
  have hm : (matmul (F := Ideal) (φ₁ := .bf16) (φ₂ := .bf16) dot_S1024x512_S512x16_S1024x16_1_0_0_1_n_n none x0 x1 (constant (F := Ideal) S1024x16 .f32 0x00000000#32) : S1024x16.Idx → EReal) (ix2 p q)
      = ∑ k : Fin 512, x0 (ix2 p k) * x1 (ix2 k q) :=
    PlainMatmul.matmul_zero_apply (φ₁ := .bf16) (φ₂ := .bf16) dot_S1024x512_S512x16_S1024x16_1_0_0_1_n_n.wf none x0 x1 p q
  have hb : (broadcastTo S1024x16 x2 broadcasts_S1x16_S1024x16 : S1024x16.Idx → EReal) (ix2 p q) = x2 (ix2 0 q) :=
    broadcastTo_apply x2 _ (ix2 p q) (ix2 0 q) (fun a => by match a with | ⟨0, _⟩ => rfl | ⟨1, _⟩ => rfl)
  show (FloatOps.ofBits (F := Ideal) .f32 0x00000000#32 + (matmul (F := Ideal) (φ₁ := .bf16) (φ₂ := .bf16) dot_S1024x512_S512x16_S1024x16_1_0_0_1_n_n none x0 x1 (constant (F := Ideal) S1024x16 .f32 0x00000000#32) : S1024x16.Idx → EReal) (ix2 p q))
      + (broadcastTo S1024x16 x2 broadcasts_S1x16_S1024x16 : S1024x16.Idx → EReal) (ix2 p q) = _
  rw [hm, hb, show (FloatOps.ofBits (F := Ideal) .f32 0x00000000#32 : EReal) = 0 from Ideal.ofBits_zero_f32, zero_add]

section Region

variable (V : (c : Dev nD) → (b : Ref sig .tc) → Buf (Elt Ideal) ((c : Thread nD τ).loc b))

/-- The printed index maps, decided over the ten points: the left operand's and the result's row tiles move together,
    one per point; nothing else moves. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The result as one function of the three operand arrays as the region finds them. -/
def G (c : Dev nD) : S10240x16.Idx → EReal := fun i =>
  Cert.Layer.dense (fun p k => (V c main_v57 : S10240x512.Idx → EReal) (ix2 p k)) (fun k q => (V c main_v49 : S512x16.Idx → EReal) (ix2 k q))
    (fun q => (V c main_v53 : S1x16.Idx → EReal) (ix2 0 q)) (⟨(i 0).val, (i 0).isLt⟩ : Fin 10240) (⟨(i 1).val, (i 1).isLt⟩ : Fin 16)

set_option maxHeartbeats 1000000 in
/-- WHAT POINT t WRITES BACK is block t of that function. -/
theorem flushed_eq (c : Dev nD) (t : Fin cfg4.N) :
    (dat (F := Ideal) V c).flushed 3 t = ((cfg4.win 3).blk t).view.read (Elt Ideal) (G V c) := by
  show (cfg4.win 3).cut (grid4.coords t) ((dat V c).after 3 t) = _
  rw [after_3]
  unfold outAt
  rw [out_eq]
  obtain ⟨e0, e1, e2, e3, e4, e5, e6, e7⟩ := idx_facts t
  funext j
  obtain ⟨p, q, rfl⟩ : ∃ (p : Fin 1024) (q : Fin 16), j = ix2 p q := ⟨j 0, j 1, eq_ix2 j⟩
  show (k4_pay3 (F := Ideal) (k4_pay2 (F := Ideal) (k4_pay1 (F := Ideal)) (iblk V c 0 t) (iblk V c 1 t)) (iblk V c 2 t) : S1024x16.Idx → EReal) (ix2 p q)
    = G V c (((cfg4.win 3).blk t).view.emb (ix2 p q))
  rw [pay_apply]
  unfold G Cert.Layer.dense
  have hrow : ((((cfg4.win 3).blk t).view.emb (ix2 p q)) 0).val = t.val * 1024 + p.val := by
    show win4_3.index t (0 : Fin 2) * 1024 + 1 * p.val = t.val * 1024 + p.val; omega
  have hcol : ((((cfg4.win 3).blk t).view.emb (ix2 p q)) 1).val = q.val := by
    show win4_3.index t (1 : Fin 2) * 16 + 1 * q.val = q.val; omega
  congr 1
  · refine Finset.sum_congr rfl fun k _ => ?_
    congr 1
    · show (V c main_v57 : S10240x512.Idx → EReal) (((cfg4.win 0).blk t).view.emb (ix2 p k)) = (V c main_v57 : S10240x512.Idx → EReal) (ix2 _ k)
      refine congrArg (V c main_v57 : S10240x512.Idx → EReal) (funext fun a => Fin.ext ?_)
      match a with
      | ⟨0, _⟩ => show win4_0.index t (0 : Fin 2) * 1024 + 1 * p.val = ((((cfg4.win 3).blk t).view.emb (ix2 p q)) 0).val; rw [hrow]; omega
      | ⟨1, _⟩ => show win4_0.index t (1 : Fin 2) * 512 + 1 * k.val = k.val; omega
    · show (V c main_v49 : S512x16.Idx → EReal) (((cfg4.win 1).blk t).view.emb (ix2 k q)) = (V c main_v49 : S512x16.Idx → EReal) (ix2 k _)
      refine congrArg (V c main_v49 : S512x16.Idx → EReal) (funext fun a => Fin.ext ?_)
      match a with
      | ⟨0, _⟩ => show win4_1.index t (0 : Fin 2) * 512 + 1 * k.val = k.val; omega
      | ⟨1, _⟩ => show win4_1.index t (1 : Fin 2) * 16 + 1 * q.val = ((((cfg4.win 3).blk t).view.emb (ix2 p q)) 1).val; rw [hcol]; omega
  · show (V c main_v53 : S1x16.Idx → EReal) (((cfg4.win 2).blk t).view.emb (ix2 0 q)) = (V c main_v53 : S1x16.Idx → EReal) (ix2 0 _)
    refine congrArg (V c main_v53 : S1x16.Idx → EReal) (funext fun a => Fin.ext ?_)
    match a with
    | ⟨0, _⟩ => show win4_2.index t (0 : Fin 2) * 1 + 1 * 0 = 0; omega
    | ⟨1, _⟩ => show win4_2.index t (1 : Fin 2) * 16 + 1 * q.val = ((((cfg4.win 3).blk t).view.emb (ix2 p q)) 1).val; rw [hcol]; omega

/-- An index of the result array is in point t's block iff each coordinate is in the block's range on its axis. -/
theorem mem_blk (t : Fin cfg4.N) (i : S10240x16.Idx) :
    i ∈ ((cfg4.win 3).blk t).view.set ↔ ∀ a : Fin 2, win4_3.index t a * S1024x16.size a ≤ (i a).val ∧ (i a).val < win4_3.index t a * S1024x16.size a + S1024x16.size a := by
  show i ∈ ((View.whole main_v58).slice (win4_3.rect t)).set ↔ _
  rw [View.set_slice_whole, Rect.mem_set_unit]
  exact Iff.rfl

/-- Row r of the result is written back by point r / 1024. -/
theorem covered (i : S10240x16.Idx) : ∃ t : Fin cfg4.N, (cfg4.win 3).flush t = true ∧ i ∈ ((cfg4.win 3).blk t).view.set := by
  have hi0 : (i 0).val < 10240 := (i 0).isLt
  have hi1 : (i 1).val < 16 := (i 1).isLt
  have hN : (i 0).val / 1024 < cfg4.N := by rw [show cfg4.N = 10 from N_4]; omega
  refine ⟨⟨(i 0).val / 1024, hN⟩, flush4_3 _, ?_⟩
  rw [mem_blk]
  obtain ⟨-, -, -, -, -, -, e6, e7⟩ := idx_facts ⟨(i 0).val / 1024, hN⟩
  have e6' : win4_3.index ⟨(i 0).val / 1024, hN⟩ (0 : Fin 2) = (i 0).val / 1024 := e6
  intro a
  match a with
  | ⟨0, _⟩ => show win4_3.index ⟨(i 0).val / 1024, hN⟩ (0 : Fin 2) * 1024 ≤ (i 0).val ∧ (i 0).val < win4_3.index ⟨(i 0).val / 1024, hN⟩ (0 : Fin 2) * 1024 + 1024; rw [e6']; omega
  | ⟨1, _⟩ => show win4_3.index ⟨(i 0).val / 1024, hN⟩ (1 : Fin 2) * 16 ≤ (i 1).val ∧ (i 1).val < win4_3.index ⟨(i 0).val / 1024, hN⟩ (1 : Fin 2) * 16 + 16; rw [e7]; omega

/-- THE RESULT ARRAY after the region: that one function of the three operand arrays. -/
theorem final (c : Dev nD) : (dat (F := Ideal) V c).arrAt 3 cfg4.N = G V c :=
  (dat (F := Ideal) V c).arrAt_eq_of_cover 3 (G V c) (fun t _ => flushed_eq V c t) (fun i => covered i)

/-- Read at row p and column q: the matrix product with the bias row. -/
theorem final_apply (c : Dev nD) (p : Fin 10240) (q : Fin 16) :
    ((dat (F := Ideal) V c).arrAt 3 cfg4.N : S10240x16.Idx → EReal) (ix2 p q)
      = Cert.Layer.dense (fun p k => (V c main_v57 : S10240x512.Idx → EReal) (ix2 p k)) (fun k q => (V c main_v49 : S512x16.Idx → EReal) (ix2 k q))
          (fun q => (V c main_v53 : S1x16.Idx → EReal) (ix2 0 q)) p q := by
  rw [final]; rfl

end Region

end Cert.KernelIdeal.Logits

end
-- ==== Proof.IdealCompose.lean ====
/-
  The five matrix products composed. Each region's result array, read at an index, is a dense layer of its operand
  arrays (the three plain products, the two aggregation products); a region's left operand is the region before's
  result, and every other operand — the adjacency, the weight matrices, the bias rows — still holds what the first
  stretch of host operations computed, because a region changes only its own result array. So the logits array at the
  last region's exit is the composed function `Layer.kernelLogits` of those host-computed arrays, given that the
  bias row of the two plain inner products is zero.
-/
import proofs.«110679_j6047313952840_1_alg».proof.Proof.IdealKeep
import proofs.«110679_j6047313952840_1_alg».proof.Proof.IdealXW1Value
import proofs.«110679_j6047313952840_1_alg».proof.Proof.IdealAgg1Value
import proofs.«110679_j6047313952840_1_alg».proof.Proof.IdealXW2Value
import proofs.«110679_j6047313952840_1_alg».proof.Proof.IdealAgg2Value
import proofs.«110679_j6047313952840_1_alg».proof.Proof.IdealLogitsValue
import proofs.«110679_j6047313952840_1_alg».proof.Proof.Layer

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A buffer that is none of the regions' result arrays holds, at every boundary, what the first stretch of host
    operations left in it. -/
theorem W2_host (c : Dev nD) (b : Ref sig .tc) (h : b ≠ main_v54) : W2 m ρ c (Proc.devRef .tc b) = W1 m ρ c (Proc.devRef .tc b) :=
  W2_keep m ρ c b h
theorem W3_host (c : Dev nD) (b : Ref sig .tc) (h : b ≠ main_v54 ∧ b ≠ main_v55) : W3 m ρ c (Proc.devRef .tc b) = W1 m ρ c (Proc.devRef .tc b) :=
  (W3_keep m ρ c b h.2).trans (W2_keep m ρ c b h.1)
theorem W4_host (c : Dev nD) (b : Ref sig .tc) (h : b ≠ main_v54 ∧ b ≠ main_v55 ∧ b ≠ main_v56) : W4 m ρ c (Proc.devRef .tc b) = W1 m ρ c (Proc.devRef .tc b) :=
  (W4_keep m ρ c b h.2.2).trans (W3_host m ρ c b ⟨h.1, h.2.1⟩)
theorem W5_host (c : Dev nD) (b : Ref sig .tc) (h : b ≠ main_v54 ∧ b ≠ main_v55 ∧ b ≠ main_v56 ∧ b ≠ main_v57) : W5 m ρ c (Proc.devRef .tc b) = W1 m ρ c (Proc.devRef .tc b) :=
  (W5_keep m ρ c b h.2.2.2).trans (W4_host m ρ c b ⟨h.1, h.2.1, h.2.2.1⟩)

/-- The logits array at the last region's exit, read at row p and column q. -/
theorem logits_eq (c : Dev nD)
    (hzero : ∀ q : Fin 512, (W1 m ρ c (Proc.devRef .tc main_v50) : S1x512.Idx → EReal) (ix2 (0 : Fin 1) q) = (0 : EReal))
    (p : Fin 10240) (q : Fin 16) :
    (W6 m ρ c (Proc.devRef .tc main_v58) : S10240x16.Idx → EReal) (ix2 p q)
      = Cert.Layer.kernelLogits
          (fun p k => (W1 m ρ c (Proc.devRef .tc main_v42) : S10240x10240.Idx → EReal) (ix2 p k))
          (fun p k => (W1 m ρ c (Proc.devRef .tc main_v46) : S10240x512.Idx → EReal) (ix2 p k))
          (fun k j => (W1 m ρ c (Proc.devRef .tc main_v47) : S512x512.Idx → EReal) (ix2 k j))
          (fun j => (W1 m ρ c (Proc.devRef .tc main_v51) : S1x512.Idx → EReal) (ix2 (0 : Fin 1) j))
          (fun k j => (W1 m ρ c (Proc.devRef .tc main_v48) : S512x512.Idx → EReal) (ix2 k j))
          (fun j => (W1 m ρ c (Proc.devRef .tc main_v52) : S1x512.Idx → EReal) (ix2 (0 : Fin 1) j))
          (fun k j => (W1 m ρ c (Proc.devRef .tc main_v49) : S512x16.Idx → EReal) (ix2 k j))
          (fun j => (W1 m ρ c (Proc.devRef .tc main_v53) : S1x16.Idx → EReal) (ix2 (0 : Fin 1) j)) p q := by
  -- the first product: padded features times W1, zero bias
  have e54 : (fun p k => (V2 m ρ c main_v54 : S10240x512.Idx → EReal) (ix2 p k))
      = Cert.Layer.dense (fun p k => (W1 m ρ c (Proc.devRef .tc main_v46) : S10240x512.Idx → EReal) (ix2 p k))
          (fun k j => (W1 m ρ c (Proc.devRef .tc main_v47) : S512x512.Idx → EReal) (ix2 k j)) (fun _ => 0) := by
    funext p k
    show ((W2 m ρ c (Proc.devRef .tc main_v54)) : S10240x512.Idx → EReal) (ix2 p k) = _
    rw [show W2 m ρ c (Proc.devRef .tc main_v54) = (XW1.dat (V1 m ρ) c).arrAt 3 cfg0.N from W2_arr m ρ c 3, XW1.final_apply]
    unfold Cert.Layer.dense
    exact congrArg₂ (· + ·) rfl (hzero k)
  -- the first aggregation
  have e55 : (fun p k => (V3 m ρ c main_v55 : S10240x512.Idx → EReal) (ix2 p k))
      = Cert.Layer.denseRelu (fun p k => (W1 m ρ c (Proc.devRef .tc main_v42) : S10240x10240.Idx → EReal) (ix2 p k))
          (Cert.Layer.dense (fun p k => (W1 m ρ c (Proc.devRef .tc main_v46) : S10240x512.Idx → EReal) (ix2 p k))
            (fun k j => (W1 m ρ c (Proc.devRef .tc main_v47) : S512x512.Idx → EReal) (ix2 k j)) (fun _ => 0))
          (fun j => (W1 m ρ c (Proc.devRef .tc main_v51) : S1x512.Idx → EReal) (ix2 (0 : Fin 1) j)) := by
    funext p k
    show ((W3 m ρ c (Proc.devRef .tc main_v55)) : S10240x512.Idx → EReal) (ix2 p k) = _
    rw [show W3 m ρ c (Proc.devRef .tc main_v55) = (Agg1.dat (V2 m ρ) c).arrAt 3 cfg1.N from W3_arr m ρ c 3, Agg1.final_apply, e54,
      show V2 m ρ c main_v42 = W1 m ρ c (Proc.devRef .tc main_v42) from W2_host m ρ c main_v42 (by decide),
      show V2 m ρ c main_v51 = W1 m ρ c (Proc.devRef .tc main_v51) from W2_host m ρ c main_v51 (by decide)]
  -- the second plain product: zero bias again
  have e56 : (fun p k => (V4 m ρ c main_v56 : S10240x512.Idx → EReal) (ix2 p k))
      = Cert.Layer.dense (fun p k => (V3 m ρ c main_v55 : S10240x512.Idx → EReal) (ix2 p k))
          (fun k j => (W1 m ρ c (Proc.devRef .tc main_v48) : S512x512.Idx → EReal) (ix2 k j)) (fun _ => 0) := by
    funext p k
    show ((W4 m ρ c (Proc.devRef .tc main_v56)) : S10240x512.Idx → EReal) (ix2 p k) = _
    rw [show W4 m ρ c (Proc.devRef .tc main_v56) = (XW2.dat (V3 m ρ) c).arrAt 3 cfg2.N from W4_arr m ρ c 3, XW2.final_apply,
      show V3 m ρ c main_v48 = W1 m ρ c (Proc.devRef .tc main_v48) from W3_host m ρ c main_v48 (by decide)]
    unfold Cert.Layer.dense
    exact congrArg₂ (· + ·) rfl ((congrFun (W3_host m ρ c main_v50 (by decide)) (ix2 (0 : Fin 1) k)).trans (hzero k))
  -- the second aggregation
  have e57 : (fun p k => (V5 m ρ c main_v57 : S10240x512.Idx → EReal) (ix2 p k))
      = Cert.Layer.denseRelu (fun p k => (W1 m ρ c (Proc.devRef .tc main_v42) : S10240x10240.Idx → EReal) (ix2 p k))
          (fun p k => (V4 m ρ c main_v56 : S10240x512.Idx → EReal) (ix2 p k))
          (fun j => (W1 m ρ c (Proc.devRef .tc main_v52) : S1x512.Idx → EReal) (ix2 (0 : Fin 1) j)) := by
    funext p k
    show ((W5 m ρ c (Proc.devRef .tc main_v57)) : S10240x512.Idx → EReal) (ix2 p k) = _
    rw [show W5 m ρ c (Proc.devRef .tc main_v57) = (Agg2.dat (V4 m ρ) c).arrAt 3 cfg3.N from W5_arr m ρ c 3, Agg2.final_apply,
      show V4 m ρ c main_v42 = W1 m ρ c (Proc.devRef .tc main_v42) from W4_host m ρ c main_v42 (by decide),
      show V4 m ρ c main_v52 = W1 m ρ c (Proc.devRef .tc main_v52) from W4_host m ρ c main_v52 (by decide)]
  -- the output product
  rw [show W6 m ρ c (Proc.devRef .tc main_v58) = (Logits.dat (V5 m ρ) c).arrAt 3 cfg4.N from W6_arr m ρ c 3, Logits.final_apply, e57, e56, e55,
    show V5 m ρ c main_v49 = W1 m ρ c (Proc.devRef .tc main_v49) from W5_host m ρ c main_v49 (by decide),
    show V5 m ρ c main_v53 = W1 m ρ c (Proc.devRef .tc main_v53) from W5_host m ρ c main_v53 (by decide)]
  rfl

end Cert.KernelIdeal.Run

end
-- ==== Proof.KernelHostNorm.lean ====
/-
  The kernel program's host prefix, part one: the two end arrays of the 170000 slots and the slot weights.

  The first 33 host operations build, from the edge array, the source ends and the destination ends (a row of the
  edge array followed by 0 .. 9999), count the slots ending at each node by a scatter of ones, take the reciprocal
  square root, gather it at both ends of every slot and multiply. These are operation for operation the reference
  program's first steps, so each of the three buffers is the reference's stage function of the edge array.
-/
import proofs.«110679_j6047313952840_1_alg».proof.Proof.Gen.KernelIdeal.Launch
import proofs.«110679_j6047313952840_1_alg».proof.Proof.Gen.ReferenceIdeal.Read
import Idealize.ShloMosaic.PureOps.Ideal
import Idealize.ShloMosaic.Lib.ValueIdx
import Idealize.ShloMosaic.Lib.StableHlo.Run

set_option maxRecDepth 4000

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelHost

/-- The kernel program's host prefix at exact arithmetic. -/
abbrev H : List (HloOp τ sig (Elt Ideal)) := hostOps0 (F := Ideal)

set_option maxHeartbeats 4000000 in
/-- The source ends of the slots. -/
theorem v3_eq (W : Valuation τ sig (Elt Ideal)) :
    (StableHlo.after H W (Proc.devRef .tc main_v3) : (⟨S170000, .i32⟩ : BufTy).Contents (Elt Ideal))
      = Cert.ReferenceIdeal.Read.val_main_v3 (F := Ideal) (W (Proc.devRef .tc main_arg1)) := by
  dsimp only [H, hostOps0]
  after_results
  rfl

set_option maxHeartbeats 4000000 in
/-- The destination ends of the slots. -/
theorem v6_eq (W : Valuation τ sig (Elt Ideal)) :
    (StableHlo.after H W (Proc.devRef .tc main_v6) : (⟨S170000, .i32⟩ : BufTy).Contents (Elt Ideal))
      = Cert.ReferenceIdeal.Read.val_main_v6 (F := Ideal) (W (Proc.devRef .tc main_arg1)) := by
  dsimp only [H, hostOps0]
  after_results
  rfl

set_option maxHeartbeats 4000000 in
/-- The weights of the slots. -/
theorem v26_eq (W : Valuation τ sig (Elt Ideal)) :
    (StableHlo.after H W (Proc.devRef .tc main_v26) : (⟨S170000, .f32⟩ : BufTy).Contents (Elt Ideal))
      = Cert.ReferenceIdeal.Read.val_main_v27 (F := Ideal) (W (Proc.devRef .tc main_arg1)) := by
  dsimp only [H, hostOps0]
  after_results
  rfl

end Cert.KernelHost

end
-- ==== Proof.KernelHostArgs.lean ====
/-
  The kernel program's host prefix, part three: the operands that depend on the float arguments only.

  The features are written into the top 10000 rows of a zero [10240, 512] array and converted; the three weight
  matrices are converted; a zero bias row is a broadcast constant; the three bias vectors are reshaped to rows.
  Each buffer after the 68 host operations is the operations' term of the argument buffers.
-/
import proofs.«110679_j6047313952840_1_alg».proof.Proof.KernelHostNorm

set_option maxRecDepth 4000

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelHost

set_option maxHeartbeats 4000000 in
/-- The padded features. -/
theorem v46_eq (W : Valuation τ sig (Elt Ideal)) :
    (StableHlo.after H W (Proc.devRef .tc main_v46) : (⟨S10240x512, .bf16⟩ : BufTy).Contents (Elt Ideal))
      = truncf .bf16 (Host.scatter scatter_S10240x512_S1_S10000x512_01_n_0_0 (fun _ b => b)
          (broadcastInDim S10240x512 ![] bcast_S_S10240x512 (constant (F := Ideal) S_ .f32 0x00000000#32))
          (broadcastInDim S1 ![] bcast_S_S1 (constantI S_ 32 0#32))
          (W (Proc.devRef .tc main_arg0)) : FVec Ideal S10240x512 .f32) bitsLt_bf16_f32 := by
  dsimp only [H, hostOps0]
  after_results <;> rfl

set_option maxHeartbeats 4000000 in
/-- The first weight matrix. -/
theorem v47_eq (W : Valuation τ sig (Elt Ideal)) :
    (StableHlo.after H W (Proc.devRef .tc main_v47) : (⟨S512x512, .bf16⟩ : BufTy).Contents (Elt Ideal))
      = truncf (F := Ideal) (s := S512x512) (φ := .f32) .bf16 (W (Proc.devRef .tc main_arg2)) bitsLt_bf16_f32 := by
  dsimp only [H, hostOps0]
  after_results <;> rfl

set_option maxHeartbeats 4000000 in
/-- The second weight matrix. -/
theorem v48_eq (W : Valuation τ sig (Elt Ideal)) :
    (StableHlo.after H W (Proc.devRef .tc main_v48) : (⟨S512x512, .bf16⟩ : BufTy).Contents (Elt Ideal))
      = truncf (F := Ideal) (s := S512x512) (φ := .f32) .bf16 (W (Proc.devRef .tc main_arg4)) bitsLt_bf16_f32 := by
  dsimp only [H, hostOps0]
  after_results <;> rfl

set_option maxHeartbeats 4000000 in
/-- The read-out matrix. -/
theorem v49_eq (W : Valuation τ sig (Elt Ideal)) :
    (StableHlo.after H W (Proc.devRef .tc main_v49) : (⟨S512x16, .bf16⟩ : BufTy).Contents (Elt Ideal))
      = truncf (F := Ideal) (s := S512x16) (φ := .f32) .bf16 (W (Proc.devRef .tc main_arg6)) bitsLt_bf16_f32 := by
  dsimp only [H, hostOps0]
  after_results <;> rfl

set_option maxHeartbeats 4000000 in
/-- The zero bias row. -/
theorem v50_eq (W : Valuation τ sig (Elt Ideal)) :
    (StableHlo.after H W (Proc.devRef .tc main_v50) : (⟨S1x512, .f32⟩ : BufTy).Contents (Elt Ideal))
      = broadcastInDim S1x512 ![] bcast_S_S1x512 (constant (F := Ideal) S_ .f32 0x00000000#32) := by
  dsimp only [H, hostOps0]
  after_results <;> rfl

set_option maxHeartbeats 4000000 in
/-- The first bias as a row. -/
theorem v51_eq (W : Valuation τ sig (Elt Ideal)) :
    (StableHlo.after H W (Proc.devRef .tc main_v51) : (⟨S1x512, .f32⟩ : BufTy).Contents (Elt Ideal))
      = shapeCast S1x512 (W (Proc.devRef .tc main_arg3) : (⟨S512, .f32⟩ : BufTy).Contents (Elt Ideal)) shapeCasts_S512_S1x512 := by
  dsimp only [H, hostOps0]
  after_results <;> rfl

set_option maxHeartbeats 4000000 in
/-- The second bias as a row. -/
theorem v52_eq (W : Valuation τ sig (Elt Ideal)) :
    (StableHlo.after H W (Proc.devRef .tc main_v52) : (⟨S1x512, .f32⟩ : BufTy).Contents (Elt Ideal))
      = shapeCast S1x512 (W (Proc.devRef .tc main_arg5) : (⟨S512, .f32⟩ : BufTy).Contents (Elt Ideal)) shapeCasts_S512_S1x512 := by
  dsimp only [H, hostOps0]
  after_results <;> rfl

set_option maxHeartbeats 4000000 in
/-- The read-out bias as a row. -/
theorem v53_eq (W : Valuation τ sig (Elt Ideal)) :
    (StableHlo.after H W (Proc.devRef .tc main_v53) : (⟨S1x16, .f32⟩ : BufTy).Contents (Elt Ideal))
      = shapeCast S1x16 (W (Proc.devRef .tc main_arg7) : (⟨S16, .f32⟩ : BufTy).Contents (Elt Ideal)) shapeCasts_S16_S1x16 := by
  dsimp only [H, hostOps0]
  after_results <;> rfl

end Cert.KernelHost

end
-- ==== Proof.KernelHostAdj.lean ====
/-
  The kernel program's host prefix, part two: the dense adjacency as a term of the end arrays and the weights.

  The operations after the weights normalise a negative end by adding 10240, lay the destination and the source
  ends side by side as an [170000, 2] array of (row, column) pairs, add the weights into a zero [10240, 10240]
  array at those pairs, and convert. The list of host operations is split after the weights: what the later
  operations compute is read from any valuation of the earlier buffers, and the earlier buffers are the ones
  computed in part one, the later operations writing none of them.
-/
import proofs.«110679_j6047313952840_1_alg».proof.Proof.KernelHostNorm

set_option maxRecDepth 4000

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelHost

/-- Running two lists of operations one after the other is running their concatenation. -/
theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => rw [List.cons_append, StableHlo.after_cons, StableHlo.after_cons, ih]

/-- A list of operations run as its first n, then the rest. -/
theorem after_take_drop (n : Nat) (ops : List (HloOp τ sig (Elt Ideal))) (W : Valuation τ sig (Elt Ideal)) :
    StableHlo.after ops W = StableHlo.after (ops.drop n) (StableHlo.after (ops.take n) W) := by
  conv_lhs => rw [← List.take_append_drop n ops]
  exact after_app _ _ _

set_option maxHeartbeats 4000000 in
/-- The operations after the weights do not write the source ends. -/
theorem tail_v3 (W' : Valuation τ sig (Elt Ideal)) :
    StableHlo.after (H.drop 33) W' (Proc.devRef .tc main_v3) = W' (Proc.devRef .tc main_v3) := by
  conv in (List.drop _ _) => whnf
  after_results

set_option maxHeartbeats 4000000 in
/-- Nor the destination ends. -/
theorem tail_v6 (W' : Valuation τ sig (Elt Ideal)) :
    StableHlo.after (H.drop 33) W' (Proc.devRef .tc main_v6) = W' (Proc.devRef .tc main_v6) := by
  conv in (List.drop _ _) => whnf
  after_results

set_option maxHeartbeats 4000000 in
/-- Nor the weights. -/
theorem tail_v26 (W' : Valuation τ sig (Elt Ideal)) :
    StableHlo.after (H.drop 33) W' (Proc.devRef .tc main_v26) = W' (Proc.devRef .tc main_v26) := by
  conv in (List.drop _ _) => whnf
  after_results

/-- An end array with its negative words moved up by 10240. -/
def wrapDense (y : IVec S170000 32) : IVec S170000 32 :=
  select (cmpi .slt y (broadcastInDim S170000 ![] bcast_S_S170000 (constantI S_ 32 0#32)))
    (addi y (broadcastInDim S170000 ![] bcast_S_S170000 (constantI S_ 32 10240#32))) y

/-- The (row, column) pairs: destination ends in column 0, source ends in column 1. -/
def pairsOf (y3 y6 : IVec S170000 32) : IVec S170000x2 32 :=
  concatenate S170000x2 1
    [⟨S170000x1, broadcastInDim S170000x1 ![0] bcast_S170000_S170000x1_0 (wrapDense y6)⟩,
     ⟨S170000x1, broadcastInDim S170000x1 ![0] bcast_S170000_S170000x1_0 (wrapDense y3)⟩]
    concatenates_S170000x1_S170000x1_S170000x2_d1

/-- The dense adjacency as a term of the source ends, the destination ends and the weights. -/
def denseOf (y3 y6 : IVec S170000 32) (nrm : FVec Ideal S170000 .f32) : FVec Ideal S10240x10240 .bf16 :=
  truncf .bf16 (Host.scatterAdd scatter_S10240x10240_S170000x2_S170000_n_01_01_1
    (broadcastInDim S10240x10240 ![] bcast_S_S10240x10240 (constant (F := Ideal) S_ .f32 0x00000000#32))
    (pairsOf y3 y6) nrm : FVec Ideal S10240x10240 .f32) bitsLt_bf16_f32

set_option maxHeartbeats 4000000 in
/-- What the operations after the weights leave in the adjacency buffer, from any valuation of the earlier buffers. -/
theorem stage_v42 (W' : Valuation τ sig (Elt Ideal)) :
    (StableHlo.after (H.drop 33) W' (Proc.devRef .tc main_v42) : (⟨S10240x10240, .bf16⟩ : BufTy).Contents (Elt Ideal))
      = denseOf (W' (Proc.devRef .tc main_v3)) (W' (Proc.devRef .tc main_v6)) (W' (Proc.devRef .tc main_v26)) := by
  conv in (List.drop _ _) => whnf
  after_results <;> rfl

/-- The dense adjacency after the 68 host operations, as a term of the edge array. -/
theorem v42_eq (W : Valuation τ sig (Elt Ideal)) :
    (StableHlo.after H W (Proc.devRef .tc main_v42) : (⟨S10240x10240, .bf16⟩ : BufTy).Contents (Elt Ideal))
      = denseOf (Cert.ReferenceIdeal.Read.val_main_v3 (F := Ideal) (W (Proc.devRef .tc main_arg1)))
          (Cert.ReferenceIdeal.Read.val_main_v6 (F := Ideal) (W (Proc.devRef .tc main_arg1)))
          (Cert.ReferenceIdeal.Read.val_main_v27 (F := Ideal) (W (Proc.devRef .tc main_arg1))) := by
  have e3 : StableHlo.after (H.take 33) W (Proc.devRef .tc main_v3)
      = Cert.ReferenceIdeal.Read.val_main_v3 (F := Ideal) (W (Proc.devRef .tc main_arg1)) := by
    rw [← tail_v3 (StableHlo.after (H.take 33) W), ← after_take_drop 33 H W]; exact v3_eq W
  have e6 : StableHlo.after (H.take 33) W (Proc.devRef .tc main_v6)
      = Cert.ReferenceIdeal.Read.val_main_v6 (F := Ideal) (W (Proc.devRef .tc main_arg1)) := by
    rw [← tail_v6 (StableHlo.after (H.take 33) W), ← after_take_drop 33 H W]; exact v6_eq W
  have e26 : StableHlo.after (H.take 33) W (Proc.devRef .tc main_v26)
      = Cert.ReferenceIdeal.Read.val_main_v27 (F := Ideal) (W (Proc.devRef .tc main_arg1)) := by
    rw [← tail_v26 (StableHlo.after (H.take 33) W), ← after_take_drop 33 H W]; exact v26_eq W
  rw [after_take_drop 33 H W, stage_v42, e3, e6, e26]

end Cert.KernelHost

end
-- ==== Proof.Spec.lean ====
/-
  The closed form both programs are compared against: a two-layer graph convolution with symmetric
  normalisation, followed by a dense read-out. Nodes are Fin 10000; the 170000 edge slots are the 160000 given
  edges followed by one self loop per node. The degree of a node counts the slots that end at it, the weight of a
  slot is the product of the reciprocal square roots of the degrees of its two ends, a layer sends
  H to (sum over the slots ending at d of weight * (H W)[source]) + b, and the logits are the second layer's
  rectified output times the read-out matrix plus its bias. Everything is over the extended reals.
-/
import Mathlib
import Idealize.ShloMosaic.PureOps.Ideal

noncomputable section

open Idealize.ShloMosaic
open scoped BigOperators

namespace Cert.Spec

/-- A 32-bit word read as a node number (in range the word is the number itself). -/
def node (w : BitVec 32) : Fin 10000 := ⟨w.toNat % 10000, Nat.mod_lt _ (by decide)⟩

/-- One end of each of the 170000 slots: slot e < 160000 ends at the node its word in the given row names;
    slot 160000 + v is the self loop at node v. -/
def ends (row : Fin 160000 → BitVec 32) (e : Fin 170000) : Fin 10000 :=
  if h : e.val < 160000 then node (row ⟨e.val, h⟩) else ⟨e.val - 160000, by omega⟩

section
variable (src dst : Fin 170000 → Fin 10000)

/-- The number of slots that end at d. -/
def deg (d : Fin 10000) : EReal := ∑ e : Fin 170000, if dst e = d then (1 : EReal) else 0

/-- The reciprocal square root of the degree. -/
def dinv (d : Fin 10000) : EReal := Ideal.rsqrt (deg dst d)

/-- The weight of a slot: the product of dinv at its two ends. -/
def norm (e : Fin 170000) : EReal := dinv dst (src e) * dinv dst (dst e)

/-- One convolution layer: at node d and feature j, the weighted sum over the slots ending at d of the
    transformed features of the slot's source, plus the bias. -/
def conv {K C : ℕ} (H : Fin 10000 → Fin K → EReal) (W : Fin K → Fin C → EReal) (b : Fin C → EReal)
    (d : Fin 10000) (j : Fin C) : EReal :=
  (∑ e : Fin 170000, if dst e = d then norm src dst e * (∑ k, H (src e) k * W k j) else 0) + b j

end

/-- The positive part. -/
def relu (x : EReal) : EReal := max x 0

/-- The logits: two rectified convolution layers, then the dense read-out. -/
def logits (src dst : Fin 170000 → Fin 10000)
    (x : Fin 10000 → Fin 512 → EReal) (W1 : Fin 512 → Fin 512 → EReal) (b1 : Fin 512 → EReal)
    (W2 : Fin 512 → Fin 512 → EReal) (b2 : Fin 512 → EReal) (Wout : Fin 512 → Fin 16 → EReal) (bout : Fin 16 → EReal)
    (d : Fin 10000) (j : Fin 16) : EReal :=
  (∑ k, (fun d k => relu (conv src dst (fun d k => relu (conv src dst x W1 b1 d k)) W2 b2 d k)) d k * Wout k j) + bout j

end Cert.Spec

end
-- ==== Proof.LibRowIndexing.lean ====
/-
  Row indexing on the host, read at an index.  For a table of N rows and an array of E row numbers kept as an
  [E, 1] array of 32-bit words:

  * taking the rows of an [N, C] table (stablehlo.gather with the row axis collapsed, one start-index component,
    slices of one whole row) reads, at (e, c), the table at (row e, c), where row e is the e-th word read as a signed
    integer and clamped into [0, N - 1];
  * taking the entries of a length-N vector reads, at e, the vector at that same clamped row;
  * adding rows into an [N, C] array (stablehlo.scatter with an add body, the row axis inserted): the update at (e, c')
    lands on (i, c) exactly when c' = c and the e-th word, read as a signed integer and NOT clamped, is i; a word
    outside [0, N) lands nowhere.

  All for any witness of the dimension numbers' side conditions.
-/
import Idealize.ShloMosaic.PureOps.Ideal
import Idealize.ShloMosaic.Lib.ValueIdx

noncomputable section

namespace Idealize.ShloMosaic.RowIndexing

open Idealize.ShloMosaic Idealize.ShloMosaic.ValueIdx

variable {α : Type} {N E C w : Nat}

/-- A word read as a signed integer and clamped to a row number of a table of N rows. -/
def clampRow (hN : 0 < N) (v : BitVec w) : Fin N := ⟨min v.toInt.toNat (N - 1), by omega⟩

/-- A word that is a row number as a signed integer clamps to that row. -/
theorem clampRow_of_toInt (hN : 0 < N) (v : BitVec w) (i : Fin N) (h : v.toInt = (i.val : Int)) :
    clampRow hN v = i := by
  refine Fin.ext ?_
  show min v.toInt.toNat (N - 1) = i.val
  rw [h, Int.toNat_natCast]
  have := i.isLt
  omega

/-! ## Rows of a table -/

/-- The dimension numbers of "rows of an [N, C] table at [E, 1] row numbers". -/
abbrev rowGather (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry (e, c) of the gathered rows is the table at (clamped row e, c). -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather wf) x idx (ix2 e c) = x (ix2 (clampRow hN (idx (ix2 e (0 : Fin 1)))) c) := by
  unfold Host.gather
  congr 1
  funext a
  refine Fin.ext ?_
  match a with
  | ⟨0, h0⟩ =>
    show (rowGather wf).start (ix2 e c) idx ⟨0, h0⟩ + (rowGather wf).batchCoord (ix2 e c) ⟨0, h0⟩
      + (rowGather wf).offCoord (ix2 e c) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather wf).startIndexMap from List.mem_singleton.mpr rfl)]
    have hsi : (rowGather wf).siIdx (ix2 e c) ⟨List.idxOf (⟨0, h0⟩ : Fin 2) (rowGather wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather wf).start (ix2 e c) idx ⟨1, h1⟩ + (rowGather wf).batchCoord (ix2 e c) ⟨1, h1⟩
      + (rowGather wf).offCoord (ix2 e c) ⟨1, h1⟩ = c.val
    rw [GatherDims.batchCoord_eq_zero _ _ _ List.not_mem_nil]
    unfold GatherDims.start
    rw [dif_neg (show ¬ (⟨1, h1⟩ : Fin 2) ∈ (rowGather wf).startIndexMap from fun h => absurd (congrArg Fin.val (List.mem_singleton.mp h)) (by simp))]
    simp only [Nat.add_zero, Nat.zero_add]
    unfold GatherDims.offCoord
    rw [dif_pos (show (⟨1, h1⟩ : Fin 2) ∈ (rowGather wf).sKept from (GatherDims.mem_sKept _ _).mpr ⟨fun h => absurd (congrArg Fin.val (List.mem_singleton.mp h)) (by simp), List.not_mem_nil⟩)]
    rfl

/-! ## Entries of a vector -/

/-- The dimension numbers of "entries of a length-N vector at [E, 1] positions". -/
abbrev elemGather (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is the vector at the clamped position e. -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGather wf) x idx (ix1 e) = x (ix1 (clampRow hN (idx (ix2 e (0 : Fin 1))))) := by
  unfold Host.gather
  congr 1
  funext a
  obtain rfl : a = 0 := Subsingleton.elim _ _
  refine Fin.ext ?_
  show (elemGather wf).start (ix1 e) idx 0 + (elemGather wf).batchCoord (ix1 e) 0 + (elemGather wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGather wf).startIndexMap from List.mem_singleton.mpr rfl)]
  have hsi : (elemGather wf).siIdx (ix1 e) ⟨List.idxOf (0 : Fin 1) (elemGather wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into an array -/

/-- The dimension numbers of "add the [E, C] rows into an [N, C] array at [E, 1] row numbers". -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The start of update (e, c')'s window on the row axis is its word read as a signed integer. -/
theorem rowScatter_start0 (wf : ScatterDims.WF ⟨2, ![N, C]⟩ ⟨2, ![E, 1]⟩ ⟨2, ![E, C]⟩ [1] [0] [0] 1)
    (idx : IVec ⟨2, ![E, 1]⟩ w) (e : Fin E) (c' : Fin C) (h0 : 0 < 2) :
    (rowScatter wf).start (ix2 e c') idx ⟨0, h0⟩ = (idx (ix2 e (0 : Fin 1))).toInt := by
  unfold ScatterDims.start
  rw [dif_pos (show (⟨0, h0⟩ : Fin 2) ∈ (rowScatter wf).scatterDimsToOperandDims from List.mem_singleton.mpr rfl)]
  have hsi : (rowScatter wf).siIdx (ix2 e c') ⟨List.idxOf (⟨0, h0⟩ : Fin 2) (rowScatter wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: it is not among the axes the update's window runs over; the column axis is. -/
theorem rowScatter_sKept (wf : ScatterDims.WF ⟨2, ![N, C]⟩ ⟨2, ![E, 1]⟩ ⟨2, ![E, C]⟩ [1] [0] [0] 1) :
    (0 : Fin 2) ∉ (rowScatter wf).sKept ∧ (1 : Fin 2) ∈ (rowScatter wf).sKept := by
  constructor <;> simp [ScatterDims.sKept, Shape.kept, List.mem_filter, List.mem_finRange]

/-- Where update (e, c') lands, when it lands: on its own column, at the row its word names. -/
theorem rowScatter_lands (wf : ScatterDims.WF ⟨2, ![N, C]⟩ ⟨2, ![E, 1]⟩ ⟨2, ![E, C]⟩ [1] [0] [0] 1)
    (idx : IVec ⟨2, ![E, 1]⟩ w) (e : Fin E) (c' : Fin C) (i : Fin N) (c : Fin C)
    (h : (rowScatter wf).resultIdx? (ix2 e c') idx = some (ix2 i c)) :
    c' = c ∧ (idx (ix2 e (0 : Fin 1))).toInt = (i.val : Int) := by
  unfold ScatterDims.resultIdx? at h
  split at h
  · rename_i hin
    have h' := Option.some.inj h
    have e0 := congrArg (fun f => (f (0 : Fin 2)).val) h'
    have e1 := congrArg (fun f => (f (1 : Fin 2)).val) h'
    have hw0 : (rowScatter wf).window (ix2 e c') (0 : Fin 2) = 0 := by
      unfold ScatterDims.window
      rw [dif_neg (rowScatter_sKept wf).1]
    have hw1 : (rowScatter wf).window (ix2 e c') (1 : Fin 2) = c'.val := by
      unfold ScatterDims.window
      rw [dif_pos (rowScatter_sKept wf).2]
      rfl
    have hs1 : (rowScatter wf).start (ix2 e c') idx (1 : Fin 2) = 0 := by
      unfold ScatterDims.start
      rw [dif_neg (show ¬ (1 : Fin 2) ∈ (rowScatter wf).scatterDimsToOperandDims from
        fun hm => absurd (congrArg Fin.val (List.mem_singleton.mp hm)) (by simp))]
    have hs0 := rowScatter_start0 wf idx e c' Nat.zero_lt_two
    have b0 := (hin (0 : Fin 2)).1
    simp only at e0 e1
    have hs0' : (rowScatter wf).start (ix2 e c') idx (0 : Fin 2) = (idx (ix2 e (0 : Fin 1))).toInt := hs0
    rw [hs0', hw0] at e0 b0
    rw [hs1, hw1] at e1
    constructor
    · refine Fin.ext ?_
      have : ((0 : Int) + (c'.val : Int)).toNat = c.val := e1
      omega
    · have : ((idx (ix2 e (0 : Fin 1))).toInt + ((0 : Nat) : Int)).toNat = i.val := e0
      omega
  · exact absurd h (by simp)

end Idealize.ShloMosaic.RowIndexing

end
-- ==== Proof.LibBincount.lean ====
/-
  Counting into bins as a scatter of ones by addition, and the count of the values at most `n` as the sum of the
  bin counts up to `n`. A scatter whose body is an addition, read at one element, is the operand's element plus
  the sum of the updates landing there; with one scalar update per start index, all ones, into zero bins, bin `k`
  ends at the number of start indices equal to `k`, the indices outside the bins being dropped.
-/
import Mathlib
import Idealize.ShloMosaic.PureOps.Contract
import Idealize.ShloMosaic.PureOps.ShapeOps
import Idealize.ShloMosaic.Lib.ValueIdx

open Idealize.ShloMosaic Idealize.ShloMosaic.ValueIdx

namespace HostInt

/-- Summing the sizes of the fibres g = k over k ≤ n counts the r with g r ≤ n. -/
theorem sum_card_fiber_le {N : Nat} (g : Fin N → Nat) (K : Nat) (n : Fin K) :
    (∑ k ∈ Finset.univ.filter (fun k : Fin K => k.val ≤ n.val), (Finset.univ.filter (fun r : Fin N => g r = k.val)).card)
      = (Finset.univ.filter (fun r : Fin N => g r ≤ n.val)).card := by
  rw [← Finset.card_biUnion]
  · congr 1
    ext r
    simp only [Finset.mem_biUnion, Finset.mem_filter, Finset.mem_univ, true_and]
    constructor
    · rintro ⟨k, hk, hgk⟩; omega
    · intro hr; exact ⟨⟨g r, lt_of_le_of_lt hr n.isLt⟩, hr, rfl⟩
  · intro a _ b _ hab
    change Disjoint _ _
    rw [Finset.disjoint_left]
    intro r hra hrb
    simp only [Finset.mem_filter, Finset.mem_univ, true_and] at hra hrb
    exact hab (Fin.ext (hra.symm.trans hrb))

/-- A scatter whose body is an addition, read at one element: the operand's element plus the sum of the updates
    whose result index is that element (an update whose index leaves the operand is dropped). -/
theorem scatter_add_apply {s si u : Shape} {w : Nat} {α : Type} [AddCommMonoid α] (d : ScatterDims s si u)
    (f : α → α → α) (hf : ∀ a b, f a b = a + b) (x : s.Idx → α) (idx : IVec si w) (upd : u.Idx → α) (i0 : s.Idx) :
    Host.scatter d f x idx upd i0
      = x i0 + ∑ n : Fin u.numel,
          if d.resultIdx? (u.rowMajor.symm n) idx = some i0 then upd (u.rowMajor.symm n) else 0 := by
  unfold Host.scatter
  rw [Fin.sum_univ_def]
  generalize List.finRange u.numel = l
  induction l generalizing x with
  | nil => simp
  | cons a l ih =>
    rw [List.foldl_cons, ih, List.map_cons, List.sum_cons, ← add_assoc]
    congr 1
    cases hres : d.resultIdx? (u.rowMajor.symm a) idx with
    | none => simp
    | some i =>
      by_cases hi : i0 = i
      · subst hi; simp [hf]
      · have hne : ¬ (some i = some i0) := fun h => hi (Option.some.inj h).symm
        simp [hi, hne]

/-- The dimension numbers of a scatter of `N` scalar updates into a length-`K` vector, one start index each. -/
abbrev binDims (N K : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ :=
  { updateWindowDims := [], insertedWindowDims := [0], scatterDimsToOperandDims := [0], indexVectorDim := 1, wf := wf }

/-- A natural below `2 ^ 31`, as a 32-bit word read signed, is itself. -/
theorem toInt_ofNat_of_lt (n : Nat) (hn : n < 2 ^ 31) : (BitVec.ofNat 32 n).toInt = (n : Int) := by
  have h31 : (2:Nat) ^ 31 = 2147483648 := by norm_num
  rw [BitVec.toInt_eq_toNat_cond, BitVec.toNat_ofNat, Nat.mod_eq_of_lt (by omega), if_pos (by omega)]

/-- Update `r` starts at the word the index array holds at `(r, 0)`, read signed. -/
theorem binDims_start (N K : Nat) (wf : ScatterDims.WF ⟨1, ![K]⟩ ⟨2, ![N, 1]⟩ ⟨1, ![N]⟩ [] [0] [0] 1)
    (idx : IVec ⟨2, ![N, 1]⟩ 32) (r : Fin N) (a : Fin 1) :
    (binDims N K wf).start (ix1 r) idx a = (idx (ix2 r 0)).toInt := by
  rw [Fin.fin_one_eq_zero a]
  unfold ScatterDims.start
  rw [dif_pos (by simp)]
  congr 2
  funext b
  match b with
  | ⟨0, _⟩ => exact Fin.ext rfl
  | ⟨1, _⟩ => exact Fin.ext rfl

/-- The updates are scalars: the window coordinate is zero. -/
theorem binDims_window (N K : Nat) (wf : ScatterDims.WF ⟨1, ![K]⟩ ⟨2, ![N, 1]⟩ ⟨1, ![N]⟩ [] [0] [0] 1)
    (r : Fin N) (a : Fin 1) : (binDims N K wf).window (ix1 r) a = 0 := by
  rw [Fin.fin_one_eq_zero a]
  rfl

/-- Update `r`, whose start index is the natural `g r` below `2 ^ 31`, lands at element `g r` when `g r < K`
    and is dropped otherwise. -/
theorem binDims_resultIdx (N K : Nat) (wf : ScatterDims.WF ⟨1, ![K]⟩ ⟨2, ![N, 1]⟩ ⟨1, ![N]⟩ [] [0] [0] 1)
    (g : Fin N → Nat) (hg : ∀ r, g r < 2 ^ 31)
    (idx : IVec ⟨2, ![N, 1]⟩ 32) (hidx : ∀ r : Fin N, idx (ix2 r 0) = BitVec.ofNat 32 (g r)) (r : Fin N) :
    (binDims N K wf).resultIdx? (ix1 r) idx = if hk : g r < K then some (ix1 ⟨g r, hk⟩) else none := by
  have hsum : ∀ a : Fin 1,
      (binDims N K wf).start (ix1 r) idx a + ((binDims N K wf).window (ix1 r) a : Int) = (g r : Int) := by
    intro a
    rw [binDims_start, binDims_window, hidx, toInt_ofNat_of_lt _ (hg r)]; simp
  unfold ScatterDims.resultIdx?
  by_cases hk : g r < K
  · rw [dif_pos hk, dif_pos (fun a => by
      rw [hsum a, Fin.fin_one_eq_zero a]
      refine ⟨Int.natCast_nonneg _, ?_⟩
      show (g r : Int) < (K : Int)
      exact_mod_cast hk)]
    congr 1
    funext a
    match a with
    | ⟨0, _⟩ => exact Fin.ext (by
        show ((binDims N K wf).start (ix1 r) idx 0 + ((binDims N K wf).window (ix1 r) 0 : Int)).toNat = g r
        rw [hsum]; simp)
  · rw [dif_neg hk, dif_neg (fun hall => hk (by
      have h2 := (hall 0).2
      rw [hsum] at h2
      have h3 : (g r : Int) < (K : Int) := h2
      exact_mod_cast h3))]

/-- A rank-1 index set is its coordinate range. -/
def rank1Equiv (n : Nat) : Fin n ≃ (⟨1, ![n]⟩ : Shape).Idx where
  toFun := ix1
  invFun j := j 0
  left_inv _ := rfl
  right_inv j := (eq_ix1 j).symm

/-- The index the coordinate `m` corresponds to is `ix1 m`. -/
@[simp] theorem rank1Equiv_apply (n : Nat) (m : Fin n) : rank1Equiv n m = ix1 m := rfl

/-- Counting into bins as a scatter: ones added, at the start indices `g r` (one per update `r`, index vector of
    length 1), into `K` zero bins; an index outside `[0, K)` is dropped. Bin `k` ends at the number of `r` with
    `g r = k`. -/
theorem bincount_ofNat (N K : Nat) (wf : ScatterDims.WF ⟨1, ![K]⟩ ⟨2, ![N, 1]⟩ ⟨1, ![N]⟩ [] [0] [0] 1)
    (g : Fin N → Nat) (hg : ∀ r, g r < 2 ^ 31)
    (x : IVec ⟨1, ![K]⟩ 32) (hx : ∀ k, x k = 0#32)
    (idx : IVec ⟨2, ![N, 1]⟩ 32) (hidx : ∀ r : Fin N, idx (ix2 r 0) = BitVec.ofNat 32 (g r))
    (upd : IVec ⟨1, ![N]⟩ 32) (hupd : ∀ r : Fin N, upd (ix1 r) = 1#32) (k : Fin K) :
    Host.scatter { updateWindowDims := [], insertedWindowDims := [0], scatterDimsToOperandDims := [0],
                   indexVectorDim := 1, wf := wf } IntOp.addi x idx upd (ix1 k)
      = BitVec.ofNat 32 (Finset.univ.filter (fun r : Fin N => g r = k.val)).card := by
  have hz : (0#32 : BitVec 32) = 0 := rfl
  have h1 : (1#32 : BitVec 32) = 1 := rfl
  show Host.scatter (binDims N K wf) IntOp.addi x idx upd (ix1 k) = _
  rw [scatter_add_apply (binDims N K wf) IntOp.addi (fun _ _ => rfl), hx, hz, zero_add,
    ← Equiv.sum_comp ((rank1Equiv N).trans (Shape.rowMajor ⟨1, ![N]⟩))]
  simp only [Equiv.trans_apply, Equiv.symm_apply_apply, rank1Equiv_apply,
    binDims_resultIdx N K wf g hg idx hidx, hupd, h1]
  have hiff : ∀ r : Fin N,
      ((if hk : g r < K then some (ix1 ⟨g r, hk⟩) else none) = some (ix1 k)) ↔ g r = k.val := by
    intro r
    by_cases hk : g r < K
    · rw [dif_pos hk]
      constructor
      · intro h
        have h2 := congrFun (Option.some.inj h) 0
        exact congrArg Fin.val h2
      · intro h
        have : (⟨g r, hk⟩ : Fin K) = k := Fin.ext h
        rw [this]
    · rw [dif_neg hk]
      constructor
      · intro h; exact absurd h (by simp)
      · intro h; exact absurd (h ▸ k.isLt) hk
  simp only [hiff]
  rw [Finset.sum_boole, BitVec.natCast_eq_ofNat]

end HostInt
-- ==== Proof.LibGraphHost.lean ====
/-
  Host-side graph indexing with in-range row numbers, read at an index, for any extents.

  When every word of an [E, 1] array of row numbers is a natural below the number of rows N (itself at most 2^31):
  the signed wrap "select(w < 0, w + N, w)" leaves the word alone, clamping the word gives the row it names, an
  accumulating scatter of [E, C] rows into an [N, C] array reads at (d, c) as the operand's entry plus the sum over
  the e whose row is d of update (e, c), and an accumulating scatter of E scalars into a length-N vector reads at d
  as the operand's entry plus the sum over the e whose position is d of update e.
-/
import proofs.«110679_j6047313952840_1_alg».proof.Proof.LibRowIndexing
import proofs.«110679_j6047313952840_1_alg».proof.Proof.LibBincount
import Idealize.ShloMosaic.Lib.Affine

noncomputable section

open scoped BigOperators

namespace Idealize.ShloMosaic.GraphHost

open Idealize.ShloMosaic Idealize.ShloMosaic.ValueIdx Idealize.ShloMosaic.RowIndexing

variable {N E C : Nat}

/-- The zero word read signed is zero. -/
theorem toInt_zero32 : (0#32 : BitVec 32).toInt = 0 := by decide

/-- A natural below 2^31 as a word is not negative: the signed wrap leaves it alone. -/
theorem wrap_ofNat (n : Nat) (hn : n < 2 ^ 31) (a : BitVec 32) :
    Scalar.select (IntOp.cmpi .slt (BitVec.ofNat 32 n) 0#32) a (BitVec.ofNat 32 n) = BitVec.ofNat 32 n := by
  have h0 : IntOp.cmpi .slt (BitVec.ofNat 32 n) 0#32 = 0#1 := by
    refine eq_zero_of_ne_one fun h => ?_
    have := IntOp.cmpi_slt.mp h
    rw [HostInt.toInt_ofNat_of_lt n hn, toInt_zero32] at this
    omega
  rw [h0, select_zero]

/-- A row number as a word clamps to that row. -/
theorem clampRow_ofNat (hN : 0 < N) (hN31 : N ≤ 2 ^ 31) (i : Fin N) :
    clampRow hN (BitVec.ofNat 32 i.val) = i :=
  clampRow_of_toInt hN _ i (HostInt.toInt_ofNat_of_lt _ (lt_of_lt_of_le i.isLt hN31))

/-- Where update (e, c') of a row scatter lands when its word, read signed, is the row i: at (i, c'). -/
theorem rowScatter_resultIdx (wf : ScatterDims.WF ⟨2, ![N, C]⟩ ⟨2, ![E, 1]⟩ ⟨2, ![E, C]⟩ [1] [0] [0] 1)
    (idx : IVec ⟨2, ![E, 1]⟩ 32) (e : Fin E) (c' : Fin C) (i : Fin N)
    (h : (idx (ix2 e (0 : Fin 1))).toInt = (i.val : Int)) :
    (rowScatter wf).resultIdx? (ix2 e c') idx = some (ix2 i c') := by
  have hw0 : (rowScatter wf).window (ix2 e c') (0 : Fin 2) = 0 := by
    unfold ScatterDims.window
    rw [dif_neg (rowScatter_sKept wf).1]
  have hw1 : (rowScatter wf).window (ix2 e c') (1 : Fin 2) = c'.val := by
    unfold ScatterDims.window
    rw [dif_pos (rowScatter_sKept wf).2]
    rfl
  have hs1 : (rowScatter wf).start (ix2 e c') idx (1 : Fin 2) = 0 := by
    unfold ScatterDims.start
    rw [dif_neg (show ¬ (1 : Fin 2) ∈ (rowScatter wf).scatterDimsToOperandDims from
      fun hm => absurd (congrArg Fin.val (List.mem_singleton.mp hm)) (by simp))]
  have hs0 : (rowScatter wf).start (ix2 e c') idx (0 : Fin 2) = (i.val : Int) :=
    (rowScatter_start0 wf idx e c' Nat.zero_lt_two).trans h
  have hsum0 : (rowScatter wf).start (ix2 e c') idx (0 : Fin 2) + ((rowScatter wf).window (ix2 e c') (0 : Fin 2) : Int)
      = (i.val : Int) := by rw [hs0, hw0]; simp
  have hsum1 : (rowScatter wf).start (ix2 e c') idx (1 : Fin 2) + ((rowScatter wf).window (ix2 e c') (1 : Fin 2) : Int)
      = (c'.val : Int) := by rw [hs1, hw1]; simp
  unfold ScatterDims.resultIdx?
  rw [dif_pos (fun a => by
    match a with
    | ⟨0, _⟩ =>
      show 0 ≤ (rowScatter wf).start (ix2 e c') idx (0 : Fin 2) + ((rowScatter wf).window (ix2 e c') (0 : Fin 2) : Int)
        ∧ (rowScatter wf).start (ix2 e c') idx (0 : Fin 2) + ((rowScatter wf).window (ix2 e c') (0 : Fin 2) : Int) < (N : Int)
      rw [hsum0]; exact ⟨Int.natCast_nonneg _, by exact_mod_cast i.isLt⟩
    | ⟨1, _⟩ =>
      show 0 ≤ (rowScatter wf).start (ix2 e c') idx (1 : Fin 2) + ((rowScatter wf).window (ix2 e c') (1 : Fin 2) : Int)
        ∧ (rowScatter wf).start (ix2 e c') idx (1 : Fin 2) + ((rowScatter wf).window (ix2 e c') (1 : Fin 2) : Int) < (C : Int)
      rw [hsum1]; exact ⟨Int.natCast_nonneg _, by exact_mod_cast c'.isLt⟩)]
  congr 1
  funext a
  match a with
  | ⟨0, _⟩ => exact Fin.ext (by
      show ((rowScatter wf).start (ix2 e c') idx (0 : Fin 2) + ((rowScatter wf).window (ix2 e c') (0 : Fin 2) : Int)).toNat = i.val
      rw [hsum0]; simp)
  | ⟨1, _⟩ => exact Fin.ext (by
      show ((rowScatter wf).start (ix2 e c') idx (1 : Fin 2) + ((rowScatter wf).window (ix2 e c') (1 : Fin 2) : Int)).toNat = c'.val
      rw [hsum1]; simp)

/-- An accumulating row scatter at in-range row numbers g, read at (d, c): the operand's entry plus the updates
    (e, c) of the e with g e = d. -/
theorem rowScatterAdd_apply (hN31 : N ≤ 2 ^ 31)
    (wf : ScatterDims.WF ⟨2, ![N, C]⟩ ⟨2, ![E, 1]⟩ ⟨2, ![E, C]⟩ [1] [0] [0] 1)
    (g : Fin E → Fin N) (z : (⟨2, ![N, C]⟩ : Shape).Idx → EReal) (idx : IVec ⟨2, ![E, 1]⟩ 32)
    (hidx : ∀ e : Fin E, idx (ix2 e (0 : Fin 1)) = BitVec.ofNat 32 (g e).val)
    (upd : (⟨2, ![E, C]⟩ : Shape).Idx → EReal) (d : Fin N) (c : Fin C) :
    Host.scatterAdd (F := Ideal) (φ := .f32) (rowScatter wf) z idx upd (ix2 d c)
      = z (ix2 d c) + ∑ e : Fin E, if g e = d then upd (ix2 e c) else 0 := by
  show Ideal.hostScatterAdd (rowScatter wf) z idx upd (ix2 d c) = _
  unfold Ideal.hostScatterAdd
  congr 1
  rw [Finset.sum_filter, sum_idx2]
  refine Finset.sum_congr rfl fun e _ => ?_
  have hres : ∀ c' : Fin C, (rowScatter wf).resultIdx? (ix2 e c') idx = some (ix2 (g e) c') := fun c' =>
    rowScatter_resultIdx wf idx e c' (g e) (by
      rw [hidx e]; exact HostInt.toInt_ofNat_of_lt _ (lt_of_lt_of_le (g e).isLt hN31))
  simp only [hres]
  by_cases hd : g e = d
  · rw [if_pos hd, Finset.sum_eq_single c]
    · rw [hd, if_pos rfl]
    · intro c' _ hc'
      rw [if_neg]
      intro heq
      exact hc' (congrFun (Option.some.inj heq) (1 : Fin 2))
    · intro hc; exact absurd (Finset.mem_univ c) hc
  · rw [if_neg hd]
    refine Finset.sum_eq_zero fun c' _ => ?_
    rw [if_neg]
    intro heq
    exact hd (congrFun (Option.some.inj heq) (0 : Fin 2))

/-- An accumulating scatter of scalars at in-range positions g, read at d: the operand's entry plus the updates
    e with g e = d. -/
theorem vecScatterAdd_apply (hN31 : N ≤ 2 ^ 31)
    (wf : ScatterDims.WF ⟨1, ![N]⟩ ⟨2, ![E, 1]⟩ ⟨1, ![E]⟩ [] [0] [0] 1)
    (g : Fin E → Fin N) (z : (⟨1, ![N]⟩ : Shape).Idx → EReal) (idx : IVec ⟨2, ![E, 1]⟩ 32)
    (hidx : ∀ e : Fin E, idx (ix2 e (0 : Fin 1)) = BitVec.ofNat 32 (g e).val)
    (upd : (⟨1, ![E]⟩ : Shape).Idx → EReal) (d : Fin N) :
    Host.scatterAdd (F := Ideal) (φ := .f32) (HostInt.binDims E N wf) z idx upd (ix1 d)
      = z (ix1 d) + ∑ e : Fin E, if g e = d then upd (ix1 e) else 0 := by
  show Ideal.hostScatterAdd (HostInt.binDims E N wf) z idx upd (ix1 d) = _
  unfold Ideal.hostScatterAdd
  congr 1
  rw [Finset.sum_filter, ← Equiv.sum_comp (HostInt.rank1Equiv E)]
  refine Finset.sum_congr rfl fun e _ => ?_
  rw [HostInt.rank1Equiv_apply,
    HostInt.binDims_resultIdx E N wf (fun r => (g r).val) (fun r => lt_of_lt_of_le (g r).isLt hN31) idx hidx e,
    dif_pos (g e).isLt]
  by_cases hd : g e = d
  · rw [if_pos hd, if_pos (by rw [← hd])]
  · rw [if_neg hd, if_neg]
    intro heq
    exact hd (Fin.ext (congrArg Fin.val (congrFun (Option.some.inj heq) (0 : Fin 1))))

end Idealize.ShloMosaic.GraphHost

end
-- ==== Proof.LibLiterals.lean ====
/-
  The float literals the two programs spell, as the extended reals their bit patterns denote:
  0, 1, 50000, 100000, -1/2, and the stabiliser 10995116 · 2⁻⁴⁰ (the binary32 nearest to 10⁻⁵).
-/
import Idealize.ShloMosaic.PureOps.Ideal

noncomputable section

namespace Cert.Bridge

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- Sign 0, exponent 142 - 127 = 15, significand 1 + 4411392 / 2²³: 2¹⁵ · 1.52587890625 = 50000. -/
theorem ofBits_50000 : Ideal.ofBits .f32 0x47435000#32 = ((50000 : ℝ) : EReal) := by
  simp [Ideal.ofBits, Ideal.ieee, -EReal.coe_mul]; norm_num

theorem ofBits_50000_nat : Ideal.ofBits .f32 0x47435000#32 = (((50000 : ℕ) : ℝ) : EReal) := by
  rw [ofBits_50000]; norm_num

/-- Sign 0, exponent 143 - 127 = 16, the same significand: 2¹⁶ · 1.52587890625 = 100000. -/
theorem ofBits_100000 : Ideal.ofBits .f32 0x47C35000#32 = ((100000 : ℝ) : EReal) := by
  simp [Ideal.ofBits, Ideal.ieee, -EReal.coe_mul]; norm_num

theorem ofBits_100000_nat : Ideal.ofBits .f32 0x47C35000#32 = (((100000 : ℕ) : ℝ) : EReal) := by
  rw [ofBits_100000]; norm_num

theorem ofBits_neg_half : Ideal.ofBits .f32 0xBF000000#32 = ((-1/2 : ℝ) : EReal) := by
  simp [Ideal.ofBits, Ideal.ieee, -EReal.coe_mul]; norm_num

/-- Sign 0, exponent 110 - 127 = -17, significand (2²³ + 2606508) / 2²³: the value 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

theorem ofBits_eps_pos : ∃ r : ℝ, 0 < r ∧ Ideal.ofBits .f32 0x3727C5AC#32 = (r : EReal) :=
  ⟨_, by positivity, ofBits_eps⟩

end Cert.Bridge

end
-- ==== Proof.RefGraph.lean ====
/-
  The reference's integer prefix and edge weights, read at an index, when every word of the edge array is a node
  number. The two 170000-long end arrays (a row of the edge array followed by 0 .. 9999) hold, at slot e, the word of
  the node Spec.ends names; the signed wrap and the gather's clamp leave such a word alone; the scatter of ones at
  the destination ends is Spec.deg, its reciprocal square root Spec.dinv, and the product of the two gathered
  entries Spec.norm. The program computes the degree and the weights twice (once per layer): both copies are read.
-/
import proofs.«110679_j6047313952840_1_alg».proof.Proof.Gen.ReferenceIdeal.Read
import proofs.«110679_j6047313952840_1_alg».proof.Proof.Spec
import proofs.«110679_j6047313952840_1_alg».proof.Proof.LibGraphHost
import proofs.«110679_j6047313952840_1_alg».proof.Proof.LibLiterals

noncomputable section

open scoped BigOperators
open Idealize.ShloMosaic Idealize.ShloMosaic.TcCoe Idealize.SL.Sem Idealize.ShloMosaic.StableHlo
open Idealize.ShloMosaic.ValueIdx Idealize.ShloMosaic.RowIndexing Idealize.ShloMosaic.GraphHost
open Cert.ReferenceIdeal Cert.ReferenceIdeal.Gen Cert.ReferenceIdeal.Read

namespace Cert.RefValue

/-- The edge array: two rows of 160000 words. -/
abbrev EdgeWords := (⟨S2x160000, .i32⟩ : BufTy).Contents (Elt Ideal)

/-- Every word of the edge array, read signed, is a node number. -/
def InRange (x1 : EdgeWords) : Prop :=
  ∀ (r : Fin 2) (e : Fin 160000), 0 ≤ (x1 (ix2 r e)).toInt ∧ (x1 (ix2 r e)).toInt < 10000

/-- The source end of each slot. -/
abbrev srcOf (x1 : EdgeWords) : Fin 170000 → Fin 10000 := Cert.Spec.ends (fun e => x1 (ix2 (0 : Fin 2) e))
/-- The destination end of each slot. -/
abbrev dstOf (x1 : EdgeWords) : Fin 170000 → Fin 10000 := Cert.Spec.ends (fun e => x1 (ix2 (1 : Fin 2) e))

/-- A word that is a node number when read signed is the word of the node it names. -/
theorem word_eq_ofNat_node (w : BitVec 32) (h0 : 0 ≤ w.toInt) (h1 : w.toInt < 10000) :
    w = BitVec.ofNat 32 (Cert.Spec.node w).val := by
  have hc := BitVec.toInt_eq_toNat_cond w
  have hlt : w.toNat < 2 ^ 32 := w.isLt
  have hn : w.toNat < 10000 := by
    split at hc <;> omega
  refine BitVec.eq_of_toNat_eq ?_
  show w.toNat = (BitVec.ofNat 32 (w.toNat % 10000)).toNat
  rw [BitVec.toNat_ofNat, Nat.mod_eq_of_lt hn, Nat.mod_eq_of_lt hlt]

/-- A node number is below 2^31. -/
theorem node_lt (i : Fin 10000) : i.val < 2 ^ 31 := lt_of_lt_of_le i.isLt (by norm_num)

/-- A length-170000 array laid out as a column reads, at (e, 0), the array at e. -/
theorem bcastCol_apply {α : Type} (y : S170000.Idx → α) (e : Fin 170000) :
    broadcastInDim S170000x1 ![0] bcast_S170000_S170000x1_0 y (ix2 e (0 : Fin 1)) = y (ix1 e) :=
  broadcastInDim_apply _ bcast_S170000_S170000x1_0 y (ix2 e (0 : Fin 1)) (ix1 e) (fun a => match a with
    | ⟨0, _⟩ => by show e.val = if (170000 : Nat) = 1 then 0 else e.val; rw [if_neg (by decide)])

/-! ## The two end arrays -/

/-- Slot e of the source array: the word of row 0 below 160000, the slot's own offset from 160000 on. -/
theorem v3_apply (x1 : EdgeWords) (e : Fin 170000) :
    val_main_v3 (F := Ideal) x1 (ix1 e)
      = if h : e.val < 160000 then x1 (ix2 (0 : Fin 2) ⟨e.val, h⟩) else BitVec.ofNat 32 (e.val - 160000) := by
  unfold val_main_v3
  by_cases h : e.val < 160000
  · rw [dif_pos h]
    refine (concatenate_pair_apply_left 0 _ _ concatenates_S160000_S10000_S170000_d0 (ix1 e) rfl
      (ix1 (⟨e.val, h⟩ : Fin 160000)) (fun b => by match b with | ⟨0, _⟩ => rfl)).trans ?_
    rw [val_main_v2_apply, val_main_v1_apply]
    refine congrArg x1 (funext fun a => Fin.ext ?_)
    match a with
    | ⟨0, _⟩ => rfl
    | ⟨1, _⟩ => exact Nat.mod_eq_of_lt h
  · rw [dif_neg h]
    have he := e.isLt
    refine (concatenate_pair_apply_right 0 _ _ concatenates_S160000_S10000_S170000_d0 (ix1 e) rfl rfl
      (ix1 (⟨e.val - 160000, by omega⟩ : Fin 10000))
      (fun b hb => by match b with | ⟨0, _⟩ => exact absurd rfl hb)
      (by show (e.val - 160000) + 160000 = e.val; omega)).trans ?_
    rfl

/-- Slot e of the destination array. -/
theorem v6_apply (x1 : EdgeWords) (e : Fin 170000) :
    val_main_v6 (F := Ideal) x1 (ix1 e)
      = if h : e.val < 160000 then x1 (ix2 (1 : Fin 2) ⟨e.val, h⟩) else BitVec.ofNat 32 (e.val - 160000) := by
  unfold val_main_v6
  by_cases h : e.val < 160000
  · rw [dif_pos h]
    refine (concatenate_pair_apply_left 0 _ _ concatenates_S160000_S10000_S170000_d0 (ix1 e) rfl
      (ix1 (⟨e.val, h⟩ : Fin 160000)) (fun b => by match b with | ⟨0, _⟩ => rfl)).trans ?_
    rw [val_main_v5_apply, val_main_v4_apply]
    refine congrArg x1 (funext fun a => Fin.ext ?_)
    match a with
    | ⟨0, _⟩ => rfl
    | ⟨1, _⟩ => exact Nat.mod_eq_of_lt h
  · rw [dif_neg h]
    have he := e.isLt
    refine (concatenate_pair_apply_right 0 _ _ concatenates_S160000_S10000_S170000_d0 (ix1 e) rfl rfl
      (ix1 (⟨e.val - 160000, by omega⟩ : Fin 10000))
      (fun b hb => by match b with | ⟨0, _⟩ => exact absurd rfl hb)
      (by show (e.val - 160000) + 160000 = e.val; omega)).trans ?_
    rfl

/-- In range, slot e of the source array is the word of the slot's source node. -/
theorem v3_word {x1 : EdgeWords} (hr : InRange x1) (e : Fin 170000) :
    val_main_v3 (F := Ideal) x1 (ix1 e) = BitVec.ofNat 32 (srcOf x1 e).val := by
  rw [v3_apply]
  unfold srcOf Cert.Spec.ends
  by_cases h : e.val < 160000
  · rw [dif_pos h, dif_pos h]; exact word_eq_ofNat_node _ (hr 0 ⟨e.val, h⟩).1 (hr 0 ⟨e.val, h⟩).2
  · rw [dif_neg h, dif_neg h]

/-- In range, slot e of the destination array is the word of the slot's destination node. -/
theorem v6_word {x1 : EdgeWords} (hr : InRange x1) (e : Fin 170000) :
    val_main_v6 (F := Ideal) x1 (ix1 e) = BitVec.ofNat 32 (dstOf x1 e).val := by
  rw [v6_apply]
  unfold dstOf Cert.Spec.ends
  by_cases h : e.val < 160000
  · rw [dif_pos h, dif_pos h]; exact word_eq_ofNat_node _ (hr 1 ⟨e.val, h⟩).1 (hr 1 ⟨e.val, h⟩).2
  · rw [dif_neg h, dif_neg h]

/-! ## The signed wrap leaves the words alone (six copies in the program) -/

theorem v17_word {x1 : EdgeWords} (hr : InRange x1) (e : Fin 170000) :
    val_main_v17 (F := Ideal) x1 (ix1 e) = BitVec.ofNat 32 (srcOf x1 e).val := by
  rw [val_main_v17_apply, val_main_v14_apply, val_main_v13_apply, val_main_c_apply, v3_word hr]
  exact wrap_ofNat _ (node_lt _) _

theorem v24_word {x1 : EdgeWords} (hr : InRange x1) (e : Fin 170000) :
    val_main_v24 (F := Ideal) x1 (ix1 e) = BitVec.ofNat 32 (dstOf x1 e).val := by
  rw [val_main_v24_apply, val_main_v21_apply, val_main_v20_apply, val_main_c_2_apply, v6_word hr]
  exact wrap_ofNat _ (node_lt _) _

theorem v33_word {x1 : EdgeWords} (hr : InRange x1) (e : Fin 170000) :
    val_main_v33 (F := Ideal) x1 (ix1 e) = BitVec.ofNat 32 (srcOf x1 e).val := by
  rw [val_main_v33_apply, val_main_v30_apply, val_main_v29_apply, val_main_c_4_apply, v3_word hr]
  exact wrap_ofNat _ (node_lt _) _

theorem v55_word {x1 : EdgeWords} (hr : InRange x1) (e : Fin 170000) :
    val_main_v55 (F := Ideal) x1 (ix1 e) = BitVec.ofNat 32 (srcOf x1 e).val := by
  rw [val_main_v55_apply, val_main_v52_apply, val_main_v51_apply, val_main_c_9_apply, v3_word hr]
  exact wrap_ofNat _ (node_lt _) _

theorem v62_word {x1 : EdgeWords} (hr : InRange x1) (e : Fin 170000) :
    val_main_v62 (F := Ideal) x1 (ix1 e) = BitVec.ofNat 32 (dstOf x1 e).val := by
  rw [val_main_v62_apply, val_main_v59_apply, val_main_v58_apply, val_main_c_11_apply, v6_word hr]
  exact wrap_ofNat _ (node_lt _) _

theorem v71_word {x1 : EdgeWords} (hr : InRange x1) (e : Fin 170000) :
    val_main_v71 (F := Ideal) x1 (ix1 e) = BitVec.ofNat 32 (srcOf x1 e).val := by
  rw [val_main_v71_apply, val_main_v68_apply, val_main_v67_apply, val_main_c_13_apply, v3_word hr]
  exact wrap_ofNat _ (node_lt _) _

/-! ## The columns of row numbers the gathers and scatters read -/

theorem v10_word {x1 : EdgeWords} (hr : InRange x1) (e : Fin 170000) :
    val_main_v10 (F := Ideal) x1 (ix2 e (0 : Fin 1)) = BitVec.ofNat 32 (dstOf x1 e).val := by
  unfold val_main_v10
  rw [bcastCol_apply, v6_word hr]

theorem v18_word {x1 : EdgeWords} (hr : InRange x1) (e : Fin 170000) :
    val_main_v18 (F := Ideal) x1 (ix2 e (0 : Fin 1)) = BitVec.ofNat 32 (srcOf x1 e).val := by
  unfold val_main_v18
  rw [bcastCol_apply, v17_word hr]

theorem v25_word {x1 : EdgeWords} (hr : InRange x1) (e : Fin 170000) :
    val_main_v25 (F := Ideal) x1 (ix2 e (0 : Fin 1)) = BitVec.ofNat 32 (dstOf x1 e).val := by
  unfold val_main_v25
  rw [bcastCol_apply, v24_word hr]

theorem v34_word {x1 : EdgeWords} (hr : InRange x1) (e : Fin 170000) :
    val_main_v34 (F := Ideal) x1 (ix2 e (0 : Fin 1)) = BitVec.ofNat 32 (srcOf x1 e).val := by
  unfold val_main_v34
  rw [bcastCol_apply, v33_word hr]

theorem v39_word {x1 : EdgeWords} (hr : InRange x1) (e : Fin 170000) :
    val_main_v39 (F := Ideal) x1 (ix2 e (0 : Fin 1)) = BitVec.ofNat 32 (dstOf x1 e).val := by
  unfold val_main_v39
  rw [bcastCol_apply, v6_word hr]

theorem v48_word {x1 : EdgeWords} (hr : InRange x1) (e : Fin 170000) :
    val_main_v48 (F := Ideal) x1 (ix2 e (0 : Fin 1)) = BitVec.ofNat 32 (dstOf x1 e).val := by
  unfold val_main_v48
  rw [bcastCol_apply, v6_word hr]

theorem v56_word {x1 : EdgeWords} (hr : InRange x1) (e : Fin 170000) :
    val_main_v56 (F := Ideal) x1 (ix2 e (0 : Fin 1)) = BitVec.ofNat 32 (srcOf x1 e).val := by
  unfold val_main_v56
  rw [bcastCol_apply, v55_word hr]

theorem v63_word {x1 : EdgeWords} (hr : InRange x1) (e : Fin 170000) :
    val_main_v63 (F := Ideal) x1 (ix2 e (0 : Fin 1)) = BitVec.ofNat 32 (dstOf x1 e).val := by
  unfold val_main_v63
  rw [bcastCol_apply, v62_word hr]

theorem v72_word {x1 : EdgeWords} (hr : InRange x1) (e : Fin 170000) :
    val_main_v72 (F := Ideal) x1 (ix2 e (0 : Fin 1)) = BitVec.ofNat 32 (srcOf x1 e).val := by
  unfold val_main_v72
  rw [bcastCol_apply, v71_word hr]

theorem v77_word {x1 : EdgeWords} (hr : InRange x1) (e : Fin 170000) :
    val_main_v77 (F := Ideal) x1 (ix2 e (0 : Fin 1)) = BitVec.ofNat 32 (dstOf x1 e).val := by
  unfold val_main_v77
  rw [bcastCol_apply, v6_word hr]

/-! ## Degree, reciprocal square root, weight (two copies in the program) -/

/-- The vector scatter's record is the scalar-updates scatter at these extents. -/
theorem scatterVec_eq : scatter_S10000_S170000x1_S170000_n_0_0_1
    = HostInt.binDims 170000 10000 scatter_S10000_S170000x1_S170000_n_0_0_1_wf := rfl

/-- The entry gather's record. -/
theorem gatherVec_eq : gather_S10000_S170000x1_S170000_n_0_n_n_0_1_1
    = elemGather gather_S10000_S170000x1_S170000_n_0_n_n_0_1_1_wf := rfl

/-- The scatter of ones at the destination ends counts the slots ending at each node. -/
theorem v11_deg {x1 : EdgeWords} (hr : InRange x1) (d : Fin 10000) :
    val_main_v11 (F := Ideal) x1 (ix1 d) = Cert.Spec.deg (dstOf x1) d := by
  unfold val_main_v11
  rw [scatterVec_eq]
  refine (vecScatterAdd_apply (by norm_num) scatter_S10000_S170000x1_S170000_n_0_0_1_wf (dstOf x1)
    (val_main_v9 (F := Ideal)) (val_main_v10 (F := Ideal) x1) (fun e => v10_word hr e)
    (val_main_v8 (F := Ideal)) d).trans ?_
  rw [val_main_v9_apply, val_main_cst_0_apply]
  unfold Cert.Spec.deg
  rw [Ideal.ofBits_def, Cert.Bridge.ofBits_zero, zero_add]
  refine Finset.sum_congr rfl fun e _ => ?_
  rw [val_main_v8_apply, val_main_cst_apply, Ideal.ofBits_def, Cert.Bridge.ofBits_one]

theorem v12_dinv {x1 : EdgeWords} (hr : InRange x1) (d : Fin 10000) :
    val_main_v12 (F := Ideal) x1 (ix1 d) = Cert.Spec.dinv (dstOf x1) d := by
  rw [val_main_v12_apply, v11_deg hr, Ideal.hostUnary_rsqrt_def, Cert.Spec.dinv]

theorem v19_dinv {x1 : EdgeWords} (hr : InRange x1) (e : Fin 170000) :
    val_main_v19 (F := Ideal) x1 (ix1 e) = Cert.Spec.dinv (dstOf x1) (srcOf x1 e) := by
  unfold val_main_v19
  rw [gatherVec_eq]
  refine (elemGather_apply (by decide : 0 < 10000) gather_S10000_S170000x1_S170000_n_0_n_n_0_1_1_wf
    (val_main_v12 (F := Ideal) x1) (val_main_v18 (F := Ideal) x1) e).trans ?_
  rw [v18_word hr, clampRow_ofNat _ (by norm_num), v12_dinv hr]

theorem v26_dinv {x1 : EdgeWords} (hr : InRange x1) (e : Fin 170000) :
    val_main_v26 (F := Ideal) x1 (ix1 e) = Cert.Spec.dinv (dstOf x1) (dstOf x1 e) := by
  unfold val_main_v26
  rw [gatherVec_eq]
  refine (elemGather_apply (by decide : 0 < 10000) gather_S10000_S170000x1_S170000_n_0_n_n_0_1_1_wf
    (val_main_v12 (F := Ideal) x1) (val_main_v25 (F := Ideal) x1) e).trans ?_
  rw [v25_word hr, clampRow_ofNat _ (by norm_num), v12_dinv hr]

/-- The weight of slot e. -/
theorem v27_norm {x1 : EdgeWords} (hr : InRange x1) (e : Fin 170000) :
    val_main_v27 (F := Ideal) x1 (ix1 e) = Cert.Spec.norm (srcOf x1) (dstOf x1) e := by
  rw [val_main_v27_apply, v19_dinv hr, v26_dinv hr, Ideal.mulf_def, Cert.Spec.norm]

/-- The scatter of ones at the destination ends counts the slots ending at each node. -/
theorem v49_deg {x1 : EdgeWords} (hr : InRange x1) (d : Fin 10000) :
    val_main_v49 (F := Ideal) x1 (ix1 d) = Cert.Spec.deg (dstOf x1) d := by
  unfold val_main_v49
  rw [scatterVec_eq]
  refine (vecScatterAdd_apply (by norm_num) scatter_S10000_S170000x1_S170000_n_0_0_1_wf (dstOf x1)
    (val_main_v47 (F := Ideal)) (val_main_v48 (F := Ideal) x1) (fun e => v48_word hr e)
    (val_main_v46 (F := Ideal)) d).trans ?_
  rw [val_main_v47_apply, val_main_cst_8_apply]
  unfold Cert.Spec.deg
  rw [Ideal.ofBits_def, Cert.Bridge.ofBits_zero, zero_add]
  refine Finset.sum_congr rfl fun e _ => ?_
  rw [val_main_v46_apply, val_main_cst_7_apply, Ideal.ofBits_def, Cert.Bridge.ofBits_one]

theorem v50_dinv {x1 : EdgeWords} (hr : InRange x1) (d : Fin 10000) :
    val_main_v50 (F := Ideal) x1 (ix1 d) = Cert.Spec.dinv (dstOf x1) d := by
  rw [val_main_v50_apply, v49_deg hr, Ideal.hostUnary_rsqrt_def, Cert.Spec.dinv]

theorem v57_dinv {x1 : EdgeWords} (hr : InRange x1) (e : Fin 170000) :
    val_main_v57 (F := Ideal) x1 (ix1 e) = Cert.Spec.dinv (dstOf x1) (srcOf x1 e) := by
  unfold val_main_v57
  rw [gatherVec_eq]
  refine (elemGather_apply (by decide : 0 < 10000) gather_S10000_S170000x1_S170000_n_0_n_n_0_1_1_wf
    (val_main_v50 (F := Ideal) x1) (val_main_v56 (F := Ideal) x1) e).trans ?_
  rw [v56_word hr, clampRow_ofNat _ (by norm_num), v50_dinv hr]

theorem v64_dinv {x1 : EdgeWords} (hr : InRange x1) (e : Fin 170000) :
    val_main_v64 (F := Ideal) x1 (ix1 e) = Cert.Spec.dinv (dstOf x1) (dstOf x1 e) := by
  unfold val_main_v64
  rw [gatherVec_eq]
  refine (elemGather_apply (by decide : 0 < 10000) gather_S10000_S170000x1_S170000_n_0_n_n_0_1_1_wf
    (val_main_v50 (F := Ideal) x1) (val_main_v63 (F := Ideal) x1) e).trans ?_
  rw [v63_word hr, clampRow_ofNat _ (by norm_num), v50_dinv hr]

/-- The weight of slot e. -/
theorem v65_norm {x1 : EdgeWords} (hr : InRange x1) (e : Fin 170000) :
    val_main_v65 (F := Ideal) x1 (ix1 e) = Cert.Spec.norm (srcOf x1) (dstOf x1) e := by
  rw [val_main_v65_apply, v57_dinv hr, v64_dinv hr, Ideal.mulf_def, Cert.Spec.norm]

end Cert.RefValue

end
-- ==== Proof.LibScatterRead.lean ====
/-
  Two more host scatters read at an index, for any extents.

  A scatter of E scalars by addition into an [N, M] array at [E, 2] pairs of (row, column) words: update e lands
  at the pair its two words name, read signed; with in-range pairs (g e, h e) the result at (p, q) is the operand's
  entry plus the sum of the updates e with g e = p and h e = q.

  A scatter that REPLACES (the body returns the update) whose updates land at pairwise distinct places is, at the
  place update j lands, update j, and the operand's entry where no update lands: the left fold over the updates
  meets each place at most once. Its instance here writes an [n, C] block at the single start index 0 into the
  top rows of an [N, C] array, n ≤ N: rows below n hold the block, the rows from n on keep the operand.
-/
import Mathlib
import Idealize.ShloMosaic.PureOps.Contract
import Idealize.ShloMosaic.PureOps.ShapeOps
import Idealize.ShloMosaic.PureOps.Ideal
import Idealize.ShloMosaic.Lib.ValueIdx
import proofs.«110679_j6047313952840_1_alg».proof.Proof.LibBincount

noncomputable section

open scoped BigOperators

namespace Idealize.ShloMosaic.ScatterRead

open Idealize.ShloMosaic Idealize.ShloMosaic.ValueIdx

variable {N M E n C w : Nat}

/-! ## Adding scalars at (row, column) pairs -/

/-- The dimension numbers of "add E scalars into an [N, M] array at [E, 2] index pairs". -/
abbrev pairScatter (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- The start of update e on the row axis is its first word read signed. -/
theorem pairScatter_start0 (wf : ScatterDims.WF ⟨2, ![N, M]⟩ ⟨2, ![E, 2]⟩ ⟨1, ![E]⟩ [] [0, 1] [0, 1] 1)
    (idx : IVec ⟨2, ![E, 2]⟩ w) (e : Fin E) :
    (pairScatter wf).start (ix1 e) idx (0 : Fin 2) = (idx (ix2 e (0 : Fin 2))).toInt := by
  unfold ScatterDims.start
  have hmem : (0 : Fin 2) ∈ (pairScatter wf).scatterDimsToOperandDims := List.mem_cons_self
  rw [dif_pos hmem]
  have hsi : (pairScatter wf).siIdx (ix1 e) ⟨List.idxOf (0 : Fin 2) (pairScatter wf).scatterDimsToOperandDims,
      List.idxOf_lt_length_iff.2 hmem⟩ = ix2 e (0 : Fin 2) := by
    funext b; refine Fin.ext ?_
    match b with
    | ⟨0, _⟩ => rfl
    | ⟨1, _⟩ => rfl
  rw [hsi]

/-- The start of update e on the column axis is its second word read signed. -/
theorem pairScatter_start1 (wf : ScatterDims.WF ⟨2, ![N, M]⟩ ⟨2, ![E, 2]⟩ ⟨1, ![E]⟩ [] [0, 1] [0, 1] 1)
    (idx : IVec ⟨2, ![E, 2]⟩ w) (e : Fin E) :
    (pairScatter wf).start (ix1 e) idx (1 : Fin 2) = (idx (ix2 e (1 : Fin 2))).toInt := by
  unfold ScatterDims.start
  have hmem : (1 : Fin 2) ∈ (pairScatter wf).scatterDimsToOperandDims := List.mem_cons_of_mem _ List.mem_cons_self
  rw [dif_pos hmem]
  have hsi : (pairScatter wf).siIdx (ix1 e) ⟨List.idxOf (1 : Fin 2) (pairScatter wf).scatterDimsToOperandDims,
      List.idxOf_lt_length_iff.2 hmem⟩ = ix2 e (1 : Fin 2) := by
    funext b; refine Fin.ext ?_
    match b with
    | ⟨0, _⟩ => rfl
    | ⟨1, _⟩ => rfl
  rw [hsi]

/-- Both axes are inserted: the updates are scalars and the window coordinate is zero. -/
theorem pairScatter_window (wf : ScatterDims.WF ⟨2, ![N, M]⟩ ⟨2, ![E, 2]⟩ ⟨1, ![E]⟩ [] [0, 1] [0, 1] 1)
    (e : Fin E) (a : Fin 2) : (pairScatter wf).window (ix1 e) a = 0 := by
  unfold ScatterDims.window
  rw [dif_neg]
  match a with
  | ⟨0, _⟩ => simp [ScatterDims.sKept, Shape.kept, List.mem_filter, List.mem_finRange]
  | ⟨1, _⟩ => simp [ScatterDims.sKept, Shape.kept, List.mem_filter, List.mem_finRange]

/-- Update e lands at (p, q) when its two words, read signed, are p and q. -/
theorem pairScatter_resultIdx (wf : ScatterDims.WF ⟨2, ![N, M]⟩ ⟨2, ![E, 2]⟩ ⟨1, ![E]⟩ [] [0, 1] [0, 1] 1)
    (idx : IVec ⟨2, ![E, 2]⟩ w) (e : Fin E) (p : Fin N) (q : Fin M)
    (hp : (idx (ix2 e (0 : Fin 2))).toInt = (p.val : Int)) (hq : (idx (ix2 e (1 : Fin 2))).toInt = (q.val : Int)) :
    (pairScatter wf).resultIdx? (ix1 e) idx = some (ix2 p q) := by
  have hsum0 : (pairScatter wf).start (ix1 e) idx (0 : Fin 2) + ((pairScatter wf).window (ix1 e) (0 : Fin 2) : Int)
      = (p.val : Int) := by rw [pairScatter_start0, pairScatter_window, hp]; simp
  have hsum1 : (pairScatter wf).start (ix1 e) idx (1 : Fin 2) + ((pairScatter wf).window (ix1 e) (1 : Fin 2) : Int)
      = (q.val : Int) := by rw [pairScatter_start1, pairScatter_window, hq]; simp
  unfold ScatterDims.resultIdx?
  rw [dif_pos (fun a => by
    match a with
    | ⟨0, _⟩ =>
      show 0 ≤ (pairScatter wf).start (ix1 e) idx (0 : Fin 2) + ((pairScatter wf).window (ix1 e) (0 : Fin 2) : Int)
        ∧ (pairScatter wf).start (ix1 e) idx (0 : Fin 2) + ((pairScatter wf).window (ix1 e) (0 : Fin 2) : Int) < (N : Int)
      rw [hsum0]; exact ⟨Int.natCast_nonneg _, by exact_mod_cast p.isLt⟩
    | ⟨1, _⟩ =>
      show 0 ≤ (pairScatter wf).start (ix1 e) idx (1 : Fin 2) + ((pairScatter wf).window (ix1 e) (1 : Fin 2) : Int)
        ∧ (pairScatter wf).start (ix1 e) idx (1 : Fin 2) + ((pairScatter wf).window (ix1 e) (1 : Fin 2) : Int) < (M : Int)
      rw [hsum1]; exact ⟨Int.natCast_nonneg _, by exact_mod_cast q.isLt⟩)]
  congr 1
  funext a
  match a with
  | ⟨0, _⟩ => exact Fin.ext (by
      show ((pairScatter wf).start (ix1 e) idx (0 : Fin 2) + ((pairScatter wf).window (ix1 e) (0 : Fin 2) : Int)).toNat = p.val
      rw [hsum0]; simp)
  | ⟨1, _⟩ => exact Fin.ext (by
      show ((pairScatter wf).start (ix1 e) idx (1 : Fin 2) + ((pairScatter wf).window (ix1 e) (1 : Fin 2) : Int)).toNat = q.val
      rw [hsum1]; simp)

/-- An accumulating scatter of scalars at in-range (row, column) pairs, read at (p, q): the operand's entry plus
    the updates e whose pair is (p, q). -/
theorem pairScatterAdd_apply (hN31 : N ≤ 2 ^ 31) (hM31 : M ≤ 2 ^ 31)
    (wf : ScatterDims.WF ⟨2, ![N, M]⟩ ⟨2, ![E, 2]⟩ ⟨1, ![E]⟩ [] [0, 1] [0, 1] 1)
    (g : Fin E → Fin N) (h : Fin E → Fin M) (z : (⟨2, ![N, M]⟩ : Shape).Idx → EReal) (idx : IVec ⟨2, ![E, 2]⟩ 32)
    (hidx0 : ∀ e : Fin E, idx (ix2 e (0 : Fin 2)) = BitVec.ofNat 32 (g e).val)
    (hidx1 : ∀ e : Fin E, idx (ix2 e (1 : Fin 2)) = BitVec.ofNat 32 (h e).val)
    (upd : (⟨1, ![E]⟩ : Shape).Idx → EReal) (p : Fin N) (q : Fin M) :
    Host.scatterAdd (F := Ideal) (φ := .f32) (pairScatter wf) z idx upd (ix2 p q)
      = z (ix2 p q) + ∑ e : Fin E, if g e = p ∧ h e = q then upd (ix1 e) else 0 := by
  show Ideal.hostScatterAdd (pairScatter wf) z idx upd (ix2 p q) = _
  unfold Ideal.hostScatterAdd
  congr 1
  rw [Finset.sum_filter, ← Equiv.sum_comp (HostInt.rank1Equiv E)]
  refine Finset.sum_congr rfl fun e _ => ?_
  rw [HostInt.rank1Equiv_apply, pairScatter_resultIdx wf idx e (g e) (h e)
    (by rw [hidx0 e]; exact HostInt.toInt_ofNat_of_lt _ (lt_of_lt_of_le (g e).isLt hN31))
    (by rw [hidx1 e]; exact HostInt.toInt_ofNat_of_lt _ (lt_of_lt_of_le (h e).isLt hM31))]
  by_cases hd : g e = p ∧ h e = q
  · rw [if_pos hd, if_pos (by rw [hd.1, hd.2])]
  · rw [if_neg hd, if_neg]
    intro heq
    have h0 := congrFun (Option.some.inj heq) (0 : Fin 2)
    have h1 := congrFun (Option.some.inj heq) (1 : Fin 2)
    exact hd ⟨h0, h1⟩

/-! ## A replacing scatter whose updates land at distinct places -/

/-- A left fold of "write v n at place land n" leaves a place no n of the list lands at as it was. -/
theorem foldl_set_of_forall_ne {ι κ α : Type} [DecidableEq κ] (land : ι → κ) (v : ι → α) (l : List ι) (x : κ → α) (i0 : κ)
    (h : ∀ m ∈ l, land m ≠ i0) :
    (l.foldl (fun r m => fun i' => if i' = land m then v m else r i') x) i0 = x i0 := by
  induction l generalizing x with
  | nil => rfl
  | cons a l ih =>
    rw [List.foldl_cons, ih _ (fun m hm => h m (List.mem_cons_of_mem _ hm))]
    exact if_neg (fun e => h a List.mem_cons_self e.symm)

/-- With distinct landing places and no repeats in the list, the place n0 lands at ends at v n0. -/
theorem foldl_set_of_mem {ι κ α : Type} [DecidableEq κ] (land : ι → κ) (hinj : Function.Injective land) (v : ι → α)
    (l : List ι) (hl : l.Nodup) (x : κ → α) (n0 : ι) (hn0 : n0 ∈ l) :
    (l.foldl (fun r m => fun i' => if i' = land m then v m else r i') x) (land n0) = v n0 := by
  induction l generalizing x with
  | nil => exact absurd hn0 List.not_mem_nil
  | cons a l ih =>
    rw [List.foldl_cons]
    by_cases ha : n0 = a
    · have hnot : ∀ m ∈ l, land m ≠ land n0 := fun m hm e => by
        have : m = n0 := hinj e
        rw [this, ha] at hm
        exact (List.nodup_cons.mp hl).1 hm
      rw [foldl_set_of_forall_ne land v l _ (land n0) hnot, ha]
      exact if_pos rfl
    · exact ih (List.nodup_cons.mp hl).2 _ ((List.mem_cons.mp hn0).resolve_left ha)

/-- A replacing scatter all of whose updates land, at pairwise distinct places: where update j0 lands it holds
    update j0. -/
theorem scatter_set_land {s si u : Shape} {α : Type} (d : ScatterDims s si u) (x : s.Idx → α) (idx : IVec si w)
    (upd : u.Idx → α) (land : u.Idx → s.Idx) (hland : ∀ j, d.resultIdx? j idx = some (land j))
    (hinj : Function.Injective land) (j0 : u.Idx) :
    Host.scatter d (fun _ b => b) x idx upd (land j0) = upd j0 := by
  unfold Host.scatter
  simp only [hland]
  have key := foldl_set_of_mem (fun m => land (u.rowMajor.symm m)) (hinj.comp u.rowMajor.symm.injective)
    (fun m => upd (u.rowMajor.symm m)) (List.finRange u.numel) (List.nodup_finRange _) x (u.rowMajor j0)
    (List.mem_finRange _)
  simp only [Equiv.symm_apply_apply] at key
  exact key

/-- The same scatter at a place where no update lands: the operand's entry. -/
theorem scatter_set_not_land {s si u : Shape} {α : Type} (d : ScatterDims s si u) (x : s.Idx → α) (idx : IVec si w)
    (upd : u.Idx → α) (land : u.Idx → s.Idx) (hland : ∀ j, d.resultIdx? j idx = some (land j))
    (i0 : s.Idx) (hi0 : ∀ j, land j ≠ i0) :
    Host.scatter d (fun _ b => b) x idx upd i0 = x i0 := by
  unfold Host.scatter
  simp only [hland]
  exact foldl_set_of_forall_ne (fun m => land (u.rowMajor.symm m)) (fun m => upd (u.rowMajor.symm m))
    (List.finRange u.numel) x i0 (fun m _ => hi0 _)

/-! ## Writing a block into the top rows -/

/-- The dimension numbers of "write an [n, C] block into an [N, C] array at one start index on the row axis". -/
abbrev padScatter (wf : ScatterDims.WF ⟨2, ![N, C]⟩ ⟨1, ![1]⟩ ⟨2, ![n, C]⟩ [0, 1] [] [0] 0) :
    ScatterDims ⟨2, ![N, C]⟩ ⟨1, ![1]⟩ ⟨2, ![n, C]⟩ where
  updateWindowDims := [0, 1]
  insertedWindowDims := []
  scatterDimsToOperandDims := [0]
  indexVectorDim := 0
  wf := wf

/-- The window starts, on the row axis, at the one index word read signed. -/
theorem padScatter_start0 (wf : ScatterDims.WF ⟨2, ![N, C]⟩ ⟨1, ![1]⟩ ⟨2, ![n, C]⟩ [0, 1] [] [0] 0)
    (idx : IVec ⟨1, ![1]⟩ w) (r : Fin n) (k : Fin C) :
    (padScatter wf).start (ix2 r k) idx (0 : Fin 2) = (idx (ix1 (0 : Fin 1))).toInt := by
  unfold ScatterDims.start
  have hmem : (0 : Fin 2) ∈ (padScatter wf).scatterDimsToOperandDims := List.mem_singleton.mpr rfl
  rw [dif_pos hmem]
  have hsi : (padScatter wf).siIdx (ix2 r k) ⟨List.idxOf (0 : Fin 2) (padScatter wf).scatterDimsToOperandDims,
      List.idxOf_lt_length_iff.2 hmem⟩ = ix1 (0 : Fin 1) := by
    funext b; refine Fin.ext ?_
    match b with
    | ⟨0, _⟩ => rfl
  rw [hsi]

/-- And at zero on the column axis. -/
theorem padScatter_start1 (wf : ScatterDims.WF ⟨2, ![N, C]⟩ ⟨1, ![1]⟩ ⟨2, ![n, C]⟩ [0, 1] [] [0] 0)
    (idx : IVec ⟨1, ![1]⟩ w) (r : Fin n) (k : Fin C) :
    (padScatter wf).start (ix2 r k) idx (1 : Fin 2) = 0 := by
  unfold ScatterDims.start
  rw [dif_neg (show ¬ (1 : Fin 2) ∈ (padScatter wf).scatterDimsToOperandDims from
    fun hm => absurd (congrArg Fin.val (List.mem_singleton.mp hm)) (by simp))]

/-- No axis is inserted: the window coordinate of update (r, k) is (r, k). -/
theorem padScatter_sKept (wf : ScatterDims.WF ⟨2, ![N, C]⟩ ⟨1, ![1]⟩ ⟨2, ![n, C]⟩ [0, 1] [] [0] 0) :
    (0 : Fin 2) ∈ (padScatter wf).sKept ∧ (1 : Fin 2) ∈ (padScatter wf).sKept := by
  constructor <;> simp [ScatterDims.sKept, Shape.kept, List.mem_filter, List.mem_finRange]

theorem padScatter_window0 (wf : ScatterDims.WF ⟨2, ![N, C]⟩ ⟨1, ![1]⟩ ⟨2, ![n, C]⟩ [0, 1] [] [0] 0)
    (r : Fin n) (k : Fin C) : (padScatter wf).window (ix2 r k) (0 : Fin 2) = r.val := by
  unfold ScatterDims.window
  rw [dif_pos (padScatter_sKept wf).1]
  rfl

theorem padScatter_window1 (wf : ScatterDims.WF ⟨2, ![N, C]⟩ ⟨1, ![1]⟩ ⟨2, ![n, C]⟩ [0, 1] [] [0] 0)
    (r : Fin n) (k : Fin C) : (padScatter wf).window (ix2 r k) (1 : Fin 2) = k.val := by
  unfold ScatterDims.window
  rw [dif_pos (padScatter_sKept wf).2]
  rfl

/-- With the start word zero, update (r, k) lands at (r, k). -/
theorem padScatter_resultIdx (hnN : n ≤ N) (wf : ScatterDims.WF ⟨2, ![N, C]⟩ ⟨1, ![1]⟩ ⟨2, ![n, C]⟩ [0, 1] [] [0] 0)
    (idx : IVec ⟨1, ![1]⟩ w) (h0 : (idx (ix1 (0 : Fin 1))).toInt = 0) (r : Fin n) (k : Fin C) :
    (padScatter wf).resultIdx? (ix2 r k) idx = some (ix2 (Fin.castLE hnN r) k) := by
  have hsum0 : (padScatter wf).start (ix2 r k) idx (0 : Fin 2) + ((padScatter wf).window (ix2 r k) (0 : Fin 2) : Int)
      = (r.val : Int) := by rw [padScatter_start0, padScatter_window0, h0]; simp
  have hsum1 : (padScatter wf).start (ix2 r k) idx (1 : Fin 2) + ((padScatter wf).window (ix2 r k) (1 : Fin 2) : Int)
      = (k.val : Int) := by rw [padScatter_start1, padScatter_window1]; simp
  unfold ScatterDims.resultIdx?
  rw [dif_pos (fun a => by
    match a with
    | ⟨0, _⟩ =>
      show 0 ≤ (padScatter wf).start (ix2 r k) idx (0 : Fin 2) + ((padScatter wf).window (ix2 r k) (0 : Fin 2) : Int)
        ∧ (padScatter wf).start (ix2 r k) idx (0 : Fin 2) + ((padScatter wf).window (ix2 r k) (0 : Fin 2) : Int) < (N : Int)
      rw [hsum0]; exact ⟨Int.natCast_nonneg _, by have := r.isLt; exact_mod_cast (lt_of_lt_of_le this hnN)⟩
    | ⟨1, _⟩ =>
      show 0 ≤ (padScatter wf).start (ix2 r k) idx (1 : Fin 2) + ((padScatter wf).window (ix2 r k) (1 : Fin 2) : Int)
        ∧ (padScatter wf).start (ix2 r k) idx (1 : Fin 2) + ((padScatter wf).window (ix2 r k) (1 : Fin 2) : Int) < (C : Int)
      rw [hsum1]; exact ⟨Int.natCast_nonneg _, by exact_mod_cast k.isLt⟩)]
  congr 1
  funext a
  match a with
  | ⟨0, _⟩ => exact Fin.ext (by
      show ((padScatter wf).start (ix2 r k) idx (0 : Fin 2) + ((padScatter wf).window (ix2 r k) (0 : Fin 2) : Int)).toNat = r.val
      rw [hsum0]; simp)
  | ⟨1, _⟩ => exact Fin.ext (by
      show ((padScatter wf).start (ix2 r k) idx (1 : Fin 2) + ((padScatter wf).window (ix2 r k) (1 : Fin 2) : Int)).toNat = k.val
      rw [hsum1]; simp)

/-- Where each update of the block lands. -/
def padLand (hnN : n ≤ N) (j : (⟨2, ![n, C]⟩ : Shape).Idx) : (⟨2, ![N, C]⟩ : Shape).Idx :=
  ix2 (Fin.castLE hnN (j 0)) (j 1)

theorem padLand_injective (hnN : n ≤ N) : Function.Injective (padLand (C := C) hnN) := by
  intro j j' h
  have h0 := congrArg (fun f => (f (0 : Fin 2)).val) h
  have h1 := congrArg (fun f => (f (1 : Fin 2)).val) h
  rw [eq_ix2 j, eq_ix2 j']
  congr 1
  · exact Fin.ext h0
  · exact Fin.ext h1

/-- A block written at start index zero, read at (p, k): the block's row p below n, the operand from n on. -/
theorem padScatter_apply {α : Type} (hnN : n ≤ N) (wf : ScatterDims.WF ⟨2, ![N, C]⟩ ⟨1, ![1]⟩ ⟨2, ![n, C]⟩ [0, 1] [] [0] 0)
    (x : (⟨2, ![N, C]⟩ : Shape).Idx → α) (idx : IVec ⟨1, ![1]⟩ w) (h0 : (idx (ix1 (0 : Fin 1))).toInt = 0)
    (upd : (⟨2, ![n, C]⟩ : Shape).Idx → α) (p : Fin N) (k : Fin C) :
    Host.scatter (padScatter wf) (fun _ b => b) x idx upd (ix2 p k)
      = if h : p.val < n then upd (ix2 ⟨p.val, h⟩ k) else x (ix2 p k) := by
  have hland : ∀ j, (padScatter wf).resultIdx? j idx = some (padLand hnN j) := fun j => by
    rw [eq_ix2 j]; exact padScatter_resultIdx hnN wf idx h0 (j 0) (j 1)
  by_cases h : p.val < n
  · rw [dif_pos h]
    have : ix2 p k = padLand (C := C) hnN (ix2 ⟨p.val, h⟩ k) := rfl
    rw [this]
    exact scatter_set_land _ x idx upd _ hland (padLand_injective hnN) _
  · rw [dif_neg h]
    refine scatter_set_not_land _ x idx upd _ hland _ (fun j hj => h ?_)
    have h0' := congrArg (fun f => (f (0 : Fin 2)).val) hj
    have : (j 0).val = p.val := h0'
    rw [← this]; exact (j 0).isLt

end Idealize.ShloMosaic.ScatterRead

end
-- ==== Proof.KernelHost.lean ====
/-
  The kernel program's host prefix read at an index, when every word of the edge array is a node number.

  The dense adjacency at (p, q) is the sum of the weights of the slots from node q to node p: every end is a node
  number below 10000, so the signed wrap by 10240 leaves it alone, the (row, column) pair of a slot is (its
  destination, its source), every pair is inside the 10240 x 10240 array, and the accumulating scatter into zeros
  reads as the sum over the slots landing at (p, q). The padded features are the features on the rows below 10000
  and zero from there on. A change of float format is the identity on exact values, so the three converted weight
  matrices are the arguments. The zero bias row is zero, and a bias reshaped to a row reads at (0, q) as the bias at q.
-/
import proofs.«110679_j6047313952840_1_alg».proof.Proof.KernelHostArgs
import proofs.«110679_j6047313952840_1_alg».proof.Proof.KernelHostAdj
import proofs.«110679_j6047313952840_1_alg».proof.Proof.RefGraph
import proofs.«110679_j6047313952840_1_alg».proof.Proof.LibScatterRead
import proofs.«110679_j6047313952840_1_alg».proof.Proof.LibGraphHost
import proofs.«110679_j6047313952840_1_alg».proof.Proof.LibLiterals
import Idealize.ShloMosaic.Lib.Pipeline.Value

set_option maxRecDepth 4000

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelHost

open Cert.RefValue (EdgeWords InRange srcOf dstOf)
open Idealize.ShloMosaic.GraphHost

/-- A length-170000 array laid out as a column reads, at (e, 0), the array at e. -/
theorem bcastCol_apply {α : Type} (y : S170000.Idx → α) (e : Fin 170000) :
    broadcastInDim S170000x1 ![0] bcast_S170000_S170000x1_0 y (ix2 e (0 : Fin 1)) = y (ix1 e) :=
  broadcastInDim_apply _ bcast_S170000_S170000x1_0 y (ix2 e (0 : Fin 1)) (ix1 e) (fun a => match a with
    | ⟨0, _⟩ => by show e.val = if (170000 : Nat) = 1 then 0 else e.val; rw [if_neg (by decide)])

/-- The signed wrap by 10240 leaves the word of a natural below 2^31 alone. -/
theorem wrapDense_word (y : IVec S170000 32) (e : Fin 170000) (n : Nat) (hn : n < 2 ^ 31)
    (hy : y (ix1 e) = BitVec.ofNat 32 n) : wrapDense y (ix1 e) = BitVec.ofNat 32 n := by
  have h : wrapDense y (ix1 e) = Scalar.select (IntOp.cmpi .slt (y (ix1 e)) 0#32) _ (y (ix1 e)) := rfl
  rw [h, hy]
  exact wrap_ofNat n hn _

/-- Column 0 of the pairs: the destination node of the slot. -/
theorem pairs_col0 (x1 : EdgeWords) (hr : InRange x1) (e : Fin 170000) :
    pairsOf (Cert.ReferenceIdeal.Read.val_main_v3 (F := Ideal) x1) (Cert.ReferenceIdeal.Read.val_main_v6 (F := Ideal) x1)
      (ix2 e (0 : Fin 2)) = BitVec.ofNat 32 (dstOf x1 e).val := by
  unfold pairsOf
  refine (concatenate_pair_apply_left (t := S170000x2) (s₁ := S170000x1) (s₂ := S170000x1) (1 : Fin 2) _ _ concatenates_S170000x1_S170000x1_S170000x2_d1 (ix2 e (0 : Fin 2)) rfl
    (ix2 e (0 : Fin 1)) (fun b => by match b with | ⟨0, _⟩ => rfl | ⟨1, _⟩ => rfl)).trans ?_
  rw [bcastCol_apply]
  exact wrapDense_word _ e _ (Cert.RefValue.node_lt _) (Cert.RefValue.v6_word hr e)

/-- Column 1 of the pairs: the source node of the slot. -/
theorem pairs_col1 (x1 : EdgeWords) (hr : InRange x1) (e : Fin 170000) :
    pairsOf (Cert.ReferenceIdeal.Read.val_main_v3 (F := Ideal) x1) (Cert.ReferenceIdeal.Read.val_main_v6 (F := Ideal) x1)
      (ix2 e (1 : Fin 2)) = BitVec.ofNat 32 (srcOf x1 e).val := by
  unfold pairsOf
  refine (concatenate_pair_apply_right (t := S170000x2) (s₁ := S170000x1) (s₂ := S170000x1) (1 : Fin 2) _ _ concatenates_S170000x1_S170000x1_S170000x2_d1 (ix2 e (1 : Fin 2)) rfl rfl
    (ix2 e (0 : Fin 1))
    (fun b hb => by match b with | ⟨0, _⟩ => rfl | ⟨1, _⟩ => exact absurd rfl hb)
    (by show (0 : Nat) + 1 = 1; rfl)).trans ?_
  rw [bcastCol_apply]
  exact wrapDense_word _ e _ (Cert.RefValue.node_lt _) (Cert.RefValue.v3_word hr e)

/-- The pair scatter's record is the scalar-updates-at-pairs scatter at these extents. -/
theorem scatterPair_eq : scatter_S10240x10240_S170000x2_S170000_n_01_01_1
    = ScatterRead.pairScatter scatter_S10240x10240_S170000x2_S170000_n_01_01_1_wf := rfl

/-- The dense adjacency term read at (p, q): the summed weight of the slots from node q to node p. -/
theorem denseOf_read (x1 : EdgeWords) (hr : InRange x1) (p q : Fin 10240) :
    denseOf (Cert.ReferenceIdeal.Read.val_main_v3 (F := Ideal) x1) (Cert.ReferenceIdeal.Read.val_main_v6 (F := Ideal) x1)
        (Cert.ReferenceIdeal.Read.val_main_v27 (F := Ideal) x1) (ix2 p q)
      = ∑ e : Fin 170000, if (dstOf x1 e).val = p.val ∧ (srcOf x1 e).val = q.val
          then Cert.Spec.norm (srcOf x1) (dstOf x1) e else 0 := by
  have h10 : 10000 ≤ 10240 := by decide
  unfold denseOf
  rw [truncf_apply, scatterPair_eq]
  have key := ScatterRead.pairScatterAdd_apply (N := 10240) (M := 10240) (E := 170000) (by norm_num) (by norm_num)
    scatter_S10240x10240_S170000x2_S170000_n_01_01_1_wf
    (fun e => Fin.castLE h10 (dstOf x1 e)) (fun e => Fin.castLE h10 (srcOf x1 e))
    (broadcastInDim S10240x10240 ![] bcast_S_S10240x10240 (constant (F := Ideal) S_ .f32 0x00000000#32))
    (pairsOf (Cert.ReferenceIdeal.Read.val_main_v3 (F := Ideal) x1) (Cert.ReferenceIdeal.Read.val_main_v6 (F := Ideal) x1))
    (fun e => pairs_col0 x1 hr e) (fun e => pairs_col1 x1 hr e)
    (Cert.ReferenceIdeal.Read.val_main_v27 (F := Ideal) x1) p q
  refine key.trans ?_
  have hz : (broadcastInDim S10240x10240 ![] bcast_S_S10240x10240 (constant (F := Ideal) S_ .f32 0x00000000#32)) (ix2 p q)
      = (0 : EReal) := Cert.Bridge.ofBits_zero
  rw [hz, zero_add]
  refine Finset.sum_congr rfl fun e _ => ?_
  rw [Cert.RefValue.v27_norm hr e]
  refine if_congr ?_ rfl rfl
  simp only [Fin.ext_iff, Fin.coe_castLE]

/-- The dense adjacency buffer after the host prefix, read at (p, q). -/
theorem v42_read (W : Valuation τ sig (Elt Ideal)) (hr : InRange (W (Proc.devRef .tc main_arg1))) (p q : Fin 10240) :
    (StableHlo.after H W (Proc.devRef .tc main_v42) : (⟨S10240x10240, .bf16⟩ : BufTy).Contents (Elt Ideal)) (ix2 p q)
      = ∑ e : Fin 170000, if (dstOf (W (Proc.devRef .tc main_arg1)) e).val = p.val ∧ (srcOf (W (Proc.devRef .tc main_arg1)) e).val = q.val
          then Cert.Spec.norm (srcOf (W (Proc.devRef .tc main_arg1))) (dstOf (W (Proc.devRef .tc main_arg1))) e else 0 := by
  rw [v42_eq]
  exact denseOf_read _ hr p q

/-- The block scatter's record is the block-into-top-rows scatter at these extents. -/
theorem scatterPad_eq : scatter_S10240x512_S1_S10000x512_01_n_0_0
    = ScatterRead.padScatter scatter_S10240x512_S1_S10000x512_01_n_0_0_wf := rfl

/-- The padded features read at (p, k): the features below row 10000, zero from there on. -/
theorem v46_read (W : Valuation τ sig (Elt Ideal)) (p : Fin 10240) (k : Fin 512) :
    (StableHlo.after H W (Proc.devRef .tc main_v46) : (⟨S10240x512, .bf16⟩ : BufTy).Contents (Elt Ideal)) (ix2 p k)
      = if h : p.val < 10000 then (W (Proc.devRef .tc main_arg0) : (⟨S10000x512, .f32⟩ : BufTy).Contents (Elt Ideal)) (ix2 ⟨p.val, h⟩ k)
        else (0 : EReal) := by
  rw [v46_eq, truncf_apply]
  have h0 : ((broadcastInDim S1 ![] bcast_S_S1 (constantI S_ 32 0#32) : IVec S1 32) (ix1 (0 : Fin 1))).toInt = 0 :=
    toInt_zero32
  rw [scatterPad_eq, ScatterRead.padScatter_apply (by norm_num : 10000 ≤ 10240) _ _ _ h0]
  by_cases h : p.val < 10000
  · rw [dif_pos h, dif_pos h]
  · rw [dif_neg h, dif_neg h]
    exact Cert.Bridge.ofBits_zero

/-- The converted weight matrices are the arguments. -/
theorem v47_read (W : Valuation τ sig (Elt Ideal)) (i : S512x512.Idx) :
    (StableHlo.after H W (Proc.devRef .tc main_v47) : (⟨S512x512, .bf16⟩ : BufTy).Contents (Elt Ideal)) i
      = (W (Proc.devRef .tc main_arg2) : (⟨S512x512, .f32⟩ : BufTy).Contents (Elt Ideal)) i := by
  rw [v47_eq]; rfl

theorem v48_read (W : Valuation τ sig (Elt Ideal)) (i : S512x512.Idx) :
    (StableHlo.after H W (Proc.devRef .tc main_v48) : (⟨S512x512, .bf16⟩ : BufTy).Contents (Elt Ideal)) i
      = (W (Proc.devRef .tc main_arg4) : (⟨S512x512, .f32⟩ : BufTy).Contents (Elt Ideal)) i := by
  rw [v48_eq]; rfl

theorem v49_read (W : Valuation τ sig (Elt Ideal)) (i : S512x16.Idx) :
    (StableHlo.after H W (Proc.devRef .tc main_v49) : (⟨S512x16, .bf16⟩ : BufTy).Contents (Elt Ideal)) i
      = (W (Proc.devRef .tc main_arg6) : (⟨S512x16, .f32⟩ : BufTy).Contents (Elt Ideal)) i := by
  rw [v49_eq]; rfl

/-- The zero bias row is zero everywhere. -/
theorem v50_zero (W : Valuation τ sig (Elt Ideal)) :
    (StableHlo.after H W (Proc.devRef .tc main_v50) : (⟨S1x512, .f32⟩ : BufTy).Contents (Elt Ideal)) = fun _ => (0 : EReal) := by
  rw [v50_eq]
  funext i
  exact Cert.Bridge.ofBits_zero

/-- A length-n vector reshaped to a row reads at (0, q) as the vector at q. -/
theorem row_read {n : Nat} {α : Type} (x : (⟨1, ![n]⟩ : Shape).Idx → α) (h : (⟨1, ![n]⟩ : Shape).ShapeCasts ⟨2, ![1, n]⟩) (q : Fin n) :
    shapeCast (⟨2, ![1, n]⟩ : Shape) x h (ix2 (0 : Fin 1) q) = x (ix1 q) := by
  refine shapeCast_apply x h (ix2 (0 : Fin 1) q) (ix1 q) ?_
  rw [Shape.rowMajor_val_one, Shape.rowMajor_val_two]
  show q.val = 0 * n + q.val
  omega

theorem v51_read (W : Valuation τ sig (Elt Ideal)) (q : Fin 512) :
    (StableHlo.after H W (Proc.devRef .tc main_v51) : (⟨S1x512, .f32⟩ : BufTy).Contents (Elt Ideal)) (ix2 (0 : Fin 1) q)
      = (W (Proc.devRef .tc main_arg3) : (⟨S512, .f32⟩ : BufTy).Contents (Elt Ideal)) (ix1 q) := by
  rw [v51_eq]; exact row_read _ _ q

theorem v52_read (W : Valuation τ sig (Elt Ideal)) (q : Fin 512) :
    (StableHlo.after H W (Proc.devRef .tc main_v52) : (⟨S1x512, .f32⟩ : BufTy).Contents (Elt Ideal)) (ix2 (0 : Fin 1) q)
      = (W (Proc.devRef .tc main_arg5) : (⟨S512, .f32⟩ : BufTy).Contents (Elt Ideal)) (ix1 q) := by
  rw [v52_eq]; exact row_read _ _ q

theorem v53_read (W : Valuation τ sig (Elt Ideal)) (q : Fin 16) :
    (StableHlo.after H W (Proc.devRef .tc main_v53) : (⟨S1x16, .f32⟩ : BufTy).Contents (Elt Ideal)) (ix2 (0 : Fin 1) q)
      = (W (Proc.devRef .tc main_arg7) : (⟨S16, .f32⟩ : BufTy).Contents (Elt Ideal)) (ix1 q) := by
  rw [v53_eq]; exact row_read _ _ q

end Cert.KernelHost

end
-- ==== Proof.LibDenseAdjacency.lean ====
/-
  A dense adjacency matrix against an edge list.

  Edges are indexed by a finite type `ι`; edge `e` goes from node `src e` to node `dst e` and carries a weight `w e`.
  The dense matrix of the weighted graph has at (d, s) the sum of the weights of the edges from s to d (`adj`) — what an
  accumulating scatter of the weights at the pairs (dst e, src e) into a zero matrix holds. Multiplying it into a vector
  indexed by the nodes is the edge-list aggregation: every edge into d contributes its weight times the vector's entry at
  its source (`adj_mul_sum`, in any commutative semiring — the step is distributivity, so on the extended reals it holds for
  real weights and real entries, `adj_mul_sum_ereal`, and not in general).
  Beside it: a real sum coerced to the extended reals is the sum of the coercions (`coe_sum`); a sum over `Fin N` whose
  terms vanish from `n` on is the sum over `Fin n` (`sum_castLE`: the padded rows and columns of a matrix product).
-/
import Mathlib

namespace DenseAdj

open Finset

/-- A finite sum of reals, read in the extended reals, is the sum of the readings. -/
theorem coe_sum {α : Type*} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A sum over `Fin N` whose terms are zero from index `n` on is the sum of its first `n` terms. -/
theorem sum_castLE {M : Type*} [AddCommMonoid M] {n N : ℕ} (h : n ≤ N) (f : Fin N → M)
    (hz : ∀ k : Fin N, n ≤ k.val → f k = 0) : ∑ k, f k = ∑ k : Fin n, f (Fin.castLE h k) := by
  have e : ∑ k : Fin n, f (Fin.castLE h k) = ∑ k ∈ (univ : Finset (Fin n)).map (Fin.castLEEmb h), f k := by
    rw [Finset.sum_map]; rfl
  rw [e]
  symm
  refine Finset.sum_subset (Finset.subset_univ _) fun k _ hk => hz k ?_
  by_contra hlt
  exact hk (Finset.mem_map.mpr ⟨⟨k.val, Nat.lt_of_not_le hlt⟩, Finset.mem_univ _, Fin.ext rfl⟩)

variable {ι ν : Type*} [Fintype ι] [Fintype ν] [DecidableEq ν]

/-- Entry (d, s) of the dense matrix of a weighted edge list: the summed weight of the edges from `s` to `d`. -/
def adj {R : Type*} [AddCommMonoid R] (src dst : ι → ν) (w : ι → R) (d s : ν) : R :=
  ∑ e ∈ univ.filter (fun e => dst e = d ∧ src e = s), w e

/-- Row `d` of the dense matrix times a vector is the sum, over the edges into `d`, of the edge's weight times the
    vector's entry at the edge's source. -/
theorem adj_mul_sum {R : Type*} [CommSemiring R] (src dst : ι → ν) (w : ι → R) (x : ν → R) (d : ν) :
    ∑ s, adj src dst w d s * x s = ∑ e ∈ univ.filter (fun e => dst e = d), w e * x (src e) := by
  refine Eq.trans ?_ (Finset.sum_fiberwise (univ.filter fun e => dst e = d) src fun e => w e * x (src e))
  refine Finset.sum_congr rfl fun s _ => ?_
  unfold adj
  rw [Finset.sum_mul, Finset.filter_filter]
  refine Finset.sum_congr rfl fun e he => ?_
  rw [(Finset.mem_filter.mp he).2.2]

/-- The same on the extended reals, for real weights and a real vector. -/
theorem adj_mul_sum_ereal (src dst : ι → ν) (w : ι → ℝ) (x : ν → ℝ) (d : ν) :
    ∑ s, ((adj src dst w d s : ℝ) : EReal) * ((x s : ℝ) : EReal)
      = ∑ e ∈ univ.filter (fun e => dst e = d), ((w e : ℝ) : EReal) * ((x (src e) : ℝ) : EReal) := by
  simp only [← EReal.coe_mul, ← coe_sum]
  exact congrArg _ (adj_mul_sum src dst w x d)

end DenseAdj
-- ==== Proof.LibSymNorm.lean ====
/-
  The symmetric normalisation of a graph aggregation, on the extended reals.

  With d a vector of per-node factors that are finite and not negative, scaling each gathered row by its source's
  factor before the rows are added up per destination, and scaling the sum by the destination's factor afterwards,
  gives the same array as scaling each gathered row by the product of the two factors before adding:

      (sum over the edges e into i of  h[src e, c] * d[src e]) * d[i]
        = sum over the edges e into i of  h[src e, c] * (d[src e] * d[dst e]) .

  On the extended reals multiplication by a finite factor that is not negative distributes over any sum
  (a negative or an infinite factor would not), and the product is associative, so no finiteness of h is needed.
  An edge contributes to row i exactly when its destination word, read as a signed integer, is i; such a word is
  not negative, so wrapping negative words leaves it alone and clamping it gives i again.

  Also here: the factor 1/sqrt(deg) where deg > 0, else 0, is finite and not negative whatever deg is.
-/
import Mathlib.Data.EReal.Operations
import Idealize.ShloMosaic.PureOps.Ideal
import Idealize.ShloMosaic.Lib.ValueIdx
import proofs.«110679_j6047313952840_1_alg».proof.Proof.LibRowIndexing

noncomputable section

open scoped BigOperators

namespace Idealize.ShloMosaic.SymNorm

open Idealize.ShloMosaic Idealize.ShloMosaic.ValueIdx Idealize.ShloMosaic.RowIndexing

/-- A finite factor that is not negative comes out of a sum of extended reals. -/
theorem sum_mul_of_nonneg {ι : Type} (s : Finset ι) (a : ι → EReal) (d : EReal) (h0 : 0 ≤ d) (ht : d ≠ ⊤) :
    (∑ j ∈ s, a j) * d = ∑ j ∈ s, a j * d := by
  classical
  induction s using Finset.induction_on with
  | empty => simp
  | insert x s hx ih =>
    rw [Finset.sum_insert hx, Finset.sum_insert hx, EReal.right_distrib_of_nonneg_of_ne_top h0 ht, ih]

/-- The reciprocal square root of a positive extended real is finite and not negative. -/
theorem rsqrt_pos_bounds (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

/-- "1/sqrt(deg) where deg > 0, else 0" is finite and not negative. -/
theorem invSqrtOrZero_bounds (deg zero : EReal) (hz : zero = 0) :
    0 ≤ Scalar.select (Ideal.cmp .ogt deg zero) (Ideal.rsqrt deg) zero
      ∧ Scalar.select (Ideal.cmp .ogt deg zero) (Ideal.rsqrt deg) zero ≠ ⊤ := by
  subst hz
  by_cases h : (0 : EReal) < deg
  · have : Ideal.cmp .ogt deg 0 = 1#1 := by simp [Ideal.cmp, h]
    rw [this, select_one]
    exact rsqrt_pos_bounds deg h
  · have : Ideal.cmp .ogt deg 0 = 0#1 := by simp [Ideal.cmp, h]
    rw [this, select_zero]
    exact ⟨le_refl _, EReal.zero_ne_top⟩

variable {N E C : Nat}

/-- The law, over the host's row gather, entry gather and accumulating row scatter: post-scaling the sum of
    pre-scaled rows is the sum of rows scaled by both factors. -/
theorem post_scale_eq (hN : 0 < N)
    (wfR : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (h hs : (⟨2, ![N, C]⟩ : Shape).Idx → EReal) (d : (⟨1, ![N]⟩ : Shape).Idx → EReal)
    (src dst dstw : IVec ⟨2, ![E, 1]⟩ 32)
    (z z' : (⟨2, ![N, C]⟩ : Shape).Idx → EReal) (upd upd' : (⟨2, ![E, C]⟩ : Shape).Idx → EReal)
    (hd : ∀ i, 0 ≤ d i ∧ d i ≠ ⊤)
    (hhs : ∀ (r : Fin N) (c : Fin C), hs (ix2 r c) = h (ix2 r c) * d (ix1 r))
    (hw : ∀ e : Fin E, 0 ≤ (dst (ix2 e (0 : Fin 1))).toInt → dstw (ix2 e (0 : Fin 1)) = dst (ix2 e (0 : Fin 1)))
    (hz : ∀ j, z j = 0) (hz' : ∀ j, z' j = 0)
    (hupd : ∀ (e : Fin E) (c : Fin C), upd (ix2 e c) = Host.gather (rowGather wfR) hs src (ix2 e c))
    (hupd' : ∀ (e : Fin E) (c : Fin C), upd' (ix2 e c) = Host.gather (rowGather wfR) h src (ix2 e c)
      * (Host.gather (elemGather wfE) d src (ix1 e) * Host.gather (elemGather wfE) d dstw (ix1 e)))
    (r : Fin N) (c : Fin C) :
    Host.scatterAdd (F := Ideal) (φ := .f32) (rowScatter wfS) z dst upd (ix2 r c) * d (ix1 r)
      = Host.scatterAdd (F := Ideal) (φ := .f32) (rowScatter wfS) z' dst upd' (ix2 r c) := by
  show Ideal.hostScatterAdd (rowScatter wfS) z dst upd (ix2 r c) * d (ix1 r)
    = Ideal.hostScatterAdd (rowScatter wfS) z' dst upd' (ix2 r c)
  unfold Ideal.hostScatterAdd
  rw [hz, hz', zero_add, zero_add, sum_mul_of_nonneg _ _ _ (hd _).1 (hd _).2]
  refine Finset.sum_congr rfl fun j hj => ?_
  obtain ⟨e, c', rfl⟩ : ∃ (e : Fin E) (c' : Fin C), j = ix2 e c' := ⟨j 0, j 1, eq_ix2 j⟩
  have hl := rowScatter_lands wfS dst e c' r c (Finset.mem_filter.mp hj).2
  have hdw : dstw (ix2 e (0 : Fin 1)) = dst (ix2 e (0 : Fin 1)) := hw e (by rw [hl.2]; exact Int.natCast_nonneg _)
  rw [hupd, hupd', rowGather_apply hN, rowGather_apply hN, elemGather_apply hN, elemGather_apply hN, hhs, hdw,
    clampRow_of_toInt hN _ r hl.2, mul_assoc]

end Idealize.ShloMosaic.SymNorm

end
-- ==== Proof.KernelAlgebra.lean ====
/-
  The kernel program's five dense layers against the edge-list closed form.

  The dense matrix has at (p, q) the summed weight of the slots from node q to node p (nothing outside the
  top-left 10000 x 10000 block, since every end of a slot is a node below 10000). Every node is the destination of
  its own self loop, so every degree is a positive count, its reciprocal square root is a real that is not negative,
  and so every weight is a real. For real weights and a real matrix X, row d of the dense matrix times X is the sum
  over the slots into d of the slot's weight times the row of X at the slot's source: that is distributivity, which
  on the extended reals holds for reals (and not in general), so "every entry is a real" is carried through the
  layers: sums, products and maxima of reals are reals. A padded column s >= 10000 of the dense matrix is zero and
  contributes 0 * X[s] = 0 whatever X[s] is. The two inner products carry a zero bias row, x + 0 = x.
-/
import Mathlib
import proofs.«110679_j6047313952840_1_alg».proof.Proof.Spec
import proofs.«110679_j6047313952840_1_alg».proof.Proof.Layer
import proofs.«110679_j6047313952840_1_alg».proof.Proof.LibDenseAdjacency
import proofs.«110679_j6047313952840_1_alg».proof.Proof.LibSymNorm

noncomputable section

open Idealize.ShloMosaic
open scoped BigOperators

namespace Cert.KernelAlgebra

/-- An extended real that is a real. -/
def IsReal (a : EReal) : Prop := ∃ r : ℝ, a = (r : EReal)

theorem IsReal.of_ne {a : EReal} (hb : a ≠ ⊥) (ht : a ≠ ⊤) : IsReal a := ⟨a.toReal, (EReal.coe_toReal ht hb).symm⟩

theorem IsReal.ne_bot {a : EReal} (h : IsReal a) : a ≠ ⊥ := by obtain ⟨r, rfl⟩ := h; exact EReal.coe_ne_bot r

theorem IsReal.ne_top {a : EReal} (h : IsReal a) : a ≠ ⊤ := by obtain ⟨r, rfl⟩ := h; exact EReal.coe_ne_top r

theorem IsReal.zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.ite {p : Prop} [Decidable p] {a b : EReal} (ha : IsReal a) (hb : IsReal b) : IsReal (if p then a else b) := by
  split_ifs <;> assumption

/-- A matrix product of real matrices plus a real bias row is real. -/
theorem dense_real {M K N : ℕ} (a : Fin M → Fin K → EReal) (b : Fin K → Fin N → EReal) (bias : Fin N → EReal)
    (ha : ∀ i k, IsReal (a i k)) (hb : ∀ k j, IsReal (b k j)) (hbias : ∀ j, IsReal (bias j)) (i : Fin M) (j : Fin N) :
    IsReal (Cert.Layer.dense a b bias i j) :=
  (IsReal.sum _ _ fun k _ => (ha i k).mul (hb k j)).add (hbias j)

/-- The same clipped below at zero. -/
theorem denseRelu_real {M K N : ℕ} (a : Fin M → Fin K → EReal) (b : Fin K → Fin N → EReal) (bias : Fin N → EReal)
    (ha : ∀ i k, IsReal (a i k)) (hb : ∀ k j, IsReal (b k j)) (hbias : ∀ j, IsReal (bias j)) (i : Fin M) (j : Fin N) :
    IsReal (Cert.Layer.denseRelu a b bias i j) :=
  ((IsReal.sum _ _ fun k _ => (ha i k).mul (hb k j)).add (hbias j)).max IsReal.zero

theorem h10 : 10000 ≤ 10240 := by decide

section graph
variable (src dst : Fin 170000 → Fin 10000) (hdst : ∀ d, ∃ e, dst e = d)
include hdst

/-- Every node is the destination of some slot, so every degree is positive. -/
theorem deg_pos (d : Fin 10000) : 0 < Cert.Spec.deg dst d := by
  obtain ⟨e0, he0⟩ := hdst d
  unfold Cert.Spec.deg
  have h1 : (if dst e0 = d then (1 : EReal) else 0) ≤ ∑ e, if dst e = d then (1 : EReal) else 0 :=
    Finset.single_le_sum (f := fun e => if dst e = d then (1 : EReal) else 0)
      (fun e _ => by split_ifs <;> simp) (Finset.mem_univ e0)
  rw [if_pos he0] at h1
  exact lt_of_lt_of_le zero_lt_one h1

/-- The reciprocal square root of a degree is a real. -/
theorem dinv_real (d : Fin 10000) : IsReal (Cert.Spec.dinv dst d) := by
  have h := SymNorm.rsqrt_pos_bounds _ (deg_pos dst hdst d)
  exact IsReal.of_ne (ne_bot_of_le_ne_bot EReal.zero_ne_bot h.1) h.2

/-- Every weight is a real. -/
theorem norm_real (e : Fin 170000) : IsReal (Cert.Spec.norm src dst e) :=
  (dinv_real dst hdst _).mul (dinv_real dst hdst _)

variable (adj : Fin 10240 → Fin 10240 → EReal)
  (hadj : ∀ p q : Fin 10240, adj p q
    = ∑ e : Fin 170000, if (dst e).val = p.val ∧ (src e).val = q.val then Cert.Spec.norm src dst e else 0)
include hadj

/-- Every entry of the dense matrix is a real. -/
theorem adj_real (p q : Fin 10240) : IsReal (adj p q) := by
  rw [hadj]
  exact IsReal.sum _ _ fun e _ => (norm_real src dst hdst e).ite IsReal.zero

/-- Row d of the dense matrix times a real matrix is the edge-list aggregation. -/
theorem agg {C : ℕ} (X : Fin 10240 → Fin C → EReal) (hX : ∀ p c, IsReal (X p c)) (d : Fin 10000) (j : Fin C) :
    ∑ s, adj (Fin.castLE h10 d) s * X s j
      = ∑ e : Fin 170000, if dst e = d then Cert.Spec.norm src dst e * X (Fin.castLE h10 (src e)) j else 0 := by
  choose w hw using norm_real src dst hdst
  choose Xr hXr using fun s : Fin 10000 => hX (Fin.castLE h10 s) j
  rw [DenseAdj.sum_castLE h10 _ (fun s hs => by
    rw [hadj, Finset.sum_eq_zero (fun e _ => if_neg (by
      rintro ⟨_, h2⟩; have := (src e).isLt; omega)), zero_mul])]
  have hA : ∀ s : Fin 10000, adj (Fin.castLE h10 d) (Fin.castLE h10 s) = ((DenseAdj.adj src dst w d s : ℝ) : EReal) := by
    intro s
    rw [hadj]
    unfold DenseAdj.adj
    rw [DenseAdj.coe_sum, Finset.sum_filter]
    refine Finset.sum_congr rfl fun e _ => ?_
    simp only [Fin.coe_castLE, Fin.val_inj, hw]
  simp only [hA, hXr]
  rw [DenseAdj.adj_mul_sum_ereal, Finset.sum_filter]
  refine Finset.sum_congr rfl fun e _ => ?_
  rw [hw]

/-- One layer: the dense form on the padded rows, read at a node, is the rectified convolution. -/
theorem layer {K C : ℕ} (H : Fin 10000 → Fin K → EReal) (Hp : Fin 10240 → Fin K → EReal)
    (hH : ∀ d k, Hp (Fin.castLE h10 d) k = H d k) (hHp : ∀ p k, IsReal (Hp p k))
    (W : Fin K → Fin C → EReal) (hW : ∀ k j, IsReal (W k j)) (b : Fin C → EReal) (d : Fin 10000) (j : Fin C) :
    Cert.Layer.denseRelu adj (Cert.Layer.dense Hp W (fun _ => 0)) b (Fin.castLE h10 d) j
      = Cert.Spec.relu (Cert.Spec.conv src dst H W b d j) := by
  unfold Cert.Layer.denseRelu Cert.Spec.relu Cert.Spec.conv
  rw [agg src dst hdst adj hadj _ (dense_real Hp W _ hHp hW fun _ => IsReal.zero) d j]
  unfold Cert.Layer.dense
  simp only [add_zero, hH]

/-- A layer's output is real on every padded row. -/
theorem layer_real {K C : ℕ} (Hp : Fin 10240 → Fin K → EReal) (hHp : ∀ p k, IsReal (Hp p k))
    (W : Fin K → Fin C → EReal) (hW : ∀ k j, IsReal (W k j)) (b : Fin C → EReal) (hb : ∀ j, IsReal (b j))
    (p : Fin 10240) (j : Fin C) :
    IsReal (Cert.Layer.denseRelu adj (Cert.Layer.dense Hp W (fun _ => 0)) b p j) :=
  denseRelu_real _ _ _ (adj_real src dst hdst adj hadj) (dense_real Hp W _ hHp hW fun _ => IsReal.zero) hb p j

/-- The kernel program's logits at a node are the closed form's. -/
theorem kernelLogits_eq
    (x : Fin 10000 → Fin 512 → EReal) (hx : ∀ d k, IsReal (x d k))
    (xp : Fin 10240 → Fin 512 → EReal) (hxp : ∀ d k, xp (Fin.castLE h10 d) k = x d k)
    (hxp0 : ∀ (p : Fin 10240) k, 10000 ≤ p.val → xp p k = 0)
    (W1 : Fin 512 → Fin 512 → EReal) (hW1 : ∀ k j, IsReal (W1 k j)) (b1 : Fin 512 → EReal) (hb1 : ∀ j, IsReal (b1 j))
    (W2 : Fin 512 → Fin 512 → EReal) (hW2 : ∀ k j, IsReal (W2 k j)) (b2 : Fin 512 → EReal)
    (Wout : Fin 512 → Fin 16 → EReal) (bout : Fin 16 → EReal) (d : Fin 10000) (j : Fin 16) :
    Cert.Layer.kernelLogits adj xp W1 b1 W2 b2 Wout bout (Fin.castLE (by decide) d) j
      = Cert.Spec.logits src dst x W1 b1 W2 b2 Wout bout d j := by
  have hxpr : ∀ p k, IsReal (xp p k) := by
    intro p k
    by_cases hp : p.val < 10000
    · have : p = Fin.castLE h10 ⟨p.val, hp⟩ := Fin.ext rfl
      rw [this, hxp]; exact hx _ _
    · rw [hxp0 p k (by omega)]; exact IsReal.zero
  have hA2 : ∀ k, Cert.Layer.denseRelu adj (Cert.Layer.dense (Cert.Layer.denseRelu adj
      (Cert.Layer.dense xp W1 (fun _ => 0)) b1) W2 (fun _ => 0)) b2 (Fin.castLE h10 d) k
      = Cert.Spec.relu (Cert.Spec.conv src dst (fun d k => Cert.Spec.relu (Cert.Spec.conv src dst x W1 b1 d k)) W2 b2 d k) :=
    fun k => layer src dst hdst adj hadj (fun d k => Cert.Spec.relu (Cert.Spec.conv src dst x W1 b1 d k)) _
      (fun d k => layer src dst hdst adj hadj x xp hxp hxpr W1 hW1 b1 d k)
      (fun p k => layer_real src dst hdst adj hadj xp hxpr W1 hW1 b1 hb1 p k) W2 hW2 b2 d k
  unfold Cert.Spec.logits
  show (∑ k, Cert.Layer.denseRelu adj (Cert.Layer.dense (Cert.Layer.denseRelu adj
      (Cert.Layer.dense xp W1 (fun _ => 0)) b1) W2 (fun _ => 0)) b2 (Fin.castLE h10 d) k * Wout k j) + bout j = _
  simp only [hA2]

end graph

end Cert.KernelAlgebra

end
-- ==== Proof.PreFacts.lean ====
/-
  The precondition read back. finite_inputs is a conjunction, folded by "and", of one "all" per argument: for each
  float array, every entry's absolute value is below plus infinity; for the edge array, every word read signed is at
  least 0 and below 10000. When the function is all ones, every float entry is a real number and every edge word is a
  node number. Stated over any eight arrays of the arguments' shapes, so it serves each of the three programs.
-/
import proofs.«110679_j6047313952840_1_alg».proof.Pre_finite_inputs
import Idealize.ShloMosaic.Lib.ReduceAll
import Idealize.ShloMosaic.Lib.ValueIdx
import Idealize.ShloMosaic.Lib.Pipeline.Value

noncomputable section

open Idealize.ShloMosaic Idealize.ShloMosaic.ValueIdx

namespace Cert.PreFacts

open Cert.Pre_finite_inputs

instance : Subsingleton Cert.Pre_finite_inputs.S_.Idx := ⟨fun a b => funext fun d => d.elim0⟩

/-- The word 0x7F800000 is plus infinity. -/
theorem ofBits_inf : Ideal.ofBits .f32 0x7F800000#32 = ⊤ := by simp [Ideal.ofBits, Ideal.ieee]

/-- An extended real whose absolute value is below plus infinity is a real number. -/
theorem real_of_abs_lt_top (x : EReal) (h : Ideal.cmp .olt (max x (-x)) ⊤ = 1#1) : ∃ r : ℝ, x = (r : EReal) := by
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | top => exact absurd hlt (by simp)
  | coe r => exact ⟨r, rfl⟩

/-- One float argument's "all": every entry is a real number. -/
theorem real_of_all {s : Shape} (x : FVec Ideal s .f32) (hb : S_.BroadcastsInDim s (![] : Fin 0 → Fin s.rank))
    (i : s.Idx)
    (h : cmpf .olt (Host.absf x) (broadcastInDim s ![] hb (constant (F := Ideal) S_ .f32 0x7F800000#32)) i = 1#1) :
    ∃ r : ℝ, x i = (r : EReal) := by
  have hbi : broadcastInDim s ![] hb (constant (F := Ideal) S_ .f32 0x7F800000#32) i = Ideal.ofBits .f32 0x7F800000#32 :=
    broadcastInDim_apply _ hb _ i (fun a => a.elim0) (fun a => a.elim0)
  have h' : Ideal.cmp .olt (max (x i) (-(x i)))
      (broadcastInDim s ![] hb (constant (F := Ideal) S_ .f32 0x7F800000#32) i) = 1#1 := h
  rw [hbi, ofBits_inf] at h'
  exact real_of_abs_lt_top _ h'

variable [Cert.Pre_finite_inputs.Facts]

/-- finite_inputs all ones: every float entry is a real number and every edge word is a node number. -/
theorem decode (x0 : FVec Ideal S10000x512 .f32) (x1 : IVec S2x160000 32) (x2 : FVec Ideal S512x512 .f32)
    (x3 : FVec Ideal S512 .f32) (x4 : FVec Ideal S512x512 .f32) (x5 : FVec Ideal S512 .f32)
    (x6 : FVec Ideal S512x16 .f32) (x7 : FVec Ideal S16 .f32)
    (h : Cert.Pre_finite_inputs.fn (F := Ideal) x0 x1 x2 x3 x4 x5 x6 x7 = fun _ => 1#1) :
    (∀ i, ∃ r : ℝ, x0 i = (r : EReal)) ∧ (∀ i, 0 ≤ (x1 i).toInt ∧ (x1 i).toInt < 10000)
      ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have h0 := congrFun h ix0
  dsimp only [Cert.Pre_finite_inputs.fn, Cert.Pre_finite_inputs.fn_part1, Cert.Pre_finite_inputs.fn_part2] at h0
  obtain ⟨h1, hlt⟩ := IntOp.andi_eq_one.mp h0
  obtain ⟨h2, hge⟩ := IntOp.andi_eq_one.mp h1
  obtain ⟨h3, hx7⟩ := IntOp.andi_eq_one.mp h2
  obtain ⟨h4, hx6⟩ := IntOp.andi_eq_one.mp h3
  obtain ⟨h5, hx5⟩ := IntOp.andi_eq_one.mp h4
  obtain ⟨h6, hx4⟩ := IntOp.andi_eq_one.mp h5
  obtain ⟨h7, hx3⟩ := IntOp.andi_eq_one.mp h6
  obtain ⟨hx0, hx2⟩ := IntOp.andi_eq_one.mp h7
  refine ⟨fun i => real_of_all x0 _ i (Host.reduce_andi_all _ _ _ _ _ hx0 i), fun i => ⟨?_, ?_⟩,
    fun i => real_of_all x2 _ i (Host.reduce_andi_all _ _ _ _ _ hx2 i),
    fun i => real_of_all x3 _ i (Host.reduce_andi_all _ _ _ _ _ hx3 i),
    fun i => real_of_all x4 _ i (Host.reduce_andi_all _ _ _ _ _ hx4 i),
    fun i => real_of_all x5 _ i (Host.reduce_andi_all _ _ _ _ _ hx5 i),
    fun i => real_of_all x6 _ i (Host.reduce_andi_all _ _ _ _ _ hx6 i),
    fun i => real_of_all x7 _ i (Host.reduce_andi_all _ _ _ _ _ hx7 i)⟩
  · have e := Host.reduce_andi_all _ _ _ _ _ hge i
    have e' : IntOp.cmpi .sge (x1 i) (0#32) = 1#1 := e
    have := IntOp.cmpi_sge.mp e'
    simpa using this
  · have e := Host.reduce_andi_all _ _ _ _ _ hlt i
    have e' : IntOp.cmpi .slt (x1 i) (10000#32) = 1#1 := e
    have := IntOp.cmpi_slt.mp e'
    have h10 : (10000#32 : BitVec 32).toInt = 10000 := by decide
    rw [h10] at this
    exact this

end Cert.PreFacts

end
-- ==== Proof.KernelLogits.lean ====
/-
  The kernel program's logits against the closed form.

  Under the precondition every float argument is an array of reals and every word of the edge array is a node
  number. Then the buffers the host prefix hands to the five dense layers are: the dense adjacency of the slot
  weights, the zero-padded features, the weight matrices and the biases. Every node is the destination of its own
  self loop. With these the five dense layers composed, read at a node, are the closed form's logits.
-/
import proofs.«110679_j6047313952840_1_alg».proof.Proof.KernelHost
import proofs.«110679_j6047313952840_1_alg».proof.Proof.KernelAlgebra
import proofs.«110679_j6047313952840_1_alg».proof.Proof.PreFacts

set_option maxRecDepth 4000

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelHost

open Cert.RefValue (EdgeWords InRange srcOf dstOf)

/-- Every node is the destination (and the source) of its own self loop among the 170000 slots. -/
theorem ends_surj (row : Fin 160000 → BitVec 32) (d : Fin 10000) : ∃ e, Cert.Spec.ends row e = d := by
  refine ⟨⟨160000 + d.val, by have := d.isLt; omega⟩, ?_⟩
  unfold Cert.Spec.ends
  rw [dif_neg (by simp)]
  exact Fin.ext (by simp)

section
variable [Cert.Pre_finite_inputs.Facts]

/-- The five dense layers on the buffers the host prefix leaves, from any valuation W whose argument buffers
    satisfy the precondition, are the closed form's logits of the arguments. -/
theorem logits_spec_of_valuation (W : Valuation τ sig (Elt Ideal))
    (hpre : Cert.Pre_finite_inputs.fn (F := Ideal) (W (Proc.devRef .tc main_arg0) : (⟨S10000x512, .f32⟩ : BufTy).Contents (Elt Ideal)) (W (Proc.devRef .tc main_arg1) : (⟨S2x160000, .i32⟩ : BufTy).Contents (Elt Ideal))
        (W (Proc.devRef .tc main_arg2) : (⟨S512x512, .f32⟩ : BufTy).Contents (Elt Ideal)) (W (Proc.devRef .tc main_arg3) : (⟨S512, .f32⟩ : BufTy).Contents (Elt Ideal))
        (W (Proc.devRef .tc main_arg4) : (⟨S512x512, .f32⟩ : BufTy).Contents (Elt Ideal)) (W (Proc.devRef .tc main_arg5) : (⟨S512, .f32⟩ : BufTy).Contents (Elt Ideal))
        (W (Proc.devRef .tc main_arg6) : (⟨S512x16, .f32⟩ : BufTy).Contents (Elt Ideal)) (W (Proc.devRef .tc main_arg7) : (⟨S16, .f32⟩ : BufTy).Contents (Elt Ideal)) = fun _ => 1#1)
    (d : Fin 10000) (j : Fin 16) :
    Cert.Layer.kernelLogits
        (fun p q => (StableHlo.after H W (Proc.devRef .tc main_v42) : (⟨S10240x10240, .bf16⟩ : BufTy).Contents (Elt Ideal)) (ix2 p q))
        (fun p q => (StableHlo.after H W (Proc.devRef .tc main_v46) : (⟨S10240x512, .bf16⟩ : BufTy).Contents (Elt Ideal)) (ix2 p q))
        (fun p q => (StableHlo.after H W (Proc.devRef .tc main_v47) : (⟨S512x512, .bf16⟩ : BufTy).Contents (Elt Ideal)) (ix2 p q))
        (fun q => (StableHlo.after H W (Proc.devRef .tc main_v51) : (⟨S1x512, .f32⟩ : BufTy).Contents (Elt Ideal)) (ix2 (0 : Fin 1) q))
        (fun p q => (StableHlo.after H W (Proc.devRef .tc main_v48) : (⟨S512x512, .bf16⟩ : BufTy).Contents (Elt Ideal)) (ix2 p q))
        (fun q => (StableHlo.after H W (Proc.devRef .tc main_v52) : (⟨S1x512, .f32⟩ : BufTy).Contents (Elt Ideal)) (ix2 (0 : Fin 1) q))
        (fun p q => (StableHlo.after H W (Proc.devRef .tc main_v49) : (⟨S512x16, .bf16⟩ : BufTy).Contents (Elt Ideal)) (ix2 p q))
        (fun q => (StableHlo.after H W (Proc.devRef .tc main_v53) : (⟨S1x16, .f32⟩ : BufTy).Contents (Elt Ideal)) (ix2 (0 : Fin 1) q))
        (Fin.castLE (by decide) d) j
      = Cert.Spec.logits (srcOf (W (Proc.devRef .tc main_arg1) : (⟨S2x160000, .i32⟩ : BufTy).Contents (Elt Ideal))) (dstOf (W (Proc.devRef .tc main_arg1) : (⟨S2x160000, .i32⟩ : BufTy).Contents (Elt Ideal)))
          (fun d k => (W (Proc.devRef .tc main_arg0) : (⟨S10000x512, .f32⟩ : BufTy).Contents (Elt Ideal)) (ix2 d k)) (fun k j => (W (Proc.devRef .tc main_arg2) : (⟨S512x512, .f32⟩ : BufTy).Contents (Elt Ideal)) (ix2 k j)) (fun k => (W (Proc.devRef .tc main_arg3) : (⟨S512, .f32⟩ : BufTy).Contents (Elt Ideal)) (ix1 k))
          (fun k j => (W (Proc.devRef .tc main_arg4) : (⟨S512x512, .f32⟩ : BufTy).Contents (Elt Ideal)) (ix2 k j)) (fun k => (W (Proc.devRef .tc main_arg5) : (⟨S512, .f32⟩ : BufTy).Contents (Elt Ideal)) (ix1 k))
          (fun k j => (W (Proc.devRef .tc main_arg6) : (⟨S512x16, .f32⟩ : BufTy).Contents (Elt Ideal)) (ix2 k j)) (fun k => (W (Proc.devRef .tc main_arg7) : (⟨S16, .f32⟩ : BufTy).Contents (Elt Ideal)) (ix1 k)) d j := by
  obtain ⟨h0, h1, h2, h3, h4, h5, h6, h7⟩ := Cert.PreFacts.decode _ _ _ _ _ _ _ _ hpre
  have hr : InRange (W (Proc.devRef .tc main_arg1) : (⟨S2x160000, .i32⟩ : BufTy).Contents (Elt Ideal)) := fun r e => h1 (ix2 r e)
  have e47 : (fun p q => (StableHlo.after H W (Proc.devRef .tc main_v47) : (⟨S512x512, .bf16⟩ : BufTy).Contents (Elt Ideal)) (ix2 p q)) = fun k j => (W (Proc.devRef .tc main_arg2) : (⟨S512x512, .f32⟩ : BufTy).Contents (Elt Ideal)) (ix2 k j) :=
    funext fun p => funext fun q => v47_read W (ix2 p q)
  have e48 : (fun p q => (StableHlo.after H W (Proc.devRef .tc main_v48) : (⟨S512x512, .bf16⟩ : BufTy).Contents (Elt Ideal)) (ix2 p q)) = fun k j => (W (Proc.devRef .tc main_arg4) : (⟨S512x512, .f32⟩ : BufTy).Contents (Elt Ideal)) (ix2 k j) :=
    funext fun p => funext fun q => v48_read W (ix2 p q)
  have e49 : (fun p q => (StableHlo.after H W (Proc.devRef .tc main_v49) : (⟨S512x16, .bf16⟩ : BufTy).Contents (Elt Ideal)) (ix2 p q)) = fun k j => (W (Proc.devRef .tc main_arg6) : (⟨S512x16, .f32⟩ : BufTy).Contents (Elt Ideal)) (ix2 k j) :=
    funext fun p => funext fun q => v49_read W (ix2 p q)
  have e51 : (fun q => (StableHlo.after H W (Proc.devRef .tc main_v51) : (⟨S1x512, .f32⟩ : BufTy).Contents (Elt Ideal)) (ix2 (0 : Fin 1) q)) = fun k => (W (Proc.devRef .tc main_arg3) : (⟨S512, .f32⟩ : BufTy).Contents (Elt Ideal)) (ix1 k) :=
    funext fun q => v51_read W q
  have e52 : (fun q => (StableHlo.after H W (Proc.devRef .tc main_v52) : (⟨S1x512, .f32⟩ : BufTy).Contents (Elt Ideal)) (ix2 (0 : Fin 1) q)) = fun k => (W (Proc.devRef .tc main_arg5) : (⟨S512, .f32⟩ : BufTy).Contents (Elt Ideal)) (ix1 k) :=
    funext fun q => v52_read W q
  have e53 : (fun q => (StableHlo.after H W (Proc.devRef .tc main_v53) : (⟨S1x16, .f32⟩ : BufTy).Contents (Elt Ideal)) (ix2 (0 : Fin 1) q)) = fun k => (W (Proc.devRef .tc main_arg7) : (⟨S16, .f32⟩ : BufTy).Contents (Elt Ideal)) (ix1 k) :=
    funext fun q => v53_read W q
  rw [e47, e48, e49, e51, e52, e53]
  refine Cert.KernelAlgebra.kernelLogits_eq (srcOf (W (Proc.devRef .tc main_arg1) : (⟨S2x160000, .i32⟩ : BufTy).Contents (Elt Ideal))) (dstOf (W (Proc.devRef .tc main_arg1) : (⟨S2x160000, .i32⟩ : BufTy).Contents (Elt Ideal))) (ends_surj _) _
    (fun p q => v42_read W hr p q) (fun d k => (W (Proc.devRef .tc main_arg0) : (⟨S10000x512, .f32⟩ : BufTy).Contents (Elt Ideal)) (ix2 d k)) (fun d k => h0 _) _ ?_ ?_ _ (fun k j => h2 _) _ (fun j => h3 _)
    _ (fun k j => h4 _) _ _ _ d j
  · intro d k
    show (StableHlo.after H W (Proc.devRef .tc main_v46) : (⟨S10240x512, .bf16⟩ : BufTy).Contents (Elt Ideal)) (ix2 (Fin.castLE Cert.KernelAlgebra.h10 d) k) = _
    rw [v46_read, dif_pos (show (Fin.castLE Cert.KernelAlgebra.h10 d).val < 10000 from d.isLt)]
    rfl
  · intro p k hp
    show (StableHlo.after H W (Proc.devRef .tc main_v46) : (⟨S10240x512, .bf16⟩ : BufTy).Contents (Elt Ideal)) (ix2 p k) = _
    rw [v46_read, dif_neg (by omega)]

/-- The same from a launch memory m on a device c: the statement the five-region run consumes. -/
theorem logits_spec (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) = fun _ => 1#1)
    (d : Fin 10000) (j : Fin 16) :
    Cert.Layer.kernelLogits
        (fun p q => (StableHlo.after H (fun b => m (c, b)) (Proc.devRef .tc main_v42) : (⟨S10240x10240, .bf16⟩ : BufTy).Contents (Elt Ideal)) (ix2 p q))
        (fun p q => (StableHlo.after H (fun b => m (c, b)) (Proc.devRef .tc main_v46) : (⟨S10240x512, .bf16⟩ : BufTy).Contents (Elt Ideal)) (ix2 p q))
        (fun p q => (StableHlo.after H (fun b => m (c, b)) (Proc.devRef .tc main_v47) : (⟨S512x512, .bf16⟩ : BufTy).Contents (Elt Ideal)) (ix2 p q))
        (fun q => (StableHlo.after H (fun b => m (c, b)) (Proc.devRef .tc main_v51) : (⟨S1x512, .f32⟩ : BufTy).Contents (Elt Ideal)) (ix2 (0 : Fin 1) q))
        (fun p q => (StableHlo.after H (fun b => m (c, b)) (Proc.devRef .tc main_v48) : (⟨S512x512, .bf16⟩ : BufTy).Contents (Elt Ideal)) (ix2 p q))
        (fun q => (StableHlo.after H (fun b => m (c, b)) (Proc.devRef .tc main_v52) : (⟨S1x512, .f32⟩ : BufTy).Contents (Elt Ideal)) (ix2 (0 : Fin 1) q))
        (fun p q => (StableHlo.after H (fun b => m (c, b)) (Proc.devRef .tc main_v49) : (⟨S512x16, .bf16⟩ : BufTy).Contents (Elt Ideal)) (ix2 p q))
        (fun q => (StableHlo.after H (fun b => m (c, b)) (Proc.devRef .tc main_v53) : (⟨S1x16, .f32⟩ : BufTy).Contents (Elt Ideal)) (ix2 (0 : Fin 1) q))
        (Fin.castLE (by decide) d) j
      = Cert.Spec.logits (srcOf ((fun b => m (c, b)) (Proc.devRef .tc main_arg1) : (⟨S2x160000, .i32⟩ : BufTy).Contents (Elt Ideal))) (dstOf ((fun b => m (c, b)) (Proc.devRef .tc main_arg1) : (⟨S2x160000, .i32⟩ : BufTy).Contents (Elt Ideal)))
          (fun d k => ((fun b => m (c, b)) (Proc.devRef .tc main_arg0) : (⟨S10000x512, .f32⟩ : BufTy).Contents (Elt Ideal)) (ix2 d k)) (fun k j => ((fun b => m (c, b)) (Proc.devRef .tc main_arg2) : (⟨S512x512, .f32⟩ : BufTy).Contents (Elt Ideal)) (ix2 k j)) (fun k => ((fun b => m (c, b)) (Proc.devRef .tc main_arg3) : (⟨S512, .f32⟩ : BufTy).Contents (Elt Ideal)) (ix1 k))
          (fun k j => ((fun b => m (c, b)) (Proc.devRef .tc main_arg4) : (⟨S512x512, .f32⟩ : BufTy).Contents (Elt Ideal)) (ix2 k j)) (fun k => ((fun b => m (c, b)) (Proc.devRef .tc main_arg5) : (⟨S512, .f32⟩ : BufTy).Contents (Elt Ideal)) (ix1 k))
          (fun k j => ((fun b => m (c, b)) (Proc.devRef .tc main_arg6) : (⟨S512x16, .f32⟩ : BufTy).Contents (Elt Ideal)) (ix2 k j)) (fun k => ((fun b => m (c, b)) (Proc.devRef .tc main_arg7) : (⟨S16, .f32⟩ : BufTy).Contents (Elt Ideal)) (ix1 k)) d j :=
  logits_spec_of_valuation (fun b => m (c, b)) hpre d j

end

end Cert.KernelHost

end
-- ==== Proof.RefTail.lean ====
/-
  The reference's last operations, after the logits: the row-wise softmax (row maximum, subtraction, exponential,
  row sum, division), wrapped as one function of the logits array that is never opened; and the fact that the
  reference's result is that function of its logits stage.
-/
import proofs.«110679_j6047313952840_1_alg».proof.Proof.Gen.ReferenceIdeal.Read

noncomputable section

open Idealize.ShloMosaic Idealize.ShloMosaic.TcCoe Idealize.SL.Sem Idealize.ShloMosaic.StableHlo
open Cert.ReferenceIdeal Cert.ReferenceIdeal.Gen

namespace Cert.RefValue

/-- The softmax along the class axis, exactly as the reference spells it: the maximum of each row (folded from
    minus infinity, and once more against minus infinity), the exponential of the difference, and the quotient by
    the row's sum. -/
def softmaxTail (L : Cert.ReferenceIdeal.S10000x16.Idx → EReal) : Cert.ReferenceIdeal.S10000x16.Idx → EReal :=
  Host.divf (F := Ideal)
    (Host.exp (F := Ideal) (subf (F := Ideal) (φ := .f32) L
      (broadcastInDim S10000x16 ![0, 1] bcast_S10000x1_S10000x16_0_1
        (broadcastInDim S10000x1 ![0] bcast_S10000_S10000x1_0
          (maximumf (F := Ideal) (φ := .f32)
            (broadcastInDim S10000 ![] bcast_S_S10000 (constant (F := Ideal) S_ .f32 0xFF800000#32))
            (Host.reduce (FloatOps.maximumf (F := Ideal) (φ := .f32)) L (constant (F := Ideal) S_ .f32 0xFF800000#32)
              reducesTo_S10000x16_S10000_d1 h_S_))))))
    (broadcastInDim S10000x16 ![0, 1] bcast_S10000x1_S10000x16_0_1
      (broadcastInDim S10000x1 ![0] bcast_S10000_S10000x1_0
        (Host.reduceAdd (F := Ideal)
          (Host.exp (F := Ideal) (subf (F := Ideal) (φ := .f32) L
            (broadcastInDim S10000x16 ![0, 1] bcast_S10000x1_S10000x16_0_1
              (broadcastInDim S10000x1 ![0] bcast_S10000_S10000x1_0
                (maximumf (F := Ideal) (φ := .f32)
                  (broadcastInDim S10000 ![] bcast_S_S10000 (constant (F := Ideal) S_ .f32 0xFF800000#32))
                  (Host.reduce (FloatOps.maximumf (F := Ideal) (φ := .f32)) L (constant (F := Ideal) S_ .f32 0xFF800000#32)
                    reducesTo_S10000x16_S10000_d1 h_S_))))))
          (constant (F := Ideal) S_ .f32 0x00000000#32) reducesTo_S10000x16_S10000_d1 h_S_)))

set_option maxRecDepth 8192 in
/-- The reference's result is the softmax tail of its logits stage. -/
theorem res_out0_eq_tail (m : (ℓ : Loc nD τ sig) → Buf (Elt Ideal) ℓ) (c : Dev nD) :
    Cert.ReferenceIdeal.Value.res_out0 m c
      = softmaxTail (Cert.ReferenceIdeal.Read.val_main_v86 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))) := by
  refine (Cert.ReferenceIdeal.Read.val_main_v97_eq (F := Ideal) m c).trans ?_
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  unfold Cert.ReferenceIdeal.Read.val_main_v97 Cert.ReferenceIdeal.Read.val_main_v96 Cert.ReferenceIdeal.Read.val_main_v95
    Cert.ReferenceIdeal.Read.val_main_v94 Cert.ReferenceIdeal.Read.val_main_v93 Cert.ReferenceIdeal.Read.val_main_v92
    Cert.ReferenceIdeal.Read.val_main_v91 Cert.ReferenceIdeal.Read.val_main_v90 Cert.ReferenceIdeal.Read.val_main_v89
    Cert.ReferenceIdeal.Read.val_main_v88 Cert.ReferenceIdeal.Read.val_main_v87 Cert.ReferenceIdeal.Read.val_main_cst_16
    Cert.ReferenceIdeal.Read.val_main_cst_17 Cert.ReferenceIdeal.Read.val_main_cst_18 softmaxTail
  generalize Cert.ReferenceIdeal.Read.val_main_v86 (F := Ideal) x0 x1 x2 x3 x4 x5 x6 x7 = L
  rfl

end Cert.RefValue

end
-- ==== Proof.KernelTail.lean ====
/-
  The kernel program's last host operations: the first 10000 rows of the [10240, 16] read-out array are sliced off
  and the same row-wise softmax as the reference's is applied, operation for operation. So the final result is the
  reference's softmax tail of the sliced array, whatever the buffers hold before.
-/
import proofs.«110679_j6047313952840_1_alg».proof.Proof.RefTail
import proofs.«110679_j6047313952840_1_alg».proof.Proof.Gen.KernelIdeal.Launch

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelTail

/-- The slice of the first 10000 rows reads, at (r, q), the array at (r, q). -/
theorem sliceRows_apply (x : S10240x16.Idx → EReal) (h : S10240x16.Slices ![0, 0] S10000x16) (i : S10000x16.Idx) :
    extractStridedSlice S10000x16 ![0, 0] x h i
      = x (ix2 (⟨(i 0).val, by have := idx2_lt0 i; omega⟩ : Fin 10240) (⟨(i 1).val, (i 1).isLt⟩ : Fin 16)) :=
  extractStridedSlice_apply ![0, 0] x h i _ (fun a => match a with
    | ⟨0, _⟩ => by show (i 0).val = 0 + (i 0).val; omega
    | ⟨1, _⟩ => by show (i 1).val = 0 + (i 1).val; omega)

set_option maxRecDepth 8192 in
set_option maxHeartbeats 4000000 in
/-- The program's result after its last host operations is the softmax tail of the first 10000 rows of the
    read-out array. -/
theorem tail_eq (W : Valuation Cert.KernelIdeal.τ Cert.KernelIdeal.sig (Elt Ideal)) :
    (StableHlo.after (Cert.KernelIdeal.Gen.hostOps5 (F := Ideal)) W (Proc.devRef .tc Cert.KernelIdeal.main_v70)
        : Cert.KernelIdeal.S10000x16.Idx → EReal)
      = Cert.RefValue.softmaxTail (fun i =>
          (W (Proc.devRef .tc Cert.KernelIdeal.main_v58) : Cert.KernelIdeal.S10240x16.Idx → EReal)
            (ix2 (⟨(i 0).val, by have := idx2_lt0 i; omega⟩ : Fin 10240) (⟨(i 1).val, (i 1).isLt⟩ : Fin 16))) := by
  have hs : extractStridedSlice S10000x16 ![0, 0]
        (W (Proc.devRef .tc main_v58) : S10240x16.Idx → EReal) slices_S10240x16_S10000x16_0_0
      = fun i => (W (Proc.devRef .tc main_v58) : S10240x16.Idx → EReal)
          (ix2 (⟨(i 0).val, by have := idx2_lt0 i; omega⟩ : Fin 10240) (⟨(i 1).val, (i 1).isLt⟩ : Fin 16)) :=
    funext fun i => sliceRows_apply _ _ i
  refine Eq.trans ?_ (congrArg Cert.RefValue.softmaxTail hs)
  show StableHlo.after hostOps5 W (Proc.devRef .tc main_v70) = _
  after_results_simp
  generalize extractStridedSlice S10000x16 ![0, 0] (W (Proc.devRef .tc main_v58)) slices_S10240x16_S10000x16_0_0 = L
  unfold Cert.RefValue.softmaxTail
  rfl

end Cert.KernelTail

end
-- ==== Proof.RefConv.lean ====
/-
  One graph-convolution layer of the reference, read at an index, when every word of the edge array is a node
  number: the accumulating row scatter, at the destination ends, of the gathered source rows of a [10000, 512]
  array P each scaled by its slot's weight, is at (d, c) the sum over the slots e ending at d of weight e times
  P (source e, c). With the bias row added and the positive part taken this is Spec.relu of Spec.conv. Then the
  reference's two layers and its dense read-out, stage by stage: the logits stage is Spec.logits.
-/
import proofs.«110679_j6047313952840_1_alg».proof.Proof.RefGraph

noncomputable section

open scoped BigOperators
open Idealize.ShloMosaic Idealize.ShloMosaic.TcCoe Idealize.SL.Sem Idealize.ShloMosaic.StableHlo
open Idealize.ShloMosaic.ValueIdx Idealize.ShloMosaic.RowIndexing Idealize.ShloMosaic.GraphHost
open Cert.ReferenceIdeal Cert.ReferenceIdeal.Gen Cert.ReferenceIdeal.Read

namespace Cert.RefValue

/-- A [170000, 1] column spread over 512 columns reads, at (e, c), the column at (e, 0). -/
theorem bcastRow512_apply {α : Type} (y : S170000x1.Idx → α) (e : Fin 170000) (c : Fin 512) :
    broadcastInDim S170000x512 ![0, 1] bcast_S170000x1_S170000x512_0_1 y (ix2 e c) = y (ix2 e (0 : Fin 1)) :=
  broadcastInDim_apply _ bcast_S170000x1_S170000x512_0_1 y (ix2 e c) (ix2 e (0 : Fin 1)) (fun a => match a with
    | ⟨0, _⟩ => by show e.val = if (170000 : Nat) = 1 then 0 else e.val; rw [if_neg (by decide)]
    | ⟨1, _⟩ => by show 0 = if (1 : Nat) = 1 then 0 else c.val; rw [if_pos rfl])

/-- The row scatter's record is the accumulating row scatter at these extents. -/
theorem scatterRows_eq : scatter_S10000x512_S170000x1_S170000x512_1_0_0_1
    = rowScatter scatter_S10000x512_S170000x1_S170000x512_1_0_0_1_wf := rfl

/-- The row gather's record. -/
theorem gatherRows_eq : gather_S10000x512_S170000x1_S170000x512_1_0_n_n_0_1_1512
    = rowGather gather_S10000x512_S170000x1_S170000x512_1_0_n_n_0_1_1512_wf := rfl

/-- The aggregation of one layer: scatter, at the destination ends, of weight times gathered source row. -/
theorem aggregate_apply (src dst : Fin 170000 → Fin 10000)
    (P : S10000x512.Idx → EReal) (colS colD : IVec S170000x1 32)
    (hs : ∀ e : Fin 170000, colS (ix2 e (0 : Fin 1)) = BitVec.ofNat 32 (src e).val)
    (hd : ∀ e : Fin 170000, colD (ix2 e (0 : Fin 1)) = BitVec.ofNat 32 (dst e).val)
    (nrm : S170000.Idx → EReal) (wt : Fin 170000 → EReal) (hn : ∀ e : Fin 170000, nrm (ix1 e) = wt e)
    (z : S10000x512.Idx → EReal) (hz : ∀ i, z i = 0) (d : Fin 10000) (c : Fin 512) :
    Host.scatterAdd (F := Ideal) (φ := .f32) scatter_S10000x512_S170000x1_S170000x512_1_0_0_1 z colD
        (mulf (F := Ideal) (φ := .f32)
          (broadcastInDim S170000x512 ![0, 1] bcast_S170000x1_S170000x512_0_1
            (broadcastInDim S170000x1 ![0] bcast_S170000_S170000x1_0 nrm))
          (Host.gather gather_S10000x512_S170000x1_S170000x512_1_0_n_n_0_1_1512 P colS)) (ix2 d c)
      = ∑ e : Fin 170000, if dst e = d then wt e * P (ix2 (src e) c) else 0 := by
  rw [scatterRows_eq]
  refine (rowScatterAdd_apply (by norm_num) scatter_S10000x512_S170000x1_S170000x512_1_0_0_1_wf dst z colD hd _ d c).trans ?_
  rw [hz, zero_add]
  refine Finset.sum_congr rfl fun e _ => ?_
  by_cases h : dst e = d
  · rw [if_pos h, if_pos h, mulf_apply, bcastRow512_apply, bcastCol_apply, hn, gatherRows_eq]
    refine congrArg (wt e * ·) ?_
    refine (rowGather_apply (by decide : 0 < 10000) gather_S10000x512_S170000x1_S170000x512_1_0_n_n_0_1_1512_wf P colS e c).trans ?_
    rw [hs, clampRow_ofNat _ (by norm_num)]
  · rw [if_neg h, if_neg h]

/-- The bias row of a [10000, 512] layer reads, at (d, c), the bias at c. -/
theorem biasRow512_apply (b : S512.Idx → EReal) (d : Fin 10000) (c : Fin 512) :
    broadcastInDim S10000x512 ![0, 1] bcast_S1x512_S10000x512_0_1 (broadcastInDim S1x512 ![1] bcast_S512_S1x512_1 b) (ix2 d c)
      = b (ix1 c) := by
  refine (broadcastInDim_apply _ bcast_S1x512_S10000x512_0_1 _ (ix2 d c) (ix2 (0 : Fin 1) c) (fun a => match a with
    | ⟨0, _⟩ => by show 0 = if (1 : Nat) = 1 then 0 else d.val; rw [if_pos rfl]
    | ⟨1, _⟩ => by show c.val = if (512 : Nat) = 1 then 0 else c.val; rw [if_neg (by decide)])).trans ?_
  exact broadcastInDim_apply _ bcast_S512_S1x512_1 b (ix2 (0 : Fin 1) c) (ix1 c) (fun a => match a with
    | ⟨0, _⟩ => by show c.val = if (512 : Nat) = 1 then 0 else c.val; rw [if_neg (by decide)])

/-- The zero array of a layer. -/
theorem zeros512_apply (i : S10000x512.Idx) :
    broadcastInDim S10000x512 ![] bcast_S_S10000x512 (constant (F := Ideal) S_ .f32 0x00000000#32) i = 0 := by
  refine (broadcastInDim_apply _ bcast_S_S10000x512 _ i (fun a => a.elim0) (fun a => a.elim0)).trans ?_
  exact Cert.Bridge.ofBits_zero

variable {x1 : EdgeWords}

/-! ## The first layer -/

/-- The first layer before the positive part. -/
theorem v43_conv (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (d : Fin 10000) (c : Fin 512) :
    val_main_v43 (F := Ideal) x0 x1 x2 x3 (ix2 d c)
      = Cert.Spec.conv (srcOf x1) (dstOf x1) (fun d k => x0 (ix2 d k)) (fun k j => x2 (ix2 k j)) (fun j => x3 (ix1 j)) d c := by
  rw [val_main_v43_apply]
  unfold val_main_v40 val_main_v37 val_main_v36 val_main_v28 val_main_v35 val_main_v42 val_main_v41 val_main_v38 val_main_cst_6
  unfold Cert.Spec.conv
  rw [Ideal.addf_def, biasRow512_apply,
    aggregate_apply (srcOf x1) (dstOf x1) (val_main_v7 (F := Ideal) x0 x2) (val_main_v34 (F := Ideal) x1)
      (val_main_v39 (F := Ideal) x1) (fun e => v34_word hr e) (fun e => v39_word hr e)
      (val_main_v27 (F := Ideal) x1) (Cert.Spec.norm (srcOf x1) (dstOf x1)) (fun e => v27_norm hr e) _ zeros512_apply d c]
  refine congrArg (· + x3 (ix1 c)) (Finset.sum_congr rfl fun e _ => ?_)
  by_cases h : dstOf x1 e = d
  · rw [if_pos h, if_pos h, val_main_v7_apply]
    refine congrArg (Cert.Spec.norm (srcOf x1) (dstOf x1) e * ·) (Finset.sum_congr rfl fun k _ => ?_)
    refine congr (congrArg HMul.hMul (congrArg x0 ?_)) (congrArg x2 ?_)
    · funext a; match a with | ⟨0, _⟩ => rfl | ⟨1, _⟩ => rfl
    · funext a; match a with | ⟨0, _⟩ => rfl | ⟨1, _⟩ => rfl
  · rw [if_neg h, if_neg h]

/-- The first layer. -/
theorem v44_layer (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (d : Fin 10000) (c : Fin 512) :
    val_main_v44 (F := Ideal) x0 x1 x2 x3 (ix2 d c)
      = Cert.Spec.relu (Cert.Spec.conv (srcOf x1) (dstOf x1) (fun d k => x0 (ix2 d k)) (fun k j => x2 (ix2 k j))
          (fun j => x3 (ix1 j)) d c) := by
  rw [val_main_v44_apply, v43_conv hr]
  unfold val_main_call0_v0 val_main_call0_cst Cert.Spec.relu
  rw [Ideal.maximumf_def, zeros512_apply]

/-! ## The second layer -/

/-- The second layer before the positive part, over the first layer's stage. -/
theorem v81_conv (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (d : Fin 10000) (c : Fin 512) :
    val_main_v81 (F := Ideal) x0 x1 x2 x3 x4 x5 (ix2 d c)
      = Cert.Spec.conv (srcOf x1) (dstOf x1) (fun d k => val_main_v44 (F := Ideal) x0 x1 x2 x3 (ix2 d k))
          (fun k j => x4 (ix2 k j)) (fun j => x5 (ix1 j)) d c := by
  rw [val_main_v81_apply]
  unfold val_main_v78 val_main_v75 val_main_v74 val_main_v66 val_main_v73 val_main_v80 val_main_v79 val_main_v76 val_main_cst_15
  unfold Cert.Spec.conv
  rw [Ideal.addf_def, biasRow512_apply,
    aggregate_apply (srcOf x1) (dstOf x1) (val_main_v45 (F := Ideal) x0 x1 x2 x3 x4) (val_main_v72 (F := Ideal) x1)
      (val_main_v77 (F := Ideal) x1) (fun e => v72_word hr e) (fun e => v77_word hr e)
      (val_main_v65 (F := Ideal) x1) (Cert.Spec.norm (srcOf x1) (dstOf x1)) (fun e => v65_norm hr e) _ zeros512_apply d c]
  refine congrArg (· + x5 (ix1 c)) (Finset.sum_congr rfl fun e _ => ?_)
  by_cases h : dstOf x1 e = d
  · rw [if_pos h, if_pos h, val_main_v45_apply]
    refine congrArg (Cert.Spec.norm (srcOf x1) (dstOf x1) e * ·) (Finset.sum_congr rfl fun k _ => ?_)
    refine congr (congrArg HMul.hMul (congrArg (val_main_v44 (F := Ideal) x0 x1 x2 x3) ?_)) (congrArg x4 ?_)
    · funext a; match a with | ⟨0, _⟩ => rfl | ⟨1, _⟩ => rfl
    · funext a; match a with | ⟨0, _⟩ => rfl | ⟨1, _⟩ => rfl
  · rw [if_neg h, if_neg h]

/-- The second layer. -/
theorem v82_layer (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (d : Fin 10000) (c : Fin 512) :
    val_main_v82 (F := Ideal) x0 x1 x2 x3 x4 x5 (ix2 d c)
      = Cert.Spec.relu (Cert.Spec.conv (srcOf x1) (dstOf x1)
          (fun d k => Cert.Spec.relu (Cert.Spec.conv (srcOf x1) (dstOf x1) (fun d k => x0 (ix2 d k))
            (fun k j => x2 (ix2 k j)) (fun j => x3 (ix1 j)) d k))
          (fun k j => x4 (ix2 k j)) (fun j => x5 (ix1 j)) d c) := by
  rw [val_main_v82_apply, v81_conv hr]
  unfold val_main_call1_v0 val_main_call1_cst
  rw [Ideal.maximumf_def, zeros512_apply]
  have hH : (fun (d : Fin 10000) (k : Fin 512) => val_main_v44 (F := Ideal) x0 x1 x2 x3 (ix2 d k))
      = fun d k => Cert.Spec.relu (Cert.Spec.conv (srcOf x1) (dstOf x1) (fun d k => x0 (ix2 d k))
          (fun k j => x2 (ix2 k j)) (fun j => x3 (ix1 j)) d k) :=
    funext fun d => funext fun k => v44_layer hr x0 x2 x3 d k
  rw [hH]
  rfl

/-! ## The read-out -/

/-- The logits stage is the specification's logits. -/
theorem v86_logits (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x16, .f32⟩ : BufTy).Contents (Elt Ideal)) (x7 : (⟨S16, .f32⟩ : BufTy).Contents (Elt Ideal))
    (d : Fin 10000) (j : Fin 16) :
    val_main_v86 (F := Ideal) x0 x1 x2 x3 x4 x5 x6 x7 (ix2 d j)
      = Cert.Spec.logits (srcOf x1) (dstOf x1) (fun d k => x0 (ix2 d k)) (fun k j => x2 (ix2 k j)) (fun j => x3 (ix1 j))
          (fun k j => x4 (ix2 k j)) (fun j => x5 (ix1 j)) (fun k j => x6 (ix2 k j)) (fun j => x7 (ix1 j)) d j := by
  rw [val_main_v86_apply, val_main_v83_apply, val_main_v85_apply, val_main_v84_apply, Ideal.addf_def]
  unfold Cert.Spec.logits
  refine congr (congrArg HAdd.hAdd (Finset.sum_congr rfl fun k _ => ?_)) (congrArg x7 ?_)
  · have hl : lidx_main_v83 (ix2 d j) k = ix2 d k := by
      funext a; match a with | ⟨0, _⟩ => rfl | ⟨1, _⟩ => rfl
    have hrr : ridx_main_v83 (ix2 d j) k = ix2 k j := by
      funext a; match a with | ⟨0, _⟩ => rfl | ⟨1, _⟩ => rfl
    rw [hl, hrr, v82_layer hr]
  · funext a; match a with | ⟨0, _⟩ => rfl

end Cert.RefValue

end
-- ==== Proof.RefValue.lean ====
/-
  The reference's value: under the precondition its result is the softmax tail of the specification's logits of its
  eight argument arrays (the two end maps read off the edge array's two rows).
-/
import proofs.«110679_j6047313952840_1_alg».proof.Proof.RefTail
import proofs.«110679_j6047313952840_1_alg».proof.Proof.RefConv
import proofs.«110679_j6047313952840_1_alg».proof.Proof.PreFacts

noncomputable section

open scoped BigOperators
open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Read

namespace Cert.RefValue

/-- The logits stage as one function of the argument arrays, when every edge word is a node number. -/
theorem logits_stage {x1 : EdgeWords} (hr : InRange x1) (x0 : (⟨S10000x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x16, .f32⟩ : BufTy).Contents (Elt Ideal)) (x7 : (⟨S16, .f32⟩ : BufTy).Contents (Elt Ideal)) :
    val_main_v86 (F := Ideal) x0 x1 x2 x3 x4 x5 x6 x7
      = fun i : S10000x16.Idx => Cert.Spec.logits (srcOf x1) (dstOf x1) (fun d k => x0 (ix2 d k)) (fun k j => x2 (ix2 k j))
          (fun j => x3 (ix1 j)) (fun k j => x4 (ix2 k j)) (fun j => x5 (ix1 j)) (fun k j => x6 (ix2 k j))
          (fun j => x7 (ix1 j)) (i 0) (i 1) := by
  funext i
  obtain ⟨p, q, rfl⟩ : ∃ (p : Fin 10000) (q : Fin 16), i = ix2 p q := ⟨i 0, i 1, eq_ix2 i⟩
  exact v86_logits hr x0 x2 x3 x4 x5 x6 x7 p q

/-- The reference's result, when every edge word is a node number. -/
theorem result_eq_of_range (m : (ℓ : Loc nD τ sig) → Buf (Elt Ideal) ℓ) (c : Dev nD)
    (hr : InRange (m ((c.tc : Thread nD τ).loc main_arg1))) :
    Cert.ReferenceIdeal.Value.res_out0 m c
      = softmaxTail (fun i : S10000x16.Idx => Cert.Spec.logits
          (Cert.Spec.ends (fun e => (m ((c.tc : Thread nD τ).loc main_arg1)) (ix2 (0 : Fin 2) e)))
          (Cert.Spec.ends (fun e => (m ((c.tc : Thread nD τ).loc main_arg1)) (ix2 (1 : Fin 2) e)))
          (fun d k => (m ((c.tc : Thread nD τ).loc main_arg0)) (ix2 d k)) (fun k j => (m ((c.tc : Thread nD τ).loc main_arg2)) (ix2 k j)) (fun j => (m ((c.tc : Thread nD τ).loc main_arg3)) (ix1 j))
          (fun k j => (m ((c.tc : Thread nD τ).loc main_arg4)) (ix2 k j)) (fun j => (m ((c.tc : Thread nD τ).loc main_arg5)) (ix1 j))
          (fun k j => (m ((c.tc : Thread nD τ).loc main_arg6)) (ix2 k j)) (fun j => (m ((c.tc : Thread nD τ).loc main_arg7)) (ix1 j)) (i 0) (i 1)) :=
  (res_out0_eq_tail m c).trans (congrArg softmaxTail
    (logits_stage hr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))

/-- The reference's result under the precondition. -/
theorem result_eq [Cert.Pre_finite_inputs.Facts] (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) = fun _ => 1#1) :
    Cert.ReferenceIdeal.Value.res_out0 m c
      = softmaxTail (fun i : S10000x16.Idx => Cert.Spec.logits
          (Cert.Spec.ends (fun e => (m ((c.tc : Thread nD τ).loc main_arg1)) (ix2 (0 : Fin 2) e)))
          (Cert.Spec.ends (fun e => (m ((c.tc : Thread nD τ).loc main_arg1)) (ix2 (1 : Fin 2) e)))
          (fun d k => (m ((c.tc : Thread nD τ).loc main_arg0)) (ix2 d k)) (fun k j => (m ((c.tc : Thread nD τ).loc main_arg2)) (ix2 k j)) (fun j => (m ((c.tc : Thread nD τ).loc main_arg3)) (ix1 j))
          (fun k j => (m ((c.tc : Thread nD τ).loc main_arg4)) (ix2 k j)) (fun j => (m ((c.tc : Thread nD τ).loc main_arg5)) (ix1 j))
          (fun k j => (m ((c.tc : Thread nD τ).loc main_arg6)) (ix2 k j)) (fun j => (m ((c.tc : Thread nD τ).loc main_arg7)) (ix1 j)) (i 0) (i 1)) :=
  result_eq_of_range m c (fun r e =>
    (Cert.PreFacts.decode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) hpre).2.1 (ix2 r e))

end Cert.RefValue

end
-- ==== Proof.AlgebraicOf.lean ====
/-
  The value conjunct assembled from its parts. Given that the read-out array at the last region's exit is the
  composed dense layers of what the first host stretch computed (with a zero bias row in the two plain inner
  products), and that those composed layers at the first 10000 rows are the specification's logits of the launch
  arrays, both programs end with the softmax tail of the specification's logits: the kernel program by its run,
  its last host operations and the two given facts; the reference by its run and its value under the precondition,
  which holds of its memory because the two memories agree on the arguments.
-/
import proofs.«110679_j6047313952840_1_alg».proof.Defs
import proofs.«110679_j6047313952840_1_alg».proof.Proof.IdealFrame
import proofs.«110679_j6047313952840_1_alg».proof.Proof.KernelTail
import proofs.«110679_j6047313952840_1_alg».proof.Proof.RefValue
import proofs.«110679_j6047313952840_1_alg».proof.Proof.Layer
import proofs.«110679_j6047313952840_1_alg».proof.Proof.Gen.ReferenceIdeal.Run
import proofs.«110679_j6047313952840_1_alg».proof.Proof.Gen.Pre_finite_inputs

set_option maxRecDepth 16384

noncomputable section

open Idealize.ShloMosaic Idealize.ShloMosaic.TcCoe Idealize.SL.Sem Idealize.ShloMosaic.StableHlo
open Idealize.ShloMosaic.ValueIdx

namespace Cert.Proof

/-- The two idealized programs end with equal results, given the composition of the five regions and the
    host-side identification of the composed layers with the specification. -/
theorem algebraic_of
    (hcomp : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      (∀ q : Fin 512, (Cert.KernelIdeal.Run.W1 m ρ c (Proc.devRef .tc Cert.KernelIdeal.main_v50) : Cert.KernelIdeal.S1x512.Idx → EReal) (ix2 (0 : Fin 1) q) = (0 : EReal)) →
      ∀ (p : Fin 10240) (q : Fin 16),
        (Cert.KernelIdeal.Run.W6 m ρ c (Proc.devRef .tc Cert.KernelIdeal.main_v58) : Cert.KernelIdeal.S10240x16.Idx → EReal) (ix2 p q)
          = Cert.Layer.kernelLogits
              (fun p k => (Cert.KernelIdeal.Run.W1 m ρ c (Proc.devRef .tc Cert.KernelIdeal.main_v42) : Cert.KernelIdeal.S10240x10240.Idx → EReal) (ix2 p k))
              (fun p k => (Cert.KernelIdeal.Run.W1 m ρ c (Proc.devRef .tc Cert.KernelIdeal.main_v46) : Cert.KernelIdeal.S10240x512.Idx → EReal) (ix2 p k))
              (fun k j => (Cert.KernelIdeal.Run.W1 m ρ c (Proc.devRef .tc Cert.KernelIdeal.main_v47) : Cert.KernelIdeal.S512x512.Idx → EReal) (ix2 k j))
              (fun j => (Cert.KernelIdeal.Run.W1 m ρ c (Proc.devRef .tc Cert.KernelIdeal.main_v51) : Cert.KernelIdeal.S1x512.Idx → EReal) (ix2 (0 : Fin 1) j))
              (fun k j => (Cert.KernelIdeal.Run.W1 m ρ c (Proc.devRef .tc Cert.KernelIdeal.main_v48) : Cert.KernelIdeal.S512x512.Idx → EReal) (ix2 k j))
              (fun j => (Cert.KernelIdeal.Run.W1 m ρ c (Proc.devRef .tc Cert.KernelIdeal.main_v52) : Cert.KernelIdeal.S1x512.Idx → EReal) (ix2 (0 : Fin 1) j))
              (fun k j => (Cert.KernelIdeal.Run.W1 m ρ c (Proc.devRef .tc Cert.KernelIdeal.main_v49) : Cert.KernelIdeal.S512x16.Idx → EReal) (ix2 k j))
              (fun j => (Cert.KernelIdeal.Run.W1 m ρ c (Proc.devRef .tc Cert.KernelIdeal.main_v53) : Cert.KernelIdeal.S1x16.Idx → EReal) (ix2 (0 : Fin 1) j)) p q)
    (hzero : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (q : Fin 512), (Cert.KernelIdeal.Run.W1 m ρ c (Proc.devRef .tc Cert.KernelIdeal.main_v50) : Cert.KernelIdeal.S1x512.Idx → EReal) (ix2 (0 : Fin 1) q) = (0 : EReal))
    (hspec : ∀ (m : (ℓ : Loc Cert.KernelIdeal.nD Cert.KernelIdeal.τ Cert.KernelIdeal.sig) → Buf (Elt Ideal) ℓ) (c : Dev Cert.KernelIdeal.nD)
      (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
      (d : Fin 10000) (j : Fin 16),
      Cert.Layer.kernelLogits
          (fun p q => (StableHlo.after (Cert.KernelIdeal.Gen.hostOps0 (F := Ideal)) (fun b => m (c, b)) (Proc.devRef .tc Cert.KernelIdeal.main_v42) : (⟨Cert.KernelIdeal.S10240x10240, .bf16⟩ : BufTy).Contents (Elt Ideal)) (ix2 p q))
          (fun p q => (StableHlo.after (Cert.KernelIdeal.Gen.hostOps0 (F := Ideal)) (fun b => m (c, b)) (Proc.devRef .tc Cert.KernelIdeal.main_v46) : (⟨Cert.KernelIdeal.S10240x512, .bf16⟩ : BufTy).Contents (Elt Ideal)) (ix2 p q))
          (fun p q => (StableHlo.after (Cert.KernelIdeal.Gen.hostOps0 (F := Ideal)) (fun b => m (c, b)) (Proc.devRef .tc Cert.KernelIdeal.main_v47) : (⟨Cert.KernelIdeal.S512x512, .bf16⟩ : BufTy).Contents (Elt Ideal)) (ix2 p q))
          (fun q => (StableHlo.after (Cert.KernelIdeal.Gen.hostOps0 (F := Ideal)) (fun b => m (c, b)) (Proc.devRef .tc Cert.KernelIdeal.main_v51) : (⟨Cert.KernelIdeal.S1x512, .f32⟩ : BufTy).Contents (Elt Ideal)) (ix2 (0 : Fin 1) q))
          (fun p q => (StableHlo.after (Cert.KernelIdeal.Gen.hostOps0 (F := Ideal)) (fun b => m (c, b)) (Proc.devRef .tc Cert.KernelIdeal.main_v48) : (⟨Cert.KernelIdeal.S512x512, .bf16⟩ : BufTy).Contents (Elt Ideal)) (ix2 p q))
          (fun q => (StableHlo.after (Cert.KernelIdeal.Gen.hostOps0 (F := Ideal)) (fun b => m (c, b)) (Proc.devRef .tc Cert.KernelIdeal.main_v52) : (⟨Cert.KernelIdeal.S1x512, .f32⟩ : BufTy).Contents (Elt Ideal)) (ix2 (0 : Fin 1) q))
          (fun p q => (StableHlo.after (Cert.KernelIdeal.Gen.hostOps0 (F := Ideal)) (fun b => m (c, b)) (Proc.devRef .tc Cert.KernelIdeal.main_v49) : (⟨Cert.KernelIdeal.S512x16, .bf16⟩ : BufTy).Contents (Elt Ideal)) (ix2 p q))
          (fun q => (StableHlo.after (Cert.KernelIdeal.Gen.hostOps0 (F := Ideal)) (fun b => m (c, b)) (Proc.devRef .tc Cert.KernelIdeal.main_v53) : (⟨Cert.KernelIdeal.S1x16, .f32⟩ : BufTy).Contents (Elt Ideal)) (ix2 (0 : Fin 1) q))
          (Fin.castLE (by decide) d) j
        = Cert.Spec.logits (Cert.RefValue.srcOf ((fun b => m (c, b)) (Proc.devRef .tc Cert.KernelIdeal.main_arg1) : (⟨Cert.KernelIdeal.S2x160000, .i32⟩ : BufTy).Contents (Elt Ideal)))
            (Cert.RefValue.dstOf ((fun b => m (c, b)) (Proc.devRef .tc Cert.KernelIdeal.main_arg1) : (⟨Cert.KernelIdeal.S2x160000, .i32⟩ : BufTy).Contents (Elt Ideal)))
            (fun d k => ((fun b => m (c, b)) (Proc.devRef .tc Cert.KernelIdeal.main_arg0) : (⟨Cert.KernelIdeal.S10000x512, .f32⟩ : BufTy).Contents (Elt Ideal)) (ix2 d k))
            (fun k j => ((fun b => m (c, b)) (Proc.devRef .tc Cert.KernelIdeal.main_arg2) : (⟨Cert.KernelIdeal.S512x512, .f32⟩ : BufTy).Contents (Elt Ideal)) (ix2 k j))
            (fun k => ((fun b => m (c, b)) (Proc.devRef .tc Cert.KernelIdeal.main_arg3) : (⟨Cert.KernelIdeal.S512, .f32⟩ : BufTy).Contents (Elt Ideal)) (ix1 k))
            (fun k j => ((fun b => m (c, b)) (Proc.devRef .tc Cert.KernelIdeal.main_arg4) : (⟨Cert.KernelIdeal.S512x512, .f32⟩ : BufTy).Contents (Elt Ideal)) (ix2 k j))
            (fun k => ((fun b => m (c, b)) (Proc.devRef .tc Cert.KernelIdeal.main_arg5) : (⟨Cert.KernelIdeal.S512, .f32⟩ : BufTy).Contents (Elt Ideal)) (ix1 k))
            (fun k j => ((fun b => m (c, b)) (Proc.devRef .tc Cert.KernelIdeal.main_arg6) : (⟨Cert.KernelIdeal.S512x16, .f32⟩ : BufTy).Contents (Elt Ideal)) (ix2 k j))
            (fun k => ((fun b => m (c, b)) (Proc.devRef .tc Cert.KernelIdeal.main_arg7) : (⟨Cert.KernelIdeal.S16, .f32⟩ : BufTy).Contents (Elt Ideal)) (ix1 k)) d j) :
    Cert.algebraic_KernelIdeal_ReferenceIdeal := by
  intro m ρ m' ρ' hpre hagree
  -- the kernel program's result at the last boundary is the closed form
  have hk : ∀ c : Dev Cert.KernelIdeal.nD,
      (Cert.KernelIdeal.Run.W7 m ρ c (Proc.devRef .tc Cert.KernelIdeal.main_v70) : Cert.KernelIdeal.S10000x16.Idx → EReal)
        = Cert.RefValue.softmaxTail (fun i : Cert.ReferenceIdeal.S10000x16.Idx => Cert.Spec.logits
      (Cert.Spec.ends (fun e => (m ((c.tc : Thread Cert.KernelIdeal.nD Cert.KernelIdeal.τ).loc Cert.KernelIdeal.main_arg1)) (ix2 (0 : Fin 2) e)))
      (Cert.Spec.ends (fun e => (m ((c.tc : Thread Cert.KernelIdeal.nD Cert.KernelIdeal.τ).loc Cert.KernelIdeal.main_arg1)) (ix2 (1 : Fin 2) e)))
      (fun d k => (m ((c.tc : Thread Cert.KernelIdeal.nD Cert.KernelIdeal.τ).loc Cert.KernelIdeal.main_arg0)) (ix2 d k)) (fun k j => (m ((c.tc : Thread Cert.KernelIdeal.nD Cert.KernelIdeal.τ).loc Cert.KernelIdeal.main_arg2)) (ix2 k j)) (fun j => (m ((c.tc : Thread Cert.KernelIdeal.nD Cert.KernelIdeal.τ).loc Cert.KernelIdeal.main_arg3)) (ix1 j))
      (fun k j => (m ((c.tc : Thread Cert.KernelIdeal.nD Cert.KernelIdeal.τ).loc Cert.KernelIdeal.main_arg4)) (ix2 k j)) (fun j => (m ((c.tc : Thread Cert.KernelIdeal.nD Cert.KernelIdeal.τ).loc Cert.KernelIdeal.main_arg5)) (ix1 j))
      (fun k j => (m ((c.tc : Thread Cert.KernelIdeal.nD Cert.KernelIdeal.τ).loc Cert.KernelIdeal.main_arg6)) (ix2 k j)) (fun j => (m ((c.tc : Thread Cert.KernelIdeal.nD Cert.KernelIdeal.τ).loc Cert.KernelIdeal.main_arg7)) (ix1 j)) (i 0) (i 1)) := fun c => by
    refine (Cert.KernelTail.tail_eq (Cert.KernelIdeal.Run.W6 m ρ c)).trans (congrArg Cert.RefValue.softmaxTail (funext fun i => ?_))
    refine (hcomp m ρ c (hzero m ρ c) _ _).trans ?_
    exact hspec m c (hpre c) (i 0) (i 1)
  -- the reference's result from the agreeing memory is the same closed form
  have hrf : ∀ c : Dev Cert.KernelIdeal.nD, Cert.ReferenceIdeal.Value.res_out0 m' c
        = Cert.RefValue.softmaxTail (fun i : Cert.ReferenceIdeal.S10000x16.Idx => Cert.Spec.logits
      (Cert.Spec.ends (fun e => (m ((c.tc : Thread Cert.KernelIdeal.nD Cert.KernelIdeal.τ).loc Cert.KernelIdeal.main_arg1)) (ix2 (0 : Fin 2) e)))
      (Cert.Spec.ends (fun e => (m ((c.tc : Thread Cert.KernelIdeal.nD Cert.KernelIdeal.τ).loc Cert.KernelIdeal.main_arg1)) (ix2 (1 : Fin 2) e)))
      (fun d k => (m ((c.tc : Thread Cert.KernelIdeal.nD Cert.KernelIdeal.τ).loc Cert.KernelIdeal.main_arg0)) (ix2 d k)) (fun k j => (m ((c.tc : Thread Cert.KernelIdeal.nD Cert.KernelIdeal.τ).loc Cert.KernelIdeal.main_arg2)) (ix2 k j)) (fun j => (m ((c.tc : Thread Cert.KernelIdeal.nD Cert.KernelIdeal.τ).loc Cert.KernelIdeal.main_arg3)) (ix1 j))
      (fun k j => (m ((c.tc : Thread Cert.KernelIdeal.nD Cert.KernelIdeal.τ).loc Cert.KernelIdeal.main_arg4)) (ix2 k j)) (fun j => (m ((c.tc : Thread Cert.KernelIdeal.nD Cert.KernelIdeal.τ).loc Cert.KernelIdeal.main_arg5)) (ix1 j))
      (fun k j => (m ((c.tc : Thread Cert.KernelIdeal.nD Cert.KernelIdeal.τ).loc Cert.KernelIdeal.main_arg6)) (ix2 k j)) (fun j => (m ((c.tc : Thread Cert.KernelIdeal.nD Cert.KernelIdeal.τ).loc Cert.KernelIdeal.main_arg7)) (ix1 j)) (i 0) (i 1)) := fun c => by
    obtain ⟨e0, e1, e2, e3, e4, e5, e6, e7⟩ := hagree c
    have hr : Cert.RefValue.InRange (m ((c.tc : Thread Cert.KernelIdeal.nD Cert.KernelIdeal.τ).loc Cert.KernelIdeal.main_arg1)) := fun r e =>
      (Cert.PreFacts.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)).2.1 (ix2 r e)
    refine (Cert.RefValue.res_out0_eq_tail m' c).trans ?_
    rw [e0, e1, e2, e3, e4, e5, e6, e7]
    exact congrArg Cert.RefValue.softmaxTail (Cert.RefValue.logits_stage hr _ _ _ _ _ _ _)
  refine ⟨fun c => Cert.RefValue.softmaxTail (fun i : Cert.ReferenceIdeal.S10000x16.Idx => Cert.Spec.logits
      (Cert.Spec.ends (fun e => (m ((c.tc : Thread Cert.KernelIdeal.nD Cert.KernelIdeal.τ).loc Cert.KernelIdeal.main_arg1)) (ix2 (0 : Fin 2) e)))
      (Cert.Spec.ends (fun e => (m ((c.tc : Thread Cert.KernelIdeal.nD Cert.KernelIdeal.τ).loc Cert.KernelIdeal.main_arg1)) (ix2 (1 : Fin 2) e)))
      (fun d k => (m ((c.tc : Thread Cert.KernelIdeal.nD Cert.KernelIdeal.τ).loc Cert.KernelIdeal.main_arg0)) (ix2 d k)) (fun k j => (m ((c.tc : Thread Cert.KernelIdeal.nD Cert.KernelIdeal.τ).loc Cert.KernelIdeal.main_arg2)) (ix2 k j)) (fun j => (m ((c.tc : Thread Cert.KernelIdeal.nD Cert.KernelIdeal.τ).loc Cert.KernelIdeal.main_arg3)) (ix1 j))
      (fun k j => (m ((c.tc : Thread Cert.KernelIdeal.nD Cert.KernelIdeal.τ).loc Cert.KernelIdeal.main_arg4)) (ix2 k j)) (fun j => (m ((c.tc : Thread Cert.KernelIdeal.nD Cert.KernelIdeal.τ).loc Cert.KernelIdeal.main_arg5)) (ix1 j))
      (fun k j => (m ((c.tc : Thread Cert.KernelIdeal.nD Cert.KernelIdeal.τ).loc Cert.KernelIdeal.main_arg6)) (ix2 k j)) (fun j => (m ((c.tc : Thread Cert.KernelIdeal.nD Cert.KernelIdeal.τ).loc Cert.KernelIdeal.main_arg7)) (ix1 j)) (i 0) (i 1)), ?_, ?_⟩
  · exact (θ_run Cert.KernelIdeal.defs _ _).mono (fun r h c => ⟨
      (h c _ (Cert.KernelIdeal.Run.mem_uc Cert.KernelIdeal.main_v70 (by decide))).trans (hk c),
      (h c _ (Cert.KernelIdeal.Run.mem_uc Cert.KernelIdeal.main_arg0 (by decide))).trans (Cert.KernelIdeal.Run.W7_arg m ρ c Cert.KernelIdeal.main_arg0 (by decide)),
      (h c _ (Cert.KernelIdeal.Run.mem_uc Cert.KernelIdeal.main_arg1 (by decide))).trans (Cert.KernelIdeal.Run.W7_arg m ρ c Cert.KernelIdeal.main_arg1 (by decide)),
      (h c _ (Cert.KernelIdeal.Run.mem_uc Cert.KernelIdeal.main_arg2 (by decide))).trans (Cert.KernelIdeal.Run.W7_arg m ρ c Cert.KernelIdeal.main_arg2 (by decide)),
      (h c _ (Cert.KernelIdeal.Run.mem_uc Cert.KernelIdeal.main_arg3 (by decide))).trans (Cert.KernelIdeal.Run.W7_arg m ρ c Cert.KernelIdeal.main_arg3 (by decide)),
      (h c _ (Cert.KernelIdeal.Run.mem_uc Cert.KernelIdeal.main_arg4 (by decide))).trans (Cert.KernelIdeal.Run.W7_arg m ρ c Cert.KernelIdeal.main_arg4 (by decide)),
      (h c _ (Cert.KernelIdeal.Run.mem_uc Cert.KernelIdeal.main_arg5 (by decide))).trans (Cert.KernelIdeal.Run.W7_arg m ρ c Cert.KernelIdeal.main_arg5 (by decide)),
      (h c _ (Cert.KernelIdeal.Run.mem_uc Cert.KernelIdeal.main_arg6 (by decide))).trans (Cert.KernelIdeal.Run.W7_arg m ρ c Cert.KernelIdeal.main_arg6 (by decide)),
      (h c _ (Cert.KernelIdeal.Run.mem_uc Cert.KernelIdeal.main_arg7 (by decide))).trans (Cert.KernelIdeal.Run.W7_arg m ρ c Cert.KernelIdeal.main_arg7 (by decide))⟩)
      (Cert.KernelIdeal.Run.run (F := Ideal) m ρ)
  · exact (θ_run Cert.ReferenceIdeal.defs _ _).mono (fun _ h c => ⟨(h c).1.trans (hrf c), (h c).2⟩)
      (Cert.ReferenceIdeal.Value.run (F := Ideal) m' ρ')

end Cert.Proof

end
-- ==== Proof.lean ====
/-
  The certificate of a two-layer graph convolution with a softmax head. The kernel program builds the symmetric
  normalised adjacency (with self loops) as a dense 10240 x 10240 matrix and runs five tiled matrix products — features
  times weights, adjacency times that, plus bias, clipped at zero; the same again; then the output weights and bias —
  each a kernel region on a grid of row tiles (and, for the adjacency products, column blocks accumulated in a scratch
  buffer); the reference gathers each edge's source row, scales it by the edge's normalisation and sums the edges
  into their destination rows. Under the precondition (every float input finite, every edge endpoint a node number in
  [0, 10000)) the two agree over the extended reals: row d of the dense adjacency times a real matrix is the sum over
  the edges into d of the edge's weight times the source's row (distributivity, which needs real entries), and the
  padded rows and columns contribute nothing.
  The three frames: each kernel program's run through its five regions (every weakly fair execution terminates,
  nothing faulting, every unscoped buffer ending at contents named boundary by boundary), read at the argument arrays,
  which no host operation writes and no region has among its windows' arrays; the reference's run is host operations
  only. The idealized kernel program is the kernel program's own text read over the extended reals: the ideal pass
  rewrote nothing, so that conjunct is trivial.
-/
import proofs.«110679_j6047313952840_1_alg».proof.Defs
import proofs.«110679_j6047313952840_1_alg».proof.Proof.Gen.Kernel
import proofs.«110679_j6047313952840_1_alg».proof.Proof.Gen.KernelIdeal
import proofs.«110679_j6047313952840_1_alg».proof.Proof.Gen.ReferenceIdeal
import proofs.«110679_j6047313952840_1_alg».proof.Proof.Gen.Pre_finite_inputs
import proofs.«110679_j6047313952840_1_alg».proof.Proof.RefFrame
import proofs.«110679_j6047313952840_1_alg».proof.Proof.IdealFrame
import proofs.«110679_j6047313952840_1_alg».proof.Proof.BitsFrame
import proofs.«110679_j6047313952840_1_alg».proof.Proof.IdealCompose
import proofs.«110679_j6047313952840_1_alg».proof.Proof.KernelLogits
import proofs.«110679_j6047313952840_1_alg».proof.Proof.AlgebraicOf
import Idealize.ShloMosaic.Adequacy
import Idealize.ShloMosaic.Init

noncomputable section

namespace Cert.Proof

open Idealize.ShloMosaic Idealize.SL.Sem Idealize.ShloMosaic.ValueIdx

/-- The kernel program as printed, at the word-level instance: its run read at the argument arrays. -/
theorem frame_k : Cert.frame_Kernel := fun m ρ _ => Cert.Kernel.Run.frame (F := Bits) m ρ

/-- The idealized kernel program, over the extended reals: the same run. -/
theorem frame_ki : Cert.frame_KernelIdeal := fun m ρ _ => Cert.KernelIdeal.Run.frame (F := Ideal) m ρ

/-- The ideal pass rewrote no operation. -/
theorem preserves : Cert.preserves_Kernel_KernelIdeal := trivial

/-- Over the extended reals, from memories agreeing on the arguments, both programs end with the softmax of the same
    logits: the kernel program's five dense layers of the host-computed adjacency, padded features, weights and bias rows
    (the regions' result arrays composed), which are the closed form's logits by the dense-adjacency law on real entries;
    and the reference's gather, scale and segment sum, which are the closed form's logits operation by operation. -/
theorem algebraic : Cert.algebraic_KernelIdeal_ReferenceIdeal :=
  algebraic_of
    (fun m ρ c hz p q => Cert.KernelIdeal.Run.logits_eq m ρ c hz p q)
    (fun m ρ c q => congrFun (Cert.KernelHost.v50_zero (Cert.KernelIdeal.Run.W0 m ρ c)) (ix2 (0 : Fin 1) q))
    (fun m c hpre d j => Cert.KernelHost.logits_spec m c hpre d j)

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, algebraic⟩

end Cert.Proof

end
